-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1 : Shape := ⟨2, ![65536, 1]⟩
abbrev S65536x10 : Shape := ⟨2, ![65536, 10]⟩
abbrev S65536x5 : Shape := ⟨2, ![65536, 5]⟩
abbrev S65536x5x10 : Shape := ⟨3, ![65536, 5, 10]⟩
abbrev S1000000x8 : Shape := ⟨2, ![1000000, 8]⟩
abbrev S8x8 : Shape := ⟨2, ![8, 8]⟩
abbrev S3x8 : Shape := ⟨2, ![3, 8]⟩
abbrev S25x8 : Shape := ⟨2, ![25, 8]⟩
abbrev S20x8 : Shape := ⟨2, ![20, 8]⟩
abbrev S64x264 : Shape := ⟨2, ![64, 264]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S128x208 : Shape := ⟨2, ![128, 208]⟩
abbrev S128 : Shape := ⟨1, ![128]⟩
abbrev S64x128 : Shape := ⟨2, ![64, 128]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S3x8 : S_.BroadcastsInDim S3x8 (![] : Fin 0 → Fin S3x8.rank)
  reducesTo_S3x8_S_d0_1 : S3x8.ReducesTo [0, 1] S_
  bcast_S_S25x8 : S_.BroadcastsInDim S25x8 (![] : Fin 0 → Fin S25x8.rank)
  reducesTo_S25x8_S_d0_1 : S25x8.ReducesTo [0, 1] S_
  bcast_S_S20x8 : S_.BroadcastsInDim S20x8 (![] : Fin 0 → Fin S20x8.rank)
  reducesTo_S20x8_S_d0_1 : S20x8.ReducesTo [0, 1] S_
  bcast_S_S64x264 : S_.BroadcastsInDim S64x264 (![] : Fin 0 → Fin S64x264.rank)
  reducesTo_S64x264_S_d0_1 : S64x264.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S128x208 : S_.BroadcastsInDim S128x208 (![] : Fin 0 → Fin S128x208.rank)
  reducesTo_S128x208_S_d0_1 : S128x208.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_arg26 : FVec F S1x32 .f32) (main_arg27 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S1x32 .f32 := Host.absf main_arg26
  let main_cst_34 : FVec F S_ .f32 := constant S_ .f32 0x7F800000#32
  let main_v90 : FVec F S1x32 .f32 := broadcastInDim S1x32 ![] bcast_S_S1x32 main_cst_34
  let main_v91 : IVec S1x32 1 := cmpf .olt main_v89 main_v90
  let main_c_35 : IVec S_ 1 := constantI S_ 1 1#1
  let main_v92 : IVec S_ 1 := (fun x v => Host.reduce IntOp.andi x v reducesTo_S1x32_S_d0_1 h_S_) main_v91 main_c_35
  let main_v93 : IVec S_ 1 := andi main_v88 main_v92
  let main_v94 : FVec F S1 .f32 := Host.absf main_arg27
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg22 : FVec F S64x128 .f32) (main_arg23 : FVec F S64 .f32) (main_arg24 : FVec F S32x64 .f32) (main_arg25 : FVec F S32 .f32) (main_arg26 : FVec F S1x32 .f32) (main_arg27 : FVec F S1 .f32) (main_v63 : IVec S_ 1) (main_v67 : IVec S_ 1) : IVec S_ 1 :=
  let main_v68 : IVec S_ 1 := andi main_v63 main_v67
  let main_v69 : FVec F S64x128 .f32 := Host.absf main_arg22
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg23
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S32x64 .f32 := Host.absf main_arg24
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32 .f32 := Host.absf main_arg25
  let main_cst_32 : FVec F S_ .f32 := constant S_ .f32 0x7F800000#32
  fn_part5 (F := F) main_arg26 main_arg27 main_v83 main_v84 main_cst_32

def fn_part3 {F : FTy → Type} [FloatOps F] (main_arg19 : FVec F S1 .f32) (main_arg20 : FVec F S128x208 .f32) (main_arg21 : FVec F S128 .f32) (main_arg22 : FVec F S64x128 .f32) (main_arg23 : FVec F S64 .f32) (main_arg24 : FVec F S32x64 .f32) (main_arg25 : FVec F S32 .f32) (main_arg26 : FVec F S1x32 .f32) (main_arg27 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg19
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x208 .f32 := Host.absf main_arg20
  let main_cst_22 : FVec F S_ .f32 := constant S_ .f32 0x7F800000#32
  let main_v60 : FVec F S128x208 .f32 := broadcastInDim S128x208 ![] bcast_S_S128x208 main_cst_22
  let main_v61 : IVec S128x208 1 := cmpf .olt main_v59 main_v60
  let main_c_23 : IVec S_ 1 := constantI S_ 1 1#1
  let main_v62 : IVec S_ 1 := (fun x v => Host.reduce IntOp.andi x v reducesTo_S128x208_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg22 main_arg23 main_arg24 main_arg25 main_arg26 main_arg27 main_v63 main_v67

def fn_part2 {F : FTy → Type} [FloatOps F] (main_arg15 : FVec F S64 .f32) (main_arg16 : FVec F S32x64 .f32) (main_arg17 : FVec F S32 .f32) (main_arg18 : FVec F S1x32 .f32) (main_arg19 : FVec F S1 .f32) (main_arg20 : FVec F S128x208 .f32) (main_arg21 : FVec F S128 .f32) (main_arg22 : FVec F S64x128 .f32) (main_arg23 : FVec F S64 .f32) (main_arg24 : FVec F S32x64 .f32) (main_arg25 : FVec F S32 .f32) (main_arg26 : FVec F S1x32 .f32) (main_arg27 : FVec F S1 .f32) (main_v33 : IVec S_ 1) : IVec S_ 1 :=
  let main_v34 : FVec F S64 .f32 := Host.absf main_arg15
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg16
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg17
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg18
  let main_cst_18 : FVec F S_ .f32 := constant S_ .f32 0x7F800000#32
  let main_v50 : FVec F S1x32 .f32 := broadcastInDim S1x32 ![] bcast_S_S1x32 main_cst_18
  fn_part3 (F := F) main_arg19 main_arg20 main_arg21 main_arg22 main_arg23 main_arg24 main_arg25 main_arg26 main_arg27 main_v48 main_v49 main_v50

def fn_part1 {F : FTy → Type} [FloatOps F] (main_arg12 : FVec F S25x8 .f32) (main_arg13 : FVec F S20x8 .f32) (main_arg14 : FVec F S64x264 .f32) (main_arg15 : FVec F S64 .f32) (main_arg16 : FVec F S32x64 .f32) (main_arg17 : FVec F S32 .f32) (main_arg18 : FVec F S1x32 .f32) (main_arg19 : FVec F S1 .f32) (main_arg20 : FVec F S128x208 .f32) (main_arg21 : FVec F S128 .f32) (main_arg22 : FVec F S64x128 .f32) (main_arg23 : FVec F S64 .f32) (main_arg24 : FVec F S32x64 .f32) (main_arg25 : FVec F S32 .f32) (main_arg26 : FVec F S1x32 .f32) (main_arg27 : FVec F S1 .f32) (main_v13 : IVec S_ 1) (main_v16 : IVec S3x8 1) : IVec S_ 1 :=
  let main_c_5 : IVec S_ 1 := constantI S_ 1 1#1
  let main_v17 : IVec S_ 1 := (fun x v => Host.reduce IntOp.andi x v reducesTo_S3x8_S_d0_1 h_S_) main_v16 main_c_5
  let main_v18 : IVec S_ 1 := andi main_v13 main_v17
  let main_v19 : FVec F S25x8 .f32 := Host.absf main_arg12
  let main_cst_6 : FVec F S_ .f32 := constant S_ .f32 0x7F800000#32
  let main_v20 : FVec F S25x8 .f32 := broadcastInDim S25x8 ![] bcast_S_S25x8 main_cst_6
  let main_v21 : IVec S25x8 1 := cmpf .olt main_v19 main_v20
  let main_c_7 : IVec S_ 1 := constantI S_ 1 1#1
  let main_v22 : IVec S_ 1 := (fun x v => Host.reduce IntOp.andi x v reducesTo_S25x8_S_d0_1 h_S_) main_v21 main_c_7
  let main_v23 : IVec S_ 1 := andi main_v18 main_v22
  let main_v24 : FVec F S20x8 .f32 := Host.absf main_arg13
  let main_cst_8 : FVec F S_ .f32 := constant S_ .f32 0x7F800000#32
  let main_v25 : FVec F S20x8 .f32 := broadcastInDim S20x8 ![] bcast_S_S20x8 main_cst_8
  let main_v26 : IVec S20x8 1 := cmpf .olt main_v24 main_v25
  let main_c_9 : IVec S_ 1 := constantI S_ 1 1#1
  let main_v27 : IVec S_ 1 := (fun x v => Host.reduce IntOp.andi x v reducesTo_S20x8_S_d0_1 h_S_) main_v26 main_c_9
  let main_v28 : IVec S_ 1 := andi main_v23 main_v27
  let main_v29 : FVec F S64x264 .f32 := Host.absf main_arg14
  let main_cst_10 : FVec F S_ .f32 := constant S_ .f32 0x7F800000#32
  let main_v30 : FVec F S64x264 .f32 := broadcastInDim S64x264 ![] bcast_S_S64x264 main_cst_10
  let main_v31 : IVec S64x264 1 := cmpf .olt main_v29 main_v30
  let main_c_11 : IVec S_ 1 := constantI S_ 1 1#1
  let main_v32 : IVec S_ 1 := (fun x v => Host.reduce IntOp.andi x v reducesTo_S64x264_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_v33

def fn {F : FTy → Type} [FloatOps F] (main_arg0 : IVec S65536x1 32) (main_arg1 : IVec S65536x1 32) (main_arg2 : IVec S65536x1 32) (main_arg3 : IVec S65536x1 32) (main_arg4 : IVec S65536x1 32) (main_arg5 : IVec S65536x10 32) (main_arg6 : IVec S65536x5 32) (main_arg7 : IVec S65536x5x10 32) (main_arg8 : FVec F S1000000x8 .f32) (main_arg9 : FVec F S1000000x8 .f32) (main_arg10 : FVec F S8x8 .f32) (main_arg11 : FVec F S3x8 .f32) (main_arg12 : FVec F S25x8 .f32) (main_arg13 : FVec F S20x8 .f32) (main_arg14 : FVec F S64x264 .f32) (main_arg15 : FVec F S64 .f32) (main_arg16 : FVec F S32x64 .f32) (main_arg17 : FVec F S32 .f32) (main_arg18 : FVec F S1x32 .f32) (main_arg19 : FVec F S1 .f32) (main_arg20 : FVec F S128x208 .f32) (main_arg21 : FVec F S128 .f32) (main_arg22 : FVec F S64x128 .f32) (main_arg23 : FVec F S64 .f32) (main_arg24 : FVec F S32x64 .f32) (main_arg25 : FVec F S32 .f32) (main_arg26 : FVec F S1x32 .f32) (main_arg27 : FVec F S1 .f32) : IVec S_ 1 :=
  let main_v0 : FVec F S1000000x8 .f32 := Host.absf main_arg8
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S1000000x8 .f32 := Host.absf main_arg9
  let main_cst_0 : FVec F S_ .f32 := constant S_ .f32 0x7F800000#32
  let main_v5 : FVec F S1000000x8 .f32 := broadcastInDim S1000000x8 ![] bcast_S_S1000000x8 main_cst_0
  let main_v6 : IVec S1000000x8 1 := cmpf .olt main_v4 main_v5
  let main_c_1 : IVec S_ 1 := constantI S_ 1 1#1
  let main_v7 : IVec S_ 1 := (fun x v => Host.reduce IntOp.andi x v reducesTo_S1000000x8_S_d0_1 h_S_) main_v6 main_c_1
  let main_v8 : IVec S_ 1 := andi main_v3 main_v7
  let main_v9 : FVec F S8x8 .f32 := Host.absf main_arg10
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S3x8 .f32 := Host.absf main_arg11
  let main_cst_4 : FVec F S_ .f32 := constant S_ .f32 0x7F800000#32
  let main_v15 : FVec F S3x8 .f32 := broadcastInDim S3x8 ![] bcast_S_S3x8 main_cst_4
  let main_v16 : IVec S3x8 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S65536x1 : Shape := ⟨2, ![65536, 1]⟩
abbrev S65536x10 : Shape := ⟨2, ![65536, 10]⟩
abbrev S65536x5 : Shape := ⟨2, ![65536, 5]⟩
abbrev S65536x5x10 : Shape := ⟨3, ![65536, 5, 10]⟩
abbrev S1000000x8 : Shape := ⟨2, ![1000000, 8]⟩
abbrev S8x8 : Shape := ⟨2, ![8, 8]⟩
abbrev S3x8 : Shape := ⟨2, ![3, 8]⟩
abbrev S25x8 : Shape := ⟨2, ![25, 8]⟩
abbrev S20x8 : Shape := ⟨2, ![20, 8]⟩
abbrev S64x264 : Shape := ⟨2, ![64, 264]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S128x208 : Shape := ⟨2, ![128, 208]⟩
abbrev S128 : Shape := ⟨1, ![128]⟩
abbrev S64x128 : Shape := ⟨2, ![64, 128]⟩
abbrev S65536 : Shape := ⟨1, ![65536]⟩
abbrev S_ : Shape := ⟨0, ![]⟩
abbrev S65536x8 : Shape := ⟨2, ![65536, 8]⟩
abbrev S65536x10x1 : Shape := ⟨3, ![65536, 10, 1]⟩
abbrev S65536x10x8 : Shape := ⟨3, ![65536, 10, 8]⟩
abbrev S65536x5x1 : Shape := ⟨3, ![65536, 5, 1]⟩
abbrev S65536x5x8 : Shape := ⟨3, ![65536, 5, 8]⟩
abbrev S65536x5x10x1 : Shape := ⟨4, ![65536, 5, 10, 1]⟩
abbrev S65536x5x10x8 : Shape := ⟨4, ![65536, 5, 10, 8]⟩
abbrev S65536x5x1x8 : Shape := ⟨4, ![65536, 5, 1, 8]⟩
abbrev S65536x5x11x8 : Shape := ⟨4, ![65536, 5, 11, 8]⟩
abbrev S65536x5x88 : Shape := ⟨3, ![65536, 5, 88]⟩
abbrev S65536x1x8 : Shape := ⟨3, ![65536, 1, 8]⟩
abbrev S65536x11x8 : Shape := ⟨3, ![65536, 11, 8]⟩
abbrev S65536x88 : Shape := ⟨2, ![65536, 88]⟩
abbrev S65536x80 : Shape := ⟨2, ![65536, 80]⟩
abbrev S65536x120 : Shape := ⟨2, ![65536, 120]⟩
abbrev S264x64 : Shape := ⟨2, ![264, 64]⟩
abbrev S1x64 : Shape := ⟨2, ![1, 64]⟩
abbrev S64x32 : Shape := ⟨2, ![64, 32]⟩
abbrev S32x1 : Shape := ⟨2, ![32, 1]⟩
abbrev S1x1 : Shape := ⟨2, ![1, 1]⟩
abbrev S208x128 : Shape := ⟨2, ![208, 128]⟩
abbrev S1x128 : Shape := ⟨2, ![1, 128]⟩
abbrev S128x64 : Shape := ⟨2, ![128, 64]⟩
abbrev S1024x5x88 : Shape := ⟨3, ![1024, 5, 88]⟩
abbrev S1024x88 : Shape := ⟨2, ![1024, 88]⟩
abbrev S1024x120 : Shape := ⟨2, ![1024, 120]⟩
abbrev S1024x1 : Shape := ⟨2, ![1024, 1]⟩
abbrev S1024x1x88 : Shape := ⟨3, ![1024, 1, 88]⟩
abbrev S1024x5x264 : Shape := ⟨3, ![1024, 5, 264]⟩
abbrev S5120x264 : Shape := ⟨2, ![5120, 264]⟩
abbrev S5120x64 : Shape := ⟨2, ![5120, 64]⟩
abbrev S5120x32 : Shape := ⟨2, ![5120, 32]⟩
abbrev S5120x1 : Shape := ⟨2, ![5120, 1]⟩
abbrev S1024x5x1 : Shape := ⟨3, ![1024, 5, 1]⟩
abbrev S1024x208 : Shape := ⟨2, ![1024, 208]⟩
abbrev S1024x128 : Shape := ⟨2, ![1024, 128]⟩
abbrev S1024x64 : Shape := ⟨2, ![1024, 64]⟩
abbrev S1024x32 : Shape := ⟨2, ![1024, 32]⟩

abbrev nBuf : Space → Nat
  | .hbm => 142
  | .vmem => 22
  | .smem => 0
  | _ => 0

abbrev hbmTy0_0 (i : Nat) : BufTy := match i % 128 with
  | 0 => ⟨S65536x1, .i32⟩
  | 1 => ⟨S65536x1, .i32⟩
  | 2 => ⟨S65536x1, .i32⟩
  | 3 => ⟨S65536x1, .i32⟩
  | 4 => ⟨S65536x1, .i32⟩
  | 5 => ⟨S65536x10, .i32⟩
  | 6 => ⟨S65536x5, .i32⟩
  | 7 => ⟨S65536x5x10, .i32⟩
  | 8 => ⟨S1000000x8, .f32⟩
  | 9 => ⟨S1000000x8, .f32⟩
  | 10 => ⟨S8x8, .f32⟩
  | 11 => ⟨S3x8, .f32⟩
  | 12 => ⟨S25x8, .f32⟩
  | 13 => ⟨S20x8, .f32⟩
  | 14 => ⟨S64x264, .f32⟩
  | 15 => ⟨S64, .f32⟩
  | 16 => ⟨S32x64, .f32⟩
  | 17 => ⟨S32, .f32⟩
  | 18 => ⟨S1x32, .f32⟩
  | 19 => ⟨S1, .f32⟩
  | 20 => ⟨S128x208, .f32⟩
  | 21 => ⟨S128, .f32⟩
  | 22 => ⟨S64x128, .f32⟩
  | 23 => ⟨S64, .f32⟩
  | 24 => ⟨S32x64, .f32⟩
  | 25 => ⟨S32, .f32⟩
  | 26 => ⟨S1x32, .f32⟩
  | 27 => ⟨S1, .f32⟩
  | 28 => ⟨S65536, .i32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S65536x8, .f32⟩
  | 38 => ⟨S65536, .i32⟩
  | 39 => ⟨S_, .i32⟩
  | 40 => ⟨S65536, .i32⟩
  | 41 => ⟨S65536, .i1⟩
  | 42 => ⟨S_, .i32⟩
  | 43 => ⟨S65536, .i32⟩
  | 44 => ⟨S65536, .i32⟩
  | 45 => ⟨S65536, .i32⟩
  | 46 => ⟨S65536x1, .i32⟩
  | 47 => ⟨S65536x8, .f32⟩
  | 48 => ⟨S65536, .i32⟩
  | 49 => ⟨S_, .i32⟩
  | 50 => ⟨S65536, .i32⟩
  | 51 => ⟨S65536, .i1⟩
  | 52 => ⟨S_, .i32⟩
  | 53 => ⟨S65536, .i32⟩
  | 54 => ⟨S65536, .i32⟩
  | 55 => ⟨S65536, .i32⟩
  | 56 => ⟨S65536x1, .i32⟩
  | 57 => ⟨S65536x8, .f32⟩
  | 58 => ⟨S65536, .i32⟩
  | 59 => ⟨S_, .i32⟩
  | 60 => ⟨S65536, .i32⟩
  | 61 => ⟨S65536, .i1⟩
  | 62 => ⟨S_, .i32⟩
  | 63 => ⟨S65536, .i32⟩
  | 64 => ⟨S65536, .i32⟩
  | 65 => ⟨S65536, .i32⟩
  | 66 => ⟨S65536x1, .i32⟩
  | 67 => ⟨S65536x8, .f32⟩
  | 68 => ⟨S65536, .i32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536x8, .f32⟩
  | 78 => ⟨S_, .i32⟩
  | 79 => ⟨S65536x10, .i32⟩
  | 80 => ⟨S65536x10, .i1⟩
  | 81 => ⟨S_, .i32⟩
  | 82 => ⟨S65536x10, .i32⟩
  | 83 => ⟨S65536x10, .i32⟩
  | 84 => ⟨S65536x10, .i32⟩
  | 85 => ⟨S65536x10x1, .i32⟩
  | 86 => ⟨S65536x10x8, .f32⟩
  | 87 => ⟨S_, .i32⟩
  | 88 => ⟨S65536x10, .i32⟩
  | 89 => ⟨S65536x10, .i1⟩
  | 90 => ⟨S65536x10x1, .i1⟩
  | 91 => ⟨S65536x10x1, .f32⟩
  | 92 => ⟨S65536x10x8, .f32⟩
  | 93 => ⟨S65536x10x8, .f32⟩
  | 94 => ⟨S_, .i32⟩
  | 95 => ⟨S65536x5, .i32⟩
  | 96 => ⟨S65536x5, .i1⟩
  | 97 => ⟨S_, .i32⟩
  | 98 => ⟨S65536x5, .i32⟩
  | 99 => ⟨S65536x5, .i32⟩
  | 100 => ⟨S65536x5, .i32⟩
  | 101 => ⟨S65536x5x1, .i32⟩
  | 102 => ⟨S65536x5x8, .f32⟩
  | 103 => ⟨S_, .i32⟩
  | 104 => ⟨S65536x5x10, .i32⟩
  | 105 => ⟨S65536x5x10, .i1⟩
  | 106 => ⟨S_, .i32⟩
  | 107 => ⟨S65536x5x10, .i32⟩
  | 108 => ⟨S65536x5x10, .i32⟩
  | 109 => ⟨S65536x5x10, .i32⟩
  | 110 => ⟨S65536x5x10x1, .i32⟩
  | 111 => ⟨S65536x5x10x8, .f32⟩
  | 112 => ⟨S_, .i32⟩
  | 113 => ⟨S65536x5x10, .i32⟩
  | 114 => ⟨S65536x5x10, .i1⟩
  | 115 => ⟨S65536x5x10x1, .i1⟩
  | 116 => ⟨S65536x5x10x1, .f32⟩
  | 117 => ⟨S65536x5x10x8, .f32⟩
  | 118 => ⟨S65536x5x10x8, .f32⟩
  | 119 => ⟨S65536x5x1x8, .f32⟩
  | 120 => ⟨S65536x5x11x8, .f32⟩
  | 121 => ⟨S65536x5x88, .f32⟩
  | 122 => ⟨S65536x1x8, .f32⟩
  | 123 => ⟨S65536x11x8, .f32⟩
  | 124 => ⟨S65536x88, .f32⟩
  | 125 => ⟨S65536x80, .f32⟩
  | 126 => ⟨S65536x120, .f32⟩
  | 127 => ⟨S264x64, .f32⟩
  | _ => ⟨S65536x1, .i32⟩

abbrev hbmTy0_1 (i : Nat) : BufTy := match i % 128 with
  | 0 => ⟨S1x64, .f32⟩
  | 1 => ⟨S64x32, .f32⟩
  | 2 => ⟨S1x32, .f32⟩
  | 3 => ⟨S32x1, .f32⟩
  | 4 => ⟨S1x1, .f32⟩
  | 5 => ⟨S208x128, .f32⟩
  | 6 => ⟨S1x128, .f32⟩
  | 7 => ⟨S128x64, .f32⟩
  | 8 => ⟨S1x64, .f32⟩
  | 9 => ⟨S64x32, .f32⟩
  | 10 => ⟨S1x32, .f32⟩
  | 11 => ⟨S32x1, .f32⟩
  | 12 => ⟨S1x1, .f32⟩
  | 13 => ⟨S65536x1, .f32⟩
  | _ => ⟨S65536x1, .i32⟩

abbrev hbmTy (i : Nat) : BufTy := match i / 128 with
  | 0 => hbmTy0_0 i
  | 1 => hbmTy0_1 i
  | _ => ⟨S65536x1, .i32⟩

abbrev bufTy : (tb : Table) → Fin (tcTables nBuf tb) → BufTy
  | .hbm, ⟨i, _⟩ => hbmTy i
  | .local _ .vmem, ⟨0, _⟩ => ⟨S1024x5x88, .f32⟩
  | .local _ .vmem, ⟨1, _⟩ => ⟨S1024x5x88, .f32⟩
  | .local _ .vmem, ⟨2, _⟩ => ⟨S1024x88, .f32⟩
  | .local _ .vmem, ⟨3, _⟩ => ⟨S1024x88, .f32⟩
  | .local _ .vmem, ⟨4, _⟩ => ⟨S1024x120, .f32⟩
  | .local _ .vmem, ⟨5, _⟩ => ⟨S1024x120, .f32⟩
  | .local _ .vmem, ⟨6, _⟩ => ⟨S264x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x1, .f32⟩
  | .local _ .vmem, ⟨11, _⟩ => ⟨S1x1, .f32⟩
  | .local _ .vmem, ⟨12, _⟩ => ⟨S208x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S32x1, .f32⟩
  | .local _ .vmem, ⟨19, _⟩ => ⟨S1x1, .f32⟩
  | .local _ .vmem, ⟨20, _⟩ => ⟨S1024x1, .f32⟩
  | .local _ .vmem, ⟨21, _⟩ => ⟨S1024x1, .f32⟩
  | _, _ => ⟨S65536x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c_1 : Ref sig .tc := ⟨.hbm, 39, rfl⟩
abbrev main_v9 : Ref sig .tc := ⟨.hbm, 40, rfl⟩
abbrev main_v10 : Ref sig .tc := ⟨.hbm, 41, rfl⟩
abbrev main_c_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_3 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_c_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_9 : Ref sig .tc := ⟨.hbm, 78, rfl⟩
abbrev main_v40 : Ref sig .tc := ⟨.hbm, 79, rfl⟩
abbrev main_v41 : Ref sig .tc := ⟨.hbm, 80, rfl⟩
abbrev main_c_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_11 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_c_12 : Ref sig .tc := ⟨.hbm, 94, rfl⟩
abbrev main_v53 : Ref sig .tc := ⟨.hbm, 95, rfl⟩
abbrev main_v54 : Ref sig .tc := ⟨.hbm, 96, rfl⟩
abbrev main_c_13 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_14 : Ref sig .tc := ⟨.hbm, 103, rfl⟩
abbrev main_v60 : Ref sig .tc := ⟨.hbm, 104, rfl⟩
abbrev main_v61 : Ref sig .tc := ⟨.hbm, 105, rfl⟩
abbrev main_c_15 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_16 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x5x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x88 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S264x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S208x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  bcast_S65536x10x1_S65536x10x8_0_1_2 : S65536x10x1.BroadcastsInDim S65536x10x8 (![0, 1, 2] : Fin 3 → Fin S65536x10x8.rank)
  bcast_S_S65536x5 : S_.BroadcastsInDim S65536x5 (![] : Fin 0 → Fin S65536x5.rank)
  bcast_S65536x5_S65536x5x1_0_1 : S65536x5.BroadcastsInDim S65536x5x1 (![0, 1] : Fin 2 → Fin S65536x5x1.rank)
  bcast_S_S65536x5x10 : S_.BroadcastsInDim S65536x5x10 (![] : Fin 0 → Fin S65536x5x10.rank)
  bcast_S65536x5x10_S65536x5x10x1_0_1_2 : S65536x5x10.BroadcastsInDim S65536x5x10x1 (![0, 1, 2] : Fin 3 → Fin S65536x5x10x1.rank)
  bcast_S65536x5x10x1_S65536x5x10x8_0_1_2_3 : S65536x5x10x1.BroadcastsInDim S65536x5x10x8 (![0, 1, 2, 3] : Fin 4 → Fin S65536x5x10x8.rank)
  bcast_S65536x5x8_S65536x5x1x8_0_1_3 : S65536x5x8.BroadcastsInDim S65536x5x1x8 (![0, 1, 3] : Fin 3 → Fin S65536x5x1x8.rank)
  concatenates_S65536x5x1x8_S65536x5x10x8_S65536x5x11x8_d2 : Shape.Concatenates [S65536x5x1x8, S65536x5x10x8] S65536x5x11x8 2
  shapeCasts_S65536x5x11x8_S65536x5x88 : S65536x5x11x8.ShapeCasts S65536x5x88
  bcast_S65536x8_S65536x1x8_0_2 : S65536x8.BroadcastsInDim S65536x1x8 (![0, 2] : Fin 2 → Fin S65536x1x8.rank)
  concatenates_S65536x1x8_S65536x10x8_S65536x11x8_d1 : Shape.Concatenates [S65536x1x8, S65536x10x8] S65536x11x8 1
  shapeCasts_S65536x11x8_S65536x88 : S65536x11x8.ShapeCasts S65536x88
  shapeCasts_S65536x10x8_S65536x80 : S65536x10x8.ShapeCasts S65536x80
  concatenates_S65536x8_S65536x8_S65536x8_S65536x8_S65536x8_S65536x80_S65536x120_d1 : Shape.Concatenates [S65536x8, S65536x8, S65536x8, S65536x8, S65536x8, S65536x80] S65536x120 1
  transposes_S64x264_S264x64_1_0 : S64x264.Transposes [1, 0] S264x64
  shapeCasts_S64_S1x64 : S64.ShapeCasts S1x64
  transposes_S32x64_S64x32_1_0 : S32x64.Transposes [1, 0] S64x32
  shapeCasts_S32_S1x32 : S32.ShapeCasts S1x32
  transposes_S1x32_S32x1_1_0 : S1x32.Transposes [1, 0] S32x1
  shapeCasts_S1_S1x1 : S1.ShapeCasts S1x1
  transposes_S128x208_S208x128_1_0 : S128x208.Transposes [1, 0] S208x128
  shapeCasts_S128_S1x128 : S128.ShapeCasts S1x128
  transposes_S64x128_S128x64_1_0 : S64x128.Transposes [1, 0] S128x64
  inb_S1024x5x88_S1024x5x88_0_0_0 : ∀ a, (![0, 0, 0] : Fin 3 → Nat) a + S1024x5x88.size a ≤ S1024x5x88.size a
  h_S1024x5x88 : 0 < S1024x5x88.numel
  shapeCasts_S1024x5x88_S1024x5x88 : S1024x5x88.ShapeCasts S1024x5x88
  inb_S1024x88_S1024x88_0_0 : ∀ a, (![0, 0] : Fin 2 → Nat) a + S1024x88.size a ≤ S1024x88.size a
  h_S1024x88 : 0 < S1024x88.numel
  shapeCasts_S1024x88_S1024x88 : S1024x88.ShapeCasts S1024x88
  shapeCasts_S1024x88_S1024x1x88 : S1024x88.ShapeCasts S1024x1x88
  shapeCasts_S1024x1x88_S1024x1x88 : S1024x1x88.ShapeCasts S1024x1x88
  broadcasts_S1024x1x88_S1024x5x88 : S1024x1x88.Broadcasts S1024x5x88
  concatenates_S1024x5x88_S1024x5x88_S1024x5x88_S1024x5x264_d2 : Shape.Concatenates [S1024x5x88, S1024x5x88, S1024x5x88] S1024x5x264 2
  shapeCasts_S1024x5x264_S5120x264 : S1024x5x264.ShapeCasts S5120x264
  inb_S264x64_S264x64_0_0 : ∀ a, (![0, 0] : Fin 2 → Nat) a + S264x64.size a ≤ S264x64.size a
  h_S264x64 : 0 < S264x64.numel
  shapeCasts_S264x64_S264x64 : S264x64.ShapeCasts S264x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5120x64 : S1x64.Broadcasts S5120x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5120x32 : S1x32.Broadcasts S5120x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5120x1 : S1x1.Broadcasts S5120x1
  shapeCasts_S5120x1_S1024x5x1 : S5120x1.ShapeCasts S1024x5x1
  broadcasts_S1024x5x1_S1024x5x88 : S1024x5x1.Broadcasts S1024x5x88
  reduces_S1024x5x88_S1024x88 : S1024x5x88.Reduces [1] S1024x88
  inb_S1024x120_S1024x120_0_0 : ∀ a, (![0, 0] : Fin 2 → Nat) a + S1024x120.size a ≤ S1024x120.size a
  h_S1024x120 : 0 < S1024x120.numel
  shapeCasts_S1024x120_S1024x120 : S1024x120.ShapeCasts S1024x120
  concatenates_S1024x120_S1024x88_S1024x208_d1 : Shape.Concatenates [S1024x120, S1024x88] S1024x208 1
  inb_S208x128_S208x128_0_0 : ∀ a, (![0, 0] : Fin 2 → Nat) a + S208x128.size a ≤ S208x128.size a
  h_S208x128 : 0 < S208x128.numel
  shapeCasts_S208x128_S208x128 : S208x128.ShapeCasts S208x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S1024x64 : S1x64.Broadcasts S1024x64
  broadcasts_S1x32_S1024x32 : S1x32.Broadcasts S1024x32
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S1000000x8_S65536x1_S65536x8_1_0_n_n_0_1_18_wf : GatherDims.WF S1000000x8 S65536x1 S65536x8 [1] [0] [] [0] [] 1 ![1, 8]
  gather_S8x8_S65536x1_S65536x8_1_0_n_n_0_1_18_wf : GatherDims.WF S8x8 S65536x1 S65536x8 [1] [0] [] [0] [] 1 ![1, 8]
  gather_S3x8_S65536x1_S65536x8_1_0_n_n_0_1_18_wf : GatherDims.WF S3x8 S65536x1 S65536x8 [1] [0] [] [0] [] 1 ![1, 8]
  gather_S25x8_S65536x1_S65536x8_1_0_n_n_0_1_18_wf : GatherDims.WF S25x8 S65536x1 S65536x8 [1] [0] [] [0] [] 1 ![1, 8]
  gather_S20x8_S65536x10x1_S65536x10x8_2_0_n_n_0_2_18_wf : GatherDims.WF S20x8 S65536x10x1 S65536x10x8 [2] [0] [] [0] [] 2 ![1, 8]
  gather_S1000000x8_S65536x5x1_S65536x5x8_2_0_n_n_0_2_18_wf : GatherDims.WF S1000000x8 S65536x5x1 S65536x5x8 [2] [0] [] [0] [] 2 ![1, 8]
  gather_S20x8_S65536x5x10x1_S65536x5x10x8_3_0_n_n_0_3_18_wf : GatherDims.WF S20x8 S65536x5x10x1 S65536x5x10x8 [3] [0] [] [0] [] 3 ![1, 8]
  dot_S5120x264_S264x64_S5120x64_1_0_0_1_n_n_wf : DotDims.WF S5120x264 S264x64 S5120x64 [1] [0] [0] [1] [] []
  dot_S5120x64_S64x32_S5120x32_1_0_0_1_n_n_wf : DotDims.WF S5120x64 S64x32 S5120x32 [1] [0] [0] [1] [] []
  dot_S5120x32_S32x1_S5120x1_1_0_0_1_n_n_wf : DotDims.WF S5120x32 S32x1 S5120x1 [1] [0] [0] [1] [] []
  dot_S1024x208_S208x128_S1024x128_1_0_0_1_n_n_wf : DotDims.WF S1024x208 S208x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5x88.size a ≤ S65536x5x88.size a
  hwx0_0 : ∀ i : grid0.Coords, EltTy.bits .f32 = 32 ∨ (Rect.block (s := S65536x5x88) S1024x5x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x88.size a ≤ S65536x88.size a
  hwx0_1 : ∀ i : grid0.Coords, EltTy.bits .f32 = 32 ∨ (Rect.block (s := S65536x88) S1024x88.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x120.size a ≤ S65536x120.size a
  hwx0_2 : ∀ i : grid0.Coords, EltTy.bits .f32 = 32 ∨ (Rect.block (s := S65536x120) S1024x120.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S264x64.size a ≤ S264x64.size a
  hwx0_3 : ∀ i : grid0.Coords, EltTy.bits .f32 = 32 ∨ (Rect.block (s := S264x64) S264x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S208x128.size a ≤ S208x128.size a
  hwx0_9 : ∀ i : grid0.Coords, EltTy.bits .f32 = 32 ∨ (Rect.block (s := S208x128) S208x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .f32 = 32 ∨ (Rect.block (s := S64x32) S64x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x1.size a ≤ S32x1.size a
  hwx0_15 : ∀ i : grid0.Coords, EltTy.bits .f32 = 32 ∨ (Rect.block (s := S32x1) S32x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x1.size a ≤ S65536x1.size a
  hwx0_17 : ∀ i : grid0.Coords, EltTy.bits .f32 = 32 ∨ (Rect.block (s := S65536x1) S1024x1.size (cc0_transform_17 i) (hinb0_17 i)).WholeWords (EltTy.packing .f32)

variable [Facts₀]

def gather_S1000000x8_S65536x1_S65536x8_1_0_n_n_0_1_18 : GatherDims S1000000x8 S65536x1 S65536x8 where
  offsetDims := [1]
  collapsedSliceDims := [0]
  operandBatchingDims := []
  startIndicesBatchingDims := []
  startIndexMap := [0]
  indexVectorDim := 1
  sliceSizes := ![1, 8]
  wf := gather_S1000000x8_S65536x1_S65536x8_1_0_n_n_0_1_18_wf
def gather_S8x8_S65536x1_S65536x8_1_0_n_n_0_1_18 : GatherDims S8x8 S65536x1 S65536x8 where
  offsetDims := [1]
  collapsedSliceDims := [0]
  operandBatchingDims := []
  startIndicesBatchingDims := []
  startIndexMap := [0]
  indexVectorDim := 1
  sliceSizes := ![1, 8]
  wf := gather_S8x8_S65536x1_S65536x8_1_0_n_n_0_1_18_wf
def gather_S3x8_S65536x1_S65536x8_1_0_n_n_0_1_18 : GatherDims S3x8 S65536x1 S65536x8 where
  offsetDims := [1]
  collapsedSliceDims := [0]
  operandBatchingDims := []
  startIndicesBatchingDims := []
  startIndexMap := [0]
  indexVectorDim := 1
  sliceSizes := ![1, 8]
  wf := gather_S3x8_S65536x1_S65536x8_1_0_n_n_0_1_18_wf
def gather_S25x8_S65536x1_S65536x8_1_0_n_n_0_1_18 : GatherDims S25x8 S65536x1 S65536x8 where
  offsetDims := [1]
  collapsedSliceDims := [0]
  operandBatchingDims := []
  startIndicesBatchingDims := []
  startIndexMap := [0]
  indexVectorDim := 1
  sliceSizes := ![1, 8]
  wf := gather_S25x8_S65536x1_S65536x8_1_0_n_n_0_1_18_wf
def gather_S20x8_S65536x10x1_S65536x10x8_2_0_n_n_0_2_18 : GatherDims S20x8 S65536x10x1 S65536x10x8 where
  offsetDims := [2]
  collapsedSliceDims := [0]
  operandBatchingDims := []
  startIndicesBatchingDims := []
  startIndexMap := [0]
  indexVectorDim := 2
  sliceSizes := ![1, 8]
  wf := gather_S20x8_S65536x10x1_S65536x10x8_2_0_n_n_0_2_18_wf
def gather_S1000000x8_S65536x5x1_S65536x5x8_2_0_n_n_0_2_18 : GatherDims S1000000x8 S65536x5x1 S65536x5x8 where
  offsetDims := [2]
  collapsedSliceDims := [0]
  operandBatchingDims := []
  startIndicesBatchingDims := []
  startIndexMap := [0]
  indexVectorDim := 2
  sliceSizes := ![1, 8]
  wf := gather_S1000000x8_S65536x5x1_S65536x5x8_2_0_n_n_0_2_18_wf
def gather_S20x8_S65536x5x10x1_S65536x5x10x8_3_0_n_n_0_3_18 : GatherDims S20x8 S65536x5x10x1 S65536x5x10x8 where
  offsetDims := [3]
  collapsedSliceDims := [0]
  operandBatchingDims := []
  startIndicesBatchingDims := []
  startIndexMap := [0]
  indexVectorDim := 3
  sliceSizes := ![1, 8]
  wf := gather_S20x8_S65536x5x10x1_S65536x5x10x8_3_0_n_n_0_3_18_wf
def dot_S5120x264_S264x64_S5120x64_1_0_0_1_n_n : DotDims S5120x264 S264x64 S5120x64 where
  lhsContracting := [1]
  rhsContracting := [0]
  lhsNonContracting := [0]
  rhsNonContracting := [1]
  lhsBatch := []
  rhsBatch := []
  wf := dot_S5120x264_S264x64_S5120x64_1_0_0_1_n_n_wf
def dot_S5120x64_S64x32_S5120x32_1_0_0_1_n_n : DotDims S5120x64 S64x32 S5120x32 where
  lhsContracting := [1]
  rhsContracting := [0]
  lhsNonContracting := [0]
  rhsNonContracting := [1]
  lhsBatch := []
  rhsBatch := []
  wf := dot_S5120x64_S64x32_S5120x32_1_0_0_1_n_n_wf
def dot_S5120x32_S32x1_S5120x1_1_0_0_1_n_n : DotDims S5120x32 S32x1 S5120x1 where
  lhsContracting := [1]
  rhsContracting := [0]
  lhsNonContracting := [0]
  rhsNonContracting := [1]
  lhsBatch := []
  rhsBatch := []
  wf := dot_S5120x32_S32x1_S5120x1_1_0_0_1_n_n_wf
def dot_S1024x208_S208x128_S1024x128_1_0_0_1_n_n : DotDims S1024x208 S208x128 S1024x128 where
  lhsContracting := [1]
  rhsContracting := [0]
  lhsNonContracting := [0]
  rhsNonContracting := [1]
  lhsBatch := []
  rhsBatch := []
  wf := dot_S1024x208_S208x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v75) S1024x5x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S1024x88.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S1024x120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v81) S264x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v82) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v83) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v84) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v85) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v86) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v87) S208x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v88) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v89) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v90) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v91) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v92) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v93) S32x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v94) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v95) S1024x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S65536x1 : Shape := ⟨2, ![65536, 1]⟩
abbrev S65536x10 : Shape := ⟨2, ![65536, 10]⟩
abbrev S65536x5 : Shape := ⟨2, ![65536, 5]⟩
abbrev S65536x5x10 : Shape := ⟨3, ![65536, 5, 10]⟩
abbrev S1000000x8 : Shape := ⟨2, ![1000000, 8]⟩
abbrev S8x8 : Shape := ⟨2, ![8, 8]⟩
abbrev S3x8 : Shape := ⟨2, ![3, 8]⟩
abbrev S25x8 : Shape := ⟨2, ![25, 8]⟩
abbrev S20x8 : Shape := ⟨2, ![20, 8]⟩
abbrev S64x264 : Shape := ⟨2, ![64, 264]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S128x208 : Shape := ⟨2, ![128, 208]⟩
abbrev S128 : Shape := ⟨1, ![128]⟩
abbrev S64x128 : Shape := ⟨2, ![64, 128]⟩
abbrev S_ : Shape := ⟨0, ![]⟩
abbrev S65536x1x1 : Shape := ⟨3, ![65536, 1, 1]⟩
abbrev S65536x1x8 : Shape := ⟨3, ![65536, 1, 8]⟩
abbrev S65536x10x1 : Shape := ⟨3, ![65536, 10, 1]⟩
abbrev S65536x10x8 : Shape := ⟨3, ![65536, 10, 8]⟩
abbrev S65536x5x1 : Shape := ⟨3, ![65536, 5, 1]⟩
abbrev S65536x5x8 : Shape := ⟨3, ![65536, 5, 8]⟩
abbrev S65536x5x10x1 : Shape := ⟨4, ![65536, 5, 10, 1]⟩
abbrev S65536x5x10x8 : Shape := ⟨4, ![65536, 5, 10, 8]⟩
abbrev S65536x5x1x8 : Shape := ⟨4, ![65536, 5, 1, 8]⟩
abbrev S65536x5x11x8 : Shape := ⟨4, ![65536, 5, 11, 8]⟩
abbrev S65536x5x88 : Shape := ⟨3, ![65536, 5, 88]⟩
abbrev S65536x11x8 : Shape := ⟨3, ![65536, 11, 8]⟩
abbrev S65536x1x88 : Shape := ⟨3, ![65536, 1, 88]⟩
abbrev S65536x5x264 : Shape := ⟨3, ![65536, 5, 264]⟩
abbrev S65536x5x64 : Shape := ⟨3, ![65536, 5, 64]⟩
abbrev S1x1x64 : Shape := ⟨3, ![1, 1, 64]⟩
abbrev S65536x5x32 : Shape := ⟨3, ![65536, 5, 32]⟩
abbrev S1x1x32 : Shape := ⟨3, ![1, 1, 32]⟩
abbrev S1x1x1 : Shape := ⟨3, ![1, 1, 1]⟩
abbrev S65536x88 : Shape := ⟨2, ![65536, 88]⟩
abbrev S65536x15x8 : Shape := ⟨3, ![65536, 15, 8]⟩
abbrev S65536x120 : Shape := ⟨2, ![65536, 120]⟩
abbrev S65536x208 : Shape := ⟨2, ![65536, 208]⟩
abbrev S208x128 : Shape := ⟨2, ![208, 128]⟩
abbrev S65536x128 : Shape := ⟨2, ![65536, 128]⟩
abbrev S1x128 : Shape := ⟨2, ![1, 128]⟩
abbrev S128x64 : Shape := ⟨2, ![128, 64]⟩
abbrev S65536x64 : Shape := ⟨2, ![65536, 64]⟩
abbrev S1x64 : Shape := ⟨2, ![1, 64]⟩
abbrev S64x32 : Shape := ⟨2, ![64, 32]⟩
abbrev S65536x32 : Shape := ⟨2, ![65536, 32]⟩
abbrev S32x1 : Shape := ⟨2, ![32, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S65536x1, .i32⟩
  | 1 => ⟨S65536x1, .i32⟩
  | 2 => ⟨S65536x1, .i32⟩
  | 3 => ⟨S65536x1, .i32⟩
  | 4 => ⟨S65536x1, .i32⟩
  | 5 => ⟨S65536x10, .i32⟩
  | 6 => ⟨S65536x5, .i32⟩
  | 7 => ⟨S65536x5x10, .i32⟩
  | 8 => ⟨S1000000x8, .f32⟩
  | 9 => ⟨S1000000x8, .f32⟩
  | 10 => ⟨S8x8, .f32⟩
  | 11 => ⟨S3x8, .f32⟩
  | 12 => ⟨S25x8, .f32⟩
  | 13 => ⟨S20x8, .f32⟩
  | 14 => ⟨S64x264, .f32⟩
  | 15 => ⟨S64, .f32⟩
  | 16 => ⟨S32x64, .f32⟩
  | 17 => ⟨S32, .f32⟩
  | 18 => ⟨S1x32, .f32⟩
  | 19 => ⟨S1, .f32⟩
  | 20 => ⟨S128x208, .f32⟩
  | 21 => ⟨S128, .f32⟩
  | 22 => ⟨S64x128, .f32⟩
  | 23 => ⟨S64, .f32⟩
  | 24 => ⟨S32x64, .f32⟩
  | 25 => ⟨S32, .f32⟩
  | 26 => ⟨S1x32, .f32⟩
  | 27 => ⟨S1, .f32⟩
  | 28 => ⟨S_, .i32⟩
  | 29 => ⟨S65536x1, .i32⟩
  | 30 => ⟨S65536x1, .i1⟩
  | 31 => ⟨S_, .i32⟩
  | 32 => ⟨S65536x1, .i32⟩
  | 33 => ⟨S65536x1, .i32⟩
  | 34 => ⟨S65536x1, .i32⟩
  | 35 => ⟨S65536x1x1, .i32⟩
  | 36 => ⟨S65536x1x8, .f32⟩
  | 37 => ⟨S_, .i32⟩
  | 38 => ⟨S65536x1, .i32⟩
  | 39 => ⟨S65536x1, .i1⟩
  | 40 => ⟨S_, .i32⟩
  | 41 => ⟨S65536x1, .i32⟩
  | 42 => ⟨S65536x1, .i32⟩
  | 43 => ⟨S65536x1, .i32⟩
  | 44 => ⟨S65536x1x1, .i32⟩
  | 45 => ⟨S65536x1x8, .f32⟩
  | 46 => ⟨S_, .i32⟩
  | 47 => ⟨S65536x1, .i32⟩
  | 48 => ⟨S65536x1, .i1⟩
  | 49 => ⟨S_, .i32⟩
  | 50 => ⟨S65536x1, .i32⟩
  | 51 => ⟨S65536x1, .i32⟩
  | 52 => ⟨S65536x1, .i32⟩
  | 53 => ⟨S65536x1x1, .i32⟩
  | 54 => ⟨S65536x1x8, .f32⟩
  | 55 => ⟨S_, .i32⟩
  | 56 => ⟨S65536x1, .i32⟩
  | 57 => ⟨S65536x1, .i1⟩
  | 58 => ⟨S_, .i32⟩
  | 59 => ⟨S65536x1, .i32⟩
  | 60 => ⟨S65536x1, .i32⟩
  | 61 => ⟨S65536x1, .i32⟩
  | 62 => ⟨S65536x1x1, .i32⟩
  | 63 => ⟨S65536x1x8, .f32⟩
  | 64 => ⟨S_, .i32⟩
  | 65 => ⟨S65536x1, .i32⟩
  | 66 => ⟨S65536x1, .i1⟩
  | 67 => ⟨S_, .i32⟩
  | 68 => ⟨S65536x1, .i32⟩
  | 69 => ⟨S65536x1, .i32⟩
  | 70 => ⟨S65536x1, .i32⟩
  | 71 => ⟨S65536x1x1, .i32⟩
  | 72 => ⟨S65536x1x8, .f32⟩
  | 73 => ⟨S_, .i32⟩
  | 74 => ⟨S65536x10, .i32⟩
  | 75 => ⟨S65536x10, .i1⟩
  | 76 => ⟨S_, .i32⟩
  | 77 => ⟨S65536x10, .i32⟩
  | 78 => ⟨S65536x10, .i32⟩
  | 79 => ⟨S65536x10, .i32⟩
  | 80 => ⟨S65536x10x1, .i32⟩
  | 81 => ⟨S65536x10x8, .f32⟩
  | 82 => ⟨S_, .i32⟩
  | 83 => ⟨S65536x10, .i32⟩
  | 84 => ⟨S65536x10, .i1⟩
  | 85 => ⟨S65536x10x1, .i1⟩
  | 86 => ⟨S65536x10x1, .f32⟩
  | 87 => ⟨S65536x10x8, .f32⟩
  | 88 => ⟨S65536x10x8, .f32⟩
  | 89 => ⟨S_, .i32⟩
  | 90 => ⟨S65536x5, .i32⟩
  | 91 => ⟨S65536x5, .i1⟩
  | 92 => ⟨S_, .i32⟩
  | 93 => ⟨S65536x5, .i32⟩
  | 94 => ⟨S65536x5, .i32⟩
  | 95 => ⟨S65536x5, .i32⟩
  | 96 => ⟨S65536x5x1, .i32⟩
  | 97 => ⟨S65536x5x8, .f32⟩
  | 98 => ⟨S_, .i32⟩
  | 99 => ⟨S65536x5x10, .i32⟩
  | 100 => ⟨S65536x5x10, .i1⟩
  | 101 => ⟨S_, .i32⟩
  | 102 => ⟨S65536x5x10, .i32⟩
  | 103 => ⟨S65536x5x10, .i32⟩
  | 104 => ⟨S65536x5x10, .i32⟩
  | 105 => ⟨S65536x5x10x1, .i32⟩
  | 106 => ⟨S65536x5x10x8, .f32⟩
  | 107 => ⟨S_, .i32⟩
  | 108 => ⟨S65536x5x10, .i32⟩
  | 109 => ⟨S65536x5x10, .i1⟩
  | 110 => ⟨S65536x5x10x1, .i1⟩
  | 111 => ⟨S65536x5x10x1, .f32⟩
  | 112 => ⟨S65536x5x10x8, .f32⟩
  | 113 => ⟨S65536x5x10x8, .f32⟩
  | 114 => ⟨S65536x5x1x8, .f32⟩
  | 115 => ⟨S65536x5x11x8, .f32⟩
  | 116 => ⟨S65536x5x88, .f32⟩
  | 117 => ⟨S65536x11x8, .f32⟩
  | 118 => ⟨S65536x1x88, .f32⟩
  | 119 => ⟨S65536x5x88, .f32⟩
  | 120 => ⟨S65536x5x88, .f32⟩
  | 121 => ⟨S65536x5x264, .f32⟩
  | 122 => ⟨S65536x5x64, .f32⟩
  | 123 => ⟨S1x1x64, .f32⟩
  | 124 => ⟨S65536x5x64, .f32⟩
  | 125 => ⟨S65536x5x64, .f32⟩
  | 126 => ⟨S_, .f32⟩
  | 127 => ⟨S65536x5x64, .f32⟩
  | _ => ⟨S65536x1, .i32⟩

abbrev hbmTy0_1 (i : Nat) : BufTy := match i % 128 with
  | 0 => ⟨S65536x5x64, .f32⟩
  | 1 => ⟨S65536x5x32, .f32⟩
  | 2 => ⟨S1x1x32, .f32⟩
  | 3 => ⟨S65536x5x32, .f32⟩
  | 4 => ⟨S65536x5x32, .f32⟩
  | 5 => ⟨S_, .f32⟩
  | 6 => ⟨S65536x5x32, .f32⟩
  | 7 => ⟨S65536x5x32, .f32⟩
  | 8 => ⟨S65536x5x1, .f32⟩
  | 9 => ⟨S1x1x1, .f32⟩
  | 10 => ⟨S65536x5x1, .f32⟩
  | 11 => ⟨S65536x5x1, .f32⟩
  | 12 => ⟨S65536x5x88, .f32⟩
  | 13 => ⟨S65536x5x88, .f32⟩
  | 14 => ⟨S65536x5x88, .f32⟩
  | 15 => ⟨S_, .f32⟩
  | 16 => ⟨S65536x88, .f32⟩
  | 17 => ⟨S65536x15x8, .f32⟩
  | 18 => ⟨S65536x120, .f32⟩
  | 19 => ⟨S65536x208, .f32⟩
  | 20 => ⟨S208x128, .f32⟩
  | 21 => ⟨S65536x128, .f32⟩
  | 22 => ⟨S1x128, .f32⟩
  | 23 => ⟨S65536x128, .f32⟩
  | 24 => ⟨S65536x128, .f32⟩
  | 25 => ⟨S_, .f32⟩
  | 26 => ⟨S65536x128, .f32⟩
  | 27 => ⟨S65536x128, .f32⟩
  | 28 => ⟨S128x64, .f32⟩
  | 29 => ⟨S65536x64, .f32⟩
  | 30 => ⟨S1x64, .f32⟩
  | 31 => ⟨S65536x64, .f32⟩
  | 32 => ⟨S65536x64, .f32⟩
  | 33 => ⟨S_, .f32⟩
  | 34 => ⟨S65536x64, .f32⟩
  | 35 => ⟨S65536x64, .f32⟩
  | 36 => ⟨S64x32, .f32⟩
  | 37 => ⟨S65536x32, .f32⟩
  | 38 => ⟨S1x32, .f32⟩
  | 39 => ⟨S65536x32, .f32⟩
  | 40 => ⟨S65536x32, .f32⟩
  | 41 => ⟨S_, .f32⟩
  | 42 => ⟨S65536x32, .f32⟩
  | 43 => ⟨S65536x32, .f32⟩
  | 44 => ⟨S32x1, .f32⟩
  | 45 => ⟨S65536x1, .f32⟩
  | 46 => ⟨S1x1, .f32⟩
  | 47 => ⟨S65536x1, .f32⟩
  | 48 => ⟨S65536x1, .f32⟩
  | 49 => ⟨S65536x1, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S65536x1, .f32⟩
  | 56 => ⟨S65536x1, .f32⟩
  | _ => ⟨S65536x1, .i32⟩

abbrev hbmTy (i : Nat) : BufTy := match i / 128 with
  | 0 => hbmTy0_0 i
  | 1 => hbmTy0_1 i
  | _ => ⟨S65536x1, .i32⟩

abbrev bufTy : (tb : Table) → Fin (tcTables nBuf tb) → BufTy
  | .hbm, ⟨i, _⟩ => hbmTy i
  | _, _ => ⟨S65536x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_c_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_v14 : Ref sig .tc := ⟨.hbm, 47, rfl⟩
abbrev main_v15 : Ref sig .tc := ⟨.hbm, 48, rfl⟩
abbrev main_c_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_5 : Ref sig .tc := ⟨.hbm, 55, rfl⟩
abbrev main_v21 : Ref sig .tc := ⟨.hbm, 56, rfl⟩
abbrev main_v22 : Ref sig .tc := ⟨.hbm, 57, rfl⟩
abbrev main_c_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_7 : Ref sig .tc := ⟨.hbm, 64, rfl⟩
abbrev main_v28 : Ref sig .tc := ⟨.hbm, 65, rfl⟩
abbrev main_v29 : Ref sig .tc := ⟨.hbm, 66, rfl⟩
abbrev main_c_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_9 : Ref sig .tc := ⟨.hbm, 73, rfl⟩
abbrev main_v35 : Ref sig .tc := ⟨.hbm, 74, rfl⟩
abbrev main_v36 : Ref sig .tc := ⟨.hbm, 75, rfl⟩
abbrev main_c_10 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_11 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_12 : Ref sig .tc := ⟨.hbm, 89, rfl⟩
abbrev main_v48 : Ref sig .tc := ⟨.hbm, 90, rfl⟩
abbrev main_v49 : Ref sig .tc := ⟨.hbm, 91, rfl⟩
abbrev main_c_13 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_14 : Ref sig .tc := ⟨.hbm, 98, rfl⟩
abbrev main_v55 : Ref sig .tc := ⟨.hbm, 99, rfl⟩
abbrev main_v56 : Ref sig .tc := ⟨.hbm, 100, rfl⟩
abbrev main_c_15 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_16 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call0_cst : Ref sig .tc := ⟨.hbm, 126, rfl⟩
abbrev main_call0_v0 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call1_cst : Ref sig .tc := ⟨.hbm, 133, rfl⟩
abbrev main_call1_v0 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_call2_cst : Ref sig .tc := ⟨.hbm, 153, rfl⟩
abbrev main_call2_v0 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call3_cst : Ref sig .tc := ⟨.hbm, 161, rfl⟩
abbrev main_call3_v0 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_call4_cst : Ref sig .tc := ⟨.hbm, 169, rfl⟩
abbrev main_call4_v0 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_17 : Ref sig .tc := ⟨.hbm, 179, rfl⟩
abbrev main_v122 : Ref sig .tc := ⟨.hbm, 180, rfl⟩
abbrev main_v123 : Ref sig .tc := ⟨.hbm, 181, rfl⟩
abbrev main_cst_18 : Ref sig .tc := ⟨.hbm, 182, rfl⟩
abbrev main_v124 : Ref sig .tc := ⟨.hbm, 183, rfl⟩
abbrev main_v125 : Ref sig .tc := ⟨.hbm, 184, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  bcast_S65536x1_S65536x1x1_0_1 : S65536x1.BroadcastsInDim S65536x1x1 (![0, 1] : Fin 2 → Fin S65536x1x1.rank)
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  bcast_S65536x10x1_S65536x10x8_0_1_2 : S65536x10x1.BroadcastsInDim S65536x10x8 (![0, 1, 2] : Fin 3 → Fin S65536x10x8.rank)
  bcast_S_S65536x5 : S_.BroadcastsInDim S65536x5 (![] : Fin 0 → Fin S65536x5.rank)
  bcast_S65536x5_S65536x5x1_0_1 : S65536x5.BroadcastsInDim S65536x5x1 (![0, 1] : Fin 2 → Fin S65536x5x1.rank)
  bcast_S_S65536x5x10 : S_.BroadcastsInDim S65536x5x10 (![] : Fin 0 → Fin S65536x5x10.rank)
  bcast_S65536x5x10_S65536x5x10x1_0_1_2 : S65536x5x10.BroadcastsInDim S65536x5x10x1 (![0, 1, 2] : Fin 3 → Fin S65536x5x10x1.rank)
  bcast_S65536x5x10x1_S65536x5x10x8_0_1_2_3 : S65536x5x10x1.BroadcastsInDim S65536x5x10x8 (![0, 1, 2, 3] : Fin 4 → Fin S65536x5x10x8.rank)
  bcast_S65536x5x8_S65536x5x1x8_0_1_3 : S65536x5x8.BroadcastsInDim S65536x5x1x8 (![0, 1, 3] : Fin 3 → Fin S65536x5x1x8.rank)
  concatenates_S65536x5x1x8_S65536x5x10x8_S65536x5x11x8_d2 : Shape.Concatenates [S65536x5x1x8, S65536x5x10x8] S65536x5x11x8 2
  shapeCasts_S65536x5x11x8_S65536x5x88 : S65536x5x11x8.ShapeCasts S65536x5x88
  concatenates_S65536x1x8_S65536x10x8_S65536x11x8_d1 : Shape.Concatenates [S65536x1x8, S65536x10x8] S65536x11x8 1
  shapeCasts_S65536x11x8_S65536x1x88 : S65536x11x8.ShapeCasts S65536x1x88
  bcast_S65536x1x88_S65536x5x88_0_1_2 : S65536x1x88.BroadcastsInDim S65536x5x88 (![0, 1, 2] : Fin 3 → Fin S65536x5x88.rank)
  concatenates_S65536x5x88_S65536x5x88_S65536x5x88_S65536x5x264_d2 : Shape.Concatenates [S65536x5x88, S65536x5x88, S65536x5x88] S65536x5x264 2
  bcast_S64_S1x1x64_2 : S64.BroadcastsInDim S1x1x64 (![2] : Fin 1 → Fin S1x1x64.rank)
  bcast_S1x1x64_S65536x5x64_0_1_2 : S1x1x64.BroadcastsInDim S65536x5x64 (![0, 1, 2] : Fin 3 → Fin S65536x5x64.rank)
  bcast_S_S65536x5x64 : S_.BroadcastsInDim S65536x5x64 (![] : Fin 0 → Fin S65536x5x64.rank)
  bcast_S32_S1x1x32_2 : S32.BroadcastsInDim S1x1x32 (![2] : Fin 1 → Fin S1x1x32.rank)
  bcast_S1x1x32_S65536x5x32_0_1_2 : S1x1x32.BroadcastsInDim S65536x5x32 (![0, 1, 2] : Fin 3 → Fin S65536x5x32.rank)
  bcast_S_S65536x5x32 : S_.BroadcastsInDim S65536x5x32 (![] : Fin 0 → Fin S65536x5x32.rank)
  bcast_S1_S1x1x1_2 : S1.BroadcastsInDim S1x1x1 (![2] : Fin 1 → Fin S1x1x1.rank)
  bcast_S1x1x1_S65536x5x1_0_1_2 : S1x1x1.BroadcastsInDim S65536x5x1 (![0, 1, 2] : Fin 3 → Fin S65536x5x1.rank)
  bcast_S65536x5x1_S65536x5x88_0_1_2 : S65536x5x1.BroadcastsInDim S65536x5x88 (![0, 1, 2] : Fin 3 → Fin S65536x5x88.rank)
  reducesTo_S65536x5x88_S65536x88_d1 : S65536x5x88.ReducesTo [1] S65536x88
  h_S_ : 0 < S_.numel
  concatenates_S65536x1x8_S65536x1x8_S65536x1x8_S65536x1x8_S65536x1x8_S65536x10x8_S65536x15x8_d1 : Shape.Concatenates [S65536x1x8, S65536x1x8, S65536x1x8, S65536x1x8, S65536x1x8, S65536x10x8] S65536x15x8 1
  shapeCasts_S65536x15x8_S65536x120 : S65536x15x8.ShapeCasts S65536x120
  concatenates_S65536x120_S65536x88_S65536x208_d1 : Shape.Concatenates [S65536x120, S65536x88] S65536x208 1
  transposes_S128x208_S208x128_1_0 : S128x208.Transposes [1, 0] S208x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S64x128_S128x64_1_0 : S64x128.Transposes [1, 0] S128x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S32x64_S64x32_1_0 : S32x64.Transposes [1, 0] S64x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  gather_S1000000x8_S65536x1x1_S65536x1x8_2_0_n_n_0_2_18_wf : GatherDims.WF S1000000x8 S65536x1x1 S65536x1x8 [2] [0] [] [0] [] 2 ![1, 8]
  gather_S8x8_S65536x1x1_S65536x1x8_2_0_n_n_0_2_18_wf : GatherDims.WF S8x8 S65536x1x1 S65536x1x8 [2] [0] [] [0] [] 2 ![1, 8]
  gather_S3x8_S65536x1x1_S65536x1x8_2_0_n_n_0_2_18_wf : GatherDims.WF S3x8 S65536x1x1 S65536x1x8 [2] [0] [] [0] [] 2 ![1, 8]
  gather_S25x8_S65536x1x1_S65536x1x8_2_0_n_n_0_2_18_wf : GatherDims.WF S25x8 S65536x1x1 S65536x1x8 [2] [0] [] [0] [] 2 ![1, 8]
  gather_S20x8_S65536x10x1_S65536x10x8_2_0_n_n_0_2_18_wf : GatherDims.WF S20x8 S65536x10x1 S65536x10x8 [2] [0] [] [0] [] 2 ![1, 8]
  gather_S1000000x8_S65536x5x1_S65536x5x8_2_0_n_n_0_2_18_wf : GatherDims.WF S1000000x8 S65536x5x1 S65536x5x8 [2] [0] [] [0] [] 2 ![1, 8]
  gather_S20x8_S65536x5x10x1_S65536x5x10x8_3_0_n_n_0_3_18_wf : GatherDims.WF S20x8 S65536x5x10x1 S65536x5x10x8 [3] [0] [] [0] [] 3 ![1, 8]
  dot_S65536x5x264_S64x264_S65536x5x64_2_1_01_0_n_n_wf : DotDims.WF S65536x5x264 S64x264 S65536x5x64 [2] [1] [0, 1] [0] [] []
  dot_S65536x5x64_S32x64_S65536x5x32_2_1_01_0_n_n_wf : DotDims.WF S65536x5x64 S32x64 S65536x5x32 [2] [1] [0, 1] [0] [] []
  dot_S65536x5x32_S1x32_S65536x5x1_2_1_01_0_n_n_wf : DotDims.WF S65536x5x32 S1x32 S65536x5x1 [2] [1] [0, 1] [0] [] []
  dot_S65536x208_S208x128_S65536x128_1_0_0_1_n_n_wf : DotDims.WF S65536x208 S208x128 S65536x128 [1] [0] [0] [1] [] []
  dot_S65536x128_S128x64_S65536x64_1_0_0_1_n_n_wf : DotDims.WF S65536x128 S128x64 S65536x64 [1] [0] [0] [1] [] []
  dot_S65536x64_S64x32_S65536x32_1_0_0_1_n_n_wf : DotDims.WF S65536x64 S64x32 S65536x32 [1] [0] [0] [1] [] []
  dot_S65536x32_S32x1_S65536x1_1_0_0_1_n_n_wf : DotDims.WF S65536x32 S32x1 S65536x1 [1] [0] [0] [1] [] []

variable [Facts₀]

def gather_S1000000x8_S65536x1x1_S65536x1x8_2_0_n_n_0_2_18 : GatherDims S1000000x8 S65536x1x1 S65536x1x8 where
  offsetDims := [2]
  collapsedSliceDims := [0]
  operandBatchingDims := []
  startIndicesBatchingDims := []
  startIndexMap := [0]
  indexVectorDim := 2
  sliceSizes := ![1, 8]
  wf := gather_S1000000x8_S65536x1x1_S65536x1x8_2_0_n_n_0_2_18_wf
def gather_S8x8_S65536x1x1_S65536x1x8_2_0_n_n_0_2_18 : GatherDims S8x8 S65536x1x1 S65536x1x8 where
  offsetDims := [2]
  collapsedSliceDims := [0]
  operandBatchingDims := []
  startIndicesBatchingDims := []
  startIndexMap := [0]
  indexVectorDim := 2
  sliceSizes := ![1, 8]
  wf := gather_S8x8_S65536x1x1_S65536x1x8_2_0_n_n_0_2_18_wf
def gather_S3x8_S65536x1x1_S65536x1x8_2_0_n_n_0_2_18 : GatherDims S3x8 S65536x1x1 S65536x1x8 where
  offsetDims := [2]
  collapsedSliceDims := [0]
  operandBatchingDims := []
  startIndicesBatchingDims := []
  startIndexMap := [0]
  indexVectorDim := 2
  sliceSizes := ![1, 8]
  wf := gather_S3x8_S65536x1x1_S65536x1x8_2_0_n_n_0_2_18_wf
def gather_S25x8_S65536x1x1_S65536x1x8_2_0_n_n_0_2_18 : GatherDims S25x8 S65536x1x1 S65536x1x8 where
  offsetDims := [2]
  collapsedSliceDims := [0]
  operandBatchingDims := []
  startIndicesBatchingDims := []
  startIndexMap := [0]
  indexVectorDim := 2
  sliceSizes := ![1, 8]
  wf := gather_S25x8_S65536x1x1_S65536x1x8_2_0_n_n_0_2_18_wf
def gather_S20x8_S65536x10x1_S65536x10x8_2_0_n_n_0_2_18 : GatherDims S20x8 S65536x10x1 S65536x10x8 where
  offsetDims := [2]
  collapsedSliceDims := [0]
  operandBatchingDims := []
  startIndicesBatchingDims := []
  startIndexMap := [0]
  indexVectorDim := 2
  sliceSizes := ![1, 8]
  wf := gather_S20x8_S65536x10x1_S65536x10x8_2_0_n_n_0_2_18_wf
def gather_S1000000x8_S65536x5x1_S65536x5x8_2_0_n_n_0_2_18 : GatherDims S1000000x8 S65536x5x1 S65536x5x8 where
  offsetDims := [2]
  collapsedSliceDims := [0]
  operandBatchingDims := []
  startIndicesBatchingDims := []
  startIndexMap := [0]
  indexVectorDim := 2
  sliceSizes := ![1, 8]
  wf := gather_S1000000x8_S65536x5x1_S65536x5x8_2_0_n_n_0_2_18_wf
def gather_S20x8_S65536x5x10x1_S65536x5x10x8_3_0_n_n_0_3_18 : GatherDims S20x8 S65536x5x10x1 S65536x5x10x8 where
  offsetDims := [3]
  collapsedSliceDims := [0]
  operandBatchingDims := []
  startIndicesBatchingDims := []
  startIndexMap := [0]
  indexVectorDim := 3
  sliceSizes := ![1, 8]
  wf := gather_S20x8_S65536x5x10x1_S65536x5x10x8_3_0_n_n_0_3_18_wf
def dot_S65536x5x264_S64x264_S65536x5x64_2_1_01_0_n_n : DotDims S65536x5x264 S64x264 S65536x5x64 where
  lhsContracting := [2]
  rhsContracting := [1]
  lhsNonContracting := [0, 1]
  rhsNonContracting := [0]
  lhsBatch := []
  rhsBatch := []
  wf := dot_S65536x5x264_S64x264_S65536x5x64_2_1_01_0_n_n_wf
def dot_S65536x5x64_S32x64_S65536x5x32_2_1_01_0_n_n : DotDims S65536x5x64 S32x64 S65536x5x32 where
  lhsContracting := [2]
  rhsContracting := [1]
  lhsNonContracting := [0, 1]
  rhsNonContracting := [0]
  lhsBatch := []
  rhsBatch := []
  wf := dot_S65536x5x64_S32x64_S65536x5x32_2_1_01_0_n_n_wf
def dot_S65536x5x32_S1x32_S65536x5x1_2_1_01_0_n_n : DotDims S65536x5x32 S1x32 S65536x5x1 where
  lhsContracting := [2]
  rhsContracting := [1]
  lhsNonContracting := [0, 1]
  rhsNonContracting := [0]
  lhsBatch := []
  rhsBatch := []
  wf := dot_S65536x5x32_S1x32_S65536x5x1_2_1_01_0_n_n_wf
def dot_S65536x208_S208x128_S65536x128_1_0_0_1_n_n : DotDims S65536x208 S208x128 S65536x128 where
  lhsContracting := [1]
  rhsContracting := [0]
  lhsNonContracting := [0]
  rhsNonContracting := [1]
  lhsBatch := []
  rhsBatch := []
  wf := dot_S65536x208_S208x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.KernelFrame.lean ====
/- The frame of the gating kernel `Kernel`: @main's host operations leave the 28 argument arrays as launched; the one
   region's 64 grid points each load their row blocks and the weight arrays, compute, and store the [1024,1] score
   block; @main terminates without fault and ends with the 28 argument arrays unchanged. -/
import proofs.«117253_j35613868819029_1_alg».proof.Proof.Gen.Kernel.Launch
import proofs.«117253_j35613868819029_1_alg».proof.Proof.Gen.Kernel.Skeleton
import proofs.«117253_j35613868819029_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the 113 host operations `hostOps0`. -/
abbrev V (c : Dev nD) (b : Ref sig .tc) : Buf (Elt F) ((c : Thread nD τ).loc b) :=
  StableHlo.after (List.flatten [hostOps0]) (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main up to the region, at any variants `𝒱₀`: the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The references the host operations write: each operation's one result, none of them an argument of @main. -/
abbrev hostOps0_W : List (Ref sig .tc) := [main_v0, main_c, main_v1, main_v2, main_c_0, main_v3, main_v4, main_v5, main_v6, main_v7, main_v8, main_c_1, main_v9, main_v10, main_c_2, main_v11, main_v12, main_v13, main_v14, main_v15, main_v16, main_c_3, main_v17, main_v18, main_c_4, main_v19, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_c_9, main_v40, main_v41, main_c_10, main_v42, main_v43, main_v44, main_v45, main_v46, main_c_11, main_v47, main_v48, main_v49, main_v50, main_v51, main_v52, main_c_12, main_v53, main_v54, main_c_13, main_v55, main_v56, main_v57, main_v58, main_v59, main_c_14, main_v60, main_v61, main_c_15, main_v62, main_v63, main_v64, main_v65, main_v66, main_c_16, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94]

set_option maxHeartbeats 4000000 in
/-- Each host operation writes only its result, a member of `hostOps0_W`. -/
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A reference no host operation writes is found by the region as launched. -/
theorem V_of (c : Dev nD) (r : Ref sig .tc) (h : r ∉ hostOps0_W) : V m c r = m ((c : Thread nD τ).loc r) := by
  show StableHlo.after (List.flatten [hostOps0]) (fun b => m (c, b)) (Proc.devRef .tc r) = _
  rw [List.flatten_cons, List.flatten_nil, List.append_nil]
  exact StableHlo.after_of_writes_sub hostOps0 _ hostOps0_writes h

/-- No host operation before the region writes `main_arg0`: the region finds it as launched. -/
theorem V_main_arg0 (c : Dev nD) : V m c main_arg0 = m ((c : Thread nD τ).loc main_arg0) := V_of m c main_arg0 (by decide)
/-- No host operation before the region writes `main_arg1`: the region finds it as launched. -/
theorem V_main_arg1 (c : Dev nD) : V m c main_arg1 = m ((c : Thread nD τ).loc main_arg1) := V_of m c main_arg1 (by decide)
/-- No host operation before the region writes `main_arg2`: the region finds it as launched. -/
theorem V_main_arg2 (c : Dev nD) : V m c main_arg2 = m ((c : Thread nD τ).loc main_arg2) := V_of m c main_arg2 (by decide)
/-- No host operation before the region writes `main_arg3`: the region finds it as launched. -/
theorem V_main_arg3 (c : Dev nD) : V m c main_arg3 = m ((c : Thread nD τ).loc main_arg3) := V_of m c main_arg3 (by decide)
/-- No host operation before the region writes `main_arg4`: the region finds it as launched. -/
theorem V_main_arg4 (c : Dev nD) : V m c main_arg4 = m ((c : Thread nD τ).loc main_arg4) := V_of m c main_arg4 (by decide)
/-- No host operation before the region writes `main_arg5`: the region finds it as launched. -/
theorem V_main_arg5 (c : Dev nD) : V m c main_arg5 = m ((c : Thread nD τ).loc main_arg5) := V_of m c main_arg5 (by decide)
/-- No host operation before the region writes `main_arg6`: the region finds it as launched. -/
theorem V_main_arg6 (c : Dev nD) : V m c main_arg6 = m ((c : Thread nD τ).loc main_arg6) := V_of m c main_arg6 (by decide)
/-- No host operation before the region writes `main_arg7`: the region finds it as launched. -/
theorem V_main_arg7 (c : Dev nD) : V m c main_arg7 = m ((c : Thread nD τ).loc main_arg7) := V_of m c main_arg7 (by decide)
/-- No host operation before the region writes `main_arg8`: the region finds it as launched. -/
theorem V_main_arg8 (c : Dev nD) : V m c main_arg8 = m ((c : Thread nD τ).loc main_arg8) := V_of m c main_arg8 (by decide)
/-- No host operation before the region writes `main_arg9`: the region finds it as launched. -/
theorem V_main_arg9 (c : Dev nD) : V m c main_arg9 = m ((c : Thread nD τ).loc main_arg9) := V_of m c main_arg9 (by decide)
/-- No host operation before the region writes `main_arg10`: the region finds it as launched. -/
theorem V_main_arg10 (c : Dev nD) : V m c main_arg10 = m ((c : Thread nD τ).loc main_arg10) := V_of m c main_arg10 (by decide)
/-- No host operation before the region writes `main_arg11`: the region finds it as launched. -/
theorem V_main_arg11 (c : Dev nD) : V m c main_arg11 = m ((c : Thread nD τ).loc main_arg11) := V_of m c main_arg11 (by decide)
/-- No host operation before the region writes `main_arg12`: the region finds it as launched. -/
theorem V_main_arg12 (c : Dev nD) : V m c main_arg12 = m ((c : Thread nD τ).loc main_arg12) := V_of m c main_arg12 (by decide)
/-- No host operation before the region writes `main_arg13`: the region finds it as launched. -/
theorem V_main_arg13 (c : Dev nD) : V m c main_arg13 = m ((c : Thread nD τ).loc main_arg13) := V_of m c main_arg13 (by decide)
/-- No host operation before the region writes `main_arg14`: the region finds it as launched. -/
theorem V_main_arg14 (c : Dev nD) : V m c main_arg14 = m ((c : Thread nD τ).loc main_arg14) := V_of m c main_arg14 (by decide)
/-- No host operation before the region writes `main_arg15`: the region finds it as launched. -/
theorem V_main_arg15 (c : Dev nD) : V m c main_arg15 = m ((c : Thread nD τ).loc main_arg15) := V_of m c main_arg15 (by decide)
/-- No host operation before the region writes `main_arg16`: the region finds it as launched. -/
theorem V_main_arg16 (c : Dev nD) : V m c main_arg16 = m ((c : Thread nD τ).loc main_arg16) := V_of m c main_arg16 (by decide)
/-- No host operation before the region writes `main_arg17`: the region finds it as launched. -/
theorem V_main_arg17 (c : Dev nD) : V m c main_arg17 = m ((c : Thread nD τ).loc main_arg17) := V_of m c main_arg17 (by decide)
/-- No host operation before the region writes `main_arg18`: the region finds it as launched. -/
theorem V_main_arg18 (c : Dev nD) : V m c main_arg18 = m ((c : Thread nD τ).loc main_arg18) := V_of m c main_arg18 (by decide)
/-- No host operation before the region writes `main_arg19`: the region finds it as launched. -/
theorem V_main_arg19 (c : Dev nD) : V m c main_arg19 = m ((c : Thread nD τ).loc main_arg19) := V_of m c main_arg19 (by decide)
/-- No host operation before the region writes `main_arg20`: the region finds it as launched. -/
theorem V_main_arg20 (c : Dev nD) : V m c main_arg20 = m ((c : Thread nD τ).loc main_arg20) := V_of m c main_arg20 (by decide)
/-- No host operation before the region writes `main_arg21`: the region finds it as launched. -/
theorem V_main_arg21 (c : Dev nD) : V m c main_arg21 = m ((c : Thread nD τ).loc main_arg21) := V_of m c main_arg21 (by decide)
/-- No host operation before the region writes `main_arg22`: the region finds it as launched. -/
theorem V_main_arg22 (c : Dev nD) : V m c main_arg22 = m ((c : Thread nD τ).loc main_arg22) := V_of m c main_arg22 (by decide)
/-- No host operation before the region writes `main_arg23`: the region finds it as launched. -/
theorem V_main_arg23 (c : Dev nD) : V m c main_arg23 = m ((c : Thread nD τ).loc main_arg23) := V_of m c main_arg23 (by decide)
/-- No host operation before the region writes `main_arg24`: the region finds it as launched. -/
theorem V_main_arg24 (c : Dev nD) : V m c main_arg24 = m ((c : Thread nD τ).loc main_arg24) := V_of m c main_arg24 (by decide)
/-- No host operation before the region writes `main_arg25`: the region finds it as launched. -/
theorem V_main_arg25 (c : Dev nD) : V m c main_arg25 = m ((c : Thread nD τ).loc main_arg25) := V_of m c main_arg25 (by decide)
/-- No host operation before the region writes `main_arg26`: the region finds it as launched. -/
theorem V_main_arg26 (c : Dev nD) : V m c main_arg26 = m ((c : Thread nD τ).loc main_arg26) := V_of m c main_arg26 (by decide)
/-- No host operation before the region writes `main_arg27`: the region finds it as launched. -/
theorem V_main_arg27 (c : Dev nD) : V m c main_arg27 = m ((c : Thread nD τ).loc main_arg27) := V_of m c main_arg27 (by decide)
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, its
    block index has not moved), for any proof data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, its
    block index has not moved), for any proof data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, its
    block index has not moved), for any proof data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, its
    block index has not moved), for any proof data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, its
    block index has not moved), for any proof data whose array is `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, its
    block index has not moved), for any proof data whose array is `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, its
    block index has not moved), for any proof data whose array is `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, its
    block index has not moved), for any proof data whose array is `V`'s and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (unfetched, its
    block index has not moved), for any proof data whose array is `V`'s and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (unfetched, its
    block index has not moved), for any proof data whose array is `V`'s and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (unfetched, its
    block index has not moved), for any proof data whose array is `V`'s and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not (unfetched, its
    block index has not moved), for any proof data whose array is `V`'s and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not (unfetched, its
    block index has not moved), for any proof data whose array is `V`'s and whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    pipeline's frame post, read at the 28 argument arrays (none is staged by a window, none is written by a host
    operation), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩) h

/-! ## The body's accesses -/

abbrev r0_0 : Rect S1024x5x88 := Rect.unit (s := S1024x5x88) ![0, 0, 0] S1024x5x88.size inb_S1024x5x88_S1024x5x88_0_0_0
abbrev r0_1 : Rect S1024x88 := Rect.unit (s := S1024x88) ![0, 0] S1024x88.size inb_S1024x88_S1024x88_0_0
abbrev r0_2 : Rect S1024x120 := Rect.unit (s := S1024x120) ![0, 0] S1024x120.size inb_S1024x120_S1024x120_0_0
abbrev r0_3 : Rect S264x64 := Rect.unit (s := S264x64) ![0, 0] S264x64.size inb_S264x64_S264x64_0_0
abbrev r0_4 : Rect S1x64 := Rect.unit (s := S1x64) ![0, 0] S1x64.size inb_S1x64_S1x64_0_0
abbrev r0_5 : Rect S64x32 := Rect.unit (s := S64x32) ![0, 0] S64x32.size inb_S64x32_S64x32_0_0
abbrev r0_6 : Rect S1x32 := Rect.unit (s := S1x32) ![0, 0] S1x32.size inb_S1x32_S1x32_0_0
abbrev r0_7 : Rect S32x1 := Rect.unit (s := S32x1) ![0, 0] S32x1.size inb_S32x1_S32x1_0_0
abbrev r0_8 : Rect S1x1 := Rect.unit (s := S1x1) ![0, 0] S1x1.size inb_S1x1_S1x1_0_0
abbrev r0_9 : Rect S208x128 := Rect.unit (s := S208x128) ![0, 0] S208x128.size inb_S208x128_S208x128_0_0
abbrev r0_10 : Rect S1x128 := Rect.unit (s := S1x128) ![0, 0] S1x128.size inb_S1x128_S1x128_0_0
abbrev r0_11 : Rect S128x64 := Rect.unit (s := S128x64) ![0, 0] S128x64.size inb_S128x64_S128x64_0_0
abbrev r0_12 : Rect S1x64 := Rect.unit (s := S1x64) ![0, 0] S1x64.size inb_S1x64_S1x64_0_0
abbrev r0_13 : Rect S64x32 := Rect.unit (s := S64x32) ![0, 0] S64x32.size inb_S64x32_S64x32_0_0
abbrev r0_14 : Rect S1x32 := Rect.unit (s := S1x32) ![0, 0] S1x32.size inb_S1x32_S1x32_0_0
abbrev r0_15 : Rect S32x1 := Rect.unit (s := S32x1) ![0, 0] S32x1.size inb_S32x1_S32x1_0_0
abbrev r0_16 : Rect S1x1 := Rect.unit (s := S1x1) ![0, 0] S1x1.size inb_S1x1_S1x1_0_0
abbrev r0_17 : Rect S1024x1 := Rect.unit (s := S1024x1) ![0, 0] S1024x1.size inb_S1024x1_S1024x1_0_0

/-! ## What the body leaves in the output window's buffer -/

/-- Window 17's staging buffer after the body, from the 17 input windows' blocks: its one store, of the gating
    score computed from the whole-buffer loads of the inputs. -/
def out0_17 (x0 : Vec F S1024x5x88 .f32) (x1 : Vec F S1024x88 .f32) (x2 : Vec F S1024x120 .f32) (x3 : Vec F S264x64 .f32) (x4 : Vec F S1x64 .f32) (x5 : Vec F S64x32 .f32) (x6 : Vec F S1x32 .f32) (x7 : Vec F S32x1 .f32) (x8 : Vec F S1x1 .f32) (x9 : Vec F S208x128 .f32) (x10 : Vec F S1x128 .f32) (x11 : Vec F S128x64 .f32) (x12 : Vec F S1x64 .f32) (x13 : Vec F S64x32 .f32) (x14 : Vec F S1x32 .f32) (x15 : Vec F S32x1 .f32) (x16 : Vec F S1x1 .f32) : Vec F S1024x1 .f32 :=
  View.canon [⟨r0_17, k0_pay1 (k0_pay4 (k0_pay2 (View.ld x0 r0_0)) (k0_pay3 (View.ld x0 r0_0) (View.ld x1 r0_1) (View.ld x3 r0_3) (View.ld x4 r0_4) (View.ld x5 r0_5) (View.ld x6 r0_6) (View.ld x7 r0_7) (View.ld x8 r0_8)) (View.ld x2 r0_2) (View.ld x9 r0_9) (View.ld x10 r0_10) (View.ld x11 r0_11) (View.ld x12 r0_12) (View.ld x13 r0_13) (View.ld x14 r0_14) (View.ld x15 r0_15)) (View.ld x16 r0_16)⟩]

/-- The one store is of the whole buffer, so it covers it. -/
theorem cover0_17 (p0 : Vec F S1024x1 .f32) (y : S1024x1.Idx) :
    ∃ pc ∈ ([⟨r0_17, p0⟩] : List (View.Piece (Elt F) S1024x1 .f32)), y ∈ pc.1.set :=
  View.cover_of_tiled [⟨r0_17, p0⟩] S1024x1.size (by rfl) y

/-! ## The body's triple -/

set_option maxHeartbeats 4000000 in
/-- The kernel body on whole staging memrefs, the inputs' at read contents `xW` and the output's at anything, runs to
    the continuation holding the inputs' as they were and the output's at `out0_17` of the inputs'. -/
theorem sound_kernel (c : Dev nD) (E : Set ℕ) (i : grid0.Coords) (arg1 : Memref sig .tc .vmem S1024x5x88 .f32) (harg1 : arg1.IsWhole) (arg2 : Memref sig .tc .vmem S1024x88 .f32) (harg2 : arg2.IsWhole) (arg3 : Memref sig .tc .vmem S1024x120 .f32) (harg3 : arg3.IsWhole) (arg4 : Memref sig .tc .vmem S264x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S208x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S64x32 .f32) (harg14 : arg14.IsWhole) (arg15 : Memref sig .tc .vmem S1x32 .f32) (harg15 : arg15.IsWhole) (arg16 : Memref sig .tc .vmem S32x1 .f32) (harg16 : arg16.IsWhole) (arg17 : Memref sig .tc .vmem S1x1 .f32) (harg17 : arg17.IsWhole) (arg18 : Memref sig .tc .vmem S1024x1 .f32) (harg18 : arg18.IsWhole)
    (x0 : Vec F S1024x5x88 .f32) (x1 : Vec F S1024x88 .f32) (x2 : Vec F S1024x120 .f32) (x3 : Vec F S264x64 .f32) (x4 : Vec F S1x64 .f32) (x5 : Vec F S64x32 .f32) (x6 : Vec F S1x32 .f32) (x7 : Vec F S32x1 .f32) (x8 : Vec F S1x1 .f32) (x9 : Vec F S208x128 .f32) (x10 : Vec F S1x128 .f32) (x11 : Vec F S128x64 .f32) (x12 : Vec F S1x64 .f32) (x13 : Vec F S64x32 .f32) (x14 : Vec F S1x32 .f32) (x15 : Vec F S32x1 .f32) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__gating_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gating_kernel_eq_skeleton]; unfold cc0__gating_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover0_17 _)

/-! ## The pipeline's proof data -/

/-- The proof data of the one pipeline on core `c`: the arrays as the region finds them (`V`); after the body at
    point `t` each input's buffer at its block and the output's at `out0_17` of the input blocks; the invariant the
    scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data computes and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without fault and every argument array ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.Kernel.Gen2

end
-- ==== Proof.KernelIdealFrame.lean ====
/- The frame of the gating kernel `KernelIdeal`: @main's host operations leave the 28 argument arrays as launched; the one
   region's 64 grid points each load their row blocks and the weight arrays, compute, and store the [1024,1] score
   block; @main terminates without fault and ends with the 28 argument arrays unchanged. -/
import proofs.«117253_j35613868819029_1_alg».proof.Proof.Gen.KernelIdeal.Launch
import proofs.«117253_j35613868819029_1_alg».proof.Proof.Gen.KernelIdeal.Skeleton
import proofs.«117253_j35613868819029_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the 113 host operations `hostOps0`. -/
abbrev V (c : Dev nD) (b : Ref sig .tc) : Buf (Elt F) ((c : Thread nD τ).loc b) :=
  StableHlo.after (List.flatten [hostOps0]) (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main up to the region, at any variants `𝒱₀`: the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The references the host operations write: each operation's one result, none of them an argument of @main. -/
abbrev hostOps0_W : List (Ref sig .tc) := [main_v0, main_c, main_v1, main_v2, main_c_0, main_v3, main_v4, main_v5, main_v6, main_v7, main_v8, main_c_1, main_v9, main_v10, main_c_2, main_v11, main_v12, main_v13, main_v14, main_v15, main_v16, main_c_3, main_v17, main_v18, main_c_4, main_v19, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_c_9, main_v40, main_v41, main_c_10, main_v42, main_v43, main_v44, main_v45, main_v46, main_c_11, main_v47, main_v48, main_v49, main_v50, main_v51, main_v52, main_c_12, main_v53, main_v54, main_c_13, main_v55, main_v56, main_v57, main_v58, main_v59, main_c_14, main_v60, main_v61, main_c_15, main_v62, main_v63, main_v64, main_v65, main_v66, main_c_16, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94]

set_option maxHeartbeats 4000000 in
/-- Each host operation writes only its result, a member of `hostOps0_W`. -/
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A reference no host operation writes is found by the region as launched. -/
theorem V_of (c : Dev nD) (r : Ref sig .tc) (h : r ∉ hostOps0_W) : V m c r = m ((c : Thread nD τ).loc r) := by
  show StableHlo.after (List.flatten [hostOps0]) (fun b => m (c, b)) (Proc.devRef .tc r) = _
  rw [List.flatten_cons, List.flatten_nil, List.append_nil]
  exact StableHlo.after_of_writes_sub hostOps0 _ hostOps0_writes h

/-- No host operation before the region writes `main_arg0`: the region finds it as launched. -/
theorem V_main_arg0 (c : Dev nD) : V m c main_arg0 = m ((c : Thread nD τ).loc main_arg0) := V_of m c main_arg0 (by decide)
/-- No host operation before the region writes `main_arg1`: the region finds it as launched. -/
theorem V_main_arg1 (c : Dev nD) : V m c main_arg1 = m ((c : Thread nD τ).loc main_arg1) := V_of m c main_arg1 (by decide)
/-- No host operation before the region writes `main_arg2`: the region finds it as launched. -/
theorem V_main_arg2 (c : Dev nD) : V m c main_arg2 = m ((c : Thread nD τ).loc main_arg2) := V_of m c main_arg2 (by decide)
/-- No host operation before the region writes `main_arg3`: the region finds it as launched. -/
theorem V_main_arg3 (c : Dev nD) : V m c main_arg3 = m ((c : Thread nD τ).loc main_arg3) := V_of m c main_arg3 (by decide)
/-- No host operation before the region writes `main_arg4`: the region finds it as launched. -/
theorem V_main_arg4 (c : Dev nD) : V m c main_arg4 = m ((c : Thread nD τ).loc main_arg4) := V_of m c main_arg4 (by decide)
/-- No host operation before the region writes `main_arg5`: the region finds it as launched. -/
theorem V_main_arg5 (c : Dev nD) : V m c main_arg5 = m ((c : Thread nD τ).loc main_arg5) := V_of m c main_arg5 (by decide)
/-- No host operation before the region writes `main_arg6`: the region finds it as launched. -/
theorem V_main_arg6 (c : Dev nD) : V m c main_arg6 = m ((c : Thread nD τ).loc main_arg6) := V_of m c main_arg6 (by decide)
/-- No host operation before the region writes `main_arg7`: the region finds it as launched. -/
theorem V_main_arg7 (c : Dev nD) : V m c main_arg7 = m ((c : Thread nD τ).loc main_arg7) := V_of m c main_arg7 (by decide)
/-- No host operation before the region writes `main_arg8`: the region finds it as launched. -/
theorem V_main_arg8 (c : Dev nD) : V m c main_arg8 = m ((c : Thread nD τ).loc main_arg8) := V_of m c main_arg8 (by decide)
/-- No host operation before the region writes `main_arg9`: the region finds it as launched. -/
theorem V_main_arg9 (c : Dev nD) : V m c main_arg9 = m ((c : Thread nD τ).loc main_arg9) := V_of m c main_arg9 (by decide)
/-- No host operation before the region writes `main_arg10`: the region finds it as launched. -/
theorem V_main_arg10 (c : Dev nD) : V m c main_arg10 = m ((c : Thread nD τ).loc main_arg10) := V_of m c main_arg10 (by decide)
/-- No host operation before the region writes `main_arg11`: the region finds it as launched. -/
theorem V_main_arg11 (c : Dev nD) : V m c main_arg11 = m ((c : Thread nD τ).loc main_arg11) := V_of m c main_arg11 (by decide)
/-- No host operation before the region writes `main_arg12`: the region finds it as launched. -/
theorem V_main_arg12 (c : Dev nD) : V m c main_arg12 = m ((c : Thread nD τ).loc main_arg12) := V_of m c main_arg12 (by decide)
/-- No host operation before the region writes `main_arg13`: the region finds it as launched. -/
theorem V_main_arg13 (c : Dev nD) : V m c main_arg13 = m ((c : Thread nD τ).loc main_arg13) := V_of m c main_arg13 (by decide)
/-- No host operation before the region writes `main_arg14`: the region finds it as launched. -/
theorem V_main_arg14 (c : Dev nD) : V m c main_arg14 = m ((c : Thread nD τ).loc main_arg14) := V_of m c main_arg14 (by decide)
/-- No host operation before the region writes `main_arg15`: the region finds it as launched. -/
theorem V_main_arg15 (c : Dev nD) : V m c main_arg15 = m ((c : Thread nD τ).loc main_arg15) := V_of m c main_arg15 (by decide)
/-- No host operation before the region writes `main_arg16`: the region finds it as launched. -/
theorem V_main_arg16 (c : Dev nD) : V m c main_arg16 = m ((c : Thread nD τ).loc main_arg16) := V_of m c main_arg16 (by decide)
/-- No host operation before the region writes `main_arg17`: the region finds it as launched. -/
theorem V_main_arg17 (c : Dev nD) : V m c main_arg17 = m ((c : Thread nD τ).loc main_arg17) := V_of m c main_arg17 (by decide)
/-- No host operation before the region writes `main_arg18`: the region finds it as launched. -/
theorem V_main_arg18 (c : Dev nD) : V m c main_arg18 = m ((c : Thread nD τ).loc main_arg18) := V_of m c main_arg18 (by decide)
/-- No host operation before the region writes `main_arg19`: the region finds it as launched. -/
theorem V_main_arg19 (c : Dev nD) : V m c main_arg19 = m ((c : Thread nD τ).loc main_arg19) := V_of m c main_arg19 (by decide)
/-- No host operation before the region writes `main_arg20`: the region finds it as launched. -/
theorem V_main_arg20 (c : Dev nD) : V m c main_arg20 = m ((c : Thread nD τ).loc main_arg20) := V_of m c main_arg20 (by decide)
/-- No host operation before the region writes `main_arg21`: the region finds it as launched. -/
theorem V_main_arg21 (c : Dev nD) : V m c main_arg21 = m ((c : Thread nD τ).loc main_arg21) := V_of m c main_arg21 (by decide)
/-- No host operation before the region writes `main_arg22`: the region finds it as launched. -/
theorem V_main_arg22 (c : Dev nD) : V m c main_arg22 = m ((c : Thread nD τ).loc main_arg22) := V_of m c main_arg22 (by decide)
/-- No host operation before the region writes `main_arg23`: the region finds it as launched. -/
theorem V_main_arg23 (c : Dev nD) : V m c main_arg23 = m ((c : Thread nD τ).loc main_arg23) := V_of m c main_arg23 (by decide)
/-- No host operation before the region writes `main_arg24`: the region finds it as launched. -/
theorem V_main_arg24 (c : Dev nD) : V m c main_arg24 = m ((c : Thread nD τ).loc main_arg24) := V_of m c main_arg24 (by decide)
/-- No host operation before the region writes `main_arg25`: the region finds it as launched. -/
theorem V_main_arg25 (c : Dev nD) : V m c main_arg25 = m ((c : Thread nD τ).loc main_arg25) := V_of m c main_arg25 (by decide)
/-- No host operation before the region writes `main_arg26`: the region finds it as launched. -/
theorem V_main_arg26 (c : Dev nD) : V m c main_arg26 = m ((c : Thread nD τ).loc main_arg26) := V_of m c main_arg26 (by decide)
/-- No host operation before the region writes `main_arg27`: the region finds it as launched. -/
theorem V_main_arg27 (c : Dev nD) : V m c main_arg27 = m ((c : Thread nD τ).loc main_arg27) := V_of m c main_arg27 (by decide)
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, its
    block index has not moved), for any proof data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, its
    block index has not moved), for any proof data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, its
    block index has not moved), for any proof data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, its
    block index has not moved), for any proof data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, its
    block index has not moved), for any proof data whose array is `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, its
    block index has not moved), for any proof data whose array is `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, its
    block index has not moved), for any proof data whose array is `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, its
    block index has not moved), for any proof data whose array is `V`'s and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (unfetched, its
    block index has not moved), for any proof data whose array is `V`'s and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (unfetched, its
    block index has not moved), for any proof data whose array is `V`'s and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (unfetched, its
    block index has not moved), for any proof data whose array is `V`'s and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not (unfetched, its
    block index has not moved), for any proof data whose array is `V`'s and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not (unfetched, its
    block index has not moved), for any proof data whose array is `V`'s and whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    pipeline's frame post, read at the 28 argument arrays (none is staged by a window, none is written by a host
    operation), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩) h

/-! ## The body's accesses -/

abbrev r0_0 : Rect S1024x5x88 := Rect.unit (s := S1024x5x88) ![0, 0, 0] S1024x5x88.size inb_S1024x5x88_S1024x5x88_0_0_0
abbrev r0_1 : Rect S1024x88 := Rect.unit (s := S1024x88) ![0, 0] S1024x88.size inb_S1024x88_S1024x88_0_0
abbrev r0_2 : Rect S1024x120 := Rect.unit (s := S1024x120) ![0, 0] S1024x120.size inb_S1024x120_S1024x120_0_0
abbrev r0_3 : Rect S264x64 := Rect.unit (s := S264x64) ![0, 0] S264x64.size inb_S264x64_S264x64_0_0
abbrev r0_4 : Rect S1x64 := Rect.unit (s := S1x64) ![0, 0] S1x64.size inb_S1x64_S1x64_0_0
abbrev r0_5 : Rect S64x32 := Rect.unit (s := S64x32) ![0, 0] S64x32.size inb_S64x32_S64x32_0_0
abbrev r0_6 : Rect S1x32 := Rect.unit (s := S1x32) ![0, 0] S1x32.size inb_S1x32_S1x32_0_0
abbrev r0_7 : Rect S32x1 := Rect.unit (s := S32x1) ![0, 0] S32x1.size inb_S32x1_S32x1_0_0
abbrev r0_8 : Rect S1x1 := Rect.unit (s := S1x1) ![0, 0] S1x1.size inb_S1x1_S1x1_0_0
abbrev r0_9 : Rect S208x128 := Rect.unit (s := S208x128) ![0, 0] S208x128.size inb_S208x128_S208x128_0_0
abbrev r0_10 : Rect S1x128 := Rect.unit (s := S1x128) ![0, 0] S1x128.size inb_S1x128_S1x128_0_0
abbrev r0_11 : Rect S128x64 := Rect.unit (s := S128x64) ![0, 0] S128x64.size inb_S128x64_S128x64_0_0
abbrev r0_12 : Rect S1x64 := Rect.unit (s := S1x64) ![0, 0] S1x64.size inb_S1x64_S1x64_0_0
abbrev r0_13 : Rect S64x32 := Rect.unit (s := S64x32) ![0, 0] S64x32.size inb_S64x32_S64x32_0_0
abbrev r0_14 : Rect S1x32 := Rect.unit (s := S1x32) ![0, 0] S1x32.size inb_S1x32_S1x32_0_0
abbrev r0_15 : Rect S32x1 := Rect.unit (s := S32x1) ![0, 0] S32x1.size inb_S32x1_S32x1_0_0
abbrev r0_16 : Rect S1x1 := Rect.unit (s := S1x1) ![0, 0] S1x1.size inb_S1x1_S1x1_0_0
abbrev r0_17 : Rect S1024x1 := Rect.unit (s := S1024x1) ![0, 0] S1024x1.size inb_S1024x1_S1024x1_0_0

/-! ## What the body leaves in the output window's buffer -/

/-- Window 17's staging buffer after the body, from the 17 input windows' blocks: its one store, of the gating
    score computed from the whole-buffer loads of the inputs. -/
def out0_17 (x0 : Vec F S1024x5x88 .f32) (x1 : Vec F S1024x88 .f32) (x2 : Vec F S1024x120 .f32) (x3 : Vec F S264x64 .f32) (x4 : Vec F S1x64 .f32) (x5 : Vec F S64x32 .f32) (x6 : Vec F S1x32 .f32) (x7 : Vec F S32x1 .f32) (x8 : Vec F S1x1 .f32) (x9 : Vec F S208x128 .f32) (x10 : Vec F S1x128 .f32) (x11 : Vec F S128x64 .f32) (x12 : Vec F S1x64 .f32) (x13 : Vec F S64x32 .f32) (x14 : Vec F S1x32 .f32) (x15 : Vec F S32x1 .f32) (x16 : Vec F S1x1 .f32) : Vec F S1024x1 .f32 :=
  View.canon [⟨r0_17, k0_pay1 (k0_pay4 (k0_pay2 (View.ld x0 r0_0)) (k0_pay3 (View.ld x0 r0_0) (View.ld x1 r0_1) (View.ld x3 r0_3) (View.ld x4 r0_4) (View.ld x5 r0_5) (View.ld x6 r0_6) (View.ld x7 r0_7) (View.ld x8 r0_8)) (View.ld x2 r0_2) (View.ld x9 r0_9) (View.ld x10 r0_10) (View.ld x11 r0_11) (View.ld x12 r0_12) (View.ld x13 r0_13) (View.ld x14 r0_14) (View.ld x15 r0_15)) (View.ld x16 r0_16)⟩]

/-- The one store is of the whole buffer, so it covers it. -/
theorem cover0_17 (p0 : Vec F S1024x1 .f32) (y : S1024x1.Idx) :
    ∃ pc ∈ ([⟨r0_17, p0⟩] : List (View.Piece (Elt F) S1024x1 .f32)), y ∈ pc.1.set :=
  View.cover_of_tiled [⟨r0_17, p0⟩] S1024x1.size (by rfl) y

/-! ## The body's triple -/

set_option maxHeartbeats 4000000 in
/-- The kernel body on whole staging memrefs, the inputs' at read contents `xW` and the output's at anything, runs to
    the continuation holding the inputs' as they were and the output's at `out0_17` of the inputs'. -/
theorem sound_kernel (c : Dev nD) (E : Set ℕ) (i : grid0.Coords) (arg1 : Memref sig .tc .vmem S1024x5x88 .f32) (harg1 : arg1.IsWhole) (arg2 : Memref sig .tc .vmem S1024x88 .f32) (harg2 : arg2.IsWhole) (arg3 : Memref sig .tc .vmem S1024x120 .f32) (harg3 : arg3.IsWhole) (arg4 : Memref sig .tc .vmem S264x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S208x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S64x32 .f32) (harg14 : arg14.IsWhole) (arg15 : Memref sig .tc .vmem S1x32 .f32) (harg15 : arg15.IsWhole) (arg16 : Memref sig .tc .vmem S32x1 .f32) (harg16 : arg16.IsWhole) (arg17 : Memref sig .tc .vmem S1x1 .f32) (harg17 : arg17.IsWhole) (arg18 : Memref sig .tc .vmem S1024x1 .f32) (harg18 : arg18.IsWhole)
    (x0 : Vec F S1024x5x88 .f32) (x1 : Vec F S1024x88 .f32) (x2 : Vec F S1024x120 .f32) (x3 : Vec F S264x64 .f32) (x4 : Vec F S1x64 .f32) (x5 : Vec F S64x32 .f32) (x6 : Vec F S1x32 .f32) (x7 : Vec F S32x1 .f32) (x8 : Vec F S1x1 .f32) (x9 : Vec F S208x128 .f32) (x10 : Vec F S1x128 .f32) (x11 : Vec F S128x64 .f32) (x12 : Vec F S1x64 .f32) (x13 : Vec F S64x32 .f32) (x14 : Vec F S1x32 .f32) (x15 : Vec F S32x1 .f32) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__gating_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gating_kernel_eq_skeleton]; unfold cc0__gating_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover0_17 _)

/-! ## The pipeline's proof data -/

/-- The proof data of the one pipeline on core `c`: the arrays as the region finds them (`V`); after the body at
    point `t` each input's buffer at its block and the output's at `out0_17` of the input blocks; the invariant the
    scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data computes and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without fault and every argument array ends as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.KernelIdeal.Gen2

end
-- ==== Proof.Spec.lean ====
/-
  The function both programs compute, for ONE batch row, on the extended reals.

  A row carries five history items `h s` of 88 features each, the current item `q` (88 features) and 120 further
  features `bf`. For each history item the activation unit reads the 264 numbers `[h s, h s − q, q]`, passes them
  through two affine layers with `max · 0` and a third affine layer to ONE score `sc s`; the history is pooled as
  `pool e = Σ_s h s e · (h s e · sc s)`; the 208 numbers `[bf, pool]` pass through three affine layers with
  `max · 0` and a fourth to one logit, and the row's result is `1 / (1 + exp (−logit))`.
  An affine layer is `dense x W b o = (Σ_k x k · W k o) + b o`; weights are indexed (input, output).
-/
import Idealize.ShloMosaic.PureOps.Ideal

noncomputable section

namespace Cert.Gating

open Idealize.ShloMosaic
open scoped BigOperators

/-- The float zero as the extended reals read its bit pattern (the same literal on both programs' sides). -/
abbrev z : EReal := Ideal.ofBits .f32 0x00000000#32

/-- One affine layer at output `o`. -/
def dense {K N : Nat} (x : Fin K → EReal) (W : Fin K → Fin N → EReal) (b : Fin N → EReal) (o : Fin N) : EReal :=
  (∑ k : Fin K, x k * W k o) + b o

/-- `max · 0`. -/
def relu (x : EReal) : EReal := max x z

/-- The activation unit's input for history item `s`: `[h s, h s − q, q]` laid side by side. -/
def actIn (h : Fin 5 → Fin 88 → EReal) (q : Fin 88 → EReal) (s : Fin 5) (d : Fin 264) : EReal :=
  if h1 : d.val < 88 then h s ⟨d.val, h1⟩
  else if h2 : d.val < 176 then h s ⟨d.val - 88, by omega⟩ - q ⟨d.val - 88, by omega⟩
  else q ⟨d.val - 176, by omega⟩

/-- The activation unit's score of history item `s`. -/
def score (h : Fin 5 → Fin 88 → EReal) (q : Fin 88 → EReal)
    (W1 : Fin 264 → Fin 64 → EReal) (b1 : Fin 64 → EReal) (W2 : Fin 64 → Fin 32 → EReal) (b2 : Fin 32 → EReal)
    (W3 : Fin 32 → Fin 1 → EReal) (b3 : Fin 1 → EReal) (s : Fin 5) : EReal :=
  dense (fun k => relu (dense (fun k' => relu (dense (actIn h q s) W1 b1 k')) W2 b2 k)) W3 b3 0

/-- The history pooled with the scores as weights. -/
def pool (h : Fin 5 → Fin 88 → EReal) (sc : Fin 5 → EReal) (e : Fin 88) : EReal :=
  ∑ s : Fin 5, h s e * (h s e * sc s)

/-- The final network's input: `[bf, pool]` laid side by side. -/
def allFeat (bf : Fin 120 → EReal) (p : Fin 88 → EReal) (d : Fin 208) : EReal :=
  if h1 : d.val < 120 then bf ⟨d.val, h1⟩ else p ⟨d.val - 120, by omega⟩

/-- The row's result. -/
def rowScore (h : Fin 5 → Fin 88 → EReal) (q : Fin 88 → EReal) (bf : Fin 120 → EReal)
    (W1 : Fin 264 → Fin 64 → EReal) (b1 : Fin 64 → EReal) (W2 : Fin 64 → Fin 32 → EReal) (b2 : Fin 32 → EReal)
    (W3 : Fin 32 → Fin 1 → EReal) (b3 : Fin 1 → EReal)
    (M1 : Fin 208 → Fin 128 → EReal) (c1 : Fin 128 → EReal) (M2 : Fin 128 → Fin 64 → EReal) (c2 : Fin 64 → EReal)
    (M3 : Fin 64 → Fin 32 → EReal) (c3 : Fin 32 → EReal) (M4 : Fin 32 → Fin 1 → EReal) (c4 : Fin 1 → EReal) : EReal :=
  Ideal.logistic (dense (fun k => relu (dense (fun k' => relu (dense (fun k'' => relu (dense
    (allFeat bf (pool h (score h q W1 b1 W2 b2 W3 b3))) M1 c1 k'')) M2 c2 k')) M3 c3 k)) M4 c4 0)

end Cert.Gating

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.KernelRow.lean ====
/-
  The kernel body's arithmetic read at one batch row.

  The body works on tables: the [1024, 5, 88] history block, the [1024, 88] item block and the [1024, 120] block of
  further features. It flattens (row, history slot) to 5120 = 1024 · 5 rows, forms [h, h − q, q] side by side, runs
  three products into zero accumulators each followed by a bias row laid over all rows (and `max · 0` after the first
  two), views the [5120, 1] score column as [1024, 5, 1], lays it over the 88 features, multiplies twice by the history,
  sums over the five slots, puts the result beside the further features and runs four more products with biases
  (`max · 0` after three), then adds the last bias and applies the logistic function.

  Read at row r (entry (r, 0) of the [1024, 1] result) this is `Gating.rowScore` of the row's data: every product into
  a zero accumulator plus a bias row is an affine layer of the row read (`dense_apply`); row 5 r + s of a flattened
  table is row (r, s) (`flat_in`, `flat_out`); the two concatenations are `Gating.actIn` and `Gating.allFeat`
  (`concat3_apply`, `concat2_apply`); the reduction over the slot axis is the sum over s (`sum_slots_apply`).
-/
import proofs.«117253_j35613868819029_1_alg».proof.Proof.Gen.KernelIdeal.Skeleton
import proofs.«117253_j35613868819029_1_alg».proof.Proof.Spec
import proofs.«117253_j35613868819029_1_alg».proof.Proof.LibPlainDot
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open scoped BigOperators

/-! ## A plain product's dimension numbers -/

/-- The six index facts of a plain [M,K] × [K,N] product's dimension numbers: one contracted axis of extent K, the
    left operand read at (row, k) and the right one at (k, column). -/
structure Plain {M K N : Nat} (d : DotDims ⟨2, ![M, K]⟩ ⟨2, ![K, N]⟩ ⟨2, ![M, N]⟩) : Prop where
  hr : d.contr.rank = 1
  hs : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The six facts hold by computation for a record whose lists are [1], [0], [0], [1], [], []. -/
local macro "plain_dot" d:ident sl:ident sr:ident : term => `(
  { hr := rfl
    hs := rfl
    l0 := fun i q => by
      unfold DotDims.lhsIdx
      rw [dif_neg (show ¬(0 : Fin (Shape.rank $sl)) ∈ DotDims.lhsBatch $d by decide),
        dif_pos (show (0 : Fin (Shape.rank $sl)) ∈ DotDims.lhsNonContracting $d by decide)]
      rfl
    l1 := fun i q => DotDims.lhsIdx_val_of_single $d rfl i q
    r0 := fun i q => DotDims.rhsIdx_val_of_single $d rfl i q
    r1 := fun i q => by
      unfold DotDims.rhsIdx
      rw [dif_neg (show ¬(1 : Fin (Shape.rank $sr)) ∈ DotDims.rhsBatch $d by decide),
        dif_pos (show (1 : Fin (Shape.rank $sr)) ∈ DotDims.rhsNonContracting $d by decide)]
      rfl })

theorem plain_a1 : Plain dot_S5120x264_S264x64_S5120x64_1_0_0_1_n_n :=
  plain_dot dot_S5120x264_S264x64_S5120x64_1_0_0_1_n_n S5120x264 S264x64
theorem plain_a2 : Plain dot_S5120x64_S64x32_S5120x32_1_0_0_1_n_n :=
  plain_dot dot_S5120x64_S64x32_S5120x32_1_0_0_1_n_n S5120x64 S64x32
theorem plain_a3 : Plain dot_S5120x32_S32x1_S5120x1_1_0_0_1_n_n :=
  plain_dot dot_S5120x32_S32x1_S5120x1_1_0_0_1_n_n S5120x32 S32x1
theorem plain_m1 : Plain dot_S1024x208_S208x128_S1024x128_1_0_0_1_n_n :=
  plain_dot dot_S1024x208_S208x128_S1024x128_1_0_0_1_n_n S1024x208 S208x128
theorem plain_m2 : Plain dot_S1024x128_S128x64_S1024x64_1_0_0_1_n_n :=
  plain_dot dot_S1024x128_S128x64_S1024x64_1_0_0_1_n_n S1024x128 S128x64
theorem plain_m3 : Plain dot_S1024x64_S64x32_S1024x32_1_0_0_1_n_n :=
  plain_dot dot_S1024x64_S64x32_S1024x32_1_0_0_1_n_n S1024x64 S64x32
theorem plain_m4 : Plain dot_S1024x32_S32x1_S1024x1_1_0_0_1_n_n :=
  plain_dot dot_S1024x32_S32x1_S1024x1_1_0_0_1_n_n S1024x32 S32x1

/-! ## One affine layer -/

/-- A product into the zero accumulator of an [M,K] value with a [K,N] weight table, plus a [1,N] bias laid over the
    rows, read at (i, o): the affine layer of row i at output o. -/
theorem dense_apply {M K N : Nat} {d : DotDims ⟨2, ![M, K]⟩ ⟨2, ![K, N]⟩ ⟨2, ![M, N]⟩} (P : Plain d)
    (lhs : FVec Ideal ⟨2, ![M, K]⟩ .f32) (w : FVec Ideal ⟨2, ![K, N]⟩ .f32)
    (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (i : Fin M) (o : Fin N) :
    addf (matmul d none lhs (shapeCast ⟨2, ![K, N]⟩ w hw) (constant (F := Ideal) ⟨2, ![M, N]⟩ .f32 0x00000000#32))
        (broadcastTo ⟨2, ![M, N]⟩ (shapeCast ⟨2, ![1, N]⟩ b hb) hbc) (ix2 i o)
      = Cert.Gating.dense (fun k => lhs (ix2 i k)) (fun k o => w (ix2 k o)) (fun o => b (ix2 (0 : Fin 1) o)) o := by
  rw [shapeCast_self, shapeCast_self, addf_apply]
  simp only [matmul]
  rw [Ideal.matmul_constant_zero_apply, PlainDot.sum_contr_eq d P.hr P.hs P.l0 P.l1 P.r0 P.r1]
  rw [broadcastTo_apply b hbc (ix2 i o) (ix2 (0 : Fin 1) o) (fun a => match a with
    | ⟨0, _⟩ => by
      show (0 : ℕ) = if (1 : ℕ) = 1 then 0 else _
      rw [if_pos rfl]
    | ⟨1, _⟩ => by
      show o.val = if N = 1 then 0 else o.val
      split
      · next h => have := o.isLt; omega
      · rfl)]
  rfl

/-! ## The flattening of (row, history slot) and the two concatenations -/

/-- Row `5 r + s` of the flattened [5120, 264] table is row (r, s) of the [1024, 5, 264] one. -/
theorem flat_in {α : Type} (v : S1024x5x264.Idx → α) (h : S1024x5x264.ShapeCasts S5120x264) (r : Fin 1024) (s : Fin 5)
    (dd : Fin 264) :
    shapeCast S5120x264 v h (ix2 (⟨5 * r.val + s.val, by omega⟩ : Fin 5120) dd) = v (ix3 r s dd) :=
  shapeCast_apply v h _ (ix3 r s dd) (by
    rw [Shape.rowMajor_val_three, Shape.rowMajor_val_two]
    show (r.val * 5 + s.val) * 264 + dd.val = (5 * r.val + s.val) * 264 + dd.val
    omega)

/-- … and entry (r, s, 0) of the [1024, 5, 1] view of a [5120, 1] column is its entry `5 r + s`. -/
theorem flat_out {α : Type} (v : S5120x1.Idx → α) (h : S5120x1.ShapeCasts S1024x5x1) (r : Fin 1024) (s : Fin 5) :
    shapeCast S1024x5x1 v h (ix3 r s (0 : Fin 1)) = v (ix2 (⟨5 * r.val + s.val, by omega⟩ : Fin 5120) (0 : Fin 1)) :=
  shapeCast_apply v h _ (ix2 (⟨5 * r.val + s.val, by omega⟩ : Fin 5120) (0 : Fin 1)) (by
    rw [Shape.rowMajor_val_three, Shape.rowMajor_val_two]
    show (5 * r.val + s.val) * 1 + 0 = ((r.val * 5 + s.val) * 1 + 0)
    omega)

/-- The score column laid over the 88 features reads the score of (r, s) at every feature. -/
theorem bcast_score {α : Type} (v : S1024x5x1.Idx → α) (h : S1024x5x1.Broadcasts S1024x5x88) (r : Fin 1024) (s : Fin 5)
    (e : Fin 88) : broadcastTo S1024x5x88 v h (ix3 r s e) = v (ix3 r s (0 : Fin 1)) :=
  broadcastTo_apply v h _ (ix3 r s (0 : Fin 1)) (fun a => match a with
    | ⟨0, _⟩ => by
      show r.val = if (1024 : ℕ) = 1 then 0 else r.val
      rw [if_neg (by decide)]
    | ⟨1, _⟩ => by
      show s.val = if (5 : ℕ) = 1 then 0 else s.val
      rw [if_neg (by decide)]
    | ⟨2, _⟩ => by
      show (0 : ℕ) = if (1 : ℕ) = 1 then 0 else e.val
      rw [if_pos rfl])

/-- The item block laid over the five history slots reads the row's item at every slot. -/
theorem bcast_item {α : Type} (x : S1024x88.Idx → α) (h0 : S1024x88.ShapeCasts S1024x88) (h1 : S1024x88.ShapeCasts S1024x1x88)
    (h2 : S1024x1x88.ShapeCasts S1024x1x88) (hb : S1024x1x88.Broadcasts S1024x5x88) (r : Fin 1024) (s : Fin 5) (e : Fin 88) :
    broadcastTo S1024x5x88 (shapeCast S1024x1x88 (shapeCast S1024x1x88 (shapeCast S1024x88 x h0) h1) h2) hb (ix3 r s e)
      = x (ix2 r e) := by
  rw [shapeCast_self, shapeCast_self]
  refine (broadcastTo_apply _ hb _ (ix3 r (0 : Fin 1) e) (fun a => match a with
    | ⟨0, _⟩ => by
      show r.val = if (1024 : ℕ) = 1 then 0 else r.val
      rw [if_neg (by decide)]
    | ⟨1, _⟩ => by
      show (0 : ℕ) = if (1 : ℕ) = 1 then 0 else s.val
      rw [if_pos rfl]
    | ⟨2, _⟩ => by
      show e.val = if (88 : ℕ) = 1 then 0 else e.val
      rw [if_neg (by decide)])).trans ?_
  exact shapeCast_apply x h1 _ (ix2 r e) (by
    rw [Shape.rowMajor_val_three, Shape.rowMajor_val_two]
    show r.val * 88 + e.val = (r.val * 1 + 0) * 88 + e.val
    omega)

/-- Three [1024, 5, 88] blocks laid side by side along the last axis, read at (r, s, d). -/
theorem concat3_apply {α : Type} (A B C : S1024x5x88.Idx → α)
    (hc : Shape.Concatenates [S1024x5x88, S1024x5x88, S1024x5x88] S1024x5x264 2)
    (r : Fin 1024) (s : Fin 5) (dd : Fin 264) :
    concatenate S1024x5x264 2 [⟨S1024x5x88, A⟩, ⟨S1024x5x88, B⟩, ⟨S1024x5x88, C⟩] hc (ix3 r s dd)
      = if h1 : dd.val < 88 then A (ix3 r s ⟨dd.val, h1⟩)
        else if h2 : dd.val < 176 then B (ix3 r s ⟨dd.val - 88, by omega⟩)
        else C (ix3 r s ⟨dd.val - 176, by omega⟩) := by
  have hi : ∀ (c : Fin 88) (b : Fin S1024x5x88.rank), b.cast (rfl : S1024x5x88.rank = S1024x5x264.rank) ≠ 2 →
      ((ix3 r s c : S1024x5x88.Idx) b).val = ((ix3 r s dd : S1024x5x264.Idx) (b.cast rfl)).val := fun c b hb =>
    match b, hb with
    | ⟨0, _⟩, _ => rfl
    | ⟨1, _⟩, _ => rfl
    | ⟨2, _⟩, hb => (hb (Fin.ext rfl)).elim
  split
  · next h1 =>
    exact concatenate_apply_piece (t := S1024x5x264) 2 [⟨S1024x5x88, A⟩, ⟨S1024x5x88, B⟩, ⟨S1024x5x88, C⟩] hc (ix3 r s dd) 0 (by simp) S1024x5x88 A rfl rfl 0 rfl (ix3 r s ⟨dd.val, h1⟩) (hi _)
      (by show 0 + dd.val = dd.val; omega)
  · next h1 =>
    split
    · next h2 =>
      exact concatenate_apply_piece (t := S1024x5x264) 2 [⟨S1024x5x88, A⟩, ⟨S1024x5x88, B⟩, ⟨S1024x5x88, C⟩] hc (ix3 r s dd) 1 (by simp) S1024x5x88 B rfl rfl 88 rfl (ix3 r s ⟨dd.val - 88, by omega⟩) (hi _)
        (by show 88 + (dd.val - 88) = dd.val; omega)
    · next h2 =>
      exact concatenate_apply_piece (t := S1024x5x264) 2 [⟨S1024x5x88, A⟩, ⟨S1024x5x88, B⟩, ⟨S1024x5x88, C⟩] hc (ix3 r s dd) 2 (by simp) S1024x5x88 C rfl rfl 176 rfl (ix3 r s ⟨dd.val - 176, by omega⟩) (hi _)
        (by show 176 + (dd.val - 176) = dd.val; omega)

/-- Two blocks, [1024, 120] and [1024, 88], laid side by side, read at (r, d). -/
theorem concat2_apply {α : Type} (A : S1024x120.Idx → α) (B : S1024x88.Idx → α)
    (hc : Shape.Concatenates [S1024x120, S1024x88] S1024x208 1)
    (r : Fin 1024) (dd : Fin 208) :
    concatenate S1024x208 1 [⟨S1024x120, A⟩, ⟨S1024x88, B⟩] hc (ix2 r dd)
      = if h1 : dd.val < 120 then A (ix2 r ⟨dd.val, h1⟩) else B (ix2 r ⟨dd.val - 120, by omega⟩) := by
  split
  · next h1 =>
    exact concatenate_apply_piece (t := S1024x208) 1 [⟨S1024x120, A⟩, ⟨S1024x88, B⟩] hc (ix2 r dd) 0 (by simp) S1024x120 A rfl rfl 0 rfl (ix2 r ⟨dd.val, h1⟩)
      (fun b hb => match b, hb with
        | ⟨0, _⟩, _ => rfl
        | ⟨1, _⟩, hb => (hb (Fin.ext rfl)).elim)
      (by show 0 + dd.val = dd.val; omega)
  · next h1 =>
    exact concatenate_apply_piece (t := S1024x208) 1 [⟨S1024x120, A⟩, ⟨S1024x88, B⟩] hc (ix2 r dd) 1 (by simp) S1024x88 B rfl rfl 120 rfl (ix2 r ⟨dd.val - 120, by omega⟩)
      (fun b hb => match b, hb with
        | ⟨0, _⟩, _ => rfl
        | ⟨1, _⟩, hb => (hb (Fin.ext rfl)).elim)
      (by show 120 + (dd.val - 120) = dd.val; omega)

/-! ## Layers with `max · 0`, and the pooled history -/

/-- An affine layer followed by `max · 0`. -/
theorem relu_dense_apply {M K N : Nat} {d : DotDims ⟨2, ![M, K]⟩ ⟨2, ![K, N]⟩ ⟨2, ![M, N]⟩} (P : Plain d)
    (lhs : FVec Ideal ⟨2, ![M, K]⟩ .f32) (w : FVec Ideal ⟨2, ![K, N]⟩ .f32)
    (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (i : Fin M) (o : Fin N) :
    maximumf (addf (matmul d none lhs (shapeCast ⟨2, ![K, N]⟩ w hw) (constant (F := Ideal) ⟨2, ![M, N]⟩ .f32 0x00000000#32))
        (broadcastTo ⟨2, ![M, N]⟩ (shapeCast ⟨2, ![1, N]⟩ b hb) hbc))
        (broadcast ⟨2, ![M, N]⟩ (Scalar.ofBits (F := Ideal) .f32 0x00000000#32)) (ix2 i o)
      = Cert.Gating.relu (Cert.Gating.dense (fun k => lhs (ix2 i k)) (fun k o => w (ix2 k o))
          (fun o => b (ix2 (0 : Fin 1) o)) o) := by
  rw [maximumf_apply, dense_apply P]
  rfl

/-- The sum over the five history slots of a [1024, 5, 88] block, read at (r, e). -/
theorem sum_slots_apply (v : FVec Ideal S1024x5x88 .f32) (hred : S1024x5x88.Reduces [1] S1024x88)
    (hφ : FKind.Formats .f32) (hacc : (0x00000000#32 : BitVec 32) = FKind.add.neutral .f32 hφ) (r : Fin 1024) (e : Fin 88) :
    multiReduction .add [1] S1024x88 v 0x00000000#32 hred hφ hacc (ix2 r e) = ∑ s : Fin 5, v (ix3 r s e) := by
  refine (Ideal.multiReduction_add_single v _ hred hφ hacc (ix2 r e)).trans ?_
  refine Finset.sum_congr rfl fun k _ => ?_
  refine congrArg v (funext fun c => Fin.ext ?_)
  match c with
  | ⟨0, _⟩ => rfl
  | ⟨1, _⟩ => rfl
  | ⟨2, _⟩ => rfl

/-! ## The activation unit's score -/

theorem pay3_apply (x0 : Vec Ideal S1024x5x88 .f32) (x1 : Vec Ideal S1024x88 .f32)
    (x3 : Vec Ideal S264x64 .f32) (x4 : Vec Ideal S1x64 .f32) (x5 : Vec Ideal S64x32 .f32) (x6 : Vec Ideal S1x32 .f32)
    (x7 : Vec Ideal S32x1 .f32) (x8 : Vec Ideal S1x1 .f32) (r : Fin 1024) (s : Fin 5) (e : Fin 88) :
    k0_pay3 (F := Ideal) x0 x1 x3 x4 x5 x6 x7 x8 (ix3 r s e)
      = Cert.Gating.score (fun s e => x0 (ix3 r s e)) (fun e => x1 (ix2 r e))
          (fun d o => x3 (ix2 d o)) (fun o => x4 (ix2 (0 : Fin 1) o)) (fun d o => x5 (ix2 d o)) (fun o => x6 (ix2 (0 : Fin 1) o))
          (fun d o => x7 (ix2 d o)) (fun o => x8 (ix2 (0 : Fin 1) o)) s := by
  unfold k0_pay3 k0_pay2 Cert.Gating.score
  refine (bcast_score _ _ r s e).trans ?_
  refine (flat_out _ _ r s).trans ?_
  refine (dense_apply plain_a3 _ _ _ _ _ _ _ _).trans ?_
  refine congrArg (fun f => Cert.Gating.dense f _ _ _) (funext fun k => ?_)
  refine (relu_dense_apply plain_a2 _ _ _ _ _ _ _ _).trans ?_
  refine congrArg (fun f => Cert.Gating.relu (Cert.Gating.dense f _ _ _)) (funext fun k' => ?_)
  refine (relu_dense_apply plain_a1 _ _ _ _ _ _ _ _).trans ?_
  refine congrArg (fun f => Cert.Gating.relu (Cert.Gating.dense f _ _ _)) (funext fun dd => ?_)
  refine (flat_in _ _ r s dd).trans ?_
  refine (concat3_apply _ _ _ _ r s dd).trans ?_
  unfold Cert.Gating.actIn
  by_cases h1 : dd.val < 88
  · rw [dif_pos h1, dif_pos h1]
    exact congrFun (shapeCast_self x0 _) _
  · rw [dif_neg h1, dif_neg h1]
    by_cases h2 : dd.val < 176
    · rw [dif_pos h2, dif_pos h2]
      refine (subf_apply _ _ _).trans ?_
      exact congrArg₂ (· - ·) (congrFun (shapeCast_self x0 _) _) (bcast_item x1 _ _ _ _ r s _)
    · rw [dif_neg h2, dif_neg h2]
      exact bcast_item x1 _ _ _ _ r s _

/-! ## The row's result -/

theorem payload_row (x0 : Vec Ideal S1024x5x88 .f32) (x1 : Vec Ideal S1024x88 .f32) (x2 : Vec Ideal S1024x120 .f32)
    (x3 : Vec Ideal S264x64 .f32) (x4 : Vec Ideal S1x64 .f32) (x5 : Vec Ideal S64x32 .f32) (x6 : Vec Ideal S1x32 .f32)
    (x7 : Vec Ideal S32x1 .f32) (x8 : Vec Ideal S1x1 .f32) (x9 : Vec Ideal S208x128 .f32) (x10 : Vec Ideal S1x128 .f32)
    (x11 : Vec Ideal S128x64 .f32) (x12 : Vec Ideal S1x64 .f32) (x13 : Vec Ideal S64x32 .f32) (x14 : Vec Ideal S1x32 .f32)
    (x15 : Vec Ideal S32x1 .f32) (x16 : Vec Ideal S1x1 .f32) (r : Fin 1024) :
    k0_pay1 (F := Ideal) (k0_pay4 (k0_pay2 x0) (k0_pay3 x0 x1 x3 x4 x5 x6 x7 x8) x2 x9 x10 x11 x12 x13 x14 x15) x16 (ix2 r (0 : Fin 1))
      = Cert.Gating.rowScore (fun s e => x0 (ix3 r s e)) (fun e => x1 (ix2 r e)) (fun d => x2 (ix2 r d))
          (fun d o => x3 (ix2 d o)) (fun o => x4 (ix2 (0 : Fin 1) o)) (fun d o => x5 (ix2 d o)) (fun o => x6 (ix2 (0 : Fin 1) o))
          (fun d o => x7 (ix2 d o)) (fun o => x8 (ix2 (0 : Fin 1) o))
          (fun d o => x9 (ix2 d o)) (fun o => x10 (ix2 (0 : Fin 1) o)) (fun d o => x11 (ix2 d o)) (fun o => x12 (ix2 (0 : Fin 1) o))
          (fun d o => x13 (ix2 d o)) (fun o => x14 (ix2 (0 : Fin 1) o)) (fun d o => x15 (ix2 d o)) (fun o => x16 (ix2 (0 : Fin 1) o)) := by
  unfold k0_pay1 k0_pay4 k0_pay2 Cert.Gating.rowScore
  refine congrArg Ideal.logistic ?_
  refine (dense_apply plain_m4 _ _ _ _ _ _ _ _).trans ?_
  refine congrArg (fun f => Cert.Gating.dense f _ _ _) (funext fun k => ?_)
  refine (relu_dense_apply plain_m3 _ _ _ _ _ _ _ _).trans ?_
  refine congrArg (fun f => Cert.Gating.relu (Cert.Gating.dense f _ _ _)) (funext fun k' => ?_)
  refine (relu_dense_apply plain_m2 _ _ _ _ _ _ _ _).trans ?_
  refine congrArg (fun f => Cert.Gating.relu (Cert.Gating.dense f _ _ _)) (funext fun k'' => ?_)
  refine (relu_dense_apply plain_m1 _ _ _ _ _ _ _ _).trans ?_
  refine congrArg (fun f => Cert.Gating.relu (Cert.Gating.dense f _ _ _)) (funext fun dd => ?_)
  refine (concat2_apply _ _ _ r dd).trans ?_
  unfold Cert.Gating.allFeat
  by_cases h1 : dd.val < 120
  · rw [dif_pos h1, dif_pos h1]
    exact congrFun (shapeCast_self x2 _) _
  · rw [dif_neg h1, dif_neg h1]
    refine (sum_slots_apply _ _ _ _ r _).trans ?_
    unfold Cert.Gating.pool
    refine Finset.sum_congr rfl fun s _ => ?_
    refine (mulf_apply _ _ _).trans ?_
    refine congrArg₂ (· * ·) (congrFun (shapeCast_self x0 _) _) ?_
    refine (mulf_apply _ _ _).trans ?_
    exact congrArg₂ (· * ·) (congrFun (shapeCast_self x0 _) _) (pay3_apply x0 x1 x3 x4 x5 x6 x7 x8 r s _)

end Cert.KernelIdeal.Row

end
-- ==== Proof.KernelValue.lean ====
/-
  The kernel program's result array as ONE function of the arrays its region finds: each of the 64 grid points writes
  back the [1024, 1] block of scores of its 1024 rows, a row's score is `Gating.rowScore` of that row of the three
  feature tables and of the weights, and the blocks tile the [65536, 1] result.
-/
import proofs.«117253_j35613868819029_1_alg».proof.Proof.KernelIdealFrame
import proofs.«117253_j35613868819029_1_alg».proof.Proof.Spec
import proofs.«117253_j35613868819029_1_alg».proof.Proof.KernelRow
import Idealize.ShloMosaic.Lib.Pipeline.Value
import Idealize.ShloMosaic.Lib.ValueIdx

set_option maxRecDepth 16384

noncomputable section

namespace Cert.KernelIdeal.Value2

open Cert.KernelIdeal Cert.KernelIdeal.Gen Cert.KernelIdeal.Gen2 Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The batch row an index of the [65536, 1] result names. -/
def rowOf (i : S65536x1.Idx) : Fin 65536 := ⟨(i 0).val, (i 0).isLt⟩

/-- The result array, index by index, over ANY contents `W` of the device's buffers: the row's score from that row
    of the three feature tables and from the weights. -/
def Gw (c : Dev nD) (W : (b : Ref sig .tc) → Buf (Elt Ideal) ((c : Thread nD τ).loc b)) : S65536x1.Idx → EReal := fun i =>
  Cert.Gating.rowScore (fun s e => (W main_v75 : S65536x5x88.Idx → EReal) (ix3 (rowOf i) s e)) (fun e => (W main_v78 : S65536x88.Idx → EReal) (ix2 (rowOf i) e)) (fun d => (W main_v80 : S65536x120.Idx → EReal) (ix2 (rowOf i) d))
    (fun d o => (W main_v81 : S264x64.Idx → EReal) (ix2 d o)) (fun o => (W main_v82 : S1x64.Idx → EReal) (ix2 (0 : Fin 1) o))
    (fun d o => (W main_v83 : S64x32.Idx → EReal) (ix2 d o)) (fun o => (W main_v84 : S1x32.Idx → EReal) (ix2 (0 : Fin 1) o))
    (fun d o => (W main_v85 : S32x1.Idx → EReal) (ix2 d o)) (fun o => (W main_v86 : S1x1.Idx → EReal) (ix2 (0 : Fin 1) o))
    (fun d o => (W main_v87 : S208x128.Idx → EReal) (ix2 d o)) (fun o => (W main_v88 : S1x128.Idx → EReal) (ix2 (0 : Fin 1) o))
    (fun d o => (W main_v89 : S128x64.Idx → EReal) (ix2 d o)) (fun o => (W main_v90 : S1x64.Idx → EReal) (ix2 (0 : Fin 1) o))
    (fun d o => (W main_v91 : S64x32.Idx → EReal) (ix2 d o)) (fun o => (W main_v92 : S1x32.Idx → EReal) (ix2 (0 : Fin 1) o))
    (fun d o => (W main_v93 : S32x1.Idx → EReal) (ix2 d o)) (fun o => (W main_v94 : S1x1.Idx → EReal) (ix2 (0 : Fin 1) o))

/-- The result array over the contents the region finds. -/
def G (c : Dev nD) : S65536x1.Idx → EReal := Gw c (V m c)

/-- Window `w`'s block at point `t` of contents `W`. -/
def blkW (c : Dev nD) (W : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (W (Pipeline.arrRef spec0 w))

theorem iblk_eq (c : Dev nD) (w : Fin cfg0.W) (t : Fin cfg0.N) : iblk m c w t = blkW c (V m c) w t := rfl

/-- WHAT POINT `t` WRITES BACK to the result array: the body's one store, over the input windows' blocks at `t`. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after0_17]

/-- The windows' index maps over the grid: the three row-blocked windows move with the result's block, the weight
    windows stay at block 0. -/
theorem idx_facts : ∀ t : Fin cfg0.N, win0_0.index t (0 : Fin 3) = win0_17.index t (0 : Fin 2)
    ∧ win0_0.index t (1 : Fin 3) = 0
    ∧ win0_0.index t (2 : Fin 3) = 0
    ∧ win0_1.index t (0 : Fin 2) = win0_17.index t (0 : Fin 2)
    ∧ win0_1.index t (1 : Fin 2) = 0
    ∧ win0_2.index t (0 : Fin 2) = win0_17.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (1 : Fin 2) = 0
    ∧ win0_17.index t (0 : Fin 2) ≤ 63 :=
  (by decide +kernel : ∀ t : Fin grid0.N, _)

/-- Every row block of the result is some point's. -/
theorem idx_onto : ∀ q : Fin 64, ∃ t : Fin cfg0.N, win0_17.index t = ![q.val, 0] :=
  (by decide +kernel : ∀ q : Fin 64, ∃ t : Fin grid0.N, win0_17.index t = ![q.val, 0])

/-- The body's arithmetic over the blocks at point `t`, at block position `j`, is the row's score at the array
    position `j` names: the row-blocked windows' rows are the array's rows `1024 · t + j`, the weight windows' blocks
    the whole weight arrays. -/
theorem point_eq (c : Dev nD) (W : (b : Ref sig .tc) → Buf (Elt Ideal) ((c : Thread nD τ).loc b)) (t : Fin cfg0.N) (j : S1024x1.Idx) :
    k0_pay1 (F := Ideal) (k0_pay4 (k0_pay2 (blkW c W 0 t)) (k0_pay3 (blkW c W 0 t) (blkW c W 1 t) (blkW c W 3 t) (blkW c W 4 t) (blkW c W 5 t) (blkW c W 6 t) (blkW c W 7 t) (blkW c W 8 t)) (blkW c W 2 t) (blkW c W 9 t) (blkW c W 10 t) (blkW c W 11 t) (blkW c W 12 t) (blkW c W 13 t) (blkW c W 14 t) (blkW c W 15 t)) (blkW c W 16 t) j
      = Gw c W (((cfg0.win 17).blk t).view.emb j) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have hj1 : (j 1).val < 1 := (j 1).isLt
  have hj0 : (j 0).val < 1024 := (j 0).isLt
  have hj : j = ix2 (⟨(j 0).val, hj0⟩ : Fin 1024) (0 : Fin 1) := funext fun a => Fin.ext (by
    match a with
    | ⟨0, _⟩ => rfl
    | ⟨1, _⟩ => show (j 1).val = 0; omega)
  refine (congrArg _ hj).trans ((Cert.KernelIdeal.Row.payload_row (blkW c W 0 t) (blkW c W 1 t) (blkW c W 2 t) (blkW c W 3 t) (blkW c W 4 t) (blkW c W 5 t) (blkW c W 6 t) (blkW c W 7 t) (blkW c W 8 t) (blkW c W 9 t) (blkW c W 10 t) (blkW c W 11 t) (blkW c W 12 t) (blkW c W 13 t) (blkW c W 14 t) (blkW c W 15 t) (blkW c W 16 t) ⟨(j 0).val, hj0⟩).trans ?_)
  unfold Gw
  have h0 : (fun (s : Fin 5) (e : Fin 88) => blkW c W 0 t (ix3 (⟨(j 0).val, hj0⟩ : Fin 1024) s e)) = (fun s e => (W main_v75 : S65536x5x88.Idx → EReal) (ix3 (rowOf (((cfg0.win 17).blk t).view.emb j)) s e)) :=
    funext fun s => funext fun e => by
      show (W main_v75 : S65536x5x88.Idx → EReal) (((cfg0.win 0).blk t).view.emb (ix3 (⟨(j 0).val, hj0⟩ : Fin 1024) s e)) = _
      refine congrArg _ (funext fun a => Fin.ext ?_)
      match a with
      | ⟨0, _⟩ => show win0_0.index t (0 : Fin 3) * 1024 + 1 * (j 0).val = win0_17.index t (0 : Fin 2) * 1024 + 1 * (j 0).val; omega
      | ⟨1, _⟩ => show win0_0.index t (1 : Fin 3) * 5 + 1 * s.val = s.val; omega
      | ⟨2, _⟩ => show win0_0.index t (2 : Fin 3) * 88 + 1 * e.val = e.val; omega
  have h1 : (fun (e : Fin 88) => blkW c W 1 t (ix2 (⟨(j 0).val, hj0⟩ : Fin 1024) e)) = (fun e => (W main_v78 : S65536x88.Idx → EReal) (ix2 (rowOf (((cfg0.win 17).blk t).view.emb j)) e)) :=
    funext fun e => by
      show (W main_v78 : S65536x88.Idx → EReal) (((cfg0.win 1).blk t).view.emb (ix2 (⟨(j 0).val, hj0⟩ : Fin 1024) e)) = _
      refine congrArg _ (funext fun a => Fin.ext ?_)
      match a with
      | ⟨0, _⟩ => show win0_1.index t (0 : Fin 2) * 1024 + 1 * (j 0).val = win0_17.index t (0 : Fin 2) * 1024 + 1 * (j 0).val; omega
      | ⟨1, _⟩ => show win0_1.index t (1 : Fin 2) * 88 + 1 * e.val = e.val; omega
  have h2 : (fun (e : Fin 120) => blkW c W 2 t (ix2 (⟨(j 0).val, hj0⟩ : Fin 1024) e)) = (fun e => (W main_v80 : S65536x120.Idx → EReal) (ix2 (rowOf (((cfg0.win 17).blk t).view.emb j)) e)) :=
    funext fun e => by
      show (W main_v80 : S65536x120.Idx → EReal) (((cfg0.win 2).blk t).view.emb (ix2 (⟨(j 0).val, hj0⟩ : Fin 1024) e)) = _
      refine congrArg _ (funext fun a => Fin.ext ?_)
      match a with
      | ⟨0, _⟩ => show win0_2.index t (0 : Fin 2) * 1024 + 1 * (j 0).val = win0_17.index t (0 : Fin 2) * 1024 + 1 * (j 0).val; omega
      | ⟨1, _⟩ => show win0_2.index t (1 : Fin 2) * 120 + 1 * e.val = e.val; omega
  have h3 : (fun (d : Fin 264) (o : Fin 64) => blkW c W 3 t (ix2 d o)) = (fun d o => (W main_v81 : S264x64.Idx → EReal) (ix2 d o)) :=
    funext fun d => funext fun o => by
      show (W main_v81 : S264x64.Idx → EReal) (((cfg0.win 3).blk t).view.emb (ix2 d o)) = _
      refine congrArg _ (funext fun a => Fin.ext ?_)
      match a with
      | ⟨0, _⟩ => show win0_3.index t (0 : Fin 2) * 264 + 1 * d.val = d.val; omega
      | ⟨1, _⟩ => show win0_3.index t (1 : Fin 2) * 64 + 1 * o.val = o.val; omega
  have h4 : (fun (o : Fin 64) => blkW c W 4 t (ix2 (0 : Fin 1) o)) = (fun o => (W main_v82 : S1x64.Idx → EReal) (ix2 (0 : Fin 1) o)) :=
    funext fun o => by
      show (W main_v82 : S1x64.Idx → EReal) (((cfg0.win 4).blk t).view.emb (ix2 (0 : Fin 1) o)) = _
      refine congrArg _ (funext fun a => Fin.ext ?_)
      match a with
      | ⟨0, _⟩ => show win0_4.index t (0 : Fin 2) * 1 + 1 * 0 = 0; omega
      | ⟨1, _⟩ => show win0_4.index t (1 : Fin 2) * 64 + 1 * o.val = o.val; omega
  have h5 : (fun (d : Fin 64) (o : Fin 32) => blkW c W 5 t (ix2 d o)) = (fun d o => (W main_v83 : S64x32.Idx → EReal) (ix2 d o)) :=
    funext fun d => funext fun o => by
      show (W main_v83 : S64x32.Idx → EReal) (((cfg0.win 5).blk t).view.emb (ix2 d o)) = _
      refine congrArg _ (funext fun a => Fin.ext ?_)
      match a with
      | ⟨0, _⟩ => show win0_5.index t (0 : Fin 2) * 64 + 1 * d.val = d.val; omega
      | ⟨1, _⟩ => show win0_5.index t (1 : Fin 2) * 32 + 1 * o.val = o.val; omega
  have h6 : (fun (o : Fin 32) => blkW c W 6 t (ix2 (0 : Fin 1) o)) = (fun o => (W main_v84 : S1x32.Idx → EReal) (ix2 (0 : Fin 1) o)) :=
    funext fun o => by
      show (W main_v84 : S1x32.Idx → EReal) (((cfg0.win 6).blk t).view.emb (ix2 (0 : Fin 1) o)) = _
      refine congrArg _ (funext fun a => Fin.ext ?_)
      match a with
      | ⟨0, _⟩ => show win0_6.index t (0 : Fin 2) * 1 + 1 * 0 = 0; omega
      | ⟨1, _⟩ => show win0_6.index t (1 : Fin 2) * 32 + 1 * o.val = o.val; omega
  have h7 : (fun (d : Fin 32) (o : Fin 1) => blkW c W 7 t (ix2 d o)) = (fun d o => (W main_v85 : S32x1.Idx → EReal) (ix2 d o)) :=
    funext fun d => funext fun o => by
      show (W main_v85 : S32x1.Idx → EReal) (((cfg0.win 7).blk t).view.emb (ix2 d o)) = _
      refine congrArg _ (funext fun a => Fin.ext ?_)
      match a with
      | ⟨0, _⟩ => show win0_7.index t (0 : Fin 2) * 32 + 1 * d.val = d.val; omega
      | ⟨1, _⟩ => show win0_7.index t (1 : Fin 2) * 1 + 1 * o.val = o.val; omega
  have h8 : (fun (o : Fin 1) => blkW c W 8 t (ix2 (0 : Fin 1) o)) = (fun o => (W main_v86 : S1x1.Idx → EReal) (ix2 (0 : Fin 1) o)) :=
    funext fun o => by
      show (W main_v86 : S1x1.Idx → EReal) (((cfg0.win 8).blk t).view.emb (ix2 (0 : Fin 1) o)) = _
      refine congrArg _ (funext fun a => Fin.ext ?_)
      match a with
      | ⟨0, _⟩ => show win0_8.index t (0 : Fin 2) * 1 + 1 * 0 = 0; omega
      | ⟨1, _⟩ => show win0_8.index t (1 : Fin 2) * 1 + 1 * o.val = o.val; omega
  have h9 : (fun (d : Fin 208) (o : Fin 128) => blkW c W 9 t (ix2 d o)) = (fun d o => (W main_v87 : S208x128.Idx → EReal) (ix2 d o)) :=
    funext fun d => funext fun o => by
      show (W main_v87 : S208x128.Idx → EReal) (((cfg0.win 9).blk t).view.emb (ix2 d o)) = _
      refine congrArg _ (funext fun a => Fin.ext ?_)
      match a with
      | ⟨0, _⟩ => show win0_9.index t (0 : Fin 2) * 208 + 1 * d.val = d.val; omega
      | ⟨1, _⟩ => show win0_9.index t (1 : Fin 2) * 128 + 1 * o.val = o.val; omega
  have h10 : (fun (o : Fin 128) => blkW c W 10 t (ix2 (0 : Fin 1) o)) = (fun o => (W main_v88 : S1x128.Idx → EReal) (ix2 (0 : Fin 1) o)) :=
    funext fun o => by
      show (W main_v88 : S1x128.Idx → EReal) (((cfg0.win 10).blk t).view.emb (ix2 (0 : Fin 1) o)) = _
      refine congrArg _ (funext fun a => Fin.ext ?_)
      match a with
      | ⟨0, _⟩ => show win0_10.index t (0 : Fin 2) * 1 + 1 * 0 = 0; omega
      | ⟨1, _⟩ => show win0_10.index t (1 : Fin 2) * 128 + 1 * o.val = o.val; omega
  have h11 : (fun (d : Fin 128) (o : Fin 64) => blkW c W 11 t (ix2 d o)) = (fun d o => (W main_v89 : S128x64.Idx → EReal) (ix2 d o)) :=
    funext fun d => funext fun o => by
      show (W main_v89 : S128x64.Idx → EReal) (((cfg0.win 11).blk t).view.emb (ix2 d o)) = _
      refine congrArg _ (funext fun a => Fin.ext ?_)
      match a with
      | ⟨0, _⟩ => show win0_11.index t (0 : Fin 2) * 128 + 1 * d.val = d.val; omega
      | ⟨1, _⟩ => show win0_11.index t (1 : Fin 2) * 64 + 1 * o.val = o.val; omega
  have h12 : (fun (o : Fin 64) => blkW c W 12 t (ix2 (0 : Fin 1) o)) = (fun o => (W main_v90 : S1x64.Idx → EReal) (ix2 (0 : Fin 1) o)) :=
    funext fun o => by
      show (W main_v90 : S1x64.Idx → EReal) (((cfg0.win 12).blk t).view.emb (ix2 (0 : Fin 1) o)) = _
      refine congrArg _ (funext fun a => Fin.ext ?_)
      match a with
      | ⟨0, _⟩ => show win0_12.index t (0 : Fin 2) * 1 + 1 * 0 = 0; omega
      | ⟨1, _⟩ => show win0_12.index t (1 : Fin 2) * 64 + 1 * o.val = o.val; omega
  have h13 : (fun (d : Fin 64) (o : Fin 32) => blkW c W 13 t (ix2 d o)) = (fun d o => (W main_v91 : S64x32.Idx → EReal) (ix2 d o)) :=
    funext fun d => funext fun o => by
      show (W main_v91 : S64x32.Idx → EReal) (((cfg0.win 13).blk t).view.emb (ix2 d o)) = _
      refine congrArg _ (funext fun a => Fin.ext ?_)
      match a with
      | ⟨0, _⟩ => show win0_13.index t (0 : Fin 2) * 64 + 1 * d.val = d.val; omega
      | ⟨1, _⟩ => show win0_13.index t (1 : Fin 2) * 32 + 1 * o.val = o.val; omega
  have h14 : (fun (o : Fin 32) => blkW c W 14 t (ix2 (0 : Fin 1) o)) = (fun o => (W main_v92 : S1x32.Idx → EReal) (ix2 (0 : Fin 1) o)) :=
    funext fun o => by
      show (W main_v92 : S1x32.Idx → EReal) (((cfg0.win 14).blk t).view.emb (ix2 (0 : Fin 1) o)) = _
      refine congrArg _ (funext fun a => Fin.ext ?_)
      match a with
      | ⟨0, _⟩ => show win0_14.index t (0 : Fin 2) * 1 + 1 * 0 = 0; omega
      | ⟨1, _⟩ => show win0_14.index t (1 : Fin 2) * 32 + 1 * o.val = o.val; omega
  have h15 : (fun (d : Fin 32) (o : Fin 1) => blkW c W 15 t (ix2 d o)) = (fun d o => (W main_v93 : S32x1.Idx → EReal) (ix2 d o)) :=
    funext fun d => funext fun o => by
      show (W main_v93 : S32x1.Idx → EReal) (((cfg0.win 15).blk t).view.emb (ix2 d o)) = _
      refine congrArg _ (funext fun a => Fin.ext ?_)
      match a with
      | ⟨0, _⟩ => show win0_15.index t (0 : Fin 2) * 32 + 1 * d.val = d.val; omega
      | ⟨1, _⟩ => show win0_15.index t (1 : Fin 2) * 1 + 1 * o.val = o.val; omega
  have h16 : (fun (o : Fin 1) => blkW c W 16 t (ix2 (0 : Fin 1) o)) = (fun o => (W main_v94 : S1x1.Idx → EReal) (ix2 (0 : Fin 1) o)) :=
    funext fun o => by
      show (W main_v94 : S1x1.Idx → EReal) (((cfg0.win 16).blk t).view.emb (ix2 (0 : Fin 1) o)) = _
      refine congrArg _ (funext fun a => Fin.ext ?_)
      match a with
      | ⟨0, _⟩ => show win0_16.index t (0 : Fin 2) * 1 + 1 * 0 = 0; omega
      | ⟨1, _⟩ => show win0_16.index t (1 : Fin 2) * 1 + 1 * o.val = o.val; omega
  rw [h0, h1, h2, h3, h4, h5, h6, h7, h8, h9, h10, h11, h12, h13, h14, h15, h16]

/-- WHAT POINT `t` WRITES BACK is block `t` of `G`. -/
theorem flushed17_eq (c : Dev nD) (t : Fin cfg0.N) :
    (dats m 0 c).flushed 17 t = ((cfg0.win 17).blk t).view.read (Elt Ideal) (G m c) := by
  rw [flushed17]
  unfold out0_17
  rw [View.canon_unit_zero hz2]
  simp only [View.ld_unit_zero (S := S1024x5x88) hz3, View.ld_unit_zero (S := S1024x88) hz2, View.ld_unit_zero (S := S1024x120) hz2, View.ld_unit_zero (S := S264x64) hz2, View.ld_unit_zero (S := S1x64) hz2, View.ld_unit_zero (S := S64x32) hz2, View.ld_unit_zero (S := S1x32) hz2, View.ld_unit_zero (S := S32x1) hz2, View.ld_unit_zero (S := S1x1) hz2, View.ld_unit_zero (S := S208x128) hz2, View.ld_unit_zero (S := S1x128) hz2, View.ld_unit_zero (S := S128x64) hz2]
  funext j
  simp only [iblk_eq]
  exact point_eq c (V m c) t j

/-- An index of the result array is in point `t`'s block iff each coordinate is in the block's range on its axis. -/
theorem mem_blk17 (t : Fin cfg0.N) (i : S65536x1.Idx) :
    i ∈ ((cfg0.win 17).blk t).view.set ↔ ∀ a : Fin 2, win0_17.index t a * S1024x1.size a ≤ (i a).val ∧ (i a).val < win0_17.index t a * S1024x1.size a + S1024x1.size a := by
  show i ∈ ((View.whole main_v95).slice (win0_17.rect t)).set ↔ _
  rw [View.set_slice_whole, Rect.mem_set_unit]
  exact Iff.rfl

/-- The 64 blocks cover the result array: row `b` lies in the block of point `b / 1024`. -/
theorem cover17 (i : S65536x1.Idx) : ∃ t : Fin cfg0.N, (cfg0.win 17).flush t = true ∧ i ∈ ((cfg0.win 17).blk t).view.set := by
  have hi0 : (i 0).val < 65536 := (i 0).isLt
  have hi1 : (i 1).val < 1 := (i 1).isLt
  obtain ⟨t, ht⟩ := idx_onto ⟨(i 0).val / 1024, by omega⟩
  have q0 : win0_17.index t (0 : Fin 2) = (i 0).val / 1024 := congrFun ht 0
  have q1 : win0_17.index t (1 : Fin 2) = 0 := congrFun ht 1
  refine ⟨t, flush0_17 t, ?_⟩
  rw [mem_blk17]
  intro a
  match a with
  | ⟨0, _⟩ => show win0_17.index t (0 : Fin 2) * 1024 ≤ (i 0).val ∧ (i 0).val < win0_17.index t (0 : Fin 2) * 1024 + 1024; omega
  | ⟨1, _⟩ => show win0_17.index t (1 : Fin 2) * 1 ≤ (i 1).val ∧ (i 1).val < win0_17.index t (1 : Fin 2) * 1 + 1; omega

/-- THE RESULT ARRAY after the run is `G`. -/
theorem final17 (c : Dev nD) : (dats m 0 c).arrAt 17 cfg0.N = G m c :=
  (dats m 0 c).arrAt_eq_of_cover 17 (G m c) (fun t _ => flushed17_eq m c t) cover17

/-- The run of the kernel program: it terminates without fault, the result array ends at `G`, the 28 argument arrays
    end unchanged. -/
theorem run : θ_run defs (onTc (τ := τ) (main (F := Ideal))) ⟨m, fun _ => 0, ρ⟩ fun r => ∀ c : Dev nD,
      r.2.mem ((c.tc : Thread nD τ).loc main_v95) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c => ⟨((h c).1 17).trans (final17 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩)
    (run_main m ρ)

end Cert.KernelIdeal.Value2

end
-- ==== Proof.KRead.lean ====
/-
  The host operations that run before the kernel's region, each as a function of @main's 28 argument arrays: the
  embedding rows taken out of their tables (negative indices wrapped, then clamped by the gather), the kind features
  masked where the kind is 0, the history / current-item / base feature tables laid out for the region, and the
  transposed weights and row-shaped biases. `kv_<buffer>` is the value the operation writes; `after_<buffer>` says the
  buffer holds that value when the region is entered.
-/
import proofs.«117253_j35613868819029_1_alg».proof.Proof.Gen.KernelIdeal.Launch
import Idealize.ShloMosaic.Lib.StableHlo.Run

set_option maxRecDepth 16384

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

def kv_main_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536 x0 shapeCasts_S65536x1_S65536

def kv_main_c (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v1 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c x0 x1 x2 x3 x4 x5 x6 x7 x8 x9 x10 x11 x12 x13 x14 x15 x16 x17 x18 x19 x20 x21 x22 x23 x24 x25 x26 x27)

def kv_main_v2 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536, .i32⟩ : BufTy).Contents (Elt F) → (⟨S65536, .i32⟩ : BufTy).Contents (Elt F) → (⟨S65536, .i1⟩ : BufTy).Contents (Elt F)) (kv_main_v0 x0 x1 x2 x3 x4 x5 x6 x7 x8 x9 x10 x11 x12 x13 x14 x15 x16 x17 x18 x19 x20 x21 x22 x23 x24 x25 x26 x27) (kv_main_v1 x0 x1 x2 x3 x4 x5 x6 x7 x8 x9 x10 x11 x12 x13 x14 x15 x16 x17 x18 x19 x20 x21 x22 x23 x24 x25 x26 x27)

def kv_main_c_0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 1000000#32)

def kv_main_v3 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_0 x0 x1 x2 x3 x4 x5 x6 x7 x8 x9 x10 x11 x12 x13 x14 x15 x16 x17 x18 x19 x20 x21 x22 x23 x24 x25 x26 x27)

def kv_main_v4 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536, .i32⟩ : BufTy).Contents (Elt F) → (⟨S65536, .i32⟩ : BufTy).Contents (Elt F) → (⟨S65536, .i32⟩ : BufTy).Contents (Elt F)) (kv_main_v0 x0 x1 x2 x3 x4 x5 x6 x7 x8 x9 x10 x11 x12 x13 x14 x15 x16 x17 x18 x19 x20 x21 x22 x23 x24 x25 x26 x27) (kv_main_v3 x0 x1 x2 x3 x4 x5 x6 x7 x8 x9 x10 x11 x12 x13 x14 x15 x16 x17 x18 x19 x20 x21 x22 x23 x24 x25 x26 x27)

def kv_main_v5 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (kv_main_v2 x0 x1 x2 x3 x4 x5 x6 x7 x8 x9 x10 x11 x12 x13 x14 x15 x16 x17 x18 x19 x20 x21 x22 x23 x24 x25 x26 x27) (kv_main_v4 x0 x1 x2 x3 x4 x5 x6 x7 x8 x9 x10 x11 x12 x13 x14 x15 x16 x17 x18 x19 x20 x21 x22 x23 x24 x25 x26 x27) (kv_main_v0 x0 x1 x2 x3 x4 x5 x6 x7 x8 x9 x10 x11 x12 x13 x14 x15 x16 x17 x18 x19 x20 x21 x22 x23 x24 x25 x26 x27)

def kv_main_v6 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![0] bcast_S65536_S65536x1_0 : (⟨S65536, .i32⟩ : BufTy).Contents (Elt F) → (⟨S65536x1, .i32⟩ : BufTy).Contents (Elt F)) (kv_main_v5 x0 x1 x2 x3 x4 x5 x6 x7 x8 x9 x10 x11 x12 x13 x14 x15 x16 x17 x18 x19 x20 x21 x22 x23 x24 x25 x26 x27)

def kv_main_v7 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S1000000x8_S65536x1_S65536x8_1_0_n_n_0_1_18 x i) : (⟨S1000000x8, .f32⟩ : BufTy).Contents (Elt F) → (⟨S65536x1, .i32⟩ : BufTy).Contents (Elt F) → (⟨S65536x8, .f32⟩ : BufTy).Contents (Elt F)) x8 (kv_main_v6 x0 x1 x2 x3 x4 x5 x6 x7 x8 x9 x10 x11 x12 x13 x14 x15 x16 x17 x18 x19 x20 x21 x22 x23 x24 x25 x26 x27)

def kv_main_v8 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536 x1 shapeCasts_S65536x1_S65536

def kv_main_c_1 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v9 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_1 x0 x1 x2 x3 x4 x5 x6 x7 x8 x9 x10 x11 x12 x13 x14 x15 x16 x17 x18 x19 x20 x21 x22 x23 x24 x25 x26 x27)

def kv_main_v10 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536, .i32⟩ : BufTy).Contents (Elt F) → (⟨S65536, .i32⟩ : BufTy).Contents (Elt F) → (⟨S65536, .i1⟩ : BufTy).Contents (Elt F)) (kv_main_v8 x0 x1 x2 x3 x4 x5 x6 x7 x8 x9 x10 x11 x12 x13 x14 x15 x16 x17 x18 x19 x20 x21 x22 x23 x24 x25 x26 x27) (kv_main_v9 x0 x1 x2 x3 x4 x5 x6 x7 x8 x9 x10 x11 x12 x13 x14 x15 x16 x17 x18 x19 x20 x21 x22 x23 x24 x25 x26 x27)

def kv_main_c_2 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 1000000#32)

def kv_main_v11 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_2 x0 x1 x2 x3 x4 x5 x6 x7 x8 x9 x10 x11 x12 x13 x14 x15 x16 x17 x18 x19 x20 x21 x22 x23 x24 x25 x26 x27)

def kv_main_v12 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536, .i32⟩ : BufTy).Contents (Elt F) → (⟨S65536, .i32⟩ : BufTy).Contents (Elt F) → (⟨S65536, .i32⟩ : BufTy).Contents (Elt F)) (kv_main_v8 x0 x1 x2 x3 x4 x5 x6 x7 x8 x9 x10 x11 x12 x13 x14 x15 x16 x17 x18 x19 x20 x21 x22 x23 x24 x25 x26 x27) (kv_main_v11 x0 x1 x2 x3 x4 x5 x6 x7 x8 x9 x10 x11 x12 x13 x14 x15 x16 x17 x18 x19 x20 x21 x22 x23 x24 x25 x26 x27)

def kv_main_v13 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (kv_main_v10 x0 x1 x2 x3 x4 x5 x6 x7 x8 x9 x10 x11 x12 x13 x14 x15 x16 x17 x18 x19 x20 x21 x22 x23 x24 x25 x26 x27) (kv_main_v12 x0 x1 x2 x3 x4 x5 x6 x7 x8 x9 x10 x11 x12 x13 x14 x15 x16 x17 x18 x19 x20 x21 x22 x23 x24 x25 x26 x27) (kv_main_v8 x0 x1 x2 x3 x4 x5 x6 x7 x8 x9 x10 x11 x12 x13 x14 x15 x16 x17 x18 x19 x20 x21 x22 x23 x24 x25 x26 x27)

def kv_main_v14 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![0] bcast_S65536_S65536x1_0 : (⟨S65536, .i32⟩ : BufTy).Contents (Elt F) → (⟨S65536x1, .i32⟩ : BufTy).Contents (Elt F)) (kv_main_v13 x0 x1 x2 x3 x4 x5 x6 x7 x8 x9 x10 x11 x12 x13 x14 x15 x16 x17 x18 x19 x20 x21 x22 x23 x24 x25 x26 x27)

def kv_main_v15 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S1000000x8_S65536x1_S65536x8_1_0_n_n_0_1_18 x i) : (⟨S1000000x8, .f32⟩ : BufTy).Contents (Elt F) → (⟨S65536x1, .i32⟩ : BufTy).Contents (Elt F) → (⟨S65536x8, .f32⟩ : BufTy).Contents (Elt F)) x9 (kv_main_v14 x0 x1 x2 x3 x4 x5 x6 x7 x8 x9 x10 x11 x12 x13 x14 x15 x16 x17 x18 x19 x20 x21 x22 x23 x24 x25 x26 x27)

def kv_main_v16 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536 x2 shapeCasts_S65536x1_S65536

def kv_main_c_3 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v17 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_3 x0 x1 x2 x3 x4 x5 x6 x7 x8 x9 x10 x11 x12 x13 x14 x15 x16 x17 x18 x19 x20 x21 x22 x23 x24 x25 x26 x27)

def kv_main_v18 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536, .i32⟩ : BufTy).Contents (Elt F) → (⟨S65536, .i32⟩ : BufTy).Contents (Elt F) → (⟨S65536, .i1⟩ : BufTy).Contents (Elt F)) (kv_main_v16 x0 x1 x2 x3 x4 x5 x6 x7 x8 x9 x10 x11 x12 x13 x14 x15 x16 x17 x18 x19 x20 x21 x22 x23 x24 x25 x26 x27) (kv_main_v17 x0 x1 x2 x3 x4 x5 x6 x7 x8 x9 x10 x11 x12 x13 x14 x15 x16 x17 x18 x19 x20 x21 x22 x23 x24 x25 x26 x27)

def kv_main_c_4 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 8#32)

def kv_main_v19 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_4 x0 x1 x2 x3 x4 x5 x6 x7 x8 x9 x10 x11 x12 x13 x14 x15 x16 x17 x18 x19 x20 x21 x22 x23 x24 x25 x26 x27)

def kv_main_v20 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536, .i32⟩ : BufTy).Contents (Elt F) → (⟨S65536, .i32⟩ : BufTy).Contents (Elt F) → (⟨S65536, .i32⟩ : BufTy).Contents (Elt F)) (kv_main_v16 x0 x1 x2 x3 x4 x5 x6 x7 x8 x9 x10 x11 x12 x13 x14 x15 x16 x17 x18 x19 x20 x21 x22 x23 x24 x25 x26 x27) (kv_main_v19 x0 x1 x2 x3 x4 x5 x6 x7 x8 x9 x10 x11 x12 x13 x14 x15 x16 x17 x18 x19 x20 x21 x22 x23 x24 x25 x26 x27)

def kv_main_v21 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (kv_main_v18 x0 x1 x2 x3 x4 x5 x6 x7 x8 x9 x10 x11 x12 x13 x14 x15 x16 x17 x18 x19 x20 x21 x22 x23 x24 x25 x26 x27) (kv_main_v20 x0 x1 x2 x3 x4 x5 x6 x7 x8 x9 x10 x11 x12 x13 x14 x15 x16 x17 x18 x19 x20 x21 x22 x23 x24 x25 x26 x27) (kv_main_v16 x0 x1 x2 x3 x4 x5 x6 x7 x8 x9 x10 x11 x12 x13 x14 x15 x16 x17 x18 x19 x20 x21 x22 x23 x24 x25 x26 x27)

def kv_main_v22 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![0] bcast_S65536_S65536x1_0 : (⟨S65536, .i32⟩ : BufTy).Contents (Elt F) → (⟨S65536x1, .i32⟩ : BufTy).Contents (Elt F)) (kv_main_v21 x0 x1 x2 x3 x4 x5 x6 x7 x8 x9 x10 x11 x12 x13 x14 x15 x16 x17 x18 x19 x20 x21 x22 x23 x24 x25 x26 x27)

def kv_main_v23 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S8x8_S65536x1_S65536x8_1_0_n_n_0_1_18 x i) : (⟨S8x8, .f32⟩ : BufTy).Contents (Elt F) → (⟨S65536x1, .i32⟩ : BufTy).Contents (Elt F) → (⟨S65536x8, .f32⟩ : BufTy).Contents (Elt F)) x10 (kv_main_v22 x0 x1 x2 x3 x4 x5 x6 x7 x8 x9 x10 x11 x12 x13 x14 x15 x16 x17 x18 x19 x20 x21 x22 x23 x24 x25 x26 x27)

def kv_main_v24 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536 x3 shapeCasts_S65536x1_S65536

def kv_main_c_5 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v25 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_5 x0 x1 x2 x3 x4 x5 x6 x7 x8 x9 x10 x11 x12 x13 x14 x15 x16 x17 x18 x19 x20 x21 x22 x23 x24 x25 x26 x27)

def kv_main_v26 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536, .i32⟩ : BufTy).Contents (Elt F) → (⟨S65536, .i32⟩ : BufTy).Contents (Elt F) → (⟨S65536, .i1⟩ : BufTy).Contents (Elt F)) (kv_main_v24 x0 x1 x2 x3 x4 x5 x6 x7 x8 x9 x10 x11 x12 x13 x14 x15 x16 x17 x18 x19 x20 x21 x22 x23 x24 x25 x26 x27) (kv_main_v25 x0 x1 x2 x3 x4 x5 x6 x7 x8 x9 x10 x11 x12 x13 x14 x15 x16 x17 x18 x19 x20 x21 x22 x23 x24 x25 x26 x27)

def kv_main_c_6 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 3#32)

def kv_main_v27 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_6 x0 x1 x2 x3 x4 x5 x6 x7 x8 x9 x10 x11 x12 x13 x14 x15 x16 x17 x18 x19 x20 x21 x22 x23 x24 x25 x26 x27)

def kv_main_v28 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536, .i32⟩ : BufTy).Contents (Elt F) → (⟨S65536, .i32⟩ : BufTy).Contents (Elt F) → (⟨S65536, .i32⟩ : BufTy).Contents (Elt F)) (kv_main_v24 x0 x1 x2 x3 x4 x5 x6 x7 x8 x9 x10 x11 x12 x13 x14 x15 x16 x17 x18 x19 x20 x21 x22 x23 x24 x25 x26 x27) (kv_main_v27 x0 x1 x2 x3 x4 x5 x6 x7 x8 x9 x10 x11 x12 x13 x14 x15 x16 x17 x18 x19 x20 x21 x22 x23 x24 x25 x26 x27)

def kv_main_v29 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (kv_main_v26 x0 x1 x2 x3 x4 x5 x6 x7 x8 x9 x10 x11 x12 x13 x14 x15 x16 x17 x18 x19 x20 x21 x22 x23 x24 x25 x26 x27) (kv_main_v28 x0 x1 x2 x3 x4 x5 x6 x7 x8 x9 x10 x11 x12 x13 x14 x15 x16 x17 x18 x19 x20 x21 x22 x23 x24 x25 x26 x27) (kv_main_v24 x0 x1 x2 x3 x4 x5 x6 x7 x8 x9 x10 x11 x12 x13 x14 x15 x16 x17 x18 x19 x20 x21 x22 x23 x24 x25 x26 x27)

def kv_main_v30 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![0] bcast_S65536_S65536x1_0 : (⟨S65536, .i32⟩ : BufTy).Contents (Elt F) → (⟨S65536x1, .i32⟩ : BufTy).Contents (Elt F)) (kv_main_v29 x0 x1 x2 x3 x4 x5 x6 x7 x8 x9 x10 x11 x12 x13 x14 x15 x16 x17 x18 x19 x20 x21 x22 x23 x24 x25 x26 x27)

def kv_main_v31 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S3x8_S65536x1_S65536x8_1_0_n_n_0_1_18 x i) : (⟨S3x8, .f32⟩ : BufTy).Contents (Elt F) → (⟨S65536x1, .i32⟩ : BufTy).Contents (Elt F) → (⟨S65536x8, .f32⟩ : BufTy).Contents (Elt F)) x11 (kv_main_v30 x0 x1 x2 x3 x4 x5 x6 x7 x8 x9 x10 x11 x12 x13 x14 x15 x16 x17 x18 x19 x20 x21 x22 x23 x24 x25 x26 x27)

def kv_main_v32 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536 x4 shapeCasts_S65536x1_S65536

def kv_main_c_7 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v33 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_7 x0 x1 x2 x3 x4 x5 x6 x7 x8 x9 x10 x11 x12 x13 x14 x15 x16 x17 x18 x19 x20 x21 x22 x23 x24 x25 x26 x27)

def kv_main_v34 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536, .i32⟩ : BufTy).Contents (Elt F) → (⟨S65536, .i32⟩ : BufTy).Contents (Elt F) → (⟨S65536, .i1⟩ : BufTy).Contents (Elt F)) (kv_main_v32 x0 x1 x2 x3 x4 x5 x6 x7 x8 x9 x10 x11 x12 x13 x14 x15 x16 x17 x18 x19 x20 x21 x22 x23 x24 x25 x26 x27) (kv_main_v33 x0 x1 x2 x3 x4 x5 x6 x7 x8 x9 x10 x11 x12 x13 x14 x15 x16 x17 x18 x19 x20 x21 x22 x23 x24 x25 x26 x27)

def kv_main_c_8 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 25#32)

def kv_main_v35 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536 ![] bcast_S_S65536 : (⟨S_, .i32⟩ : BufTy).Contents (Elt F) → (⟨S65536, .i32⟩ : BufTy).Contents (Elt F)) (kv_main_c_8 x0 x1 x2 x3 x4 x5 x6 x7 x8 x9 x10 x11 x12 x13 x14 x15 x16 x17 x18 x19 x20 x21 x22 x23 x24 x25 x26 x27)

def kv_main_v36 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536, .i32⟩ : BufTy).Contents (Elt F) → (⟨S65536, .i32⟩ : BufTy).Contents (Elt F) → (⟨S65536, .i32⟩ : BufTy).Contents (Elt F)) (kv_main_v32 x0 x1 x2 x3 x4 x5 x6 x7 x8 x9 x10 x11 x12 x13 x14 x15 x16 x17 x18 x19 x20 x21 x22 x23 x24 x25 x26 x27) (kv_main_v35 x0 x1 x2 x3 x4 x5 x6 x7 x8 x9 x10 x11 x12 x13 x14 x15 x16 x17 x18 x19 x20 x21 x22 x23 x24 x25 x26 x27)

def kv_main_v37 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (kv_main_v34 x0 x1 x2 x3 x4 x5 x6 x7 x8 x9 x10 x11 x12 x13 x14 x15 x16 x17 x18 x19 x20 x21 x22 x23 x24 x25 x26 x27) (kv_main_v36 x0 x1 x2 x3 x4 x5 x6 x7 x8 x9 x10 x11 x12 x13 x14 x15 x16 x17 x18 x19 x20 x21 x22 x23 x24 x25 x26 x27) (kv_main_v32 x0 x1 x2 x3 x4 x5 x6 x7 x8 x9 x10 x11 x12 x13 x14 x15 x16 x17 x18 x19 x20 x21 x22 x23 x24 x25 x26 x27)

def kv_main_v38 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![0] bcast_S65536_S65536x1_0 : (⟨S65536, .i32⟩ : BufTy).Contents (Elt F) → (⟨S65536x1, .i32⟩ : BufTy).Contents (Elt F)) (kv_main_v37 x0 x1 x2 x3 x4 x5 x6 x7 x8 x9 x10 x11 x12 x13 x14 x15 x16 x17 x18 x19 x20 x21 x22 x23 x24 x25 x26 x27)

def kv_main_v39 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S25x8_S65536x1_S65536x8_1_0_n_n_0_1_18 x i) : (⟨S25x8, .f32⟩ : BufTy).Contents (Elt F) → (⟨S65536x1, .i32⟩ : BufTy).Contents (Elt F) → (⟨S65536x8, .f32⟩ : BufTy).Contents (Elt F)) x12 (kv_main_v38 x0 x1 x2 x3 x4 x5 x6 x7 x8 x9 x10 x11 x12 x13 x14 x15 x16 x17 x18 x19 x20 x21 x22 x23 x24 x25 x26 x27)

def kv_main_c_9 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v40 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10 ![] bcast_S_S65536x10 : (⟨S_, .i32⟩ : BufTy).Contents (Elt F) → (⟨S65536x10, .i32⟩ : BufTy).Contents (Elt F)) (kv_main_c_9 x0 x1 x2 x3 x4 x5 x6 x7 x8 x9 x10 x11 x12 x13 x14 x15 x16 x17 x18 x19 x20 x21 x22 x23 x24 x25 x26 x27)

def kv_main_v41 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x10, .i32⟩ : BufTy).Contents (Elt F) → (⟨S65536x10, .i32⟩ : BufTy).Contents (Elt F) → (⟨S65536x10, .i1⟩ : BufTy).Contents (Elt F)) x5 (kv_main_v40 x0 x1 x2 x3 x4 x5 x6 x7 x8 x9 x10 x11 x12 x13 x14 x15 x16 x17 x18 x19 x20 x21 x22 x23 x24 x25 x26 x27)

def kv_main_c_10 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 20#32)

def kv_main_v42 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10 ![] bcast_S_S65536x10 : (⟨S_, .i32⟩ : BufTy).Contents (Elt F) → (⟨S65536x10, .i32⟩ : BufTy).Contents (Elt F)) (kv_main_c_10 x0 x1 x2 x3 x4 x5 x6 x7 x8 x9 x10 x11 x12 x13 x14 x15 x16 x17 x18 x19 x20 x21 x22 x23 x24 x25 x26 x27)

def kv_main_v43 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x10, .i32⟩ : BufTy).Contents (Elt F) → (⟨S65536x10, .i32⟩ : BufTy).Contents (Elt F) → (⟨S65536x10, .i32⟩ : BufTy).Contents (Elt F)) x5 (kv_main_v42 x0 x1 x2 x3 x4 x5 x6 x7 x8 x9 x10 x11 x12 x13 x14 x15 x16 x17 x18 x19 x20 x21 x22 x23 x24 x25 x26 x27)

def kv_main_v44 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x10, .i1⟩ : BufTy).Contents (Elt F) → (⟨S65536x10, .i32⟩ : BufTy).Contents (Elt F) → (⟨S65536x10, .i32⟩ : BufTy).Contents (Elt F) → (⟨S65536x10, .i32⟩ : BufTy).Contents (Elt F)) (kv_main_v41 x0 x1 x2 x3 x4 x5 x6 x7 x8 x9 x10 x11 x12 x13 x14 x15 x16 x17 x18 x19 x20 x21 x22 x23 x24 x25 x26 x27) (kv_main_v43 x0 x1 x2 x3 x4 x5 x6 x7 x8 x9 x10 x11 x12 x13 x14 x15 x16 x17 x18 x19 x20 x21 x22 x23 x24 x25 x26 x27) x5

def kv_main_v45 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10x1 ![0, 1] bcast_S65536x10_S65536x10x1_0_1 : (⟨S65536x10, .i32⟩ : BufTy).Contents (Elt F) → (⟨S65536x10x1, .i32⟩ : BufTy).Contents (Elt F)) (kv_main_v44 x0 x1 x2 x3 x4 x5 x6 x7 x8 x9 x10 x11 x12 x13 x14 x15 x16 x17 x18 x19 x20 x21 x22 x23 x24 x25 x26 x27)

def kv_main_v46 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S20x8_S65536x10x1_S65536x10x8_2_0_n_n_0_2_18 x i) : (⟨S20x8, .f32⟩ : BufTy).Contents (Elt F) → (⟨S65536x10x1, .i32⟩ : BufTy).Contents (Elt F) → (⟨S65536x10x8, .f32⟩ : BufTy).Contents (Elt F)) x13 (kv_main_v45 x0 x1 x2 x3 x4 x5 x6 x7 x8 x9 x10 x11 x12 x13 x14 x15 x16 x17 x18 x19 x20 x21 x22 x23 x24 x25 x26 x27)

def kv_main_c_11 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v47 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10 ![] bcast_S_S65536x10 : (⟨S_, .i32⟩ : BufTy).Contents (Elt F) → (⟨S65536x10, .i32⟩ : BufTy).Contents (Elt F)) (kv_main_c_11 x0 x1 x2 x3 x4 x5 x6 x7 x8 x9 x10 x11 x12 x13 x14 x15 x16 x17 x18 x19 x20 x21 x22 x23 x24 x25 x26 x27)

def kv_main_v48 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .ne : (⟨S65536x10, .i32⟩ : BufTy).Contents (Elt F) → (⟨S65536x10, .i32⟩ : BufTy).Contents (Elt F) → (⟨S65536x10, .i1⟩ : BufTy).Contents (Elt F)) x5 (kv_main_v47 x0 x1 x2 x3 x4 x5 x6 x7 x8 x9 x10 x11 x12 x13 x14 x15 x16 x17 x18 x19 x20 x21 x22 x23 x24 x25 x26 x27)

def kv_main_v49 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10x1 ![0, 1] bcast_S65536x10_S65536x10x1_0_1 : (⟨S65536x10, .i1⟩ : BufTy).Contents (Elt F) → (⟨S65536x10x1, .i1⟩ : BufTy).Contents (Elt F)) (kv_main_v48 x0 x1 x2 x3 x4 x5 x6 x7 x8 x9 x10 x11 x12 x13 x14 x15 x16 x17 x18 x19 x20 x21 x22 x23 x24 x25 x26 x27)

def kv_main_v50 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (uitofp .f32 : (⟨S65536x10x1, .i1⟩ : BufTy).Contents (Elt F) → (⟨S65536x10x1, .f32⟩ : BufTy).Contents (Elt F)) (kv_main_v49 x0 x1 x2 x3 x4 x5 x6 x7 x8 x9 x10 x11 x12 x13 x14 x15 x16 x17 x18 x19 x20 x21 x22 x23 x24 x25 x26 x27)

def kv_main_v51 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10x8 ![0, 1, 2] bcast_S65536x10x1_S65536x10x8_0_1_2 : (⟨S65536x10x1, .f32⟩ : BufTy).Contents (Elt F) → (⟨S65536x10x8, .f32⟩ : BufTy).Contents (Elt F)) (kv_main_v50 x0 x1 x2 x3 x4 x5 x6 x7 x8 x9 x10 x11 x12 x13 x14 x15 x16 x17 x18 x19 x20 x21 x22 x23 x24 x25 x26 x27)

def kv_main_v52 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (mulf : (⟨S65536x10x8, .f32⟩ : BufTy).Contents (Elt F) → (⟨S65536x10x8, .f32⟩ : BufTy).Contents (Elt F) → (⟨S65536x10x8, .f32⟩ : BufTy).Contents (Elt F)) (kv_main_v46 x0 x1 x2 x3 x4 x5 x6 x7 x8 x9 x10 x11 x12 x13 x14 x15 x16 x17 x18 x19 x20 x21 x22 x23 x24 x25 x26 x27) (kv_main_v51 x0 x1 x2 x3 x4 x5 x6 x7 x8 x9 x10 x11 x12 x13 x14 x15 x16 x17 x18 x19 x20 x21 x22 x23 x24 x25 x26 x27)

def kv_main_c_12 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v53 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5 ![] bcast_S_S65536x5 : (⟨S_, .i32⟩ : BufTy).Contents (Elt F) → (⟨S65536x5, .i32⟩ : BufTy).Contents (Elt F)) (kv_main_c_12 x0 x1 x2 x3 x4 x5 x6 x7 x8 x9 x10 x11 x12 x13 x14 x15 x16 x17 x18 x19 x20 x21 x22 x23 x24 x25 x26 x27)

def kv_main_v54 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x5, .i32⟩ : BufTy).Contents (Elt F) → (⟨S65536x5, .i32⟩ : BufTy).Contents (Elt F) → (⟨S65536x5, .i1⟩ : BufTy).Contents (Elt F)) x6 (kv_main_v53 x0 x1 x2 x3 x4 x5 x6 x7 x8 x9 x10 x11 x12 x13 x14 x15 x16 x17 x18 x19 x20 x21 x22 x23 x24 x25 x26 x27)

def kv_main_c_13 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 1000000#32)

def kv_main_v55 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5 ![] bcast_S_S65536x5 : (⟨S_, .i32⟩ : BufTy).Contents (Elt F) → (⟨S65536x5, .i32⟩ : BufTy).Contents (Elt F)) (kv_main_c_13 x0 x1 x2 x3 x4 x5 x6 x7 x8 x9 x10 x11 x12 x13 x14 x15 x16 x17 x18 x19 x20 x21 x22 x23 x24 x25 x26 x27)

def kv_main_v56 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x5, .i32⟩ : BufTy).Contents (Elt F) → (⟨S65536x5, .i32⟩ : BufTy).Contents (Elt F) → (⟨S65536x5, .i32⟩ : BufTy).Contents (Elt F)) x6 (kv_main_v55 x0 x1 x2 x3 x4 x5 x6 x7 x8 x9 x10 x11 x12 x13 x14 x15 x16 x17 x18 x19 x20 x21 x22 x23 x24 x25 x26 x27)

def kv_main_v57 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x5, .i1⟩ : BufTy).Contents (Elt F) → (⟨S65536x5, .i32⟩ : BufTy).Contents (Elt F) → (⟨S65536x5, .i32⟩ : BufTy).Contents (Elt F) → (⟨S65536x5, .i32⟩ : BufTy).Contents (Elt F)) (kv_main_v54 x0 x1 x2 x3 x4 x5 x6 x7 x8 x9 x10 x11 x12 x13 x14 x15 x16 x17 x18 x19 x20 x21 x22 x23 x24 x25 x26 x27) (kv_main_v56 x0 x1 x2 x3 x4 x5 x6 x7 x8 x9 x10 x11 x12 x13 x14 x15 x16 x17 x18 x19 x20 x21 x22 x23 x24 x25 x26 x27) x6

def kv_main_v58 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x1 ![0, 1] bcast_S65536x5_S65536x5x1_0_1 : (⟨S65536x5, .i32⟩ : BufTy).Contents (Elt F) → (⟨S65536x5x1, .i32⟩ : BufTy).Contents (Elt F)) (kv_main_v57 x0 x1 x2 x3 x4 x5 x6 x7 x8 x9 x10 x11 x12 x13 x14 x15 x16 x17 x18 x19 x20 x21 x22 x23 x24 x25 x26 x27)

def kv_main_v59 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S1000000x8_S65536x5x1_S65536x5x8_2_0_n_n_0_2_18 x i) : (⟨S1000000x8, .f32⟩ : BufTy).Contents (Elt F) → (⟨S65536x5x1, .i32⟩ : BufTy).Contents (Elt F) → (⟨S65536x5x8, .f32⟩ : BufTy).Contents (Elt F)) x9 (kv_main_v58 x0 x1 x2 x3 x4 x5 x6 x7 x8 x9 x10 x11 x12 x13 x14 x15 x16 x17 x18 x19 x20 x21 x22 x23 x24 x25 x26 x27)

def kv_main_c_14 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v60 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10 ![] bcast_S_S65536x5x10 : (⟨S_, .i32⟩ : BufTy).Contents (Elt F) → (⟨S65536x5x10, .i32⟩ : BufTy).Contents (Elt F)) (kv_main_c_14 x0 x1 x2 x3 x4 x5 x6 x7 x8 x9 x10 x11 x12 x13 x14 x15 x16 x17 x18 x19 x20 x21 x22 x23 x24 x25 x26 x27)

def kv_main_v61 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x5x10, .i32⟩ : BufTy).Contents (Elt F) → (⟨S65536x5x10, .i32⟩ : BufTy).Contents (Elt F) → (⟨S65536x5x10, .i1⟩ : BufTy).Contents (Elt F)) x7 (kv_main_v60 x0 x1 x2 x3 x4 x5 x6 x7 x8 x9 x10 x11 x12 x13 x14 x15 x16 x17 x18 x19 x20 x21 x22 x23 x24 x25 x26 x27)

def kv_main_c_15 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 20#32)

def kv_main_v62 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10 ![] bcast_S_S65536x5x10 : (⟨S_, .i32⟩ : BufTy).Contents (Elt F) → (⟨S65536x5x10, .i32⟩ : BufTy).Contents (Elt F)) (kv_main_c_15 x0 x1 x2 x3 x4 x5 x6 x7 x8 x9 x10 x11 x12 x13 x14 x15 x16 x17 x18 x19 x20 x21 x22 x23 x24 x25 x26 x27)

def kv_main_v63 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x5x10, .i32⟩ : BufTy).Contents (Elt F) → (⟨S65536x5x10, .i32⟩ : BufTy).Contents (Elt F) → (⟨S65536x5x10, .i32⟩ : BufTy).Contents (Elt F)) x7 (kv_main_v62 x0 x1 x2 x3 x4 x5 x6 x7 x8 x9 x10 x11 x12 x13 x14 x15 x16 x17 x18 x19 x20 x21 x22 x23 x24 x25 x26 x27)

def kv_main_v64 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x5x10, .i1⟩ : BufTy).Contents (Elt F) → (⟨S65536x5x10, .i32⟩ : BufTy).Contents (Elt F) → (⟨S65536x5x10, .i32⟩ : BufTy).Contents (Elt F) → (⟨S65536x5x10, .i32⟩ : BufTy).Contents (Elt F)) (kv_main_v61 x0 x1 x2 x3 x4 x5 x6 x7 x8 x9 x10 x11 x12 x13 x14 x15 x16 x17 x18 x19 x20 x21 x22 x23 x24 x25 x26 x27) (kv_main_v63 x0 x1 x2 x3 x4 x5 x6 x7 x8 x9 x10 x11 x12 x13 x14 x15 x16 x17 x18 x19 x20 x21 x22 x23 x24 x25 x26 x27) x7

def kv_main_v65 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10x1 ![0, 1, 2] bcast_S65536x5x10_S65536x5x10x1_0_1_2 : (⟨S65536x5x10, .i32⟩ : BufTy).Contents (Elt F) → (⟨S65536x5x10x1, .i32⟩ : BufTy).Contents (Elt F)) (kv_main_v64 x0 x1 x2 x3 x4 x5 x6 x7 x8 x9 x10 x11 x12 x13 x14 x15 x16 x17 x18 x19 x20 x21 x22 x23 x24 x25 x26 x27)

def kv_main_v66 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S20x8_S65536x5x10x1_S65536x5x10x8_3_0_n_n_0_3_18 x i) : (⟨S20x8, .f32⟩ : BufTy).Contents (Elt F) → (⟨S65536x5x10x1, .i32⟩ : BufTy).Contents (Elt F) → (⟨S65536x5x10x8, .f32⟩ : BufTy).Contents (Elt F)) x13 (kv_main_v65 x0 x1 x2 x3 x4 x5 x6 x7 x8 x9 x10 x11 x12 x13 x14 x15 x16 x17 x18 x19 x20 x21 x22 x23 x24 x25 x26 x27)

def kv_main_c_16 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def kv_main_v67 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10 ![] bcast_S_S65536x5x10 : (⟨S_, .i32⟩ : BufTy).Contents (Elt F) → (⟨S65536x5x10, .i32⟩ : BufTy).Contents (Elt F)) (kv_main_c_16 x0 x1 x2 x3 x4 x5 x6 x7 x8 x9 x10 x11 x12 x13 x14 x15 x16 x17 x18 x19 x20 x21 x22 x23 x24 x25 x26 x27)

def kv_main_v68 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .ne : (⟨S65536x5x10, .i32⟩ : BufTy).Contents (Elt F) → (⟨S65536x5x10, .i32⟩ : BufTy).Contents (Elt F) → (⟨S65536x5x10, .i1⟩ : BufTy).Contents (Elt F)) x7 (kv_main_v67 x0 x1 x2 x3 x4 x5 x6 x7 x8 x9 x10 x11 x12 x13 x14 x15 x16 x17 x18 x19 x20 x21 x22 x23 x24 x25 x26 x27)

def kv_main_v69 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10x1 ![0, 1, 2] bcast_S65536x5x10_S65536x5x10x1_0_1_2 : (⟨S65536x5x10, .i1⟩ : BufTy).Contents (Elt F) → (⟨S65536x5x10x1, .i1⟩ : BufTy).Contents (Elt F)) (kv_main_v68 x0 x1 x2 x3 x4 x5 x6 x7 x8 x9 x10 x11 x12 x13 x14 x15 x16 x17 x18 x19 x20 x21 x22 x23 x24 x25 x26 x27)

def kv_main_v70 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (uitofp .f32 : (⟨S65536x5x10x1, .i1⟩ : BufTy).Contents (Elt F) → (⟨S65536x5x10x1, .f32⟩ : BufTy).Contents (Elt F)) (kv_main_v69 x0 x1 x2 x3 x4 x5 x6 x7 x8 x9 x10 x11 x12 x13 x14 x15 x16 x17 x18 x19 x20 x21 x22 x23 x24 x25 x26 x27)

def kv_main_v71 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10x8 ![0, 1, 2, 3] bcast_S65536x5x10x1_S65536x5x10x8_0_1_2_3 : (⟨S65536x5x10x1, .f32⟩ : BufTy).Contents (Elt F) → (⟨S65536x5x10x8, .f32⟩ : BufTy).Contents (Elt F)) (kv_main_v70 x0 x1 x2 x3 x4 x5 x6 x7 x8 x9 x10 x11 x12 x13 x14 x15 x16 x17 x18 x19 x20 x21 x22 x23 x24 x25 x26 x27)

def kv_main_v72 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (mulf : (⟨S65536x5x10x8, .f32⟩ : BufTy).Contents (Elt F) → (⟨S65536x5x10x8, .f32⟩ : BufTy).Contents (Elt F) → (⟨S65536x5x10x8, .f32⟩ : BufTy).Contents (Elt F)) (kv_main_v66 x0 x1 x2 x3 x4 x5 x6 x7 x8 x9 x10 x11 x12 x13 x14 x15 x16 x17 x18 x19 x20 x21 x22 x23 x24 x25 x26 x27) (kv_main_v71 x0 x1 x2 x3 x4 x5 x6 x7 x8 x9 x10 x11 x12 x13 x14 x15 x16 x17 x18 x19 x20 x21 x22 x23 x24 x25 x26 x27)

def kv_main_v73 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x1x8 ![0, 1, 3] bcast_S65536x5x8_S65536x5x1x8_0_1_3 : (⟨S65536x5x8, .f32⟩ : BufTy).Contents (Elt F) → (⟨S65536x5x1x8, .f32⟩ : BufTy).Contents (Elt F)) (kv_main_v59 x0 x1 x2 x3 x4 x5 x6 x7 x8 x9 x10 x11 x12 x13 x14 x15 x16 x17 x18 x19 x20 x21 x22 x23 x24 x25 x26 x27)

def kv_main_v74 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun a b => concatenate S65536x5x11x8 2 [⟨S65536x5x1x8, a⟩, ⟨S65536x5x10x8, b⟩] concatenates_S65536x5x1x8_S65536x5x10x8_S65536x5x11x8_d2) : (⟨S65536x5x1x8, .f32⟩ : BufTy).Contents (Elt F) → (⟨S65536x5x10x8, .f32⟩ : BufTy).Contents (Elt F) → (⟨S65536x5x11x8, .f32⟩ : BufTy).Contents (Elt F)) (kv_main_v73 x0 x1 x2 x3 x4 x5 x6 x7 x8 x9 x10 x11 x12 x13 x14 x15 x16 x17 x18 x19 x20 x21 x22 x23 x24 x25 x26 x27) (kv_main_v72 x0 x1 x2 x3 x4 x5 x6 x7 x8 x9 x10 x11 x12 x13 x14 x15 x16 x17 x18 x19 x20 x21 x22 x23 x24 x25 x26 x27)

def kv_main_v75 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536x5x88 (kv_main_v74 x0 x1 x2 x3 x4 x5 x6 x7 x8 x9 x10 x11 x12 x13 x14 x15 x16 x17 x18 x19 x20 x21 x22 x23 x24 x25 x26 x27) shapeCasts_S65536x5x11x8_S65536x5x88

def kv_main_v76 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1x8 ![0, 2] bcast_S65536x8_S65536x1x8_0_2 : (⟨S65536x8, .f32⟩ : BufTy).Contents (Elt F) → (⟨S65536x1x8, .f32⟩ : BufTy).Contents (Elt F)) (kv_main_v15 x0 x1 x2 x3 x4 x5 x6 x7 x8 x9 x10 x11 x12 x13 x14 x15 x16 x17 x18 x19 x20 x21 x22 x23 x24 x25 x26 x27)

def kv_main_v77 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun a b => concatenate S65536x11x8 1 [⟨S65536x1x8, a⟩, ⟨S65536x10x8, b⟩] concatenates_S65536x1x8_S65536x10x8_S65536x11x8_d1) : (⟨S65536x1x8, .f32⟩ : BufTy).Contents (Elt F) → (⟨S65536x10x8, .f32⟩ : BufTy).Contents (Elt F) → (⟨S65536x11x8, .f32⟩ : BufTy).Contents (Elt F)) (kv_main_v76 x0 x1 x2 x3 x4 x5 x6 x7 x8 x9 x10 x11 x12 x13 x14 x15 x16 x17 x18 x19 x20 x21 x22 x23 x24 x25 x26 x27) (kv_main_v52 x0 x1 x2 x3 x4 x5 x6 x7 x8 x9 x10 x11 x12 x13 x14 x15 x16 x17 x18 x19 x20 x21 x22 x23 x24 x25 x26 x27)

def kv_main_v78 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536x88 (kv_main_v77 x0 x1 x2 x3 x4 x5 x6 x7 x8 x9 x10 x11 x12 x13 x14 x15 x16 x17 x18 x19 x20 x21 x22 x23 x24 x25 x26 x27) shapeCasts_S65536x11x8_S65536x88

def kv_main_v79 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536x80 (kv_main_v52 x0 x1 x2 x3 x4 x5 x6 x7 x8 x9 x10 x11 x12 x13 x14 x15 x16 x17 x18 x19 x20 x21 x22 x23 x24 x25 x26 x27) shapeCasts_S65536x10x8_S65536x80

def kv_main_v80 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  concatenate S65536x120 1 [⟨S65536x8, (kv_main_v7 x0 x1 x2 x3 x4 x5 x6 x7 x8 x9 x10 x11 x12 x13 x14 x15 x16 x17 x18 x19 x20 x21 x22 x23 x24 x25 x26 x27)⟩, ⟨S65536x8, (kv_main_v15 x0 x1 x2 x3 x4 x5 x6 x7 x8 x9 x10 x11 x12 x13 x14 x15 x16 x17 x18 x19 x20 x21 x22 x23 x24 x25 x26 x27)⟩, ⟨S65536x8, (kv_main_v23 x0 x1 x2 x3 x4 x5 x6 x7 x8 x9 x10 x11 x12 x13 x14 x15 x16 x17 x18 x19 x20 x21 x22 x23 x24 x25 x26 x27)⟩, ⟨S65536x8, (kv_main_v31 x0 x1 x2 x3 x4 x5 x6 x7 x8 x9 x10 x11 x12 x13 x14 x15 x16 x17 x18 x19 x20 x21 x22 x23 x24 x25 x26 x27)⟩, ⟨S65536x8, (kv_main_v39 x0 x1 x2 x3 x4 x5 x6 x7 x8 x9 x10 x11 x12 x13 x14 x15 x16 x17 x18 x19 x20 x21 x22 x23 x24 x25 x26 x27)⟩, ⟨S65536x80, (kv_main_v79 x0 x1 x2 x3 x4 x5 x6 x7 x8 x9 x10 x11 x12 x13 x14 x15 x16 x17 x18 x19 x20 x21 x22 x23 x24 x25 x26 x27)⟩] concatenates_S65536x8_S65536x8_S65536x8_S65536x8_S65536x8_S65536x80_S65536x120_d1

def kv_main_v81 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S264x64 [1, 0] · transposes_S64x264_S264x64_1_0) : (⟨S64x264, .f32⟩ : BufTy).Contents (Elt F) → (⟨S264x64, .f32⟩ : BufTy).Contents (Elt F)) x14

def kv_main_v82 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x64 x15 shapeCasts_S64_S1x64

def kv_main_v83 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S64x32 [1, 0] · transposes_S32x64_S64x32_1_0) : (⟨S32x64, .f32⟩ : BufTy).Contents (Elt F) → (⟨S64x32, .f32⟩ : BufTy).Contents (Elt F)) x16

def kv_main_v84 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x32 x17 shapeCasts_S32_S1x32

def kv_main_v85 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S32x1 [1, 0] · transposes_S1x32_S32x1_1_0) : (⟨S1x32, .f32⟩ : BufTy).Contents (Elt F) → (⟨S32x1, .f32⟩ : BufTy).Contents (Elt F)) x18

def kv_main_v86 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x1 x19 shapeCasts_S1_S1x1

def kv_main_v87 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S208x128 [1, 0] · transposes_S128x208_S208x128_1_0) : (⟨S128x208, .f32⟩ : BufTy).Contents (Elt F) → (⟨S208x128, .f32⟩ : BufTy).Contents (Elt F)) x20

def kv_main_v88 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x128 x21 shapeCasts_S128_S1x128

def kv_main_v89 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S128x64 [1, 0] · transposes_S64x128_S128x64_1_0) : (⟨S64x128, .f32⟩ : BufTy).Contents (Elt F) → (⟨S128x64, .f32⟩ : BufTy).Contents (Elt F)) x22

def kv_main_v90 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x64 x23 shapeCasts_S64_S1x64

def kv_main_v91 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S64x32 [1, 0] · transposes_S32x64_S64x32_1_0) : (⟨S32x64, .f32⟩ : BufTy).Contents (Elt F) → (⟨S64x32, .f32⟩ : BufTy).Contents (Elt F)) x24

def kv_main_v92 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x32 x25 shapeCasts_S32_S1x32

def kv_main_v93 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S32x1 [1, 0] · transposes_S1x32_S32x1_1_0) : (⟨S1x32, .f32⟩ : BufTy).Contents (Elt F) → (⟨S32x1, .f32⟩ : BufTy).Contents (Elt F)) x26

def kv_main_v94 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S1x1 x27 shapeCasts_S1_S1x1

/-! ## What the buffers hold when the region is entered -/

/-- A six-operand operation's result, each operand's contents at its own reference. -/
theorem nary6_result' {Val : EltTy → Type} {r0 r1 r2 r3 r4 r5 y : Ref sig .tc}
    (f : ((k : Fin 6) → ((![r0, r1, r2, r3, r4, r5] : Fin 6 → Ref sig .tc) k).ty.Contents Val) → y.ty.Contents Val) (hxs hy)
    (Fv : Valuation τ sig Val) :
    (nary (τ := τ) ![r0, r1, r2, r3, r4, r5] y f hxs hy).result Fv (no_index (Proc.devRef .tc y))
      = f (Fin.cons (Fv (Proc.devRef .tc r0)) (Fin.cons (Fv (Proc.devRef .tc r1)) (Fin.cons (Fv (Proc.devRef .tc r2))
          (Fin.cons (Fv (Proc.devRef .tc r3)) (Fin.cons (Fv (Proc.devRef .tc r4)) (Fin.cons (Fv (Proc.devRef .tc r5)) (fun i => i.elim0))))))) := by
  rw [nary_result]; congr 1; funext k; fin_cases k <;> rfl

/-- The buffers' contents after a line of operations, by one rewriting pass. -/
macro "after_results6" : tactic =>
  `(tactic| (simp (disch := decide) only [hostOps0, after_cons, after_nil,
      nullary_result', unary_result', binary_result', ternary_result', reshape_result', nary6_result',
      nullary_result_ne', unary_result_ne', binary_result_ne', ternary_result_ne', reshape_result_ne', nary_result_ne']))

variable (m : (ℓ : Loc nD τ sig) → Buf (Elt F) ℓ)

set_option maxHeartbeats 4000000 in
theorem after_main_v75 (c : Dev nD) :
    (StableHlo.after (hostOps0 (F := F)) (fun b => m (c, b)) (Proc.devRef .tc main_v75) : (⟨S65536x5x88, .f32⟩ : BufTy).Contents (Elt F))
      = kv_main_v75 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v78 (c : Dev nD) :
    (StableHlo.after (hostOps0 (F := F)) (fun b => m (c, b)) (Proc.devRef .tc main_v78) : (⟨S65536x88, .f32⟩ : BufTy).Contents (Elt F))
      = kv_main_v78 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v80 (c : Dev nD) :
    (StableHlo.after (hostOps0 (F := F)) (fun b => m (c, b)) (Proc.devRef .tc main_v80) : (⟨S65536x120, .f32⟩ : BufTy).Contents (Elt F))
      = kv_main_v80 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v81 (c : Dev nD) :
    (StableHlo.after (hostOps0 (F := F)) (fun b => m (c, b)) (Proc.devRef .tc main_v81) : (⟨S264x64, .f32⟩ : BufTy).Contents (Elt F))
      = kv_main_v81 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v82 (c : Dev nD) :
    (StableHlo.after (hostOps0 (F := F)) (fun b => m (c, b)) (Proc.devRef .tc main_v82) : (⟨S1x64, .f32⟩ : BufTy).Contents (Elt F))
      = kv_main_v82 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v83 (c : Dev nD) :
    (StableHlo.after (hostOps0 (F := F)) (fun b => m (c, b)) (Proc.devRef .tc main_v83) : (⟨S64x32, .f32⟩ : BufTy).Contents (Elt F))
      = kv_main_v83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v84 (c : Dev nD) :
    (StableHlo.after (hostOps0 (F := F)) (fun b => m (c, b)) (Proc.devRef .tc main_v84) : (⟨S1x32, .f32⟩ : BufTy).Contents (Elt F))
      = kv_main_v84 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v85 (c : Dev nD) :
    (StableHlo.after (hostOps0 (F := F)) (fun b => m (c, b)) (Proc.devRef .tc main_v85) : (⟨S32x1, .f32⟩ : BufTy).Contents (Elt F))
      = kv_main_v85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v86 (c : Dev nD) :
    (StableHlo.after (hostOps0 (F := F)) (fun b => m (c, b)) (Proc.devRef .tc main_v86) : (⟨S1x1, .f32⟩ : BufTy).Contents (Elt F))
      = kv_main_v86 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v87 (c : Dev nD) :
    (StableHlo.after (hostOps0 (F := F)) (fun b => m (c, b)) (Proc.devRef .tc main_v87) : (⟨S208x128, .f32⟩ : BufTy).Contents (Elt F))
      = kv_main_v87 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v88 (c : Dev nD) :
    (StableHlo.after (hostOps0 (F := F)) (fun b => m (c, b)) (Proc.devRef .tc main_v88) : (⟨S1x128, .f32⟩ : BufTy).Contents (Elt F))
      = kv_main_v88 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v89 (c : Dev nD) :
    (StableHlo.after (hostOps0 (F := F)) (fun b => m (c, b)) (Proc.devRef .tc main_v89) : (⟨S128x64, .f32⟩ : BufTy).Contents (Elt F))
      = kv_main_v89 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v90 (c : Dev nD) :
    (StableHlo.after (hostOps0 (F := F)) (fun b => m (c, b)) (Proc.devRef .tc main_v90) : (⟨S1x64, .f32⟩ : BufTy).Contents (Elt F))
      = kv_main_v90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v91 (c : Dev nD) :
    (StableHlo.after (hostOps0 (F := F)) (fun b => m (c, b)) (Proc.devRef .tc main_v91) : (⟨S64x32, .f32⟩ : BufTy).Contents (Elt F))
      = kv_main_v91 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v92 (c : Dev nD) :
    (StableHlo.after (hostOps0 (F := F)) (fun b => m (c, b)) (Proc.devRef .tc main_v92) : (⟨S1x32, .f32⟩ : BufTy).Contents (Elt F))
      = kv_main_v92 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v93 (c : Dev nD) :
    (StableHlo.after (hostOps0 (F := F)) (fun b => m (c, b)) (Proc.devRef .tc main_v93) : (⟨S32x1, .f32⟩ : BufTy).Contents (Elt F))
      = kv_main_v93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl

set_option maxHeartbeats 4000000 in
theorem after_main_v94 (c : Dev nD) :
    (StableHlo.after (hostOps0 (F := F)) (fun b => m (c, b)) (Proc.devRef .tc main_v94) : (⟨S1x1, .f32⟩ : BufTy).Contents (Elt F))
      = kv_main_v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  after_results6
  try rfl
end Cert.KernelIdeal.KRead

end
-- ==== Proof.RRead.lean ====
/-
  The reference program's 157 host operations, in order, and each one's value as a function of @main's 28 argument
  arrays: the embedding rows taken out of their tables, the masked kind features, the activation unit's three
  contractions against the weights' second axes, the pooled history, the four-layer network against the transposed
  weights, and `1 / (1 + exp (− logit))`. `rv_<buffer>` is the value the operation writes;
-/
import proofs.«117253_j35613868819029_1_alg».proof.Proof.Gen.ReferenceIdeal
import Idealize.ShloMosaic.Lib.StableHlo.Run

set_option maxRecDepth 16384

noncomputable section

namespace Cert.ReferenceIdeal.RRead

open Cert.ReferenceIdeal Cert.ReferenceIdeal.Gen Idealize.ShloMosaic Idealize.ShloMosaic.TcCoe Idealize.SL.Sem Idealize.ShloMosaic.StableHlo

variable {F : FTy → Type} [FloatOps F]

/-- @main's 157 operations, in order (a called function's operations stand in its call's place). -/
abbrev ops : List (HloOp τ sig (Elt F)) :=
  [ nullary main_c (constantI S_ 32 0#32),
    unary main_c main_v0 (broadcastInDim S65536x1 ![] bcast_S_S65536x1 : (⟨S_, .i32⟩ : BufTy).Contents (Elt F) → (⟨S65536x1, .i32⟩ : BufTy).Contents (Elt F)),
    binary main_arg0 main_v0 main_v1 (cmpi .slt : (⟨S65536x1, .i32⟩ : BufTy).Contents (Elt F) → (⟨S65536x1, .i32⟩ : BufTy).Contents (Elt F) → (⟨S65536x1, .i1⟩ : BufTy).Contents (Elt F)),
    nullary main_c_0 (constantI S_ 32 1000000#32),
    unary main_c_0 main_v2 (broadcastInDim S65536x1 ![] bcast_S_S65536x1 : (⟨S_, .i32⟩ : BufTy).Contents (Elt F) → (⟨S65536x1, .i32⟩ : BufTy).Contents (Elt F)),
    binary main_arg0 main_v2 main_v3 (addi : (⟨S65536x1, .i32⟩ : BufTy).Contents (Elt F) → (⟨S65536x1, .i32⟩ : BufTy).Contents (Elt F) → (⟨S65536x1, .i32⟩ : BufTy).Contents (Elt F)),
    ternary main_v1 main_v3 main_arg0 main_v4 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    unary main_v4 main_v5 (broadcastInDim S65536x1x1 ![0, 1] bcast_S65536x1_S65536x1x1_0_1 : (⟨S65536x1, .i32⟩ : BufTy).Contents (Elt F) → (⟨S65536x1x1, .i32⟩ : BufTy).Contents (Elt F)),
    binary main_arg8 main_v5 main_v6 ((fun x i => Host.gather gather_S1000000x8_S65536x1x1_S65536x1x8_2_0_n_n_0_2_18 x i) : (⟨S1000000x8, .f32⟩ : BufTy).Contents (Elt F) → (⟨S65536x1x1, .i32⟩ : BufTy).Contents (Elt F) → (⟨S65536x1x8, .f32⟩ : BufTy).Contents (Elt F)),
    nullary main_c_1 (constantI S_ 32 0#32),
    unary main_c_1 main_v7 (broadcastInDim S65536x1 ![] bcast_S_S65536x1 : (⟨S_, .i32⟩ : BufTy).Contents (Elt F) → (⟨S65536x1, .i32⟩ : BufTy).Contents (Elt F)),
    binary main_arg1 main_v7 main_v8 (cmpi .slt : (⟨S65536x1, .i32⟩ : BufTy).Contents (Elt F) → (⟨S65536x1, .i32⟩ : BufTy).Contents (Elt F) → (⟨S65536x1, .i1⟩ : BufTy).Contents (Elt F)),
    nullary main_c_2 (constantI S_ 32 1000000#32),
    unary main_c_2 main_v9 (broadcastInDim S65536x1 ![] bcast_S_S65536x1 : (⟨S_, .i32⟩ : BufTy).Contents (Elt F) → (⟨S65536x1, .i32⟩ : BufTy).Contents (Elt F)),
    binary main_arg1 main_v9 main_v10 (addi : (⟨S65536x1, .i32⟩ : BufTy).Contents (Elt F) → (⟨S65536x1, .i32⟩ : BufTy).Contents (Elt F) → (⟨S65536x1, .i32⟩ : BufTy).Contents (Elt F)),
    ternary main_v8 main_v10 main_arg1 main_v11 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    unary main_v11 main_v12 (broadcastInDim S65536x1x1 ![0, 1] bcast_S65536x1_S65536x1x1_0_1 : (⟨S65536x1, .i32⟩ : BufTy).Contents (Elt F) → (⟨S65536x1x1, .i32⟩ : BufTy).Contents (Elt F)),
    binary main_arg9 main_v12 main_v13 ((fun x i => Host.gather gather_S1000000x8_S65536x1x1_S65536x1x8_2_0_n_n_0_2_18 x i) : (⟨S1000000x8, .f32⟩ : BufTy).Contents (Elt F) → (⟨S65536x1x1, .i32⟩ : BufTy).Contents (Elt F) → (⟨S65536x1x8, .f32⟩ : BufTy).Contents (Elt F)),
    nullary main_c_3 (constantI S_ 32 0#32),
    unary main_c_3 main_v14 (broadcastInDim S65536x1 ![] bcast_S_S65536x1 : (⟨S_, .i32⟩ : BufTy).Contents (Elt F) → (⟨S65536x1, .i32⟩ : BufTy).Contents (Elt F)),
    binary main_arg2 main_v14 main_v15 (cmpi .slt : (⟨S65536x1, .i32⟩ : BufTy).Contents (Elt F) → (⟨S65536x1, .i32⟩ : BufTy).Contents (Elt F) → (⟨S65536x1, .i1⟩ : BufTy).Contents (Elt F)),
    nullary main_c_4 (constantI S_ 32 8#32),
    unary main_c_4 main_v16 (broadcastInDim S65536x1 ![] bcast_S_S65536x1 : (⟨S_, .i32⟩ : BufTy).Contents (Elt F) → (⟨S65536x1, .i32⟩ : BufTy).Contents (Elt F)),
    binary main_arg2 main_v16 main_v17 (addi : (⟨S65536x1, .i32⟩ : BufTy).Contents (Elt F) → (⟨S65536x1, .i32⟩ : BufTy).Contents (Elt F) → (⟨S65536x1, .i32⟩ : BufTy).Contents (Elt F)),
    ternary main_v15 main_v17 main_arg2 main_v18 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    unary main_v18 main_v19 (broadcastInDim S65536x1x1 ![0, 1] bcast_S65536x1_S65536x1x1_0_1 : (⟨S65536x1, .i32⟩ : BufTy).Contents (Elt F) → (⟨S65536x1x1, .i32⟩ : BufTy).Contents (Elt F)),
    binary main_arg10 main_v19 main_v20 ((fun x i => Host.gather gather_S8x8_S65536x1x1_S65536x1x8_2_0_n_n_0_2_18 x i) : (⟨S8x8, .f32⟩ : BufTy).Contents (Elt F) → (⟨S65536x1x1, .i32⟩ : BufTy).Contents (Elt F) → (⟨S65536x1x8, .f32⟩ : BufTy).Contents (Elt F)),
    nullary main_c_5 (constantI S_ 32 0#32),
    unary main_c_5 main_v21 (broadcastInDim S65536x1 ![] bcast_S_S65536x1 : (⟨S_, .i32⟩ : BufTy).Contents (Elt F) → (⟨S65536x1, .i32⟩ : BufTy).Contents (Elt F)),
    binary main_arg3 main_v21 main_v22 (cmpi .slt : (⟨S65536x1, .i32⟩ : BufTy).Contents (Elt F) → (⟨S65536x1, .i32⟩ : BufTy).Contents (Elt F) → (⟨S65536x1, .i1⟩ : BufTy).Contents (Elt F)),
    nullary main_c_6 (constantI S_ 32 3#32),
    unary main_c_6 main_v23 (broadcastInDim S65536x1 ![] bcast_S_S65536x1 : (⟨S_, .i32⟩ : BufTy).Contents (Elt F) → (⟨S65536x1, .i32⟩ : BufTy).Contents (Elt F)),
    binary main_arg3 main_v23 main_v24 (addi : (⟨S65536x1, .i32⟩ : BufTy).Contents (Elt F) → (⟨S65536x1, .i32⟩ : BufTy).Contents (Elt F) → (⟨S65536x1, .i32⟩ : BufTy).Contents (Elt F)),
    ternary main_v22 main_v24 main_arg3 main_v25 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    unary main_v25 main_v26 (broadcastInDim S65536x1x1 ![0, 1] bcast_S65536x1_S65536x1x1_0_1 : (⟨S65536x1, .i32⟩ : BufTy).Contents (Elt F) → (⟨S65536x1x1, .i32⟩ : BufTy).Contents (Elt F)),
    binary main_arg11 main_v26 main_v27 ((fun x i => Host.gather gather_S3x8_S65536x1x1_S65536x1x8_2_0_n_n_0_2_18 x i) : (⟨S3x8, .f32⟩ : BufTy).Contents (Elt F) → (⟨S65536x1x1, .i32⟩ : BufTy).Contents (Elt F) → (⟨S65536x1x8, .f32⟩ : BufTy).Contents (Elt F)),
    nullary main_c_7 (constantI S_ 32 0#32),
    unary main_c_7 main_v28 (broadcastInDim S65536x1 ![] bcast_S_S65536x1 : (⟨S_, .i32⟩ : BufTy).Contents (Elt F) → (⟨S65536x1, .i32⟩ : BufTy).Contents (Elt F)),
    binary main_arg4 main_v28 main_v29 (cmpi .slt : (⟨S65536x1, .i32⟩ : BufTy).Contents (Elt F) → (⟨S65536x1, .i32⟩ : BufTy).Contents (Elt F) → (⟨S65536x1, .i1⟩ : BufTy).Contents (Elt F)),
    nullary main_c_8 (constantI S_ 32 25#32),
    unary main_c_8 main_v30 (broadcastInDim S65536x1 ![] bcast_S_S65536x1 : (⟨S_, .i32⟩ : BufTy).Contents (Elt F) → (⟨S65536x1, .i32⟩ : BufTy).Contents (Elt F)),
    binary main_arg4 main_v30 main_v31 (addi : (⟨S65536x1, .i32⟩ : BufTy).Contents (Elt F) → (⟨S65536x1, .i32⟩ : BufTy).Contents (Elt F) → (⟨S65536x1, .i32⟩ : BufTy).Contents (Elt F)),
    ternary main_v29 main_v31 main_arg4 main_v32 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    unary main_v32 main_v33 (broadcastInDim S65536x1x1 ![0, 1] bcast_S65536x1_S65536x1x1_0_1 : (⟨S65536x1, .i32⟩ : BufTy).Contents (Elt F) → (⟨S65536x1x1, .i32⟩ : BufTy).Contents (Elt F)),
    binary main_arg12 main_v33 main_v34 ((fun x i => Host.gather gather_S25x8_S65536x1x1_S65536x1x8_2_0_n_n_0_2_18 x i) : (⟨S25x8, .f32⟩ : BufTy).Contents (Elt F) → (⟨S65536x1x1, .i32⟩ : BufTy).Contents (Elt F) → (⟨S65536x1x8, .f32⟩ : BufTy).Contents (Elt F)),
    nullary main_c_9 (constantI S_ 32 0#32),
    unary main_c_9 main_v35 (broadcastInDim S65536x10 ![] bcast_S_S65536x10 : (⟨S_, .i32⟩ : BufTy).Contents (Elt F) → (⟨S65536x10, .i32⟩ : BufTy).Contents (Elt F)),
    binary main_arg5 main_v35 main_v36 (cmpi .slt : (⟨S65536x10, .i32⟩ : BufTy).Contents (Elt F) → (⟨S65536x10, .i32⟩ : BufTy).Contents (Elt F) → (⟨S65536x10, .i1⟩ : BufTy).Contents (Elt F)),
    nullary main_c_10 (constantI S_ 32 20#32),
    unary main_c_10 main_v37 (broadcastInDim S65536x10 ![] bcast_S_S65536x10 : (⟨S_, .i32⟩ : BufTy).Contents (Elt F) → (⟨S65536x10, .i32⟩ : BufTy).Contents (Elt F)),
    binary main_arg5 main_v37 main_v38 (addi : (⟨S65536x10, .i32⟩ : BufTy).Contents (Elt F) → (⟨S65536x10, .i32⟩ : BufTy).Contents (Elt F) → (⟨S65536x10, .i32⟩ : BufTy).Contents (Elt F)),
    ternary main_v36 main_v38 main_arg5 main_v39 (select : (⟨S65536x10, .i1⟩ : BufTy).Contents (Elt F) → (⟨S65536x10, .i32⟩ : BufTy).Contents (Elt F) → (⟨S65536x10, .i32⟩ : BufTy).Contents (Elt F) → (⟨S65536x10, .i32⟩ : BufTy).Contents (Elt F)),
    unary main_v39 main_v40 (broadcastInDim S65536x10x1 ![0, 1] bcast_S65536x10_S65536x10x1_0_1 : (⟨S65536x10, .i32⟩ : BufTy).Contents (Elt F) → (⟨S65536x10x1, .i32⟩ : BufTy).Contents (Elt F)),
    binary main_arg13 main_v40 main_v41 ((fun x i => Host.gather gather_S20x8_S65536x10x1_S65536x10x8_2_0_n_n_0_2_18 x i) : (⟨S20x8, .f32⟩ : BufTy).Contents (Elt F) → (⟨S65536x10x1, .i32⟩ : BufTy).Contents (Elt F) → (⟨S65536x10x8, .f32⟩ : BufTy).Contents (Elt F)),
    nullary main_c_11 (constantI S_ 32 0#32),
    unary main_c_11 main_v42 (broadcastInDim S65536x10 ![] bcast_S_S65536x10 : (⟨S_, .i32⟩ : BufTy).Contents (Elt F) → (⟨S65536x10, .i32⟩ : BufTy).Contents (Elt F)),
    binary main_arg5 main_v42 main_v43 (cmpi .ne : (⟨S65536x10, .i32⟩ : BufTy).Contents (Elt F) → (⟨S65536x10, .i32⟩ : BufTy).Contents (Elt F) → (⟨S65536x10, .i1⟩ : BufTy).Contents (Elt F)),
    unary main_v43 main_v44 (broadcastInDim S65536x10x1 ![0, 1] bcast_S65536x10_S65536x10x1_0_1 : (⟨S65536x10, .i1⟩ : BufTy).Contents (Elt F) → (⟨S65536x10x1, .i1⟩ : BufTy).Contents (Elt F)),
    unary main_v44 main_v45 (uitofp .f32 : (⟨S65536x10x1, .i1⟩ : BufTy).Contents (Elt F) → (⟨S65536x10x1, .f32⟩ : BufTy).Contents (Elt F)),
    unary main_v45 main_v46 (broadcastInDim S65536x10x8 ![0, 1, 2] bcast_S65536x10x1_S65536x10x8_0_1_2 : (⟨S65536x10x1, .f32⟩ : BufTy).Contents (Elt F) → (⟨S65536x10x8, .f32⟩ : BufTy).Contents (Elt F)),
    binary main_v41 main_v46 main_v47 (mulf : (⟨S65536x10x8, .f32⟩ : BufTy).Contents (Elt F) → (⟨S65536x10x8, .f32⟩ : BufTy).Contents (Elt F) → (⟨S65536x10x8, .f32⟩ : BufTy).Contents (Elt F)),
    nullary main_c_12 (constantI S_ 32 0#32),
    unary main_c_12 main_v48 (broadcastInDim S65536x5 ![] bcast_S_S65536x5 : (⟨S_, .i32⟩ : BufTy).Contents (Elt F) → (⟨S65536x5, .i32⟩ : BufTy).Contents (Elt F)),
    binary main_arg6 main_v48 main_v49 (cmpi .slt : (⟨S65536x5, .i32⟩ : BufTy).Contents (Elt F) → (⟨S65536x5, .i32⟩ : BufTy).Contents (Elt F) → (⟨S65536x5, .i1⟩ : BufTy).Contents (Elt F)),
    nullary main_c_13 (constantI S_ 32 1000000#32),
    unary main_c_13 main_v50 (broadcastInDim S65536x5 ![] bcast_S_S65536x5 : (⟨S_, .i32⟩ : BufTy).Contents (Elt F) → (⟨S65536x5, .i32⟩ : BufTy).Contents (Elt F)),
    binary main_arg6 main_v50 main_v51 (addi : (⟨S65536x5, .i32⟩ : BufTy).Contents (Elt F) → (⟨S65536x5, .i32⟩ : BufTy).Contents (Elt F) → (⟨S65536x5, .i32⟩ : BufTy).Contents (Elt F)),
    ternary main_v49 main_v51 main_arg6 main_v52 (select : (⟨S65536x5, .i1⟩ : BufTy).Contents (Elt F) → (⟨S65536x5, .i32⟩ : BufTy).Contents (Elt F) → (⟨S65536x5, .i32⟩ : BufTy).Contents (Elt F) → (⟨S65536x5, .i32⟩ : BufTy).Contents (Elt F)),
    unary main_v52 main_v53 (broadcastInDim S65536x5x1 ![0, 1] bcast_S65536x5_S65536x5x1_0_1 : (⟨S65536x5, .i32⟩ : BufTy).Contents (Elt F) → (⟨S65536x5x1, .i32⟩ : BufTy).Contents (Elt F)),
    binary main_arg9 main_v53 main_v54 ((fun x i => Host.gather gather_S1000000x8_S65536x5x1_S65536x5x8_2_0_n_n_0_2_18 x i) : (⟨S1000000x8, .f32⟩ : BufTy).Contents (Elt F) → (⟨S65536x5x1, .i32⟩ : BufTy).Contents (Elt F) → (⟨S65536x5x8, .f32⟩ : BufTy).Contents (Elt F)),
    nullary main_c_14 (constantI S_ 32 0#32),
    unary main_c_14 main_v55 (broadcastInDim S65536x5x10 ![] bcast_S_S65536x5x10 : (⟨S_, .i32⟩ : BufTy).Contents (Elt F) → (⟨S65536x5x10, .i32⟩ : BufTy).Contents (Elt F)),
    binary main_arg7 main_v55 main_v56 (cmpi .slt : (⟨S65536x5x10, .i32⟩ : BufTy).Contents (Elt F) → (⟨S65536x5x10, .i32⟩ : BufTy).Contents (Elt F) → (⟨S65536x5x10, .i1⟩ : BufTy).Contents (Elt F)),
    nullary main_c_15 (constantI S_ 32 20#32),
    unary main_c_15 main_v57 (broadcastInDim S65536x5x10 ![] bcast_S_S65536x5x10 : (⟨S_, .i32⟩ : BufTy).Contents (Elt F) → (⟨S65536x5x10, .i32⟩ : BufTy).Contents (Elt F)),
    binary main_arg7 main_v57 main_v58 (addi : (⟨S65536x5x10, .i32⟩ : BufTy).Contents (Elt F) → (⟨S65536x5x10, .i32⟩ : BufTy).Contents (Elt F) → (⟨S65536x5x10, .i32⟩ : BufTy).Contents (Elt F)),
    ternary main_v56 main_v58 main_arg7 main_v59 (select : (⟨S65536x5x10, .i1⟩ : BufTy).Contents (Elt F) → (⟨S65536x5x10, .i32⟩ : BufTy).Contents (Elt F) → (⟨S65536x5x10, .i32⟩ : BufTy).Contents (Elt F) → (⟨S65536x5x10, .i32⟩ : BufTy).Contents (Elt F)),
    unary main_v59 main_v60 (broadcastInDim S65536x5x10x1 ![0, 1, 2] bcast_S65536x5x10_S65536x5x10x1_0_1_2 : (⟨S65536x5x10, .i32⟩ : BufTy).Contents (Elt F) → (⟨S65536x5x10x1, .i32⟩ : BufTy).Contents (Elt F)),
    binary main_arg13 main_v60 main_v61 ((fun x i => Host.gather gather_S20x8_S65536x5x10x1_S65536x5x10x8_3_0_n_n_0_3_18 x i) : (⟨S20x8, .f32⟩ : BufTy).Contents (Elt F) → (⟨S65536x5x10x1, .i32⟩ : BufTy).Contents (Elt F) → (⟨S65536x5x10x8, .f32⟩ : BufTy).Contents (Elt F)),
    nullary main_c_16 (constantI S_ 32 0#32),
    unary main_c_16 main_v62 (broadcastInDim S65536x5x10 ![] bcast_S_S65536x5x10 : (⟨S_, .i32⟩ : BufTy).Contents (Elt F) → (⟨S65536x5x10, .i32⟩ : BufTy).Contents (Elt F)),
    binary main_arg7 main_v62 main_v63 (cmpi .ne : (⟨S65536x5x10, .i32⟩ : BufTy).Contents (Elt F) → (⟨S65536x5x10, .i32⟩ : BufTy).Contents (Elt F) → (⟨S65536x5x10, .i1⟩ : BufTy).Contents (Elt F)),
    unary main_v63 main_v64 (broadcastInDim S65536x5x10x1 ![0, 1, 2] bcast_S65536x5x10_S65536x5x10x1_0_1_2 : (⟨S65536x5x10, .i1⟩ : BufTy).Contents (Elt F) → (⟨S65536x5x10x1, .i1⟩ : BufTy).Contents (Elt F)),
    unary main_v64 main_v65 (uitofp .f32 : (⟨S65536x5x10x1, .i1⟩ : BufTy).Contents (Elt F) → (⟨S65536x5x10x1, .f32⟩ : BufTy).Contents (Elt F)),
    unary main_v65 main_v66 (broadcastInDim S65536x5x10x8 ![0, 1, 2, 3] bcast_S65536x5x10x1_S65536x5x10x8_0_1_2_3 : (⟨S65536x5x10x1, .f32⟩ : BufTy).Contents (Elt F) → (⟨S65536x5x10x8, .f32⟩ : BufTy).Contents (Elt F)),
    binary main_v61 main_v66 main_v67 (mulf : (⟨S65536x5x10x8, .f32⟩ : BufTy).Contents (Elt F) → (⟨S65536x5x10x8, .f32⟩ : BufTy).Contents (Elt F) → (⟨S65536x5x10x8, .f32⟩ : BufTy).Contents (Elt F)),
    unary main_v54 main_v68 (broadcastInDim S65536x5x1x8 ![0, 1, 3] bcast_S65536x5x8_S65536x5x1x8_0_1_3 : (⟨S65536x5x8, .f32⟩ : BufTy).Contents (Elt F) → (⟨S65536x5x1x8, .f32⟩ : BufTy).Contents (Elt F)),
    binary main_v68 main_v67 main_v69 ((fun a b => concatenate S65536x5x11x8 2 [⟨S65536x5x1x8, a⟩, ⟨S65536x5x10x8, b⟩] concatenates_S65536x5x1x8_S65536x5x10x8_S65536x5x11x8_d2) : (⟨S65536x5x1x8, .f32⟩ : BufTy).Contents (Elt F) → (⟨S65536x5x10x8, .f32⟩ : BufTy).Contents (Elt F) → (⟨S65536x5x11x8, .f32⟩ : BufTy).Contents (Elt F)),
    reshape main_v69 main_v70 rfl shapeCasts_S65536x5x11x8_S65536x5x88,
    binary main_v13 main_v47 main_v71 ((fun a b => concatenate S65536x11x8 1 [⟨S65536x1x8, a⟩, ⟨S65536x10x8, b⟩] concatenates_S65536x1x8_S65536x10x8_S65536x11x8_d1) : (⟨S65536x1x8, .f32⟩ : BufTy).Contents (Elt F) → (⟨S65536x10x8, .f32⟩ : BufTy).Contents (Elt F) → (⟨S65536x11x8, .f32⟩ : BufTy).Contents (Elt F)),
    reshape main_v71 main_v72 rfl shapeCasts_S65536x11x8_S65536x1x88,
    unary main_v72 main_v73 (broadcastInDim S65536x5x88 ![0, 1, 2] bcast_S65536x1x88_S65536x5x88_0_1_2 : (⟨S65536x1x88, .f32⟩ : BufTy).Contents (Elt F) → (⟨S65536x5x88, .f32⟩ : BufTy).Contents (Elt F)),
    binary main_v70 main_v73 main_v74 (subf : (⟨S65536x5x88, .f32⟩ : BufTy).Contents (Elt F) → (⟨S65536x5x88, .f32⟩ : BufTy).Contents (Elt F) → (⟨S65536x5x88, .f32⟩ : BufTy).Contents (Elt F)),
    nary ![main_v70, main_v74, main_v73] main_v75 (fun u => concatenate S65536x5x264 2 [⟨S65536x5x88, u 0⟩, ⟨S65536x5x88, u 1⟩, ⟨S65536x5x88, u 2⟩] concatenates_S65536x5x88_S65536x5x88_S65536x5x88_S65536x5x264_d2),
    binary main_v75 main_arg14 main_v76 ((fun l r => Host.dotGeneral dot_S65536x5x264_S64x264_S65536x5x64_2_1_01_0_n_n none l r) : (⟨S65536x5x264, .f32⟩ : BufTy).Contents (Elt F) → (⟨S64x264, .f32⟩ : BufTy).Contents (Elt F) → (⟨S65536x5x64, .f32⟩ : BufTy).Contents (Elt F)),
    unary main_arg15 main_v77 (broadcastInDim S1x1x64 ![2] bcast_S64_S1x1x64_2 : (⟨S64, .f32⟩ : BufTy).Contents (Elt F) → (⟨S1x1x64, .f32⟩ : BufTy).Contents (Elt F)),
    unary main_v77 main_v78 (broadcastInDim S65536x5x64 ![0, 1, 2] bcast_S1x1x64_S65536x5x64_0_1_2 : (⟨S1x1x64, .f32⟩ : BufTy).Contents (Elt F) → (⟨S65536x5x64, .f32⟩ : BufTy).Contents (Elt F)),
    binary main_v76 main_v78 main_v79 (addf : (⟨S65536x5x64, .f32⟩ : BufTy).Contents (Elt F) → (⟨S65536x5x64, .f32⟩ : BufTy).Contents (Elt F) → (⟨S65536x5x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x5x64, .f32⟩) main_call0_v0) (broadcastInDim S65536x5x64 ![] bcast_S_S65536x5x64),
    TRef.binary (TRef.of (T := ⟨S65536x5x64, .f32⟩) main_v79) (TRef.of (T := ⟨S65536x5x64, .f32⟩) main_call0_v0) (TRef.of (T := ⟨S65536x5x64, .f32⟩) main_v80) maximumf,
    binary main_v80 main_arg16 main_v81 ((fun l r => Host.dotGeneral dot_S65536x5x64_S32x64_S65536x5x32_2_1_01_0_n_n none l r) : (⟨S65536x5x64, .f32⟩ : BufTy).Contents (Elt F) → (⟨S32x64, .f32⟩ : BufTy).Contents (Elt F) → (⟨S65536x5x32, .f32⟩ : BufTy).Contents (Elt F)),
    unary main_arg17 main_v82 (broadcastInDim S1x1x32 ![2] bcast_S32_S1x1x32_2 : (⟨S32, .f32⟩ : BufTy).Contents (Elt F) → (⟨S1x1x32, .f32⟩ : BufTy).Contents (Elt F)),
    unary main_v82 main_v83 (broadcastInDim S65536x5x32 ![0, 1, 2] bcast_S1x1x32_S65536x5x32_0_1_2 : (⟨S1x1x32, .f32⟩ : BufTy).Contents (Elt F) → (⟨S65536x5x32, .f32⟩ : BufTy).Contents (Elt F)),
    binary main_v81 main_v83 main_v84 (addf : (⟨S65536x5x32, .f32⟩ : BufTy).Contents (Elt F) → (⟨S65536x5x32, .f32⟩ : BufTy).Contents (Elt F) → (⟨S65536x5x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x5x32, .f32⟩) main_call1_v0) (broadcastInDim S65536x5x32 ![] bcast_S_S65536x5x32),
    TRef.binary (TRef.of (T := ⟨S65536x5x32, .f32⟩) main_v84) (TRef.of (T := ⟨S65536x5x32, .f32⟩) main_call1_v0) (TRef.of (T := ⟨S65536x5x32, .f32⟩) main_v85) maximumf,
    binary main_v85 main_arg18 main_v86 ((fun l r => Host.dotGeneral dot_S65536x5x32_S1x32_S65536x5x1_2_1_01_0_n_n none l r) : (⟨S65536x5x32, .f32⟩ : BufTy).Contents (Elt F) → (⟨S1x32, .f32⟩ : BufTy).Contents (Elt F) → (⟨S65536x5x1, .f32⟩ : BufTy).Contents (Elt F)),
    unary main_arg19 main_v87 (broadcastInDim S1x1x1 ![2] bcast_S1_S1x1x1_2 : (⟨S1, .f32⟩ : BufTy).Contents (Elt F) → (⟨S1x1x1, .f32⟩ : BufTy).Contents (Elt F)),
    unary main_v87 main_v88 (broadcastInDim S65536x5x1 ![0, 1, 2] bcast_S1x1x1_S65536x5x1_0_1_2 : (⟨S1x1x1, .f32⟩ : BufTy).Contents (Elt F) → (⟨S65536x5x1, .f32⟩ : BufTy).Contents (Elt F)),
    binary main_v86 main_v88 main_v89 (addf : (⟨S65536x5x1, .f32⟩ : BufTy).Contents (Elt F) → (⟨S65536x5x1, .f32⟩ : BufTy).Contents (Elt F) → (⟨S65536x5x1, .f32⟩ : BufTy).Contents (Elt F)),
    unary main_v89 main_v90 (broadcastInDim S65536x5x88 ![0, 1, 2] bcast_S65536x5x1_S65536x5x88_0_1_2 : (⟨S65536x5x1, .f32⟩ : BufTy).Contents (Elt F) → (⟨S65536x5x88, .f32⟩ : BufTy).Contents (Elt F)),
    binary main_v70 main_v90 main_v91 (mulf : (⟨S65536x5x88, .f32⟩ : BufTy).Contents (Elt F) → (⟨S65536x5x88, .f32⟩ : BufTy).Contents (Elt F) → (⟨S65536x5x88, .f32⟩ : BufTy).Contents (Elt F)),
    binary main_v70 main_v91 main_v92 (mulf : (⟨S65536x5x88, .f32⟩ : BufTy).Contents (Elt F) → (⟨S65536x5x88, .f32⟩ : BufTy).Contents (Elt F) → (⟨S65536x5x88, .f32⟩ : BufTy).Contents (Elt F)),
    nullary main_cst (constant S_ .f32 0x00000000#32),
    binary main_v92 main_cst main_v93 ((fun x v => Host.reduceAdd x v reducesTo_S65536x5x88_S65536x88_d1 h_S_) : (⟨S65536x5x88, .f32⟩ : BufTy).Contents (Elt F) → (⟨S_, .f32⟩ : BufTy).Contents (Elt F) → (⟨S65536x88, .f32⟩ : BufTy).Contents (Elt F)),
    nary ![main_v6, main_v13, main_v20, main_v27, main_v34, main_v47] main_v94 (fun u => concatenate S65536x15x8 1 [⟨S65536x1x8, u 0⟩, ⟨S65536x1x8, u 1⟩, ⟨S65536x1x8, u 2⟩, ⟨S65536x1x8, u 3⟩, ⟨S65536x1x8, u 4⟩, ⟨S65536x10x8, u 5⟩] concatenates_S65536x1x8_S65536x1x8_S65536x1x8_S65536x1x8_S65536x1x8_S65536x10x8_S65536x15x8_d1),
    reshape main_v94 main_v95 rfl shapeCasts_S65536x15x8_S65536x120,
    binary main_v95 main_v93 main_v96 ((fun a b => concatenate S65536x208 1 [⟨S65536x120, a⟩, ⟨S65536x88, b⟩] concatenates_S65536x120_S65536x88_S65536x208_d1) : (⟨S65536x120, .f32⟩ : BufTy).Contents (Elt F) → (⟨S65536x88, .f32⟩ : BufTy).Contents (Elt F) → (⟨S65536x208, .f32⟩ : BufTy).Contents (Elt F)),
    unary main_arg20 main_v97 ((transpose S208x128 [1, 0] · transposes_S128x208_S208x128_1_0) : (⟨S128x208, .f32⟩ : BufTy).Contents (Elt F) → (⟨S208x128, .f32⟩ : BufTy).Contents (Elt F)),
    binary main_v96 main_v97 main_v98 ((fun l r => Host.dotGeneral dot_S65536x208_S208x128_S65536x128_1_0_0_1_n_n none l r) : (⟨S65536x208, .f32⟩ : BufTy).Contents (Elt F) → (⟨S208x128, .f32⟩ : BufTy).Contents (Elt F) → (⟨S65536x128, .f32⟩ : BufTy).Contents (Elt F)),
    unary main_arg21 main_v99 (broadcastInDim S1x128 ![1] bcast_S128_S1x128_1 : (⟨S128, .f32⟩ : BufTy).Contents (Elt F) → (⟨S1x128, .f32⟩ : BufTy).Contents (Elt F)),
    unary main_v99 main_v100 (broadcastInDim S65536x128 ![0, 1] bcast_S1x128_S65536x128_0_1 : (⟨S1x128, .f32⟩ : BufTy).Contents (Elt F) → (⟨S65536x128, .f32⟩ : BufTy).Contents (Elt F)),
    binary main_v98 main_v100 main_v101 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x128, .f32⟩) main_call2_v0) (broadcastInDim S65536x128 ![] bcast_S_S65536x128),
    TRef.binary (TRef.of (T := ⟨S65536x128, .f32⟩) main_v101) (TRef.of (T := ⟨S65536x128, .f32⟩) main_call2_v0) (TRef.of (T := ⟨S65536x128, .f32⟩) main_v102) maximumf,
    unary main_arg22 main_v103 ((transpose S128x64 [1, 0] · transposes_S64x128_S128x64_1_0) : (⟨S64x128, .f32⟩ : BufTy).Contents (Elt F) → (⟨S128x64, .f32⟩ : BufTy).Contents (Elt F)),
    binary main_v102 main_v103 main_v104 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_arg23 main_v105 (broadcastInDim S1x64 ![1] bcast_S64_S1x64_1 : (⟨S64, .f32⟩ : BufTy).Contents (Elt F) → (⟨S1x64, .f32⟩ : BufTy).Contents (Elt F)),
    unary main_v105 main_v106 (broadcastInDim S65536x64 ![0, 1] bcast_S1x64_S65536x64_0_1 : (⟨S1x64, .f32⟩ : BufTy).Contents (Elt F) → (⟨S65536x64, .f32⟩ : BufTy).Contents (Elt F)),
    binary main_v104 main_v106 main_v107 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x64, .f32⟩) main_call3_v0) (broadcastInDim S65536x64 ![] bcast_S_S65536x64),
    TRef.binary (TRef.of (T := ⟨S65536x64, .f32⟩) main_v107) (TRef.of (T := ⟨S65536x64, .f32⟩) main_call3_v0) (TRef.of (T := ⟨S65536x64, .f32⟩) main_v108) maximumf,
    unary main_arg24 main_v109 ((transpose S64x32 [1, 0] · transposes_S32x64_S64x32_1_0) : (⟨S32x64, .f32⟩ : BufTy).Contents (Elt F) → (⟨S64x32, .f32⟩ : BufTy).Contents (Elt F)),
    binary main_v108 main_v109 main_v110 ((fun l r => Host.dotGeneral dot_S65536x64_S64x32_S65536x32_1_0_0_1_n_n none l r) : (⟨S65536x64, .f32⟩ : BufTy).Contents (Elt F) → (⟨S64x32, .f32⟩ : BufTy).Contents (Elt F) → (⟨S65536x32, .f32⟩ : BufTy).Contents (Elt F)),
    unary main_arg25 main_v111 (broadcastInDim S1x32 ![1] bcast_S32_S1x32_1 : (⟨S32, .f32⟩ : BufTy).Contents (Elt F) → (⟨S1x32, .f32⟩ : BufTy).Contents (Elt F)),
    unary main_v111 main_v112 (broadcastInDim S65536x32 ![0, 1] bcast_S1x32_S65536x32_0_1 : (⟨S1x32, .f32⟩ : BufTy).Contents (Elt F) → (⟨S65536x32, .f32⟩ : BufTy).Contents (Elt F)),
    binary main_v110 main_v112 main_v113 (addf : (⟨S65536x32, .f32⟩ : BufTy).Contents (Elt F) → (⟨S65536x32, .f32⟩ : BufTy).Contents (Elt F) → (⟨S65536x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x32, .f32⟩) main_call4_v0) (broadcastInDim S65536x32 ![] bcast_S_S65536x32),
    TRef.binary (TRef.of (T := ⟨S65536x32, .f32⟩) main_v113) (TRef.of (T := ⟨S65536x32, .f32⟩) main_call4_v0) (TRef.of (T := ⟨S65536x32, .f32⟩) main_v114) maximumf,
    unary main_arg26 main_v115 ((transpose S32x1 [1, 0] · transposes_S1x32_S32x1_1_0) : (⟨S1x32, .f32⟩ : BufTy).Contents (Elt F) → (⟨S32x1, .f32⟩ : BufTy).Contents (Elt F)),
    binary main_v114 main_v115 main_v116 ((fun l r => Host.dotGeneral dot_S65536x32_S32x1_S65536x1_1_0_0_1_n_n none l r) : (⟨S65536x32, .f32⟩ : BufTy).Contents (Elt F) → (⟨S32x1, .f32⟩ : BufTy).Contents (Elt F) → (⟨S65536x1, .f32⟩ : BufTy).Contents (Elt F)),
    unary main_arg27 main_v117 (broadcastInDim S1x1 ![1] bcast_S1_S1x1_1 : (⟨S1, .f32⟩ : BufTy).Contents (Elt F) → (⟨S1x1, .f32⟩ : BufTy).Contents (Elt F)),
    unary main_v117 main_v118 (broadcastInDim S65536x1 ![0, 1] bcast_S1x1_S65536x1_0_1 : (⟨S1x1, .f32⟩ : BufTy).Contents (Elt F) → (⟨S65536x1, .f32⟩ : BufTy).Contents (Elt F)),
    binary main_v116 main_v118 main_v119 (addf : (⟨S65536x1, .f32⟩ : BufTy).Contents (Elt F) → (⟨S65536x1, .f32⟩ : BufTy).Contents (Elt F) → (⟨S65536x1, .f32⟩ : BufTy).Contents (Elt F)),
    unary main_v119 main_v120 (Host.negf : (⟨S65536x1, .f32⟩ : BufTy).Contents (Elt F) → (⟨S65536x1, .f32⟩ : BufTy).Contents (Elt F)),
    unary main_v120 main_v121 (Host.exp : (⟨S65536x1, .f32⟩ : BufTy).Contents (Elt F) → (⟨S65536x1, .f32⟩ : BufTy).Contents (Elt F)),
    nullary main_cst_17 (constant S_ .f32 0x3F800000#32),
    unary main_cst_17 main_v122 (broadcastInDim S65536x1 ![] bcast_S_S65536x1 : (⟨S_, .f32⟩ : BufTy).Contents (Elt F) → (⟨S65536x1, .f32⟩ : BufTy).Contents (Elt F)),
    binary main_v122 main_v121 main_v123 (addf : (⟨S65536x1, .f32⟩ : BufTy).Contents (Elt F) → (⟨S65536x1, .f32⟩ : BufTy).Contents (Elt F) → (⟨S65536x1, .f32⟩ : BufTy).Contents (Elt F)),
    nullary main_cst_18 (constant S_ .f32 0x3F800000#32),
    unary main_cst_18 main_v124 (broadcastInDim S65536x1 ![] bcast_S_S65536x1 : (⟨S_, .f32⟩ : BufTy).Contents (Elt F) → (⟨S65536x1, .f32⟩ : BufTy).Contents (Elt F)),
    binary main_v124 main_v123 main_v125 (Host.divf : (⟨S65536x1, .f32⟩ : BufTy).Contents (Elt F) → (⟨S65536x1, .f32⟩ : BufTy).Contents (Elt F) → (⟨S65536x1, .f32⟩ : BufTy).Contents (Elt F)) ]

def rv_main_c (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c x0 x1 x2 x3 x4 x5 x6 x7 x8 x9 x10 x11 x12 x13 x14 x15 x16 x17 x18 x19 x20 x21 x22 x23 x24 x25 x26 x27)

def rv_main_v1 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x1, .i32⟩ : BufTy).Contents (Elt F) → (⟨S65536x1, .i32⟩ : BufTy).Contents (Elt F) → (⟨S65536x1, .i1⟩ : BufTy).Contents (Elt F)) x0 (rv_main_v0 x0 x1 x2 x3 x4 x5 x6 x7 x8 x9 x10 x11 x12 x13 x14 x15 x16 x17 x18 x19 x20 x21 x22 x23 x24 x25 x26 x27)

def rv_main_c_0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 1000000#32)

def rv_main_v2 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_0 x0 x1 x2 x3 x4 x5 x6 x7 x8 x9 x10 x11 x12 x13 x14 x15 x16 x17 x18 x19 x20 x21 x22 x23 x24 x25 x26 x27)

def rv_main_v3 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x1, .i32⟩ : BufTy).Contents (Elt F) → (⟨S65536x1, .i32⟩ : BufTy).Contents (Elt F) → (⟨S65536x1, .i32⟩ : BufTy).Contents (Elt F)) x0 (rv_main_v2 x0 x1 x2 x3 x4 x5 x6 x7 x8 x9 x10 x11 x12 x13 x14 x15 x16 x17 x18 x19 x20 x21 x22 x23 x24 x25 x26 x27)

def rv_main_v4 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)) (rv_main_v1 x0 x1 x2 x3 x4 x5 x6 x7 x8 x9 x10 x11 x12 x13 x14 x15 x16 x17 x18 x19 x20 x21 x22 x23 x24 x25 x26 x27) (rv_main_v3 x0 x1 x2 x3 x4 x5 x6 x7 x8 x9 x10 x11 x12 x13 x14 x15 x16 x17 x18 x19 x20 x21 x22 x23 x24 x25 x26 x27) x0

def rv_main_v5 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1x1 ![0, 1] bcast_S65536x1_S65536x1x1_0_1 : (⟨S65536x1, .i32⟩ : BufTy).Contents (Elt F) → (⟨S65536x1x1, .i32⟩ : BufTy).Contents (Elt F)) (rv_main_v4 x0 x1 x2 x3 x4 x5 x6 x7 x8 x9 x10 x11 x12 x13 x14 x15 x16 x17 x18 x19 x20 x21 x22 x23 x24 x25 x26 x27)

def rv_main_v6 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S1000000x8_S65536x1x1_S65536x1x8_2_0_n_n_0_2_18 x i) : (⟨S1000000x8, .f32⟩ : BufTy).Contents (Elt F) → (⟨S65536x1x1, .i32⟩ : BufTy).Contents (Elt F) → (⟨S65536x1x8, .f32⟩ : BufTy).Contents (Elt F)) x8 (rv_main_v5 x0 x1 x2 x3 x4 x5 x6 x7 x8 x9 x10 x11 x12 x13 x14 x15 x16 x17 x18 x19 x20 x21 x22 x23 x24 x25 x26 x27)

def rv_main_c_1 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v7 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_1 x0 x1 x2 x3 x4 x5 x6 x7 x8 x9 x10 x11 x12 x13 x14 x15 x16 x17 x18 x19 x20 x21 x22 x23 x24 x25 x26 x27)

def rv_main_v8 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x1, .i32⟩ : BufTy).Contents (Elt F) → (⟨S65536x1, .i32⟩ : BufTy).Contents (Elt F) → (⟨S65536x1, .i1⟩ : BufTy).Contents (Elt F)) x1 (rv_main_v7 x0 x1 x2 x3 x4 x5 x6 x7 x8 x9 x10 x11 x12 x13 x14 x15 x16 x17 x18 x19 x20 x21 x22 x23 x24 x25 x26 x27)

def rv_main_c_2 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 1000000#32)

def rv_main_v9 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_2 x0 x1 x2 x3 x4 x5 x6 x7 x8 x9 x10 x11 x12 x13 x14 x15 x16 x17 x18 x19 x20 x21 x22 x23 x24 x25 x26 x27)

def rv_main_v10 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x1, .i32⟩ : BufTy).Contents (Elt F) → (⟨S65536x1, .i32⟩ : BufTy).Contents (Elt F) → (⟨S65536x1, .i32⟩ : BufTy).Contents (Elt F)) x1 (rv_main_v9 x0 x1 x2 x3 x4 x5 x6 x7 x8 x9 x10 x11 x12 x13 x14 x15 x16 x17 x18 x19 x20 x21 x22 x23 x24 x25 x26 x27)

def rv_main_v11 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)) (rv_main_v8 x0 x1 x2 x3 x4 x5 x6 x7 x8 x9 x10 x11 x12 x13 x14 x15 x16 x17 x18 x19 x20 x21 x22 x23 x24 x25 x26 x27) (rv_main_v10 x0 x1 x2 x3 x4 x5 x6 x7 x8 x9 x10 x11 x12 x13 x14 x15 x16 x17 x18 x19 x20 x21 x22 x23 x24 x25 x26 x27) x1

def rv_main_v12 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1x1 ![0, 1] bcast_S65536x1_S65536x1x1_0_1 : (⟨S65536x1, .i32⟩ : BufTy).Contents (Elt F) → (⟨S65536x1x1, .i32⟩ : BufTy).Contents (Elt F)) (rv_main_v11 x0 x1 x2 x3 x4 x5 x6 x7 x8 x9 x10 x11 x12 x13 x14 x15 x16 x17 x18 x19 x20 x21 x22 x23 x24 x25 x26 x27)

def rv_main_v13 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S1000000x8_S65536x1x1_S65536x1x8_2_0_n_n_0_2_18 x i) : (⟨S1000000x8, .f32⟩ : BufTy).Contents (Elt F) → (⟨S65536x1x1, .i32⟩ : BufTy).Contents (Elt F) → (⟨S65536x1x8, .f32⟩ : BufTy).Contents (Elt F)) x9 (rv_main_v12 x0 x1 x2 x3 x4 x5 x6 x7 x8 x9 x10 x11 x12 x13 x14 x15 x16 x17 x18 x19 x20 x21 x22 x23 x24 x25 x26 x27)

def rv_main_c_3 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v14 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_3 x0 x1 x2 x3 x4 x5 x6 x7 x8 x9 x10 x11 x12 x13 x14 x15 x16 x17 x18 x19 x20 x21 x22 x23 x24 x25 x26 x27)

def rv_main_v15 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x1, .i32⟩ : BufTy).Contents (Elt F) → (⟨S65536x1, .i32⟩ : BufTy).Contents (Elt F) → (⟨S65536x1, .i1⟩ : BufTy).Contents (Elt F)) x2 (rv_main_v14 x0 x1 x2 x3 x4 x5 x6 x7 x8 x9 x10 x11 x12 x13 x14 x15 x16 x17 x18 x19 x20 x21 x22 x23 x24 x25 x26 x27)

def rv_main_c_4 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 8#32)

def rv_main_v16 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_4 x0 x1 x2 x3 x4 x5 x6 x7 x8 x9 x10 x11 x12 x13 x14 x15 x16 x17 x18 x19 x20 x21 x22 x23 x24 x25 x26 x27)

def rv_main_v17 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x1, .i32⟩ : BufTy).Contents (Elt F) → (⟨S65536x1, .i32⟩ : BufTy).Contents (Elt F) → (⟨S65536x1, .i32⟩ : BufTy).Contents (Elt F)) x2 (rv_main_v16 x0 x1 x2 x3 x4 x5 x6 x7 x8 x9 x10 x11 x12 x13 x14 x15 x16 x17 x18 x19 x20 x21 x22 x23 x24 x25 x26 x27)

def rv_main_v18 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)) (rv_main_v15 x0 x1 x2 x3 x4 x5 x6 x7 x8 x9 x10 x11 x12 x13 x14 x15 x16 x17 x18 x19 x20 x21 x22 x23 x24 x25 x26 x27) (rv_main_v17 x0 x1 x2 x3 x4 x5 x6 x7 x8 x9 x10 x11 x12 x13 x14 x15 x16 x17 x18 x19 x20 x21 x22 x23 x24 x25 x26 x27) x2

def rv_main_v19 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1x1 ![0, 1] bcast_S65536x1_S65536x1x1_0_1 : (⟨S65536x1, .i32⟩ : BufTy).Contents (Elt F) → (⟨S65536x1x1, .i32⟩ : BufTy).Contents (Elt F)) (rv_main_v18 x0 x1 x2 x3 x4 x5 x6 x7 x8 x9 x10 x11 x12 x13 x14 x15 x16 x17 x18 x19 x20 x21 x22 x23 x24 x25 x26 x27)

def rv_main_v20 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S8x8_S65536x1x1_S65536x1x8_2_0_n_n_0_2_18 x i) : (⟨S8x8, .f32⟩ : BufTy).Contents (Elt F) → (⟨S65536x1x1, .i32⟩ : BufTy).Contents (Elt F) → (⟨S65536x1x8, .f32⟩ : BufTy).Contents (Elt F)) x10 (rv_main_v19 x0 x1 x2 x3 x4 x5 x6 x7 x8 x9 x10 x11 x12 x13 x14 x15 x16 x17 x18 x19 x20 x21 x22 x23 x24 x25 x26 x27)

def rv_main_c_5 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v21 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_5 x0 x1 x2 x3 x4 x5 x6 x7 x8 x9 x10 x11 x12 x13 x14 x15 x16 x17 x18 x19 x20 x21 x22 x23 x24 x25 x26 x27)

def rv_main_v22 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x1, .i32⟩ : BufTy).Contents (Elt F) → (⟨S65536x1, .i32⟩ : BufTy).Contents (Elt F) → (⟨S65536x1, .i1⟩ : BufTy).Contents (Elt F)) x3 (rv_main_v21 x0 x1 x2 x3 x4 x5 x6 x7 x8 x9 x10 x11 x12 x13 x14 x15 x16 x17 x18 x19 x20 x21 x22 x23 x24 x25 x26 x27)

def rv_main_c_6 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 3#32)

def rv_main_v23 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_6 x0 x1 x2 x3 x4 x5 x6 x7 x8 x9 x10 x11 x12 x13 x14 x15 x16 x17 x18 x19 x20 x21 x22 x23 x24 x25 x26 x27)

def rv_main_v24 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x1, .i32⟩ : BufTy).Contents (Elt F) → (⟨S65536x1, .i32⟩ : BufTy).Contents (Elt F) → (⟨S65536x1, .i32⟩ : BufTy).Contents (Elt F)) x3 (rv_main_v23 x0 x1 x2 x3 x4 x5 x6 x7 x8 x9 x10 x11 x12 x13 x14 x15 x16 x17 x18 x19 x20 x21 x22 x23 x24 x25 x26 x27)

def rv_main_v25 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)) (rv_main_v22 x0 x1 x2 x3 x4 x5 x6 x7 x8 x9 x10 x11 x12 x13 x14 x15 x16 x17 x18 x19 x20 x21 x22 x23 x24 x25 x26 x27) (rv_main_v24 x0 x1 x2 x3 x4 x5 x6 x7 x8 x9 x10 x11 x12 x13 x14 x15 x16 x17 x18 x19 x20 x21 x22 x23 x24 x25 x26 x27) x3

def rv_main_v26 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1x1 ![0, 1] bcast_S65536x1_S65536x1x1_0_1 : (⟨S65536x1, .i32⟩ : BufTy).Contents (Elt F) → (⟨S65536x1x1, .i32⟩ : BufTy).Contents (Elt F)) (rv_main_v25 x0 x1 x2 x3 x4 x5 x6 x7 x8 x9 x10 x11 x12 x13 x14 x15 x16 x17 x18 x19 x20 x21 x22 x23 x24 x25 x26 x27)

def rv_main_v27 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S3x8_S65536x1x1_S65536x1x8_2_0_n_n_0_2_18 x i) : (⟨S3x8, .f32⟩ : BufTy).Contents (Elt F) → (⟨S65536x1x1, .i32⟩ : BufTy).Contents (Elt F) → (⟨S65536x1x8, .f32⟩ : BufTy).Contents (Elt F)) x11 (rv_main_v26 x0 x1 x2 x3 x4 x5 x6 x7 x8 x9 x10 x11 x12 x13 x14 x15 x16 x17 x18 x19 x20 x21 x22 x23 x24 x25 x26 x27)

def rv_main_c_7 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v28 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_7 x0 x1 x2 x3 x4 x5 x6 x7 x8 x9 x10 x11 x12 x13 x14 x15 x16 x17 x18 x19 x20 x21 x22 x23 x24 x25 x26 x27)

def rv_main_v29 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x1, .i32⟩ : BufTy).Contents (Elt F) → (⟨S65536x1, .i32⟩ : BufTy).Contents (Elt F) → (⟨S65536x1, .i1⟩ : BufTy).Contents (Elt F)) x4 (rv_main_v28 x0 x1 x2 x3 x4 x5 x6 x7 x8 x9 x10 x11 x12 x13 x14 x15 x16 x17 x18 x19 x20 x21 x22 x23 x24 x25 x26 x27)

def rv_main_c_8 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 25#32)

def rv_main_v30 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .i32⟩ : BufTy).Contents (Elt F) → (⟨S65536x1, .i32⟩ : BufTy).Contents (Elt F)) (rv_main_c_8 x0 x1 x2 x3 x4 x5 x6 x7 x8 x9 x10 x11 x12 x13 x14 x15 x16 x17 x18 x19 x20 x21 x22 x23 x24 x25 x26 x27)

def rv_main_v31 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x1, .i32⟩ : BufTy).Contents (Elt F) → (⟨S65536x1, .i32⟩ : BufTy).Contents (Elt F) → (⟨S65536x1, .i32⟩ : BufTy).Contents (Elt F)) x4 (rv_main_v30 x0 x1 x2 x3 x4 x5 x6 x7 x8 x9 x10 x11 x12 x13 x14 x15 x16 x17 x18 x19 x20 x21 x22 x23 x24 x25 x26 x27)

def rv_main_v32 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)) (rv_main_v29 x0 x1 x2 x3 x4 x5 x6 x7 x8 x9 x10 x11 x12 x13 x14 x15 x16 x17 x18 x19 x20 x21 x22 x23 x24 x25 x26 x27) (rv_main_v31 x0 x1 x2 x3 x4 x5 x6 x7 x8 x9 x10 x11 x12 x13 x14 x15 x16 x17 x18 x19 x20 x21 x22 x23 x24 x25 x26 x27) x4

def rv_main_v33 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1x1 ![0, 1] bcast_S65536x1_S65536x1x1_0_1 : (⟨S65536x1, .i32⟩ : BufTy).Contents (Elt F) → (⟨S65536x1x1, .i32⟩ : BufTy).Contents (Elt F)) (rv_main_v32 x0 x1 x2 x3 x4 x5 x6 x7 x8 x9 x10 x11 x12 x13 x14 x15 x16 x17 x18 x19 x20 x21 x22 x23 x24 x25 x26 x27)

def rv_main_v34 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S25x8_S65536x1x1_S65536x1x8_2_0_n_n_0_2_18 x i) : (⟨S25x8, .f32⟩ : BufTy).Contents (Elt F) → (⟨S65536x1x1, .i32⟩ : BufTy).Contents (Elt F) → (⟨S65536x1x8, .f32⟩ : BufTy).Contents (Elt F)) x12 (rv_main_v33 x0 x1 x2 x3 x4 x5 x6 x7 x8 x9 x10 x11 x12 x13 x14 x15 x16 x17 x18 x19 x20 x21 x22 x23 x24 x25 x26 x27)

def rv_main_c_9 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v35 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10 ![] bcast_S_S65536x10 : (⟨S_, .i32⟩ : BufTy).Contents (Elt F) → (⟨S65536x10, .i32⟩ : BufTy).Contents (Elt F)) (rv_main_c_9 x0 x1 x2 x3 x4 x5 x6 x7 x8 x9 x10 x11 x12 x13 x14 x15 x16 x17 x18 x19 x20 x21 x22 x23 x24 x25 x26 x27)

def rv_main_v36 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x10, .i32⟩ : BufTy).Contents (Elt F) → (⟨S65536x10, .i32⟩ : BufTy).Contents (Elt F) → (⟨S65536x10, .i1⟩ : BufTy).Contents (Elt F)) x5 (rv_main_v35 x0 x1 x2 x3 x4 x5 x6 x7 x8 x9 x10 x11 x12 x13 x14 x15 x16 x17 x18 x19 x20 x21 x22 x23 x24 x25 x26 x27)

def rv_main_c_10 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 20#32)

def rv_main_v37 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10 ![] bcast_S_S65536x10 : (⟨S_, .i32⟩ : BufTy).Contents (Elt F) → (⟨S65536x10, .i32⟩ : BufTy).Contents (Elt F)) (rv_main_c_10 x0 x1 x2 x3 x4 x5 x6 x7 x8 x9 x10 x11 x12 x13 x14 x15 x16 x17 x18 x19 x20 x21 x22 x23 x24 x25 x26 x27)

def rv_main_v38 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x10, .i32⟩ : BufTy).Contents (Elt F) → (⟨S65536x10, .i32⟩ : BufTy).Contents (Elt F) → (⟨S65536x10, .i32⟩ : BufTy).Contents (Elt F)) x5 (rv_main_v37 x0 x1 x2 x3 x4 x5 x6 x7 x8 x9 x10 x11 x12 x13 x14 x15 x16 x17 x18 x19 x20 x21 x22 x23 x24 x25 x26 x27)

def rv_main_v39 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x10, .i1⟩ : BufTy).Contents (Elt F) → (⟨S65536x10, .i32⟩ : BufTy).Contents (Elt F) → (⟨S65536x10, .i32⟩ : BufTy).Contents (Elt F) → (⟨S65536x10, .i32⟩ : BufTy).Contents (Elt F)) (rv_main_v36 x0 x1 x2 x3 x4 x5 x6 x7 x8 x9 x10 x11 x12 x13 x14 x15 x16 x17 x18 x19 x20 x21 x22 x23 x24 x25 x26 x27) (rv_main_v38 x0 x1 x2 x3 x4 x5 x6 x7 x8 x9 x10 x11 x12 x13 x14 x15 x16 x17 x18 x19 x20 x21 x22 x23 x24 x25 x26 x27) x5

def rv_main_v40 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10x1 ![0, 1] bcast_S65536x10_S65536x10x1_0_1 : (⟨S65536x10, .i32⟩ : BufTy).Contents (Elt F) → (⟨S65536x10x1, .i32⟩ : BufTy).Contents (Elt F)) (rv_main_v39 x0 x1 x2 x3 x4 x5 x6 x7 x8 x9 x10 x11 x12 x13 x14 x15 x16 x17 x18 x19 x20 x21 x22 x23 x24 x25 x26 x27)

def rv_main_v41 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S20x8_S65536x10x1_S65536x10x8_2_0_n_n_0_2_18 x i) : (⟨S20x8, .f32⟩ : BufTy).Contents (Elt F) → (⟨S65536x10x1, .i32⟩ : BufTy).Contents (Elt F) → (⟨S65536x10x8, .f32⟩ : BufTy).Contents (Elt F)) x13 (rv_main_v40 x0 x1 x2 x3 x4 x5 x6 x7 x8 x9 x10 x11 x12 x13 x14 x15 x16 x17 x18 x19 x20 x21 x22 x23 x24 x25 x26 x27)

def rv_main_c_11 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v42 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10 ![] bcast_S_S65536x10 : (⟨S_, .i32⟩ : BufTy).Contents (Elt F) → (⟨S65536x10, .i32⟩ : BufTy).Contents (Elt F)) (rv_main_c_11 x0 x1 x2 x3 x4 x5 x6 x7 x8 x9 x10 x11 x12 x13 x14 x15 x16 x17 x18 x19 x20 x21 x22 x23 x24 x25 x26 x27)

def rv_main_v43 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .ne : (⟨S65536x10, .i32⟩ : BufTy).Contents (Elt F) → (⟨S65536x10, .i32⟩ : BufTy).Contents (Elt F) → (⟨S65536x10, .i1⟩ : BufTy).Contents (Elt F)) x5 (rv_main_v42 x0 x1 x2 x3 x4 x5 x6 x7 x8 x9 x10 x11 x12 x13 x14 x15 x16 x17 x18 x19 x20 x21 x22 x23 x24 x25 x26 x27)

def rv_main_v44 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10x1 ![0, 1] bcast_S65536x10_S65536x10x1_0_1 : (⟨S65536x10, .i1⟩ : BufTy).Contents (Elt F) → (⟨S65536x10x1, .i1⟩ : BufTy).Contents (Elt F)) (rv_main_v43 x0 x1 x2 x3 x4 x5 x6 x7 x8 x9 x10 x11 x12 x13 x14 x15 x16 x17 x18 x19 x20 x21 x22 x23 x24 x25 x26 x27)

def rv_main_v45 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (uitofp .f32 : (⟨S65536x10x1, .i1⟩ : BufTy).Contents (Elt F) → (⟨S65536x10x1, .f32⟩ : BufTy).Contents (Elt F)) (rv_main_v44 x0 x1 x2 x3 x4 x5 x6 x7 x8 x9 x10 x11 x12 x13 x14 x15 x16 x17 x18 x19 x20 x21 x22 x23 x24 x25 x26 x27)

def rv_main_v46 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x10x8 ![0, 1, 2] bcast_S65536x10x1_S65536x10x8_0_1_2 : (⟨S65536x10x1, .f32⟩ : BufTy).Contents (Elt F) → (⟨S65536x10x8, .f32⟩ : BufTy).Contents (Elt F)) (rv_main_v45 x0 x1 x2 x3 x4 x5 x6 x7 x8 x9 x10 x11 x12 x13 x14 x15 x16 x17 x18 x19 x20 x21 x22 x23 x24 x25 x26 x27)

def rv_main_v47 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (mulf : (⟨S65536x10x8, .f32⟩ : BufTy).Contents (Elt F) → (⟨S65536x10x8, .f32⟩ : BufTy).Contents (Elt F) → (⟨S65536x10x8, .f32⟩ : BufTy).Contents (Elt F)) (rv_main_v41 x0 x1 x2 x3 x4 x5 x6 x7 x8 x9 x10 x11 x12 x13 x14 x15 x16 x17 x18 x19 x20 x21 x22 x23 x24 x25 x26 x27) (rv_main_v46 x0 x1 x2 x3 x4 x5 x6 x7 x8 x9 x10 x11 x12 x13 x14 x15 x16 x17 x18 x19 x20 x21 x22 x23 x24 x25 x26 x27)

def rv_main_c_12 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v48 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5 ![] bcast_S_S65536x5 : (⟨S_, .i32⟩ : BufTy).Contents (Elt F) → (⟨S65536x5, .i32⟩ : BufTy).Contents (Elt F)) (rv_main_c_12 x0 x1 x2 x3 x4 x5 x6 x7 x8 x9 x10 x11 x12 x13 x14 x15 x16 x17 x18 x19 x20 x21 x22 x23 x24 x25 x26 x27)

def rv_main_v49 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x5, .i32⟩ : BufTy).Contents (Elt F) → (⟨S65536x5, .i32⟩ : BufTy).Contents (Elt F) → (⟨S65536x5, .i1⟩ : BufTy).Contents (Elt F)) x6 (rv_main_v48 x0 x1 x2 x3 x4 x5 x6 x7 x8 x9 x10 x11 x12 x13 x14 x15 x16 x17 x18 x19 x20 x21 x22 x23 x24 x25 x26 x27)

def rv_main_c_13 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 1000000#32)

def rv_main_v50 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5 ![] bcast_S_S65536x5 : (⟨S_, .i32⟩ : BufTy).Contents (Elt F) → (⟨S65536x5, .i32⟩ : BufTy).Contents (Elt F)) (rv_main_c_13 x0 x1 x2 x3 x4 x5 x6 x7 x8 x9 x10 x11 x12 x13 x14 x15 x16 x17 x18 x19 x20 x21 x22 x23 x24 x25 x26 x27)

def rv_main_v51 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x5, .i32⟩ : BufTy).Contents (Elt F) → (⟨S65536x5, .i32⟩ : BufTy).Contents (Elt F) → (⟨S65536x5, .i32⟩ : BufTy).Contents (Elt F)) x6 (rv_main_v50 x0 x1 x2 x3 x4 x5 x6 x7 x8 x9 x10 x11 x12 x13 x14 x15 x16 x17 x18 x19 x20 x21 x22 x23 x24 x25 x26 x27)

def rv_main_v52 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x5, .i1⟩ : BufTy).Contents (Elt F) → (⟨S65536x5, .i32⟩ : BufTy).Contents (Elt F) → (⟨S65536x5, .i32⟩ : BufTy).Contents (Elt F) → (⟨S65536x5, .i32⟩ : BufTy).Contents (Elt F)) (rv_main_v49 x0 x1 x2 x3 x4 x5 x6 x7 x8 x9 x10 x11 x12 x13 x14 x15 x16 x17 x18 x19 x20 x21 x22 x23 x24 x25 x26 x27) (rv_main_v51 x0 x1 x2 x3 x4 x5 x6 x7 x8 x9 x10 x11 x12 x13 x14 x15 x16 x17 x18 x19 x20 x21 x22 x23 x24 x25 x26 x27) x6

def rv_main_v53 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x1 ![0, 1] bcast_S65536x5_S65536x5x1_0_1 : (⟨S65536x5, .i32⟩ : BufTy).Contents (Elt F) → (⟨S65536x5x1, .i32⟩ : BufTy).Contents (Elt F)) (rv_main_v52 x0 x1 x2 x3 x4 x5 x6 x7 x8 x9 x10 x11 x12 x13 x14 x15 x16 x17 x18 x19 x20 x21 x22 x23 x24 x25 x26 x27)

def rv_main_v54 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S1000000x8_S65536x5x1_S65536x5x8_2_0_n_n_0_2_18 x i) : (⟨S1000000x8, .f32⟩ : BufTy).Contents (Elt F) → (⟨S65536x5x1, .i32⟩ : BufTy).Contents (Elt F) → (⟨S65536x5x8, .f32⟩ : BufTy).Contents (Elt F)) x9 (rv_main_v53 x0 x1 x2 x3 x4 x5 x6 x7 x8 x9 x10 x11 x12 x13 x14 x15 x16 x17 x18 x19 x20 x21 x22 x23 x24 x25 x26 x27)

def rv_main_c_14 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v55 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10 ![] bcast_S_S65536x5x10 : (⟨S_, .i32⟩ : BufTy).Contents (Elt F) → (⟨S65536x5x10, .i32⟩ : BufTy).Contents (Elt F)) (rv_main_c_14 x0 x1 x2 x3 x4 x5 x6 x7 x8 x9 x10 x11 x12 x13 x14 x15 x16 x17 x18 x19 x20 x21 x22 x23 x24 x25 x26 x27)

def rv_main_v56 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .slt : (⟨S65536x5x10, .i32⟩ : BufTy).Contents (Elt F) → (⟨S65536x5x10, .i32⟩ : BufTy).Contents (Elt F) → (⟨S65536x5x10, .i1⟩ : BufTy).Contents (Elt F)) x7 (rv_main_v55 x0 x1 x2 x3 x4 x5 x6 x7 x8 x9 x10 x11 x12 x13 x14 x15 x16 x17 x18 x19 x20 x21 x22 x23 x24 x25 x26 x27)

def rv_main_c_15 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 20#32)

def rv_main_v57 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10 ![] bcast_S_S65536x5x10 : (⟨S_, .i32⟩ : BufTy).Contents (Elt F) → (⟨S65536x5x10, .i32⟩ : BufTy).Contents (Elt F)) (rv_main_c_15 x0 x1 x2 x3 x4 x5 x6 x7 x8 x9 x10 x11 x12 x13 x14 x15 x16 x17 x18 x19 x20 x21 x22 x23 x24 x25 x26 x27)

def rv_main_v58 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addi : (⟨S65536x5x10, .i32⟩ : BufTy).Contents (Elt F) → (⟨S65536x5x10, .i32⟩ : BufTy).Contents (Elt F) → (⟨S65536x5x10, .i32⟩ : BufTy).Contents (Elt F)) x7 (rv_main_v57 x0 x1 x2 x3 x4 x5 x6 x7 x8 x9 x10 x11 x12 x13 x14 x15 x16 x17 x18 x19 x20 x21 x22 x23 x24 x25 x26 x27)

def rv_main_v59 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (select : (⟨S65536x5x10, .i1⟩ : BufTy).Contents (Elt F) → (⟨S65536x5x10, .i32⟩ : BufTy).Contents (Elt F) → (⟨S65536x5x10, .i32⟩ : BufTy).Contents (Elt F) → (⟨S65536x5x10, .i32⟩ : BufTy).Contents (Elt F)) (rv_main_v56 x0 x1 x2 x3 x4 x5 x6 x7 x8 x9 x10 x11 x12 x13 x14 x15 x16 x17 x18 x19 x20 x21 x22 x23 x24 x25 x26 x27) (rv_main_v58 x0 x1 x2 x3 x4 x5 x6 x7 x8 x9 x10 x11 x12 x13 x14 x15 x16 x17 x18 x19 x20 x21 x22 x23 x24 x25 x26 x27) x7

def rv_main_v60 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10x1 ![0, 1, 2] bcast_S65536x5x10_S65536x5x10x1_0_1_2 : (⟨S65536x5x10, .i32⟩ : BufTy).Contents (Elt F) → (⟨S65536x5x10x1, .i32⟩ : BufTy).Contents (Elt F)) (rv_main_v59 x0 x1 x2 x3 x4 x5 x6 x7 x8 x9 x10 x11 x12 x13 x14 x15 x16 x17 x18 x19 x20 x21 x22 x23 x24 x25 x26 x27)

def rv_main_v61 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x i => Host.gather gather_S20x8_S65536x5x10x1_S65536x5x10x8_3_0_n_n_0_3_18 x i) : (⟨S20x8, .f32⟩ : BufTy).Contents (Elt F) → (⟨S65536x5x10x1, .i32⟩ : BufTy).Contents (Elt F) → (⟨S65536x5x10x8, .f32⟩ : BufTy).Contents (Elt F)) x13 (rv_main_v60 x0 x1 x2 x3 x4 x5 x6 x7 x8 x9 x10 x11 x12 x13 x14 x15 x16 x17 x18 x19 x20 x21 x22 x23 x24 x25 x26 x27)

def rv_main_c_16 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constantI S_ 32 0#32)

def rv_main_v62 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10 ![] bcast_S_S65536x5x10 : (⟨S_, .i32⟩ : BufTy).Contents (Elt F) → (⟨S65536x5x10, .i32⟩ : BufTy).Contents (Elt F)) (rv_main_c_16 x0 x1 x2 x3 x4 x5 x6 x7 x8 x9 x10 x11 x12 x13 x14 x15 x16 x17 x18 x19 x20 x21 x22 x23 x24 x25 x26 x27)

def rv_main_v63 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (cmpi .ne : (⟨S65536x5x10, .i32⟩ : BufTy).Contents (Elt F) → (⟨S65536x5x10, .i32⟩ : BufTy).Contents (Elt F) → (⟨S65536x5x10, .i1⟩ : BufTy).Contents (Elt F)) x7 (rv_main_v62 x0 x1 x2 x3 x4 x5 x6 x7 x8 x9 x10 x11 x12 x13 x14 x15 x16 x17 x18 x19 x20 x21 x22 x23 x24 x25 x26 x27)

def rv_main_v64 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10x1 ![0, 1, 2] bcast_S65536x5x10_S65536x5x10x1_0_1_2 : (⟨S65536x5x10, .i1⟩ : BufTy).Contents (Elt F) → (⟨S65536x5x10x1, .i1⟩ : BufTy).Contents (Elt F)) (rv_main_v63 x0 x1 x2 x3 x4 x5 x6 x7 x8 x9 x10 x11 x12 x13 x14 x15 x16 x17 x18 x19 x20 x21 x22 x23 x24 x25 x26 x27)

def rv_main_v65 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (uitofp .f32 : (⟨S65536x5x10x1, .i1⟩ : BufTy).Contents (Elt F) → (⟨S65536x5x10x1, .f32⟩ : BufTy).Contents (Elt F)) (rv_main_v64 x0 x1 x2 x3 x4 x5 x6 x7 x8 x9 x10 x11 x12 x13 x14 x15 x16 x17 x18 x19 x20 x21 x22 x23 x24 x25 x26 x27)

def rv_main_v66 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x10x8 ![0, 1, 2, 3] bcast_S65536x5x10x1_S65536x5x10x8_0_1_2_3 : (⟨S65536x5x10x1, .f32⟩ : BufTy).Contents (Elt F) → (⟨S65536x5x10x8, .f32⟩ : BufTy).Contents (Elt F)) (rv_main_v65 x0 x1 x2 x3 x4 x5 x6 x7 x8 x9 x10 x11 x12 x13 x14 x15 x16 x17 x18 x19 x20 x21 x22 x23 x24 x25 x26 x27)

def rv_main_v67 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (mulf : (⟨S65536x5x10x8, .f32⟩ : BufTy).Contents (Elt F) → (⟨S65536x5x10x8, .f32⟩ : BufTy).Contents (Elt F) → (⟨S65536x5x10x8, .f32⟩ : BufTy).Contents (Elt F)) (rv_main_v61 x0 x1 x2 x3 x4 x5 x6 x7 x8 x9 x10 x11 x12 x13 x14 x15 x16 x17 x18 x19 x20 x21 x22 x23 x24 x25 x26 x27) (rv_main_v66 x0 x1 x2 x3 x4 x5 x6 x7 x8 x9 x10 x11 x12 x13 x14 x15 x16 x17 x18 x19 x20 x21 x22 x23 x24 x25 x26 x27)

def rv_main_v68 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x1x8 ![0, 1, 3] bcast_S65536x5x8_S65536x5x1x8_0_1_3 : (⟨S65536x5x8, .f32⟩ : BufTy).Contents (Elt F) → (⟨S65536x5x1x8, .f32⟩ : BufTy).Contents (Elt F)) (rv_main_v54 x0 x1 x2 x3 x4 x5 x6 x7 x8 x9 x10 x11 x12 x13 x14 x15 x16 x17 x18 x19 x20 x21 x22 x23 x24 x25 x26 x27)

def rv_main_v69 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun a b => concatenate S65536x5x11x8 2 [⟨S65536x5x1x8, a⟩, ⟨S65536x5x10x8, b⟩] concatenates_S65536x5x1x8_S65536x5x10x8_S65536x5x11x8_d2) : (⟨S65536x5x1x8, .f32⟩ : BufTy).Contents (Elt F) → (⟨S65536x5x10x8, .f32⟩ : BufTy).Contents (Elt F) → (⟨S65536x5x11x8, .f32⟩ : BufTy).Contents (Elt F)) (rv_main_v68 x0 x1 x2 x3 x4 x5 x6 x7 x8 x9 x10 x11 x12 x13 x14 x15 x16 x17 x18 x19 x20 x21 x22 x23 x24 x25 x26 x27) (rv_main_v67 x0 x1 x2 x3 x4 x5 x6 x7 x8 x9 x10 x11 x12 x13 x14 x15 x16 x17 x18 x19 x20 x21 x22 x23 x24 x25 x26 x27)

def rv_main_v70 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536x5x88 (rv_main_v69 x0 x1 x2 x3 x4 x5 x6 x7 x8 x9 x10 x11 x12 x13 x14 x15 x16 x17 x18 x19 x20 x21 x22 x23 x24 x25 x26 x27) shapeCasts_S65536x5x11x8_S65536x5x88

def rv_main_v71 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun a b => concatenate S65536x11x8 1 [⟨S65536x1x8, a⟩, ⟨S65536x10x8, b⟩] concatenates_S65536x1x8_S65536x10x8_S65536x11x8_d1) : (⟨S65536x1x8, .f32⟩ : BufTy).Contents (Elt F) → (⟨S65536x10x8, .f32⟩ : BufTy).Contents (Elt F) → (⟨S65536x11x8, .f32⟩ : BufTy).Contents (Elt F)) (rv_main_v13 x0 x1 x2 x3 x4 x5 x6 x7 x8 x9 x10 x11 x12 x13 x14 x15 x16 x17 x18 x19 x20 x21 x22 x23 x24 x25 x26 x27) (rv_main_v47 x0 x1 x2 x3 x4 x5 x6 x7 x8 x9 x10 x11 x12 x13 x14 x15 x16 x17 x18 x19 x20 x21 x22 x23 x24 x25 x26 x27)

def rv_main_v72 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536x1x88 (rv_main_v71 x0 x1 x2 x3 x4 x5 x6 x7 x8 x9 x10 x11 x12 x13 x14 x15 x16 x17 x18 x19 x20 x21 x22 x23 x24 x25 x26 x27) shapeCasts_S65536x11x8_S65536x1x88

def rv_main_v73 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x88 ![0, 1, 2] bcast_S65536x1x88_S65536x5x88_0_1_2 : (⟨S65536x1x88, .f32⟩ : BufTy).Contents (Elt F) → (⟨S65536x5x88, .f32⟩ : BufTy).Contents (Elt F)) (rv_main_v72 x0 x1 x2 x3 x4 x5 x6 x7 x8 x9 x10 x11 x12 x13 x14 x15 x16 x17 x18 x19 x20 x21 x22 x23 x24 x25 x26 x27)

def rv_main_v74 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (subf : (⟨S65536x5x88, .f32⟩ : BufTy).Contents (Elt F) → (⟨S65536x5x88, .f32⟩ : BufTy).Contents (Elt F) → (⟨S65536x5x88, .f32⟩ : BufTy).Contents (Elt F)) (rv_main_v70 x0 x1 x2 x3 x4 x5 x6 x7 x8 x9 x10 x11 x12 x13 x14 x15 x16 x17 x18 x19 x20 x21 x22 x23 x24 x25 x26 x27) (rv_main_v73 x0 x1 x2 x3 x4 x5 x6 x7 x8 x9 x10 x11 x12 x13 x14 x15 x16 x17 x18 x19 x20 x21 x22 x23 x24 x25 x26 x27)

def rv_main_v75 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  concatenate S65536x5x264 2 [⟨S65536x5x88, (rv_main_v70 x0 x1 x2 x3 x4 x5 x6 x7 x8 x9 x10 x11 x12 x13 x14 x15 x16 x17 x18 x19 x20 x21 x22 x23 x24 x25 x26 x27)⟩, ⟨S65536x5x88, (rv_main_v74 x0 x1 x2 x3 x4 x5 x6 x7 x8 x9 x10 x11 x12 x13 x14 x15 x16 x17 x18 x19 x20 x21 x22 x23 x24 x25 x26 x27)⟩, ⟨S65536x5x88, (rv_main_v73 x0 x1 x2 x3 x4 x5 x6 x7 x8 x9 x10 x11 x12 x13 x14 x15 x16 x17 x18 x19 x20 x21 x22 x23 x24 x25 x26 x27)⟩] concatenates_S65536x5x88_S65536x5x88_S65536x5x88_S65536x5x264_d2

def rv_main_v76 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x5x264_S64x264_S65536x5x64_2_1_01_0_n_n none l r) : (⟨S65536x5x264, .f32⟩ : BufTy).Contents (Elt F) → (⟨S64x264, .f32⟩ : BufTy).Contents (Elt F) → (⟨S65536x5x64, .f32⟩ : BufTy).Contents (Elt F)) (rv_main_v75 x0 x1 x2 x3 x4 x5 x6 x7 x8 x9 x10 x11 x12 x13 x14 x15 x16 x17 x18 x19 x20 x21 x22 x23 x24 x25 x26 x27) x14

def rv_main_v77 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x1x64 ![2] bcast_S64_S1x1x64_2 : (⟨S64, .f32⟩ : BufTy).Contents (Elt F) → (⟨S1x1x64, .f32⟩ : BufTy).Contents (Elt F)) x15

def rv_main_v78 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x64 ![0, 1, 2] bcast_S1x1x64_S65536x5x64_0_1_2 : (⟨S1x1x64, .f32⟩ : BufTy).Contents (Elt F) → (⟨S65536x5x64, .f32⟩ : BufTy).Contents (Elt F)) (rv_main_v77 x0 x1 x2 x3 x4 x5 x6 x7 x8 x9 x10 x11 x12 x13 x14 x15 x16 x17 x18 x19 x20 x21 x22 x23 x24 x25 x26 x27)

def rv_main_v79 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x5x64, .f32⟩ : BufTy).Contents (Elt F) → (⟨S65536x5x64, .f32⟩ : BufTy).Contents (Elt F) → (⟨S65536x5x64, .f32⟩ : BufTy).Contents (Elt F)) (rv_main_v76 x0 x1 x2 x3 x4 x5 x6 x7 x8 x9 x10 x11 x12 x13 x14 x15 x16 x17 x18 x19 x20 x21 x22 x23 x24 x25 x26 x27) (rv_main_v78 x0 x1 x2 x3 x4 x5 x6 x7 x8 x9 x10 x11 x12 x13 x14 x15 x16 x17 x18 x19 x20 x21 x22 x23 x24 x25 x26 x27)

def rv_main_call0_cst (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((constant (F := F) S_ .f32 0x00000000#32) : (⟨S_, .f32⟩ : BufTy).Contents (Elt F))

def rv_main_call0_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((broadcastInDim S65536x5x64 ![] bcast_S_S65536x5x64) : (⟨S_, .f32⟩ : BufTy).Contents (Elt F) → (⟨S65536x5x64, .f32⟩ : BufTy).Contents (Elt F)) (rv_main_call0_cst x0 x1 x2 x3 x4 x5 x6 x7 x8 x9 x10 x11 x12 x13 x14 x15 x16 x17 x18 x19 x20 x21 x22 x23 x24 x25 x26 x27)

def rv_main_v80 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (maximumf : (⟨S65536x5x64, .f32⟩ : BufTy).Contents (Elt F) → (⟨S65536x5x64, .f32⟩ : BufTy).Contents (Elt F) → (⟨S65536x5x64, .f32⟩ : BufTy).Contents (Elt F)) (rv_main_v79 x0 x1 x2 x3 x4 x5 x6 x7 x8 x9 x10 x11 x12 x13 x14 x15 x16 x17 x18 x19 x20 x21 x22 x23 x24 x25 x26 x27) (rv_main_call0_v0 x0 x1 x2 x3 x4 x5 x6 x7 x8 x9 x10 x11 x12 x13 x14 x15 x16 x17 x18 x19 x20 x21 x22 x23 x24 x25 x26 x27)

def rv_main_v81 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x5x64_S32x64_S65536x5x32_2_1_01_0_n_n none l r) : (⟨S65536x5x64, .f32⟩ : BufTy).Contents (Elt F) → (⟨S32x64, .f32⟩ : BufTy).Contents (Elt F) → (⟨S65536x5x32, .f32⟩ : BufTy).Contents (Elt F)) (rv_main_v80 x0 x1 x2 x3 x4 x5 x6 x7 x8 x9 x10 x11 x12 x13 x14 x15 x16 x17 x18 x19 x20 x21 x22 x23 x24 x25 x26 x27) x16

def rv_main_v82 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x1x32 ![2] bcast_S32_S1x1x32_2 : (⟨S32, .f32⟩ : BufTy).Contents (Elt F) → (⟨S1x1x32, .f32⟩ : BufTy).Contents (Elt F)) x17

def rv_main_v83 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x32 ![0, 1, 2] bcast_S1x1x32_S65536x5x32_0_1_2 : (⟨S1x1x32, .f32⟩ : BufTy).Contents (Elt F) → (⟨S65536x5x32, .f32⟩ : BufTy).Contents (Elt F)) (rv_main_v82 x0 x1 x2 x3 x4 x5 x6 x7 x8 x9 x10 x11 x12 x13 x14 x15 x16 x17 x18 x19 x20 x21 x22 x23 x24 x25 x26 x27)

def rv_main_v84 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x5x32, .f32⟩ : BufTy).Contents (Elt F) → (⟨S65536x5x32, .f32⟩ : BufTy).Contents (Elt F) → (⟨S65536x5x32, .f32⟩ : BufTy).Contents (Elt F)) (rv_main_v81 x0 x1 x2 x3 x4 x5 x6 x7 x8 x9 x10 x11 x12 x13 x14 x15 x16 x17 x18 x19 x20 x21 x22 x23 x24 x25 x26 x27) (rv_main_v83 x0 x1 x2 x3 x4 x5 x6 x7 x8 x9 x10 x11 x12 x13 x14 x15 x16 x17 x18 x19 x20 x21 x22 x23 x24 x25 x26 x27)

def rv_main_call1_cst (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((constant (F := F) S_ .f32 0x00000000#32) : (⟨S_, .f32⟩ : BufTy).Contents (Elt F))

def rv_main_call1_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((broadcastInDim S65536x5x32 ![] bcast_S_S65536x5x32) : (⟨S_, .f32⟩ : BufTy).Contents (Elt F) → (⟨S65536x5x32, .f32⟩ : BufTy).Contents (Elt F)) (rv_main_call1_cst x0 x1 x2 x3 x4 x5 x6 x7 x8 x9 x10 x11 x12 x13 x14 x15 x16 x17 x18 x19 x20 x21 x22 x23 x24 x25 x26 x27)

def rv_main_v85 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (maximumf : (⟨S65536x5x32, .f32⟩ : BufTy).Contents (Elt F) → (⟨S65536x5x32, .f32⟩ : BufTy).Contents (Elt F) → (⟨S65536x5x32, .f32⟩ : BufTy).Contents (Elt F)) (rv_main_v84 x0 x1 x2 x3 x4 x5 x6 x7 x8 x9 x10 x11 x12 x13 x14 x15 x16 x17 x18 x19 x20 x21 x22 x23 x24 x25 x26 x27) (rv_main_call1_v0 x0 x1 x2 x3 x4 x5 x6 x7 x8 x9 x10 x11 x12 x13 x14 x15 x16 x17 x18 x19 x20 x21 x22 x23 x24 x25 x26 x27)

def rv_main_v86 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x5x32_S1x32_S65536x5x1_2_1_01_0_n_n none l r) : (⟨S65536x5x32, .f32⟩ : BufTy).Contents (Elt F) → (⟨S1x32, .f32⟩ : BufTy).Contents (Elt F) → (⟨S65536x5x1, .f32⟩ : BufTy).Contents (Elt F)) (rv_main_v85 x0 x1 x2 x3 x4 x5 x6 x7 x8 x9 x10 x11 x12 x13 x14 x15 x16 x17 x18 x19 x20 x21 x22 x23 x24 x25 x26 x27) x18

def rv_main_v87 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x1x1 ![2] bcast_S1_S1x1x1_2 : (⟨S1, .f32⟩ : BufTy).Contents (Elt F) → (⟨S1x1x1, .f32⟩ : BufTy).Contents (Elt F)) x19

def rv_main_v88 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x1 ![0, 1, 2] bcast_S1x1x1_S65536x5x1_0_1_2 : (⟨S1x1x1, .f32⟩ : BufTy).Contents (Elt F) → (⟨S65536x5x1, .f32⟩ : BufTy).Contents (Elt F)) (rv_main_v87 x0 x1 x2 x3 x4 x5 x6 x7 x8 x9 x10 x11 x12 x13 x14 x15 x16 x17 x18 x19 x20 x21 x22 x23 x24 x25 x26 x27)

def rv_main_v89 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x5x1, .f32⟩ : BufTy).Contents (Elt F) → (⟨S65536x5x1, .f32⟩ : BufTy).Contents (Elt F) → (⟨S65536x5x1, .f32⟩ : BufTy).Contents (Elt F)) (rv_main_v86 x0 x1 x2 x3 x4 x5 x6 x7 x8 x9 x10 x11 x12 x13 x14 x15 x16 x17 x18 x19 x20 x21 x22 x23 x24 x25 x26 x27) (rv_main_v88 x0 x1 x2 x3 x4 x5 x6 x7 x8 x9 x10 x11 x12 x13 x14 x15 x16 x17 x18 x19 x20 x21 x22 x23 x24 x25 x26 x27)

def rv_main_v90 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x5x88 ![0, 1, 2] bcast_S65536x5x1_S65536x5x88_0_1_2 : (⟨S65536x5x1, .f32⟩ : BufTy).Contents (Elt F) → (⟨S65536x5x88, .f32⟩ : BufTy).Contents (Elt F)) (rv_main_v89 x0 x1 x2 x3 x4 x5 x6 x7 x8 x9 x10 x11 x12 x13 x14 x15 x16 x17 x18 x19 x20 x21 x22 x23 x24 x25 x26 x27)

def rv_main_v91 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (mulf : (⟨S65536x5x88, .f32⟩ : BufTy).Contents (Elt F) → (⟨S65536x5x88, .f32⟩ : BufTy).Contents (Elt F) → (⟨S65536x5x88, .f32⟩ : BufTy).Contents (Elt F)) (rv_main_v70 x0 x1 x2 x3 x4 x5 x6 x7 x8 x9 x10 x11 x12 x13 x14 x15 x16 x17 x18 x19 x20 x21 x22 x23 x24 x25 x26 x27) (rv_main_v90 x0 x1 x2 x3 x4 x5 x6 x7 x8 x9 x10 x11 x12 x13 x14 x15 x16 x17 x18 x19 x20 x21 x22 x23 x24 x25 x26 x27)

def rv_main_v92 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (mulf : (⟨S65536x5x88, .f32⟩ : BufTy).Contents (Elt F) → (⟨S65536x5x88, .f32⟩ : BufTy).Contents (Elt F) → (⟨S65536x5x88, .f32⟩ : BufTy).Contents (Elt F)) (rv_main_v70 x0 x1 x2 x3 x4 x5 x6 x7 x8 x9 x10 x11 x12 x13 x14 x15 x16 x17 x18 x19 x20 x21 x22 x23 x24 x25 x26 x27) (rv_main_v91 x0 x1 x2 x3 x4 x5 x6 x7 x8 x9 x10 x11 x12 x13 x14 x15 x16 x17 x18 x19 x20 x21 x22 x23 x24 x25 x26 x27)

def rv_main_cst (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constant (F := F) S_ .f32 0x00000000#32)

def rv_main_v93 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun x v => Host.reduceAdd x v reducesTo_S65536x5x88_S65536x88_d1 h_S_) : (⟨S65536x5x88, .f32⟩ : BufTy).Contents (Elt F) → (⟨S_, .f32⟩ : BufTy).Contents (Elt F) → (⟨S65536x88, .f32⟩ : BufTy).Contents (Elt F)) (rv_main_v92 x0 x1 x2 x3 x4 x5 x6 x7 x8 x9 x10 x11 x12 x13 x14 x15 x16 x17 x18 x19 x20 x21 x22 x23 x24 x25 x26 x27) (rv_main_cst x0 x1 x2 x3 x4 x5 x6 x7 x8 x9 x10 x11 x12 x13 x14 x15 x16 x17 x18 x19 x20 x21 x22 x23 x24 x25 x26 x27)

def rv_main_v94 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  concatenate S65536x15x8 1 [⟨S65536x1x8, (rv_main_v6 x0 x1 x2 x3 x4 x5 x6 x7 x8 x9 x10 x11 x12 x13 x14 x15 x16 x17 x18 x19 x20 x21 x22 x23 x24 x25 x26 x27)⟩, ⟨S65536x1x8, (rv_main_v13 x0 x1 x2 x3 x4 x5 x6 x7 x8 x9 x10 x11 x12 x13 x14 x15 x16 x17 x18 x19 x20 x21 x22 x23 x24 x25 x26 x27)⟩, ⟨S65536x1x8, (rv_main_v20 x0 x1 x2 x3 x4 x5 x6 x7 x8 x9 x10 x11 x12 x13 x14 x15 x16 x17 x18 x19 x20 x21 x22 x23 x24 x25 x26 x27)⟩, ⟨S65536x1x8, (rv_main_v27 x0 x1 x2 x3 x4 x5 x6 x7 x8 x9 x10 x11 x12 x13 x14 x15 x16 x17 x18 x19 x20 x21 x22 x23 x24 x25 x26 x27)⟩, ⟨S65536x1x8, (rv_main_v34 x0 x1 x2 x3 x4 x5 x6 x7 x8 x9 x10 x11 x12 x13 x14 x15 x16 x17 x18 x19 x20 x21 x22 x23 x24 x25 x26 x27)⟩, ⟨S65536x10x8, (rv_main_v47 x0 x1 x2 x3 x4 x5 x6 x7 x8 x9 x10 x11 x12 x13 x14 x15 x16 x17 x18 x19 x20 x21 x22 x23 x24 x25 x26 x27)⟩] concatenates_S65536x1x8_S65536x1x8_S65536x1x8_S65536x1x8_S65536x1x8_S65536x10x8_S65536x15x8_d1

def rv_main_v95 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  shapeCast S65536x120 (rv_main_v94 x0 x1 x2 x3 x4 x5 x6 x7 x8 x9 x10 x11 x12 x13 x14 x15 x16 x17 x18 x19 x20 x21 x22 x23 x24 x25 x26 x27) shapeCasts_S65536x15x8_S65536x120

def rv_main_v96 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun a b => concatenate S65536x208 1 [⟨S65536x120, a⟩, ⟨S65536x88, b⟩] concatenates_S65536x120_S65536x88_S65536x208_d1) : (⟨S65536x120, .f32⟩ : BufTy).Contents (Elt F) → (⟨S65536x88, .f32⟩ : BufTy).Contents (Elt F) → (⟨S65536x208, .f32⟩ : BufTy).Contents (Elt F)) (rv_main_v95 x0 x1 x2 x3 x4 x5 x6 x7 x8 x9 x10 x11 x12 x13 x14 x15 x16 x17 x18 x19 x20 x21 x22 x23 x24 x25 x26 x27) (rv_main_v93 x0 x1 x2 x3 x4 x5 x6 x7 x8 x9 x10 x11 x12 x13 x14 x15 x16 x17 x18 x19 x20 x21 x22 x23 x24 x25 x26 x27)

def rv_main_v97 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S208x128 [1, 0] · transposes_S128x208_S208x128_1_0) : (⟨S128x208, .f32⟩ : BufTy).Contents (Elt F) → (⟨S208x128, .f32⟩ : BufTy).Contents (Elt F)) x20

def rv_main_v98 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x208_S208x128_S65536x128_1_0_0_1_n_n none l r) : (⟨S65536x208, .f32⟩ : BufTy).Contents (Elt F) → (⟨S208x128, .f32⟩ : BufTy).Contents (Elt F) → (⟨S65536x128, .f32⟩ : BufTy).Contents (Elt F)) (rv_main_v96 x0 x1 x2 x3 x4 x5 x6 x7 x8 x9 x10 x11 x12 x13 x14 x15 x16 x17 x18 x19 x20 x21 x22 x23 x24 x25 x26 x27) (rv_main_v97 x0 x1 x2 x3 x4 x5 x6 x7 x8 x9 x10 x11 x12 x13 x14 x15 x16 x17 x18 x19 x20 x21 x22 x23 x24 x25 x26 x27)

def rv_main_v99 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x128 ![1] bcast_S128_S1x128_1 : (⟨S128, .f32⟩ : BufTy).Contents (Elt F) → (⟨S1x128, .f32⟩ : BufTy).Contents (Elt F)) x21

def rv_main_v100 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x128 ![0, 1] bcast_S1x128_S65536x128_0_1 : (⟨S1x128, .f32⟩ : BufTy).Contents (Elt F) → (⟨S65536x128, .f32⟩ : BufTy).Contents (Elt F)) (rv_main_v99 x0 x1 x2 x3 x4 x5 x6 x7 x8 x9 x10 x11 x12 x13 x14 x15 x16 x17 x18 x19 x20 x21 x22 x23 x24 x25 x26 x27)

def rv_main_v101 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x128, .f32⟩ : BufTy).Contents (Elt F) → (⟨S65536x128, .f32⟩ : BufTy).Contents (Elt F) → (⟨S65536x128, .f32⟩ : BufTy).Contents (Elt F)) (rv_main_v98 x0 x1 x2 x3 x4 x5 x6 x7 x8 x9 x10 x11 x12 x13 x14 x15 x16 x17 x18 x19 x20 x21 x22 x23 x24 x25 x26 x27) (rv_main_v100 x0 x1 x2 x3 x4 x5 x6 x7 x8 x9 x10 x11 x12 x13 x14 x15 x16 x17 x18 x19 x20 x21 x22 x23 x24 x25 x26 x27)

def rv_main_call2_cst (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((constant (F := F) S_ .f32 0x00000000#32) : (⟨S_, .f32⟩ : BufTy).Contents (Elt F))

def rv_main_call2_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((broadcastInDim S65536x128 ![] bcast_S_S65536x128) : (⟨S_, .f32⟩ : BufTy).Contents (Elt F) → (⟨S65536x128, .f32⟩ : BufTy).Contents (Elt F)) (rv_main_call2_cst x0 x1 x2 x3 x4 x5 x6 x7 x8 x9 x10 x11 x12 x13 x14 x15 x16 x17 x18 x19 x20 x21 x22 x23 x24 x25 x26 x27)

def rv_main_v102 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (maximumf : (⟨S65536x128, .f32⟩ : BufTy).Contents (Elt F) → (⟨S65536x128, .f32⟩ : BufTy).Contents (Elt F) → (⟨S65536x128, .f32⟩ : BufTy).Contents (Elt F)) (rv_main_v101 x0 x1 x2 x3 x4 x5 x6 x7 x8 x9 x10 x11 x12 x13 x14 x15 x16 x17 x18 x19 x20 x21 x22 x23 x24 x25 x26 x27) (rv_main_call2_v0 x0 x1 x2 x3 x4 x5 x6 x7 x8 x9 x10 x11 x12 x13 x14 x15 x16 x17 x18 x19 x20 x21 x22 x23 x24 x25 x26 x27)

def rv_main_v103 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S128x64 [1, 0] · transposes_S64x128_S128x64_1_0) : (⟨S64x128, .f32⟩ : BufTy).Contents (Elt F) → (⟨S128x64, .f32⟩ : BufTy).Contents (Elt F)) x22

def rv_main_v104 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)) (rv_main_v102 x0 x1 x2 x3 x4 x5 x6 x7 x8 x9 x10 x11 x12 x13 x14 x15 x16 x17 x18 x19 x20 x21 x22 x23 x24 x25 x26 x27) (rv_main_v103 x0 x1 x2 x3 x4 x5 x6 x7 x8 x9 x10 x11 x12 x13 x14 x15 x16 x17 x18 x19 x20 x21 x22 x23 x24 x25 x26 x27)

def rv_main_v105 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x64 ![1] bcast_S64_S1x64_1 : (⟨S64, .f32⟩ : BufTy).Contents (Elt F) → (⟨S1x64, .f32⟩ : BufTy).Contents (Elt F)) x23

def rv_main_v106 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x64 ![0, 1] bcast_S1x64_S65536x64_0_1 : (⟨S1x64, .f32⟩ : BufTy).Contents (Elt F) → (⟨S65536x64, .f32⟩ : BufTy).Contents (Elt F)) (rv_main_v105 x0 x1 x2 x3 x4 x5 x6 x7 x8 x9 x10 x11 x12 x13 x14 x15 x16 x17 x18 x19 x20 x21 x22 x23 x24 x25 x26 x27)

def rv_main_v107 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x64, .f32⟩ : BufTy).Contents (Elt F) → (⟨S65536x64, .f32⟩ : BufTy).Contents (Elt F) → (⟨S65536x64, .f32⟩ : BufTy).Contents (Elt F)) (rv_main_v104 x0 x1 x2 x3 x4 x5 x6 x7 x8 x9 x10 x11 x12 x13 x14 x15 x16 x17 x18 x19 x20 x21 x22 x23 x24 x25 x26 x27) (rv_main_v106 x0 x1 x2 x3 x4 x5 x6 x7 x8 x9 x10 x11 x12 x13 x14 x15 x16 x17 x18 x19 x20 x21 x22 x23 x24 x25 x26 x27)

def rv_main_call3_cst (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((constant (F := F) S_ .f32 0x00000000#32) : (⟨S_, .f32⟩ : BufTy).Contents (Elt F))

def rv_main_call3_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((broadcastInDim S65536x64 ![] bcast_S_S65536x64) : (⟨S_, .f32⟩ : BufTy).Contents (Elt F) → (⟨S65536x64, .f32⟩ : BufTy).Contents (Elt F)) (rv_main_call3_cst x0 x1 x2 x3 x4 x5 x6 x7 x8 x9 x10 x11 x12 x13 x14 x15 x16 x17 x18 x19 x20 x21 x22 x23 x24 x25 x26 x27)

def rv_main_v108 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (maximumf : (⟨S65536x64, .f32⟩ : BufTy).Contents (Elt F) → (⟨S65536x64, .f32⟩ : BufTy).Contents (Elt F) → (⟨S65536x64, .f32⟩ : BufTy).Contents (Elt F)) (rv_main_v107 x0 x1 x2 x3 x4 x5 x6 x7 x8 x9 x10 x11 x12 x13 x14 x15 x16 x17 x18 x19 x20 x21 x22 x23 x24 x25 x26 x27) (rv_main_call3_v0 x0 x1 x2 x3 x4 x5 x6 x7 x8 x9 x10 x11 x12 x13 x14 x15 x16 x17 x18 x19 x20 x21 x22 x23 x24 x25 x26 x27)

def rv_main_v109 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S64x32 [1, 0] · transposes_S32x64_S64x32_1_0) : (⟨S32x64, .f32⟩ : BufTy).Contents (Elt F) → (⟨S64x32, .f32⟩ : BufTy).Contents (Elt F)) x24

def rv_main_v110 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x64_S64x32_S65536x32_1_0_0_1_n_n none l r) : (⟨S65536x64, .f32⟩ : BufTy).Contents (Elt F) → (⟨S64x32, .f32⟩ : BufTy).Contents (Elt F) → (⟨S65536x32, .f32⟩ : BufTy).Contents (Elt F)) (rv_main_v108 x0 x1 x2 x3 x4 x5 x6 x7 x8 x9 x10 x11 x12 x13 x14 x15 x16 x17 x18 x19 x20 x21 x22 x23 x24 x25 x26 x27) (rv_main_v109 x0 x1 x2 x3 x4 x5 x6 x7 x8 x9 x10 x11 x12 x13 x14 x15 x16 x17 x18 x19 x20 x21 x22 x23 x24 x25 x26 x27)

def rv_main_v111 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x32 ![1] bcast_S32_S1x32_1 : (⟨S32, .f32⟩ : BufTy).Contents (Elt F) → (⟨S1x32, .f32⟩ : BufTy).Contents (Elt F)) x25

def rv_main_v112 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x32 ![0, 1] bcast_S1x32_S65536x32_0_1 : (⟨S1x32, .f32⟩ : BufTy).Contents (Elt F) → (⟨S65536x32, .f32⟩ : BufTy).Contents (Elt F)) (rv_main_v111 x0 x1 x2 x3 x4 x5 x6 x7 x8 x9 x10 x11 x12 x13 x14 x15 x16 x17 x18 x19 x20 x21 x22 x23 x24 x25 x26 x27)

def rv_main_v113 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x32, .f32⟩ : BufTy).Contents (Elt F) → (⟨S65536x32, .f32⟩ : BufTy).Contents (Elt F) → (⟨S65536x32, .f32⟩ : BufTy).Contents (Elt F)) (rv_main_v110 x0 x1 x2 x3 x4 x5 x6 x7 x8 x9 x10 x11 x12 x13 x14 x15 x16 x17 x18 x19 x20 x21 x22 x23 x24 x25 x26 x27) (rv_main_v112 x0 x1 x2 x3 x4 x5 x6 x7 x8 x9 x10 x11 x12 x13 x14 x15 x16 x17 x18 x19 x20 x21 x22 x23 x24 x25 x26 x27)

def rv_main_call4_cst (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((constant (F := F) S_ .f32 0x00000000#32) : (⟨S_, .f32⟩ : BufTy).Contents (Elt F))

def rv_main_call4_v0 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((broadcastInDim S65536x32 ![] bcast_S_S65536x32) : (⟨S_, .f32⟩ : BufTy).Contents (Elt F) → (⟨S65536x32, .f32⟩ : BufTy).Contents (Elt F)) (rv_main_call4_cst x0 x1 x2 x3 x4 x5 x6 x7 x8 x9 x10 x11 x12 x13 x14 x15 x16 x17 x18 x19 x20 x21 x22 x23 x24 x25 x26 x27)

def rv_main_v114 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (maximumf : (⟨S65536x32, .f32⟩ : BufTy).Contents (Elt F) → (⟨S65536x32, .f32⟩ : BufTy).Contents (Elt F) → (⟨S65536x32, .f32⟩ : BufTy).Contents (Elt F)) (rv_main_v113 x0 x1 x2 x3 x4 x5 x6 x7 x8 x9 x10 x11 x12 x13 x14 x15 x16 x17 x18 x19 x20 x21 x22 x23 x24 x25 x26 x27) (rv_main_call4_v0 x0 x1 x2 x3 x4 x5 x6 x7 x8 x9 x10 x11 x12 x13 x14 x15 x16 x17 x18 x19 x20 x21 x22 x23 x24 x25 x26 x27)

def rv_main_v115 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((transpose S32x1 [1, 0] · transposes_S1x32_S32x1_1_0) : (⟨S1x32, .f32⟩ : BufTy).Contents (Elt F) → (⟨S32x1, .f32⟩ : BufTy).Contents (Elt F)) x26

def rv_main_v116 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  ((fun l r => Host.dotGeneral dot_S65536x32_S32x1_S65536x1_1_0_0_1_n_n none l r) : (⟨S65536x32, .f32⟩ : BufTy).Contents (Elt F) → (⟨S32x1, .f32⟩ : BufTy).Contents (Elt F) → (⟨S65536x1, .f32⟩ : BufTy).Contents (Elt F)) (rv_main_v114 x0 x1 x2 x3 x4 x5 x6 x7 x8 x9 x10 x11 x12 x13 x14 x15 x16 x17 x18 x19 x20 x21 x22 x23 x24 x25 x26 x27) (rv_main_v115 x0 x1 x2 x3 x4 x5 x6 x7 x8 x9 x10 x11 x12 x13 x14 x15 x16 x17 x18 x19 x20 x21 x22 x23 x24 x25 x26 x27)

def rv_main_v117 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S1x1 ![1] bcast_S1_S1x1_1 : (⟨S1, .f32⟩ : BufTy).Contents (Elt F) → (⟨S1x1, .f32⟩ : BufTy).Contents (Elt F)) x27

def rv_main_v118 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![0, 1] bcast_S1x1_S65536x1_0_1 : (⟨S1x1, .f32⟩ : BufTy).Contents (Elt F) → (⟨S65536x1, .f32⟩ : BufTy).Contents (Elt F)) (rv_main_v117 x0 x1 x2 x3 x4 x5 x6 x7 x8 x9 x10 x11 x12 x13 x14 x15 x16 x17 x18 x19 x20 x21 x22 x23 x24 x25 x26 x27)

def rv_main_v119 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x1, .f32⟩ : BufTy).Contents (Elt F) → (⟨S65536x1, .f32⟩ : BufTy).Contents (Elt F) → (⟨S65536x1, .f32⟩ : BufTy).Contents (Elt F)) (rv_main_v116 x0 x1 x2 x3 x4 x5 x6 x7 x8 x9 x10 x11 x12 x13 x14 x15 x16 x17 x18 x19 x20 x21 x22 x23 x24 x25 x26 x27) (rv_main_v118 x0 x1 x2 x3 x4 x5 x6 x7 x8 x9 x10 x11 x12 x13 x14 x15 x16 x17 x18 x19 x20 x21 x22 x23 x24 x25 x26 x27)

def rv_main_v120 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (Host.negf : (⟨S65536x1, .f32⟩ : BufTy).Contents (Elt F) → (⟨S65536x1, .f32⟩ : BufTy).Contents (Elt F)) (rv_main_v119 x0 x1 x2 x3 x4 x5 x6 x7 x8 x9 x10 x11 x12 x13 x14 x15 x16 x17 x18 x19 x20 x21 x22 x23 x24 x25 x26 x27)

def rv_main_v121 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (Host.exp : (⟨S65536x1, .f32⟩ : BufTy).Contents (Elt F) → (⟨S65536x1, .f32⟩ : BufTy).Contents (Elt F)) (rv_main_v120 x0 x1 x2 x3 x4 x5 x6 x7 x8 x9 x10 x11 x12 x13 x14 x15 x16 x17 x18 x19 x20 x21 x22 x23 x24 x25 x26 x27)

def rv_main_cst_17 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constant (F := F) S_ .f32 0x3F800000#32)

def rv_main_v122 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .f32⟩ : BufTy).Contents (Elt F) → (⟨S65536x1, .f32⟩ : BufTy).Contents (Elt F)) (rv_main_cst_17 x0 x1 x2 x3 x4 x5 x6 x7 x8 x9 x10 x11 x12 x13 x14 x15 x16 x17 x18 x19 x20 x21 x22 x23 x24 x25 x26 x27)

def rv_main_v123 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (addf : (⟨S65536x1, .f32⟩ : BufTy).Contents (Elt F) → (⟨S65536x1, .f32⟩ : BufTy).Contents (Elt F) → (⟨S65536x1, .f32⟩ : BufTy).Contents (Elt F)) (rv_main_v122 x0 x1 x2 x3 x4 x5 x6 x7 x8 x9 x10 x11 x12 x13 x14 x15 x16 x17 x18 x19 x20 x21 x22 x23 x24 x25 x26 x27) (rv_main_v121 x0 x1 x2 x3 x4 x5 x6 x7 x8 x9 x10 x11 x12 x13 x14 x15 x16 x17 x18 x19 x20 x21 x22 x23 x24 x25 x26 x27)

def rv_main_cst_18 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (constant (F := F) S_ .f32 0x3F800000#32)

def rv_main_v124 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (broadcastInDim S65536x1 ![] bcast_S_S65536x1 : (⟨S_, .f32⟩ : BufTy).Contents (Elt F) → (⟨S65536x1, .f32⟩ : BufTy).Contents (Elt F)) (rv_main_cst_18 x0 x1 x2 x3 x4 x5 x6 x7 x8 x9 x10 x11 x12 x13 x14 x15 x16 x17 x18 x19 x20 x21 x22 x23 x24 x25 x26 x27)

def rv_main_v125 (x0 : (⟨S65536x1, .i32⟩ : BufTy).Contents (Elt F)) (x1 : (⟨S65536x1, .i32⟩ : BufTy).Contents (Elt F)) (x2 : (⟨S65536x1, .i32⟩ : BufTy).Contents (Elt F)) (x3 : (⟨S65536x1, .i32⟩ : BufTy).Contents (Elt F)) (x4 : (⟨S65536x1, .i32⟩ : BufTy).Contents (Elt F)) (x5 : (⟨S65536x10, .i32⟩ : BufTy).Contents (Elt F)) (x6 : (⟨S65536x5, .i32⟩ : BufTy).Contents (Elt F)) (x7 : (⟨S65536x5x10, .i32⟩ : BufTy).Contents (Elt F)) (x8 : (⟨S1000000x8, .f32⟩ : BufTy).Contents (Elt F)) (x9 : (⟨S1000000x8, .f32⟩ : BufTy).Contents (Elt F)) (x10 : (⟨S8x8, .f32⟩ : BufTy).Contents (Elt F)) (x11 : (⟨S3x8, .f32⟩ : BufTy).Contents (Elt F)) (x12 : (⟨S25x8, .f32⟩ : BufTy).Contents (Elt F)) (x13 : (⟨S20x8, .f32⟩ : BufTy).Contents (Elt F)) (x14 : (⟨S64x264, .f32⟩ : BufTy).Contents (Elt F)) (x15 : (⟨S64, .f32⟩ : BufTy).Contents (Elt F)) (x16 : (⟨S32x64, .f32⟩ : BufTy).Contents (Elt F)) (x17 : (⟨S32, .f32⟩ : BufTy).Contents (Elt F)) (x18 : (⟨S1x32, .f32⟩ : BufTy).Contents (Elt F)) (x19 : (⟨S1, .f32⟩ : BufTy).Contents (Elt F)) (x20 : (⟨S128x208, .f32⟩ : BufTy).Contents (Elt F)) (x21 : (⟨S128, .f32⟩ : BufTy).Contents (Elt F)) (x22 : (⟨S64x128, .f32⟩ : BufTy).Contents (Elt F)) (x23 : (⟨S64, .f32⟩ : BufTy).Contents (Elt F)) (x24 : (⟨S32x64, .f32⟩ : BufTy).Contents (Elt F)) (x25 : (⟨S32, .f32⟩ : BufTy).Contents (Elt F)) (x26 : (⟨S1x32, .f32⟩ : BufTy).Contents (Elt F)) (x27 : (⟨S1, .f32⟩ : BufTy).Contents (Elt F)) :=
  (Host.divf : (⟨S65536x1, .f32⟩ : BufTy).Contents (Elt F) → (⟨S65536x1, .f32⟩ : BufTy).Contents (Elt F) → (⟨S65536x1, .f32⟩ : BufTy).Contents (Elt F)) (rv_main_v124 x0 x1 x2 x3 x4 x5 x6 x7 x8 x9 x10 x11 x12 x13 x14 x15 x16 x17 x18 x19 x20 x21 x22 x23 x24 x25 x26 x27) (rv_main_v123 x0 x1 x2 x3 x4 x5 x6 x7 x8 x9 x10 x11 x12 x13 x14 x15 x16 x17 x18 x19 x20 x21 x22 x23 x24 x25 x26 x27)

end Cert.ReferenceIdeal.RRead

end
-- ==== Proof.RefRow.lean ====
/-
  The reference program read at one batch row: from the history features, the current item's features and the base
  features of row `b`, the reference's result at `(b, 0)` is `Cert.Gating.rowScore` of them and the weights.
  First the host operations the program uses are read at an index (a contraction as a sum, a bias through its two
  broadcasts, a constant broadcast, a concatenation by the span its coordinate falls in, a sum over one axis); then
  the layers are chained from the activation unit's input to the result.
-/
import proofs.«117253_j35613868819029_1_alg».proof.Proof.RRead
import proofs.«117253_j35613868819029_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefRow

open Cert.ReferenceIdeal Cert.ReferenceIdeal.Gen Idealize.ShloMosaic Idealize.ShloMosaic.ValueIdx
open scoped BigOperators

/-! ## The host operations read at an index -/

/-- A scalar constant broadcast to any shape reads the constant everywhere. -/
theorem const_bcast_apply {T : Shape} (h : S_.BroadcastsInDim T (![] : Fin 0 → Fin T.rank)) (bits : BitVec 32) (j : T.Idx) :
    broadcastInDim T ![] h (constant (F := Ideal) S_ .f32 bits) j = Ideal.ofBits .f32 bits :=
  broadcastInDim_apply _ h _ j (fun a => a.elim0) (fun a => a.elim0)

theorem zero_bcast_apply {T : Shape} (h : S_.BroadcastsInDim T (![] : Fin 0 → Fin T.rank)) (j : T.Idx) :
    broadcastInDim T ![] h (constant (F := Ideal) S_ .f32 0x00000000#32) j = Ideal.ofBits .f32 0x00000000#32 :=
  const_bcast_apply h _ j

theorem dotA_lhs_0 (i : S65536x5x64.Idx) (q : dot_S65536x5x264_S64x264_S65536x5x64_2_1_01_0_n_n.contr.Idx) : (dot_S65536x5x264_S64x264_S65536x5x64_2_1_01_0_n_n.lhsIdx i q 0).val = (i 0).val := by
  unfold DotDims.lhsIdx
  rw [dif_neg (show ¬(0 : Fin S65536x5x264.rank) ∈ dot_S65536x5x264_S64x264_S65536x5x64_2_1_01_0_n_n.lhsBatch by decide), dif_pos (show (0 : Fin S65536x5x264.rank) ∈ dot_S65536x5x264_S64x264_S65536x5x64_2_1_01_0_n_n.lhsNonContracting by decide)]
  rfl
theorem dotA_lhs_1 (i : S65536x5x64.Idx) (q : dot_S65536x5x264_S64x264_S65536x5x64_2_1_01_0_n_n.contr.Idx) : (dot_S65536x5x264_S64x264_S65536x5x64_2_1_01_0_n_n.lhsIdx i q 1).val = (i 1).val := by
  unfold DotDims.lhsIdx
  rw [dif_neg (show ¬(1 : Fin S65536x5x264.rank) ∈ dot_S65536x5x264_S64x264_S65536x5x64_2_1_01_0_n_n.lhsBatch by decide), dif_pos (show (1 : Fin S65536x5x264.rank) ∈ dot_S65536x5x264_S64x264_S65536x5x64_2_1_01_0_n_n.lhsNonContracting by decide)]
  rfl
theorem dotA_lhs_2 (i : S65536x5x64.Idx) (q : dot_S65536x5x264_S64x264_S65536x5x64_2_1_01_0_n_n.contr.Idx) : (dot_S65536x5x264_S64x264_S65536x5x64_2_1_01_0_n_n.lhsIdx i q 2).val = (q ⟨0, by decide⟩).val :=
  dot_S65536x5x264_S64x264_S65536x5x64_2_1_01_0_n_n.lhsIdx_val_of_single rfl i q
theorem dotA_rhs_0 (i : S65536x5x64.Idx) (q : dot_S65536x5x264_S64x264_S65536x5x64_2_1_01_0_n_n.contr.Idx) : (dot_S65536x5x264_S64x264_S65536x5x64_2_1_01_0_n_n.rhsIdx i q 0).val = (i 2).val := by
  unfold DotDims.rhsIdx
  rw [dif_neg (show ¬(0 : Fin S64x264.rank) ∈ dot_S65536x5x264_S64x264_S65536x5x64_2_1_01_0_n_n.rhsBatch by decide), dif_pos (show (0 : Fin S64x264.rank) ∈ dot_S65536x5x264_S64x264_S65536x5x64_2_1_01_0_n_n.rhsNonContracting by decide)]
  rfl
theorem dotA_rhs_1 (i : S65536x5x64.Idx) (q : dot_S65536x5x264_S64x264_S65536x5x64_2_1_01_0_n_n.contr.Idx) : (dot_S65536x5x264_S64x264_S65536x5x64_2_1_01_0_n_n.rhsIdx i q 1).val = (q ⟨0, by decide⟩).val :=
  dot_S65536x5x264_S64x264_S65536x5x64_2_1_01_0_n_n.rhsIdx_val_of_single rfl i q

/-- The contraction of a `[B, 5, 264]` array with a `[64, 264]` array over their last axes, at `(b, s, o)`. -/
theorem dotA_apply (l : FVec Ideal S65536x5x264 .f32) (r : FVec Ideal S64x264 .f32) (b : Fin 65536) (s : Fin 5) (o : Fin 64) :
    Host.dotGeneral (F := Ideal) dot_S65536x5x264_S64x264_S65536x5x64_2_1_01_0_n_n none l r (ix3 b s o) = ∑ k : Fin 264, l (ix3 b s k) * r (ix2 o k) := by
  simp only [Host.dotGeneral]
  rw [Ideal.dotGeneral_apply, ← Equiv.sum_comp (ValueIdx.contrEquiv1 dot_S65536x5x264_S64x264_S65536x5x64_2_1_01_0_n_n 264 rfl rfl).symm]
  refine Finset.sum_congr rfl fun k _ => ?_
  have hk := ValueIdx.contrEquiv1_symm_val dot_S65536x5x264_S64x264_S65536x5x64_2_1_01_0_n_n 264 rfl rfl k
  have el : dot_S65536x5x264_S64x264_S65536x5x64_2_1_01_0_n_n.lhsIdx (ix3 b s o) ((ValueIdx.contrEquiv1 dot_S65536x5x264_S64x264_S65536x5x64_2_1_01_0_n_n 264 rfl rfl).symm k) = ix3 b s k := funext fun a => Fin.ext (by
    match a with
    | ⟨0, _⟩ => exact dotA_lhs_0 _ _
    | ⟨1, _⟩ => exact dotA_lhs_1 _ _
    | ⟨2, _⟩ => exact (dotA_lhs_2 _ _).trans hk)
  have er : dot_S65536x5x264_S64x264_S65536x5x64_2_1_01_0_n_n.rhsIdx (ix3 b s o) ((ValueIdx.contrEquiv1 dot_S65536x5x264_S64x264_S65536x5x64_2_1_01_0_n_n 264 rfl rfl).symm k) = ix2 o k := funext fun a => Fin.ext (by
    match a with
    | ⟨0, _⟩ => exact dotA_rhs_0 _ _
    | ⟨1, _⟩ => exact (dotA_rhs_1 _ _).trans hk)
  rw [el, er]

/-- A `[64]` bias through its two broadcasts, at `(b, s, o)`. -/
theorem biasA_apply (c : FVec Ideal S64 .f32) (b : Fin 65536) (s : Fin 5) (o : Fin 64) :
    broadcastInDim S65536x5x64 ![0, 1, 2] bcast_S1x1x64_S65536x5x64_0_1_2 (broadcastInDim S1x1x64 ![2] bcast_S64_S1x1x64_2 c) (ix3 b s o) = c (ix1 o) :=
  (broadcastInDim_apply _ bcast_S1x1x64_S65536x5x64_0_1_2 _ (ix3 b s o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show o.val = if (64 : Nat) = 1 then 0 else o.val; rw [if_neg (by decide)])).trans
  (broadcastInDim_apply _ bcast_S64_S1x1x64_2 c (ix3 (0 : Fin 1) (0 : Fin 1) o) (ix1 o) (fun a => match a with
    | ⟨0, _⟩ => by show o.val = if (64 : Nat) = 1 then 0 else o.val; rw [if_neg (by decide)]))

/-- One affine layer of the activation unit followed by `max · 0`, at `(b, s, o)`. -/
theorem layerA (y : FVec Ideal S65536x5x264 .f32) (w : FVec Ideal S64x264 .f32) (c : FVec Ideal S64 .f32) (b : Fin 65536) (s : Fin 5) (o : Fin 64) :
    maximumf (F := Ideal) (addf (Host.dotGeneral dot_S65536x5x264_S64x264_S65536x5x64_2_1_01_0_n_n none y w) (broadcastInDim S65536x5x64 ![0, 1, 2] bcast_S1x1x64_S65536x5x64_0_1_2 (broadcastInDim S1x1x64 ![2] bcast_S64_S1x1x64_2 c)))
        (broadcastInDim S65536x5x64 ![] bcast_S_S65536x5x64 (constant S_ .f32 0x00000000#32)) (ix3 b s o)
      = Cert.Gating.relu (Cert.Gating.dense (fun k => y (ix3 b s k)) (fun d o => w (ix2 o d)) (fun o => c (ix1 o)) o) := by
  rw [maximumf_apply, addf_apply, dotA_apply, biasA_apply, zero_bcast_apply]
  first | done | rfl

theorem dotB_lhs_0 (i : S65536x5x32.Idx) (q : dot_S65536x5x64_S32x64_S65536x5x32_2_1_01_0_n_n.contr.Idx) : (dot_S65536x5x64_S32x64_S65536x5x32_2_1_01_0_n_n.lhsIdx i q 0).val = (i 0).val := by
  unfold DotDims.lhsIdx
  rw [dif_neg (show ¬(0 : Fin S65536x5x64.rank) ∈ dot_S65536x5x64_S32x64_S65536x5x32_2_1_01_0_n_n.lhsBatch by decide), dif_pos (show (0 : Fin S65536x5x64.rank) ∈ dot_S65536x5x64_S32x64_S65536x5x32_2_1_01_0_n_n.lhsNonContracting by decide)]
  rfl
theorem dotB_lhs_1 (i : S65536x5x32.Idx) (q : dot_S65536x5x64_S32x64_S65536x5x32_2_1_01_0_n_n.contr.Idx) : (dot_S65536x5x64_S32x64_S65536x5x32_2_1_01_0_n_n.lhsIdx i q 1).val = (i 1).val := by
  unfold DotDims.lhsIdx
  rw [dif_neg (show ¬(1 : Fin S65536x5x64.rank) ∈ dot_S65536x5x64_S32x64_S65536x5x32_2_1_01_0_n_n.lhsBatch by decide), dif_pos (show (1 : Fin S65536x5x64.rank) ∈ dot_S65536x5x64_S32x64_S65536x5x32_2_1_01_0_n_n.lhsNonContracting by decide)]
  rfl
theorem dotB_lhs_2 (i : S65536x5x32.Idx) (q : dot_S65536x5x64_S32x64_S65536x5x32_2_1_01_0_n_n.contr.Idx) : (dot_S65536x5x64_S32x64_S65536x5x32_2_1_01_0_n_n.lhsIdx i q 2).val = (q ⟨0, by decide⟩).val :=
  dot_S65536x5x64_S32x64_S65536x5x32_2_1_01_0_n_n.lhsIdx_val_of_single rfl i q
theorem dotB_rhs_0 (i : S65536x5x32.Idx) (q : dot_S65536x5x64_S32x64_S65536x5x32_2_1_01_0_n_n.contr.Idx) : (dot_S65536x5x64_S32x64_S65536x5x32_2_1_01_0_n_n.rhsIdx i q 0).val = (i 2).val := by
  unfold DotDims.rhsIdx
  rw [dif_neg (show ¬(0 : Fin S32x64.rank) ∈ dot_S65536x5x64_S32x64_S65536x5x32_2_1_01_0_n_n.rhsBatch by decide), dif_pos (show (0 : Fin S32x64.rank) ∈ dot_S65536x5x64_S32x64_S65536x5x32_2_1_01_0_n_n.rhsNonContracting by decide)]
  rfl
theorem dotB_rhs_1 (i : S65536x5x32.Idx) (q : dot_S65536x5x64_S32x64_S65536x5x32_2_1_01_0_n_n.contr.Idx) : (dot_S65536x5x64_S32x64_S65536x5x32_2_1_01_0_n_n.rhsIdx i q 1).val = (q ⟨0, by decide⟩).val :=
  dot_S65536x5x64_S32x64_S65536x5x32_2_1_01_0_n_n.rhsIdx_val_of_single rfl i q

/-- The contraction of a `[B, 5, 64]` array with a `[32, 64]` array over their last axes, at `(b, s, o)`. -/
theorem dotB_apply (l : FVec Ideal S65536x5x64 .f32) (r : FVec Ideal S32x64 .f32) (b : Fin 65536) (s : Fin 5) (o : Fin 32) :
    Host.dotGeneral (F := Ideal) dot_S65536x5x64_S32x64_S65536x5x32_2_1_01_0_n_n none l r (ix3 b s o) = ∑ k : Fin 64, l (ix3 b s k) * r (ix2 o k) := by
  simp only [Host.dotGeneral]
  rw [Ideal.dotGeneral_apply, ← Equiv.sum_comp (ValueIdx.contrEquiv1 dot_S65536x5x64_S32x64_S65536x5x32_2_1_01_0_n_n 64 rfl rfl).symm]
  refine Finset.sum_congr rfl fun k _ => ?_
  have hk := ValueIdx.contrEquiv1_symm_val dot_S65536x5x64_S32x64_S65536x5x32_2_1_01_0_n_n 64 rfl rfl k
  have el : dot_S65536x5x64_S32x64_S65536x5x32_2_1_01_0_n_n.lhsIdx (ix3 b s o) ((ValueIdx.contrEquiv1 dot_S65536x5x64_S32x64_S65536x5x32_2_1_01_0_n_n 64 rfl rfl).symm k) = ix3 b s k := funext fun a => Fin.ext (by
    match a with
    | ⟨0, _⟩ => exact dotB_lhs_0 _ _
    | ⟨1, _⟩ => exact dotB_lhs_1 _ _
    | ⟨2, _⟩ => exact (dotB_lhs_2 _ _).trans hk)
  have er : dot_S65536x5x64_S32x64_S65536x5x32_2_1_01_0_n_n.rhsIdx (ix3 b s o) ((ValueIdx.contrEquiv1 dot_S65536x5x64_S32x64_S65536x5x32_2_1_01_0_n_n 64 rfl rfl).symm k) = ix2 o k := funext fun a => Fin.ext (by
    match a with
    | ⟨0, _⟩ => exact dotB_rhs_0 _ _
    | ⟨1, _⟩ => exact (dotB_rhs_1 _ _).trans hk)
  rw [el, er]

/-- A `[32]` bias through its two broadcasts, at `(b, s, o)`. -/
theorem biasB_apply (c : FVec Ideal S32 .f32) (b : Fin 65536) (s : Fin 5) (o : Fin 32) :
    broadcastInDim S65536x5x32 ![0, 1, 2] bcast_S1x1x32_S65536x5x32_0_1_2 (broadcastInDim S1x1x32 ![2] bcast_S32_S1x1x32_2 c) (ix3 b s o) = c (ix1 o) :=
  (broadcastInDim_apply _ bcast_S1x1x32_S65536x5x32_0_1_2 _ (ix3 b s o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show o.val = if (32 : Nat) = 1 then 0 else o.val; rw [if_neg (by decide)])).trans
  (broadcastInDim_apply _ bcast_S32_S1x1x32_2 c (ix3 (0 : Fin 1) (0 : Fin 1) o) (ix1 o) (fun a => match a with
    | ⟨0, _⟩ => by show o.val = if (32 : Nat) = 1 then 0 else o.val; rw [if_neg (by decide)]))

/-- One affine layer of the activation unit followed by `max · 0`, at `(b, s, o)`. -/
theorem layerB (y : FVec Ideal S65536x5x64 .f32) (w : FVec Ideal S32x64 .f32) (c : FVec Ideal S32 .f32) (b : Fin 65536) (s : Fin 5) (o : Fin 32) :
    maximumf (F := Ideal) (addf (Host.dotGeneral dot_S65536x5x64_S32x64_S65536x5x32_2_1_01_0_n_n none y w) (broadcastInDim S65536x5x32 ![0, 1, 2] bcast_S1x1x32_S65536x5x32_0_1_2 (broadcastInDim S1x1x32 ![2] bcast_S32_S1x1x32_2 c)))
        (broadcastInDim S65536x5x32 ![] bcast_S_S65536x5x32 (constant S_ .f32 0x00000000#32)) (ix3 b s o)
      = Cert.Gating.relu (Cert.Gating.dense (fun k => y (ix3 b s k)) (fun d o => w (ix2 o d)) (fun o => c (ix1 o)) o) := by
  rw [maximumf_apply, addf_apply, dotB_apply, biasB_apply, zero_bcast_apply]
  first | done | rfl

theorem dotC_lhs_0 (i : S65536x5x1.Idx) (q : dot_S65536x5x32_S1x32_S65536x5x1_2_1_01_0_n_n.contr.Idx) : (dot_S65536x5x32_S1x32_S65536x5x1_2_1_01_0_n_n.lhsIdx i q 0).val = (i 0).val := by
  unfold DotDims.lhsIdx
  rw [dif_neg (show ¬(0 : Fin S65536x5x32.rank) ∈ dot_S65536x5x32_S1x32_S65536x5x1_2_1_01_0_n_n.lhsBatch by decide), dif_pos (show (0 : Fin S65536x5x32.rank) ∈ dot_S65536x5x32_S1x32_S65536x5x1_2_1_01_0_n_n.lhsNonContracting by decide)]
  rfl
theorem dotC_lhs_1 (i : S65536x5x1.Idx) (q : dot_S65536x5x32_S1x32_S65536x5x1_2_1_01_0_n_n.contr.Idx) : (dot_S65536x5x32_S1x32_S65536x5x1_2_1_01_0_n_n.lhsIdx i q 1).val = (i 1).val := by
  unfold DotDims.lhsIdx
  rw [dif_neg (show ¬(1 : Fin S65536x5x32.rank) ∈ dot_S65536x5x32_S1x32_S65536x5x1_2_1_01_0_n_n.lhsBatch by decide), dif_pos (show (1 : Fin S65536x5x32.rank) ∈ dot_S65536x5x32_S1x32_S65536x5x1_2_1_01_0_n_n.lhsNonContracting by decide)]
  rfl
theorem dotC_lhs_2 (i : S65536x5x1.Idx) (q : dot_S65536x5x32_S1x32_S65536x5x1_2_1_01_0_n_n.contr.Idx) : (dot_S65536x5x32_S1x32_S65536x5x1_2_1_01_0_n_n.lhsIdx i q 2).val = (q ⟨0, by decide⟩).val :=
  dot_S65536x5x32_S1x32_S65536x5x1_2_1_01_0_n_n.lhsIdx_val_of_single rfl i q
theorem dotC_rhs_0 (i : S65536x5x1.Idx) (q : dot_S65536x5x32_S1x32_S65536x5x1_2_1_01_0_n_n.contr.Idx) : (dot_S65536x5x32_S1x32_S65536x5x1_2_1_01_0_n_n.rhsIdx i q 0).val = (i 2).val := by
  unfold DotDims.rhsIdx
  rw [dif_neg (show ¬(0 : Fin S1x32.rank) ∈ dot_S65536x5x32_S1x32_S65536x5x1_2_1_01_0_n_n.rhsBatch by decide), dif_pos (show (0 : Fin S1x32.rank) ∈ dot_S65536x5x32_S1x32_S65536x5x1_2_1_01_0_n_n.rhsNonContracting by decide)]
  rfl
theorem dotC_rhs_1 (i : S65536x5x1.Idx) (q : dot_S65536x5x32_S1x32_S65536x5x1_2_1_01_0_n_n.contr.Idx) : (dot_S65536x5x32_S1x32_S65536x5x1_2_1_01_0_n_n.rhsIdx i q 1).val = (q ⟨0, by decide⟩).val :=
  dot_S65536x5x32_S1x32_S65536x5x1_2_1_01_0_n_n.rhsIdx_val_of_single rfl i q

/-- The contraction of a `[B, 5, 32]` array with a `[1, 32]` array over their last axes, at `(b, s, o)`. -/
theorem dotC_apply (l : FVec Ideal S65536x5x32 .f32) (r : FVec Ideal S1x32 .f32) (b : Fin 65536) (s : Fin 5) (o : Fin 1) :
    Host.dotGeneral (F := Ideal) dot_S65536x5x32_S1x32_S65536x5x1_2_1_01_0_n_n none l r (ix3 b s o) = ∑ k : Fin 32, l (ix3 b s k) * r (ix2 o k) := by
  simp only [Host.dotGeneral]
  rw [Ideal.dotGeneral_apply, ← Equiv.sum_comp (ValueIdx.contrEquiv1 dot_S65536x5x32_S1x32_S65536x5x1_2_1_01_0_n_n 32 rfl rfl).symm]
  refine Finset.sum_congr rfl fun k _ => ?_
  have hk := ValueIdx.contrEquiv1_symm_val dot_S65536x5x32_S1x32_S65536x5x1_2_1_01_0_n_n 32 rfl rfl k
  have el : dot_S65536x5x32_S1x32_S65536x5x1_2_1_01_0_n_n.lhsIdx (ix3 b s o) ((ValueIdx.contrEquiv1 dot_S65536x5x32_S1x32_S65536x5x1_2_1_01_0_n_n 32 rfl rfl).symm k) = ix3 b s k := funext fun a => Fin.ext (by
    match a with
    | ⟨0, _⟩ => exact dotC_lhs_0 _ _
    | ⟨1, _⟩ => exact dotC_lhs_1 _ _
    | ⟨2, _⟩ => exact (dotC_lhs_2 _ _).trans hk)
  have er : dot_S65536x5x32_S1x32_S65536x5x1_2_1_01_0_n_n.rhsIdx (ix3 b s o) ((ValueIdx.contrEquiv1 dot_S65536x5x32_S1x32_S65536x5x1_2_1_01_0_n_n 32 rfl rfl).symm k) = ix2 o k := funext fun a => Fin.ext (by
    match a with
    | ⟨0, _⟩ => exact dotC_rhs_0 _ _
    | ⟨1, _⟩ => exact (dotC_rhs_1 _ _).trans hk)
  rw [el, er]

/-- A `[1]` bias through its two broadcasts, at `(b, s, o)`. -/
theorem biasC_apply (c : FVec Ideal S1 .f32) (b : Fin 65536) (s : Fin 5) (o : Fin 1) :
    broadcastInDim S65536x5x1 ![0, 1, 2] bcast_S1x1x1_S65536x5x1_0_1_2 (broadcastInDim S1x1x1 ![2] bcast_S1_S1x1x1_2 c) (ix3 b s o) = c (ix1 o) :=
  (broadcastInDim_apply _ bcast_S1x1x1_S65536x5x1_0_1_2 _ (ix3 b s o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show o.val = if (1 : Nat) = 1 then 0 else o.val; rw [if_pos rfl]; omega)).trans
  (broadcastInDim_apply _ bcast_S1_S1x1x1_2 c (ix3 (0 : Fin 1) (0 : Fin 1) o) (ix1 o) (fun a => match a with
    | ⟨0, _⟩ => by show o.val = if (1 : Nat) = 1 then 0 else o.val; rw [if_pos rfl]; omega))

/-- One affine layer of the activation unit, at `(b, s, o)`. -/
theorem layerC (y : FVec Ideal S65536x5x32 .f32) (w : FVec Ideal S1x32 .f32) (c : FVec Ideal S1 .f32) (b : Fin 65536) (s : Fin 5) (o : Fin 1) :
    addf (F := Ideal) (Host.dotGeneral dot_S65536x5x32_S1x32_S65536x5x1_2_1_01_0_n_n none y w) (broadcastInDim S65536x5x1 ![0, 1, 2] bcast_S1x1x1_S65536x5x1_0_1_2 (broadcastInDim S1x1x1 ![2] bcast_S1_S1x1x1_2 c)) (ix3 b s o)
      = Cert.Gating.dense (fun k => y (ix3 b s k)) (fun d o => w (ix2 o d)) (fun o => c (ix1 o)) o := by
  rw [addf_apply, dotC_apply, biasC_apply]
  first | done | rfl

theorem dotD_lhs_0 (i : S65536x128.Idx) (q : dot_S65536x208_S208x128_S65536x128_1_0_0_1_n_n.contr.Idx) : (dot_S65536x208_S208x128_S65536x128_1_0_0_1_n_n.lhsIdx i q 0).val = (i 0).val := by
  unfold DotDims.lhsIdx
  rw [dif_neg (show ¬(0 : Fin S65536x208.rank) ∈ dot_S65536x208_S208x128_S65536x128_1_0_0_1_n_n.lhsBatch by decide), dif_pos (show (0 : Fin S65536x208.rank) ∈ dot_S65536x208_S208x128_S65536x128_1_0_0_1_n_n.lhsNonContracting by decide)]
  rfl
theorem dotD_lhs_1 (i : S65536x128.Idx) (q : dot_S65536x208_S208x128_S65536x128_1_0_0_1_n_n.contr.Idx) : (dot_S65536x208_S208x128_S65536x128_1_0_0_1_n_n.lhsIdx i q 1).val = (q ⟨0, by decide⟩).val :=
  dot_S65536x208_S208x128_S65536x128_1_0_0_1_n_n.lhsIdx_val_of_single rfl i q
theorem dotD_rhs_0 (i : S65536x128.Idx) (q : dot_S65536x208_S208x128_S65536x128_1_0_0_1_n_n.contr.Idx) : (dot_S65536x208_S208x128_S65536x128_1_0_0_1_n_n.rhsIdx i q 0).val = (q ⟨0, by decide⟩).val :=
  dot_S65536x208_S208x128_S65536x128_1_0_0_1_n_n.rhsIdx_val_of_single rfl i q
theorem dotD_rhs_1 (i : S65536x128.Idx) (q : dot_S65536x208_S208x128_S65536x128_1_0_0_1_n_n.contr.Idx) : (dot_S65536x208_S208x128_S65536x128_1_0_0_1_n_n.rhsIdx i q 1).val = (i 1).val := by
  unfold DotDims.rhsIdx
  rw [dif_neg (show ¬(1 : Fin S208x128.rank) ∈ dot_S65536x208_S208x128_S65536x128_1_0_0_1_n_n.rhsBatch by decide), dif_pos (show (1 : Fin S208x128.rank) ∈ dot_S65536x208_S208x128_S65536x128_1_0_0_1_n_n.rhsNonContracting by decide)]
  rfl

/-- The contraction of a `[B, 208]` array with a `[208, 128]` array, at `(b, o)`. -/
theorem dotD_apply (l : FVec Ideal S65536x208 .f32) (r : FVec Ideal S208x128 .f32) (b : Fin 65536) (o : Fin 128) :
    Host.dotGeneral (F := Ideal) dot_S65536x208_S208x128_S65536x128_1_0_0_1_n_n none l r (ix2 b o) = ∑ k : Fin 208, l (ix2 b k) * r (ix2 k o) := by
  simp only [Host.dotGeneral]
  rw [Ideal.dotGeneral_apply, ← Equiv.sum_comp (ValueIdx.contrEquiv1 dot_S65536x208_S208x128_S65536x128_1_0_0_1_n_n 208 rfl rfl).symm]
  refine Finset.sum_congr rfl fun k _ => ?_
  have hk := ValueIdx.contrEquiv1_symm_val dot_S65536x208_S208x128_S65536x128_1_0_0_1_n_n 208 rfl rfl k
  have el : dot_S65536x208_S208x128_S65536x128_1_0_0_1_n_n.lhsIdx (ix2 b o) ((ValueIdx.contrEquiv1 dot_S65536x208_S208x128_S65536x128_1_0_0_1_n_n 208 rfl rfl).symm k) = ix2 b k := funext fun a => Fin.ext (by
    match a with
    | ⟨0, _⟩ => exact dotD_lhs_0 _ _
    | ⟨1, _⟩ => exact (dotD_lhs_1 _ _).trans hk)
  have er : dot_S65536x208_S208x128_S65536x128_1_0_0_1_n_n.rhsIdx (ix2 b o) ((ValueIdx.contrEquiv1 dot_S65536x208_S208x128_S65536x128_1_0_0_1_n_n 208 rfl rfl).symm k) = ix2 k o := funext fun a => Fin.ext (by
    match a with
    | ⟨0, _⟩ => exact (dotD_rhs_0 _ _).trans hk
    | ⟨1, _⟩ => exact dotD_rhs_1 _ _)
  rw [el, er]

/-- A `[128]` bias through its two broadcasts, at `(b, o)`. -/
theorem biasD_apply (c : FVec Ideal S128 .f32) (b : Fin 65536) (o : Fin 128) :
    broadcastInDim S65536x128 ![0, 1] bcast_S1x128_S65536x128_0_1 (broadcastInDim S1x128 ![1] bcast_S128_S1x128_1 c) (ix2 b o) = c (ix1 o) :=
  (broadcastInDim_apply _ bcast_S1x128_S65536x128_0_1 _ (ix2 b o) (ix2 (0 : Fin 1) o) (fun a => match a with
    | ⟨0, _⟩ => by show 0 = if (1 : Nat) = 1 then 0 else b.val; rw [if_pos rfl]
    | ⟨1, _⟩ => by show o.val = if (128 : Nat) = 1 then 0 else o.val; rw [if_neg (by decide)])).trans
  (broadcastInDim_apply _ bcast_S128_S1x128_1 c (ix2 (0 : Fin 1) o) (ix1 o) (fun a => match a with
    | ⟨0, _⟩ => by show o.val = if (128 : Nat) = 1 then 0 else o.val; rw [if_neg (by decide)]))

/-- The transposed `[128, 208]` weights at `(k, o)`. -/
theorem trD_apply (w : FVec Ideal S128x208 .f32) (k : Fin 208) (o : Fin 128) :
    transpose S208x128 [1, 0] w transposes_S128x208_S208x128_1_0 (ix2 k o) = w (ix2 o k) :=
  transpose_apply [1, 0] w transposes_S128x208_S208x128_1_0 (ix2 k o) (ix2 o k) (fun b => match b with
    | ⟨0, _⟩ => rfl
    | ⟨1, _⟩ => rfl)

/-- The contraction with the transposed weights, at `(b, o)`. -/
theorem dotTD_apply (l : FVec Ideal S65536x208 .f32) (w : FVec Ideal S128x208 .f32) (b : Fin 65536) (o : Fin 128) :
    Host.dotGeneral (F := Ideal) dot_S65536x208_S208x128_S65536x128_1_0_0_1_n_n none l (transpose S208x128 [1, 0] w transposes_S128x208_S208x128_1_0) (ix2 b o) = ∑ k : Fin 208, l (ix2 b k) * w (ix2 o k) :=
  (dotD_apply l _ b o).trans (Finset.sum_congr rfl fun k _ => congrArg (l (ix2 b k) * ·) (trD_apply w k o))

/-- One affine layer of the final network followed by `max · 0`, at `(b, o)`. -/
theorem layerD (y : FVec Ideal S65536x208 .f32) (w : FVec Ideal S128x208 .f32) (c : FVec Ideal S128 .f32) (b : Fin 65536) (o : Fin 128) :
    maximumf (F := Ideal) (addf (Host.dotGeneral dot_S65536x208_S208x128_S65536x128_1_0_0_1_n_n none y (transpose S208x128 [1, 0] w transposes_S128x208_S208x128_1_0)) (broadcastInDim S65536x128 ![0, 1] bcast_S1x128_S65536x128_0_1 (broadcastInDim S1x128 ![1] bcast_S128_S1x128_1 c)))
        (broadcastInDim S65536x128 ![] bcast_S_S65536x128 (constant S_ .f32 0x00000000#32)) (ix2 b o)
      = Cert.Gating.relu (Cert.Gating.dense (fun k => y (ix2 b k)) (fun d o => w (ix2 o d)) (fun o => c (ix1 o)) o) := by
  rw [maximumf_apply, addf_apply, dotTD_apply, biasD_apply, zero_bcast_apply]
  first | done | rfl

theorem dotE_lhs_0 (i : S65536x64.Idx) (q : dot_S65536x128_S128x64_S65536x64_1_0_0_1_n_n.contr.Idx) : (dot_S65536x128_S128x64_S65536x64_1_0_0_1_n_n.lhsIdx i q 0).val = (i 0).val := by
  unfold DotDims.lhsIdx
  rw [dif_neg (show ¬(0 : Fin S65536x128.rank) ∈ dot_S65536x128_S128x64_S65536x64_1_0_0_1_n_n.lhsBatch by decide), dif_pos (show (0 : Fin S65536x128.rank) ∈ dot_S65536x128_S128x64_S65536x64_1_0_0_1_n_n.lhsNonContracting by decide)]
  rfl
theorem dotE_lhs_1 (i : S65536x64.Idx) (q : dot_S65536x128_S128x64_S65536x64_1_0_0_1_n_n.contr.Idx) : (dot_S65536x128_S128x64_S65536x64_1_0_0_1_n_n.lhsIdx i q 1).val = (q ⟨0, by decide⟩).val :=
  dot_S65536x128_S128x64_S65536x64_1_0_0_1_n_n.lhsIdx_val_of_single rfl i q
theorem dotE_rhs_0 (i : S65536x64.Idx) (q : dot_S65536x128_S128x64_S65536x64_1_0_0_1_n_n.contr.Idx) : (dot_S65536x128_S128x64_S65536x64_1_0_0_1_n_n.rhsIdx i q 0).val = (q ⟨0, by decide⟩).val :=
  dot_S65536x128_S128x64_S65536x64_1_0_0_1_n_n.rhsIdx_val_of_single rfl i q
theorem dotE_rhs_1 (i : S65536x64.Idx) (q : dot_S65536x128_S128x64_S65536x64_1_0_0_1_n_n.contr.Idx) : (dot_S65536x128_S128x64_S65536x64_1_0_0_1_n_n.rhsIdx i q 1).val = (i 1).val := by
  unfold DotDims.rhsIdx
  rw [dif_neg (show ¬(1 : Fin S128x64.rank) ∈ dot_S65536x128_S128x64_S65536x64_1_0_0_1_n_n.rhsBatch by decide), dif_pos (show (1 : Fin S128x64.rank) ∈ dot_S65536x128_S128x64_S65536x64_1_0_0_1_n_n.rhsNonContracting by decide)]
  rfl

/-- The contraction of a `[B, 128]` array with a `[128, 64]` array, at `(b, o)`. -/
theorem dotE_apply (l : FVec Ideal S65536x128 .f32) (r : FVec Ideal S128x64 .f32) (b : Fin 65536) (o : Fin 64) :
    Host.dotGeneral (F := Ideal) dot_S65536x128_S128x64_S65536x64_1_0_0_1_n_n none l r (ix2 b o) = ∑ k : Fin 128, l (ix2 b k) * r (ix2 k o) := by
  simp only [Host.dotGeneral]
  rw [Ideal.dotGeneral_apply, ← Equiv.sum_comp (ValueIdx.contrEquiv1 dot_S65536x128_S128x64_S65536x64_1_0_0_1_n_n 128 rfl rfl).symm]
  refine Finset.sum_congr rfl fun k _ => ?_
  have hk := ValueIdx.contrEquiv1_symm_val dot_S65536x128_S128x64_S65536x64_1_0_0_1_n_n 128 rfl rfl k
  have el : dot_S65536x128_S128x64_S65536x64_1_0_0_1_n_n.lhsIdx (ix2 b o) ((ValueIdx.contrEquiv1 dot_S65536x128_S128x64_S65536x64_1_0_0_1_n_n 128 rfl rfl).symm k) = ix2 b k := funext fun a => Fin.ext (by
    match a with
    | ⟨0, _⟩ => exact dotE_lhs_0 _ _
    | ⟨1, _⟩ => exact (dotE_lhs_1 _ _).trans hk)
  have er : dot_S65536x128_S128x64_S65536x64_1_0_0_1_n_n.rhsIdx (ix2 b o) ((ValueIdx.contrEquiv1 dot_S65536x128_S128x64_S65536x64_1_0_0_1_n_n 128 rfl rfl).symm k) = ix2 k o := funext fun a => Fin.ext (by
    match a with
    | ⟨0, _⟩ => exact (dotE_rhs_0 _ _).trans hk
    | ⟨1, _⟩ => exact dotE_rhs_1 _ _)
  rw [el, er]

/-- A `[64]` bias through its two broadcasts, at `(b, o)`. -/
theorem biasE_apply (c : FVec Ideal S64 .f32) (b : Fin 65536) (o : Fin 64) :
    broadcastInDim S65536x64 ![0, 1] bcast_S1x64_S65536x64_0_1 (broadcastInDim S1x64 ![1] bcast_S64_S1x64_1 c) (ix2 b o) = c (ix1 o) :=
  (broadcastInDim_apply _ bcast_S1x64_S65536x64_0_1 _ (ix2 b o) (ix2 (0 : Fin 1) o) (fun a => match a with
    | ⟨0, _⟩ => by show 0 = if (1 : Nat) = 1 then 0 else b.val; rw [if_pos rfl]
    | ⟨1, _⟩ => by show o.val = if (64 : Nat) = 1 then 0 else o.val; rw [if_neg (by decide)])).trans
  (broadcastInDim_apply _ bcast_S64_S1x64_1 c (ix2 (0 : Fin 1) o) (ix1 o) (fun a => match a with
    | ⟨0, _⟩ => by show o.val = if (64 : Nat) = 1 then 0 else o.val; rw [if_neg (by decide)]))

/-- The transposed `[64, 128]` weights at `(k, o)`. -/
theorem trE_apply (w : FVec Ideal S64x128 .f32) (k : Fin 128) (o : Fin 64) :
    transpose S128x64 [1, 0] w transposes_S64x128_S128x64_1_0 (ix2 k o) = w (ix2 o k) :=
  transpose_apply [1, 0] w transposes_S64x128_S128x64_1_0 (ix2 k o) (ix2 o k) (fun b => match b with
    | ⟨0, _⟩ => rfl
    | ⟨1, _⟩ => rfl)

/-- The contraction with the transposed weights, at `(b, o)`. -/
theorem dotTE_apply (l : FVec Ideal S65536x128 .f32) (w : FVec Ideal S64x128 .f32) (b : Fin 65536) (o : Fin 64) :
    Host.dotGeneral (F := Ideal) dot_S65536x128_S128x64_S65536x64_1_0_0_1_n_n none l (transpose S128x64 [1, 0] w transposes_S64x128_S128x64_1_0) (ix2 b o) = ∑ k : Fin 128, l (ix2 b k) * w (ix2 o k) :=
  (dotE_apply l _ b o).trans (Finset.sum_congr rfl fun k _ => congrArg (l (ix2 b k) * ·) (trE_apply w k o))

/-- One affine layer of the final network followed by `max · 0`, at `(b, o)`. -/
theorem layerE (y : FVec Ideal S65536x128 .f32) (w : FVec Ideal S64x128 .f32) (c : FVec Ideal S64 .f32) (b : Fin 65536) (o : Fin 64) :
    maximumf (F := Ideal) (addf (Host.dotGeneral dot_S65536x128_S128x64_S65536x64_1_0_0_1_n_n none y (transpose S128x64 [1, 0] w transposes_S64x128_S128x64_1_0)) (broadcastInDim S65536x64 ![0, 1] bcast_S1x64_S65536x64_0_1 (broadcastInDim S1x64 ![1] bcast_S64_S1x64_1 c)))
        (broadcastInDim S65536x64 ![] bcast_S_S65536x64 (constant S_ .f32 0x00000000#32)) (ix2 b o)
      = Cert.Gating.relu (Cert.Gating.dense (fun k => y (ix2 b k)) (fun d o => w (ix2 o d)) (fun o => c (ix1 o)) o) := by
  rw [maximumf_apply, addf_apply, dotTE_apply, biasE_apply, zero_bcast_apply]
  first | done | rfl

theorem dotF_lhs_0 (i : S65536x32.Idx) (q : dot_S65536x64_S64x32_S65536x32_1_0_0_1_n_n.contr.Idx) : (dot_S65536x64_S64x32_S65536x32_1_0_0_1_n_n.lhsIdx i q 0).val = (i 0).val := by
  unfold DotDims.lhsIdx
  rw [dif_neg (show ¬(0 : Fin S65536x64.rank) ∈ dot_S65536x64_S64x32_S65536x32_1_0_0_1_n_n.lhsBatch by decide), dif_pos (show (0 : Fin S65536x64.rank) ∈ dot_S65536x64_S64x32_S65536x32_1_0_0_1_n_n.lhsNonContracting by decide)]
  rfl
theorem dotF_lhs_1 (i : S65536x32.Idx) (q : dot_S65536x64_S64x32_S65536x32_1_0_0_1_n_n.contr.Idx) : (dot_S65536x64_S64x32_S65536x32_1_0_0_1_n_n.lhsIdx i q 1).val = (q ⟨0, by decide⟩).val :=
  dot_S65536x64_S64x32_S65536x32_1_0_0_1_n_n.lhsIdx_val_of_single rfl i q
theorem dotF_rhs_0 (i : S65536x32.Idx) (q : dot_S65536x64_S64x32_S65536x32_1_0_0_1_n_n.contr.Idx) : (dot_S65536x64_S64x32_S65536x32_1_0_0_1_n_n.rhsIdx i q 0).val = (q ⟨0, by decide⟩).val :=
  dot_S65536x64_S64x32_S65536x32_1_0_0_1_n_n.rhsIdx_val_of_single rfl i q
theorem dotF_rhs_1 (i : S65536x32.Idx) (q : dot_S65536x64_S64x32_S65536x32_1_0_0_1_n_n.contr.Idx) : (dot_S65536x64_S64x32_S65536x32_1_0_0_1_n_n.rhsIdx i q 1).val = (i 1).val := by
  unfold DotDims.rhsIdx
  rw [dif_neg (show ¬(1 : Fin S64x32.rank) ∈ dot_S65536x64_S64x32_S65536x32_1_0_0_1_n_n.rhsBatch by decide), dif_pos (show (1 : Fin S64x32.rank) ∈ dot_S65536x64_S64x32_S65536x32_1_0_0_1_n_n.rhsNonContracting by decide)]
  rfl

/-- The contraction of a `[B, 64]` array with a `[64, 32]` array, at `(b, o)`. -/
theorem dotF_apply (l : FVec Ideal S65536x64 .f32) (r : FVec Ideal S64x32 .f32) (b : Fin 65536) (o : Fin 32) :
    Host.dotGeneral (F := Ideal) dot_S65536x64_S64x32_S65536x32_1_0_0_1_n_n none l r (ix2 b o) = ∑ k : Fin 64, l (ix2 b k) * r (ix2 k o) := by
  simp only [Host.dotGeneral]
  rw [Ideal.dotGeneral_apply, ← Equiv.sum_comp (ValueIdx.contrEquiv1 dot_S65536x64_S64x32_S65536x32_1_0_0_1_n_n 64 rfl rfl).symm]
  refine Finset.sum_congr rfl fun k _ => ?_
  have hk := ValueIdx.contrEquiv1_symm_val dot_S65536x64_S64x32_S65536x32_1_0_0_1_n_n 64 rfl rfl k
  have el : dot_S65536x64_S64x32_S65536x32_1_0_0_1_n_n.lhsIdx (ix2 b o) ((ValueIdx.contrEquiv1 dot_S65536x64_S64x32_S65536x32_1_0_0_1_n_n 64 rfl rfl).symm k) = ix2 b k := funext fun a => Fin.ext (by
    match a with
    | ⟨0, _⟩ => exact dotF_lhs_0 _ _
    | ⟨1, _⟩ => exact (dotF_lhs_1 _ _).trans hk)
  have er : dot_S65536x64_S64x32_S65536x32_1_0_0_1_n_n.rhsIdx (ix2 b o) ((ValueIdx.contrEquiv1 dot_S65536x64_S64x32_S65536x32_1_0_0_1_n_n 64 rfl rfl).symm k) = ix2 k o := funext fun a => Fin.ext (by
    match a with
    | ⟨0, _⟩ => exact (dotF_rhs_0 _ _).trans hk
    | ⟨1, _⟩ => exact dotF_rhs_1 _ _)
  rw [el, er]

/-- A `[32]` bias through its two broadcasts, at `(b, o)`. -/
theorem biasF_apply (c : FVec Ideal S32 .f32) (b : Fin 65536) (o : Fin 32) :
    broadcastInDim S65536x32 ![0, 1] bcast_S1x32_S65536x32_0_1 (broadcastInDim S1x32 ![1] bcast_S32_S1x32_1 c) (ix2 b o) = c (ix1 o) :=
  (broadcastInDim_apply _ bcast_S1x32_S65536x32_0_1 _ (ix2 b o) (ix2 (0 : Fin 1) o) (fun a => match a with
    | ⟨0, _⟩ => by show 0 = if (1 : Nat) = 1 then 0 else b.val; rw [if_pos rfl]
    | ⟨1, _⟩ => by show o.val = if (32 : Nat) = 1 then 0 else o.val; rw [if_neg (by decide)])).trans
  (broadcastInDim_apply _ bcast_S32_S1x32_1 c (ix2 (0 : Fin 1) o) (ix1 o) (fun a => match a with
    | ⟨0, _⟩ => by show o.val = if (32 : Nat) = 1 then 0 else o.val; rw [if_neg (by decide)]))

/-- The transposed `[32, 64]` weights at `(k, o)`. -/
theorem trF_apply (w : FVec Ideal S32x64 .f32) (k : Fin 64) (o : Fin 32) :
    transpose S64x32 [1, 0] w transposes_S32x64_S64x32_1_0 (ix2 k o) = w (ix2 o k) :=
  transpose_apply [1, 0] w transposes_S32x64_S64x32_1_0 (ix2 k o) (ix2 o k) (fun b => match b with
    | ⟨0, _⟩ => rfl
    | ⟨1, _⟩ => rfl)

/-- The contraction with the transposed weights, at `(b, o)`. -/
theorem dotTF_apply (l : FVec Ideal S65536x64 .f32) (w : FVec Ideal S32x64 .f32) (b : Fin 65536) (o : Fin 32) :
    Host.dotGeneral (F := Ideal) dot_S65536x64_S64x32_S65536x32_1_0_0_1_n_n none l (transpose S64x32 [1, 0] w transposes_S32x64_S64x32_1_0) (ix2 b o) = ∑ k : Fin 64, l (ix2 b k) * w (ix2 o k) :=
  (dotF_apply l _ b o).trans (Finset.sum_congr rfl fun k _ => congrArg (l (ix2 b k) * ·) (trF_apply w k o))

/-- One affine layer of the final network followed by `max · 0`, at `(b, o)`. -/
theorem layerF (y : FVec Ideal S65536x64 .f32) (w : FVec Ideal S32x64 .f32) (c : FVec Ideal S32 .f32) (b : Fin 65536) (o : Fin 32) :
    maximumf (F := Ideal) (addf (Host.dotGeneral dot_S65536x64_S64x32_S65536x32_1_0_0_1_n_n none y (transpose S64x32 [1, 0] w transposes_S32x64_S64x32_1_0)) (broadcastInDim S65536x32 ![0, 1] bcast_S1x32_S65536x32_0_1 (broadcastInDim S1x32 ![1] bcast_S32_S1x32_1 c)))
        (broadcastInDim S65536x32 ![] bcast_S_S65536x32 (constant S_ .f32 0x00000000#32)) (ix2 b o)
      = Cert.Gating.relu (Cert.Gating.dense (fun k => y (ix2 b k)) (fun d o => w (ix2 o d)) (fun o => c (ix1 o)) o) := by
  rw [maximumf_apply, addf_apply, dotTF_apply, biasF_apply, zero_bcast_apply]
  first | done | rfl

theorem dotG_lhs_0 (i : S65536x1.Idx) (q : dot_S65536x32_S32x1_S65536x1_1_0_0_1_n_n.contr.Idx) : (dot_S65536x32_S32x1_S65536x1_1_0_0_1_n_n.lhsIdx i q 0).val = (i 0).val := by
  unfold DotDims.lhsIdx
  rw [dif_neg (show ¬(0 : Fin S65536x32.rank) ∈ dot_S65536x32_S32x1_S65536x1_1_0_0_1_n_n.lhsBatch by decide), dif_pos (show (0 : Fin S65536x32.rank) ∈ dot_S65536x32_S32x1_S65536x1_1_0_0_1_n_n.lhsNonContracting by decide)]
  rfl
theorem dotG_lhs_1 (i : S65536x1.Idx) (q : dot_S65536x32_S32x1_S65536x1_1_0_0_1_n_n.contr.Idx) : (dot_S65536x32_S32x1_S65536x1_1_0_0_1_n_n.lhsIdx i q 1).val = (q ⟨0, by decide⟩).val :=
  dot_S65536x32_S32x1_S65536x1_1_0_0_1_n_n.lhsIdx_val_of_single rfl i q
theorem dotG_rhs_0 (i : S65536x1.Idx) (q : dot_S65536x32_S32x1_S65536x1_1_0_0_1_n_n.contr.Idx) : (dot_S65536x32_S32x1_S65536x1_1_0_0_1_n_n.rhsIdx i q 0).val = (q ⟨0, by decide⟩).val :=
  dot_S65536x32_S32x1_S65536x1_1_0_0_1_n_n.rhsIdx_val_of_single rfl i q
theorem dotG_rhs_1 (i : S65536x1.Idx) (q : dot_S65536x32_S32x1_S65536x1_1_0_0_1_n_n.contr.Idx) : (dot_S65536x32_S32x1_S65536x1_1_0_0_1_n_n.rhsIdx i q 1).val = (i 1).val := by
  unfold DotDims.rhsIdx
  rw [dif_neg (show ¬(1 : Fin S32x1.rank) ∈ dot_S65536x32_S32x1_S65536x1_1_0_0_1_n_n.rhsBatch by decide), dif_pos (show (1 : Fin S32x1.rank) ∈ dot_S65536x32_S32x1_S65536x1_1_0_0_1_n_n.rhsNonContracting by decide)]
  rfl

/-- The contraction of a `[B, 32]` array with a `[32, 1]` array, at `(b, o)`. -/
theorem dotG_apply (l : FVec Ideal S65536x32 .f32) (r : FVec Ideal S32x1 .f32) (b : Fin 65536) (o : Fin 1) :
    Host.dotGeneral (F := Ideal) dot_S65536x32_S32x1_S65536x1_1_0_0_1_n_n none l r (ix2 b o) = ∑ k : Fin 32, l (ix2 b k) * r (ix2 k o) := by
  simp only [Host.dotGeneral]
  rw [Ideal.dotGeneral_apply, ← Equiv.sum_comp (ValueIdx.contrEquiv1 dot_S65536x32_S32x1_S65536x1_1_0_0_1_n_n 32 rfl rfl).symm]
  refine Finset.sum_congr rfl fun k _ => ?_
  have hk := ValueIdx.contrEquiv1_symm_val dot_S65536x32_S32x1_S65536x1_1_0_0_1_n_n 32 rfl rfl k
  have el : dot_S65536x32_S32x1_S65536x1_1_0_0_1_n_n.lhsIdx (ix2 b o) ((ValueIdx.contrEquiv1 dot_S65536x32_S32x1_S65536x1_1_0_0_1_n_n 32 rfl rfl).symm k) = ix2 b k := funext fun a => Fin.ext (by
    match a with
    | ⟨0, _⟩ => exact dotG_lhs_0 _ _
    | ⟨1, _⟩ => exact (dotG_lhs_1 _ _).trans hk)
  have er : dot_S65536x32_S32x1_S65536x1_1_0_0_1_n_n.rhsIdx (ix2 b o) ((ValueIdx.contrEquiv1 dot_S65536x32_S32x1_S65536x1_1_0_0_1_n_n 32 rfl rfl).symm k) = ix2 k o := funext fun a => Fin.ext (by
    match a with
    | ⟨0, _⟩ => exact (dotG_rhs_0 _ _).trans hk
    | ⟨1, _⟩ => exact dotG_rhs_1 _ _)
  rw [el, er]

/-- A `[1]` bias through its two broadcasts, at `(b, o)`. -/
theorem biasG_apply (c : FVec Ideal S1 .f32) (b : Fin 65536) (o : Fin 1) :
    broadcastInDim S65536x1 ![0, 1] bcast_S1x1_S65536x1_0_1 (broadcastInDim S1x1 ![1] bcast_S1_S1x1_1 c) (ix2 b o) = c (ix1 o) :=
  (broadcastInDim_apply _ bcast_S1x1_S65536x1_0_1 _ (ix2 b o) (ix2 (0 : Fin 1) o) (fun a => match a with
    | ⟨0, _⟩ => by show 0 = if (1 : Nat) = 1 then 0 else b.val; rw [if_pos rfl]
    | ⟨1, _⟩ => by show o.val = if (1 : Nat) = 1 then 0 else o.val; rw [if_pos rfl]; omega)).trans
  (broadcastInDim_apply _ bcast_S1_S1x1_1 c (ix2 (0 : Fin 1) o) (ix1 o) (fun a => match a with
    | ⟨0, _⟩ => by show o.val = if (1 : Nat) = 1 then 0 else o.val; rw [if_pos rfl]; omega))

/-- The transposed `[1, 32]` weights at `(k, o)`. -/
theorem trG_apply (w : FVec Ideal S1x32 .f32) (k : Fin 32) (o : Fin 1) :
    transpose S32x1 [1, 0] w transposes_S1x32_S32x1_1_0 (ix2 k o) = w (ix2 o k) :=
  transpose_apply [1, 0] w transposes_S1x32_S32x1_1_0 (ix2 k o) (ix2 o k) (fun b => match b with
    | ⟨0, _⟩ => rfl
    | ⟨1, _⟩ => rfl)

/-- The contraction with the transposed weights, at `(b, o)`. -/
theorem dotTG_apply (l : FVec Ideal S65536x32 .f32) (w : FVec Ideal S1x32 .f32) (b : Fin 65536) (o : Fin 1) :
    Host.dotGeneral (F := Ideal) dot_S65536x32_S32x1_S65536x1_1_0_0_1_n_n none l (transpose S32x1 [1, 0] w transposes_S1x32_S32x1_1_0) (ix2 b o) = ∑ k : Fin 32, l (ix2 b k) * w (ix2 o k) :=
  (dotG_apply l _ b o).trans (Finset.sum_congr rfl fun k _ => congrArg (l (ix2 b k) * ·) (trG_apply w k o))

/-- One affine layer of the final network, at `(b, o)`. -/
theorem layerG (y : FVec Ideal S65536x32 .f32) (w : FVec Ideal S1x32 .f32) (c : FVec Ideal S1 .f32) (b : Fin 65536) (o : Fin 1) :
    addf (F := Ideal) (Host.dotGeneral dot_S65536x32_S32x1_S65536x1_1_0_0_1_n_n none y (transpose S32x1 [1, 0] w transposes_S1x32_S32x1_1_0)) (broadcastInDim S65536x1 ![0, 1] bcast_S1x1_S65536x1_0_1 (broadcastInDim S1x1 ![1] bcast_S1_S1x1_1 c)) (ix2 b o)
      = Cert.Gating.dense (fun k => y (ix2 b k)) (fun d o => w (ix2 o d)) (fun o => c (ix1 o)) o := by
  rw [addf_apply, dotTG_apply, biasG_apply]
  first | done | rfl

/-- The current item broadcast over the five history positions, at `(b, s, e)`. -/
theorem bcastItem_apply (y : FVec Ideal S65536x1x88 .f32) (b : Fin 65536) (s : Fin 5) (e : Fin 88) :
    broadcastInDim S65536x5x88 ![0, 1, 2] bcast_S65536x1x88_S65536x5x88_0_1_2 y (ix3 b s e) = y (ix3 b (0 : Fin 1) e) :=
  broadcastInDim_apply _ bcast_S65536x1x88_S65536x5x88_0_1_2 y (ix3 b s e) (ix3 b (0 : Fin 1) e) (fun a => match a with
    | ⟨0, _⟩ => by show b.val = if (65536 : Nat) = 1 then 0 else b.val; rw [if_neg (by decide)]
    | ⟨1, _⟩ => by show 0 = if (1 : Nat) = 1 then 0 else s.val; rw [if_pos rfl]
    | ⟨2, _⟩ => by show e.val = if (88 : Nat) = 1 then 0 else e.val; rw [if_neg (by decide)])

/-- A score broadcast over the 88 features, at `(b, s, e)`. -/
theorem bcastScore_apply (y : FVec Ideal S65536x5x1 .f32) (b : Fin 65536) (s : Fin 5) (e : Fin 88) :
    broadcastInDim S65536x5x88 ![0, 1, 2] bcast_S65536x5x1_S65536x5x88_0_1_2 y (ix3 b s e) = y (ix3 b s (0 : Fin 1)) :=
  broadcastInDim_apply _ bcast_S65536x5x1_S65536x5x88_0_1_2 y (ix3 b s e) (ix3 b s (0 : Fin 1)) (fun a => match a with
    | ⟨0, _⟩ => by show b.val = if (65536 : Nat) = 1 then 0 else b.val; rw [if_neg (by decide)]
    | ⟨1, _⟩ => by show s.val = if (5 : Nat) = 1 then 0 else s.val; rw [if_neg (by decide)]
    | ⟨2, _⟩ => by show 0 = if (1 : Nat) = 1 then 0 else e.val; rw [if_pos rfl])

/-- The sum over the five history positions, from a zero initial value, at `(b, e)`. -/
theorem reduce5_apply (y : FVec Ideal S65536x5x88 .f32) (b : Fin 65536) (e : Fin 88) :
    Host.reduceAdd (F := Ideal) y (constant S_ .f32 0x00000000#32) reducesTo_S65536x5x88_S65536x88_d1 h_S_ (ix2 b e)
      = ∑ k : Fin 5, y (ix3 b k e) := by
  simp only [Host.reduceAdd, Ideal.hostReduceAdd_def]
  rw [Ideal.hostReduceAdd_single reducesTo_S65536x5x88_S65536x88_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- Three `[B, 5, 88]` arrays laid side by side along the last axis, at `(b, s, d)`. -/
theorem cat3_apply (y0 y1 y2 : FVec Ideal S65536x5x88 .f32) (b : Fin 65536) (s : Fin 5) (d : Fin 264) :
    concatenate S65536x5x264 2 [⟨S65536x5x88, y0⟩, ⟨S65536x5x88, y1⟩, ⟨S65536x5x88, y2⟩]
        concatenates_S65536x5x88_S65536x5x88_S65536x5x88_S65536x5x264_d2 (ix3 b s d)
      = if h1 : d.val < 88 then y0 (ix3 b s ⟨d.val, h1⟩)
        else if h2 : d.val < 176 then y1 (ix3 b s ⟨d.val - 88, by omega⟩)
        else y2 (ix3 b s ⟨d.val - 176, by omega⟩) := by
  by_cases h1 : d.val < 88
  · rw [dif_pos h1]
    exact concatenate_apply_piece (2 : Fin 3) _ _ (ix3 b s d) 0 (by show (0 : Nat) < 3; decide) S65536x5x88 _ rfl rfl 0 rfl
      (ix3 b s ⟨d.val, h1⟩)
      (fun a => match a with
        | ⟨0, _⟩ => fun _ => rfl
        | ⟨1, _⟩ => fun _ => rfl
        | ⟨2, _⟩ => fun h => absurd rfl h)
      (Nat.zero_add _)
  · rw [dif_neg h1]
    by_cases h2 : d.val < 176
    · rw [dif_pos h2]
      exact concatenate_apply_piece (2 : Fin 3) _ _ (ix3 b s d) 1 (by show (1 : Nat) < 3; decide) S65536x5x88 _ rfl rfl 88 rfl
        (ix3 b s ⟨d.val - 88, by omega⟩)
        (fun a => match a with
          | ⟨0, _⟩ => fun _ => rfl
          | ⟨1, _⟩ => fun _ => rfl
          | ⟨2, _⟩ => fun h => absurd rfl h)
        (by show 88 + (d.val - 88) = d.val; omega)
    · rw [dif_neg h2]
      exact concatenate_apply_piece (2 : Fin 3) _ _ (ix3 b s d) 2 (by show (2 : Nat) < 3; decide) S65536x5x88 _ rfl rfl 176 rfl
        (ix3 b s ⟨d.val - 176, by omega⟩)
        (fun a => match a with
          | ⟨0, _⟩ => fun _ => rfl
          | ⟨1, _⟩ => fun _ => rfl
          | ⟨2, _⟩ => fun h => absurd rfl h)
        (by show 176 + (d.val - 176) = d.val; omega)

/-- A `[B, 120]` and a `[B, 88]` array laid side by side, at `(b, d)`. -/
theorem cat2_apply (y0 : FVec Ideal S65536x120 .f32) (y1 : FVec Ideal S65536x88 .f32) (b : Fin 65536) (d : Fin 208) :
    concatenate S65536x208 1 [⟨S65536x120, y0⟩, ⟨S65536x88, y1⟩] concatenates_S65536x120_S65536x88_S65536x208_d1 (ix2 b d)
      = if h1 : d.val < 120 then y0 (ix2 b ⟨d.val, h1⟩) else y1 (ix2 b ⟨d.val - 120, by omega⟩) := by
  by_cases h1 : d.val < 120
  · rw [dif_pos h1]
    exact concatenate_pair_apply_left (s₁ := S65536x120) (s₂ := S65536x88) (1 : Fin 2) _ _ _ (ix2 b d) rfl (ix2 b ⟨d.val, h1⟩)
      (fun a => match a with
        | ⟨0, _⟩ => rfl
        | ⟨1, _⟩ => rfl)
  · rw [dif_neg h1]
    exact concatenate_pair_apply_right (s₁ := S65536x120) (s₂ := S65536x88) (1 : Fin 2) _ _ _ (ix2 b d) rfl rfl (ix2 b ⟨d.val - 120, by omega⟩)
      (fun a => match a with
        | ⟨0, _⟩ => fun _ => rfl
        | ⟨1, _⟩ => fun h => absurd rfl h)
      (by show (d.val - 120) + 120 = d.val; omega)

/-- `1 / (1 + exp (−x))` with the two ones given by their bit patterns, at `(b, 0)`. -/
theorem logistic_apply (y : FVec Ideal S65536x1 .f32) (j : S65536x1.Idx) :
    Host.divf (F := Ideal) (broadcastInDim S65536x1 ![] bcast_S_S65536x1 (constant S_ .f32 0x3F800000#32))
        (addf (broadcastInDim S65536x1 ![] bcast_S_S65536x1 (constant S_ .f32 0x3F800000#32)) (Host.exp (Host.negf y))) j
      = Ideal.logistic (y j) := by
  rw [hostDivf_apply, addf_apply, const_bcast_apply, Ideal.ofBits_one_f32]
  rfl

/-! ## The layers chained at row `b` -/

open Cert.ReferenceIdeal.RRead

variable (x0 x1 x2 x3 x4 : (⟨S65536x1, .i32⟩ : BufTy).Contents (Elt Ideal))
  (x5 : (⟨S65536x10, .i32⟩ : BufTy).Contents (Elt Ideal))
  (x6 : (⟨S65536x5, .i32⟩ : BufTy).Contents (Elt Ideal))
  (x7 : (⟨S65536x5x10, .i32⟩ : BufTy).Contents (Elt Ideal))
  (x8 x9 : (⟨S1000000x8, .f32⟩ : BufTy).Contents (Elt Ideal))
  (x10 : (⟨S8x8, .f32⟩ : BufTy).Contents (Elt Ideal))
  (x11 : (⟨S3x8, .f32⟩ : BufTy).Contents (Elt Ideal))
  (x12 : (⟨S25x8, .f32⟩ : BufTy).Contents (Elt Ideal))
  (x13 : (⟨S20x8, .f32⟩ : BufTy).Contents (Elt Ideal))
  (x14 : (⟨S64x264, .f32⟩ : BufTy).Contents (Elt Ideal))
  (x15 : (⟨S64, .f32⟩ : BufTy).Contents (Elt Ideal))
  (x16 : (⟨S32x64, .f32⟩ : BufTy).Contents (Elt Ideal))
  (x17 : (⟨S32, .f32⟩ : BufTy).Contents (Elt Ideal))
  (x18 : (⟨S1x32, .f32⟩ : BufTy).Contents (Elt Ideal))
  (x19 : (⟨S1, .f32⟩ : BufTy).Contents (Elt Ideal))
  (x20 : (⟨S128x208, .f32⟩ : BufTy).Contents (Elt Ideal))
  (x21 : (⟨S128, .f32⟩ : BufTy).Contents (Elt Ideal))
  (x22 : (⟨S64x128, .f32⟩ : BufTy).Contents (Elt Ideal))
  (x23 : (⟨S64, .f32⟩ : BufTy).Contents (Elt Ideal))
  (x24 : (⟨S32x64, .f32⟩ : BufTy).Contents (Elt Ideal))
  (x25 : (⟨S32, .f32⟩ : BufTy).Contents (Elt Ideal))
  (x26 : (⟨S1x32, .f32⟩ : BufTy).Contents (Elt Ideal))
  (x27 : (⟨S1, .f32⟩ : BufTy).Contents (Elt Ideal))

/-- The history features of row `b`. -/
abbrev hist (b : Fin 65536) : Fin 5 → Fin 88 → EReal :=
  fun s e => rv_main_v70 (F := Ideal) x0 x1 x2 x3 x4 x5 x6 x7 x8 x9 x10 x11 x12 x13 x14 x15 x16 x17 x18 x19 x20 x21 x22 x23 x24 x25 x26 x27 (ix3 b s e)

/-- The current item's features of row `b`. -/
abbrev item (b : Fin 65536) : Fin 88 → EReal :=
  fun e => rv_main_v72 (F := Ideal) x0 x1 x2 x3 x4 x5 x6 x7 x8 x9 x10 x11 x12 x13 x14 x15 x16 x17 x18 x19 x20 x21 x22 x23 x24 x25 x26 x27 (ix3 b (0 : Fin 1) e)

/-- The base features of row `b`. -/
abbrev base (b : Fin 65536) : Fin 120 → EReal :=
  fun d => rv_main_v95 (F := Ideal) x0 x1 x2 x3 x4 x5 x6 x7 x8 x9 x10 x11 x12 x13 x14 x15 x16 x17 x18 x19 x20 x21 x22 x23 x24 x25 x26 x27 (ix2 b d)

local notation "Hs" => hist x0 x1 x2 x3 x4 x5 x6 x7 x8 x9 x10 x11 x12 x13 x14 x15 x16 x17 x18 x19 x20 x21 x22 x23 x24 x25 x26 x27
local notation "It" => item x0 x1 x2 x3 x4 x5 x6 x7 x8 x9 x10 x11 x12 x13 x14 x15 x16 x17 x18 x19 x20 x21 x22 x23 x24 x25 x26 x27
local notation "Bs" => base x0 x1 x2 x3 x4 x5 x6 x7 x8 x9 x10 x11 x12 x13 x14 x15 x16 x17 x18 x19 x20 x21 x22 x23 x24 x25 x26 x27
local notation "W1" => (fun (d : Fin 264) (o : Fin 64) => x14 (ix2 o d))
local notation "B1" => (fun (o : Fin 64) => x15 (ix1 o))
local notation "W2" => (fun (d : Fin 64) (o : Fin 32) => x16 (ix2 o d))
local notation "B2" => (fun (o : Fin 32) => x17 (ix1 o))
local notation "W3" => (fun (d : Fin 32) (o : Fin 1) => x18 (ix2 o d))
local notation "B3" => (fun (o : Fin 1) => x19 (ix1 o))
local notation "M1" => (fun (d : Fin 208) (o : Fin 128) => x20 (ix2 o d))
local notation "C1" => (fun (o : Fin 128) => x21 (ix1 o))
local notation "M2" => (fun (d : Fin 128) (o : Fin 64) => x22 (ix2 o d))
local notation "C2" => (fun (o : Fin 64) => x23 (ix1 o))
local notation "M3" => (fun (d : Fin 64) (o : Fin 32) => x24 (ix2 o d))
local notation "C3" => (fun (o : Fin 32) => x25 (ix1 o))
local notation "M4" => (fun (d : Fin 32) (o : Fin 1) => x26 (ix2 o d))
local notation "C4" => (fun (o : Fin 1) => x27 (ix1 o))

/-- The activation unit's input: the history item, its difference with the current item, the current item. -/
theorem v75_row (b : Fin 65536) (s : Fin 5) (d : Fin 264) :
    rv_main_v75 (F := Ideal) x0 x1 x2 x3 x4 x5 x6 x7 x8 x9 x10 x11 x12 x13 x14 x15 x16 x17 x18 x19 x20 x21 x22 x23 x24 x25 x26 x27 (ix3 b s d) = Cert.Gating.actIn (Hs b) (It b) s d := by
  refine (cat3_apply (rv_main_v70 (F := Ideal) x0 x1 x2 x3 x4 x5 x6 x7 x8 x9 x10 x11 x12 x13 x14 x15 x16 x17 x18 x19 x20 x21 x22 x23 x24 x25 x26 x27) (rv_main_v74 (F := Ideal) x0 x1 x2 x3 x4 x5 x6 x7 x8 x9 x10 x11 x12 x13 x14 x15 x16 x17 x18 x19 x20 x21 x22 x23 x24 x25 x26 x27) (rv_main_v73 (F := Ideal) x0 x1 x2 x3 x4 x5 x6 x7 x8 x9 x10 x11 x12 x13 x14 x15 x16 x17 x18 x19 x20 x21 x22 x23 x24 x25 x26 x27) b s d).trans ?_
  unfold Cert.Gating.actIn
  have e73 : ∀ e : Fin 88, rv_main_v73 (F := Ideal) x0 x1 x2 x3 x4 x5 x6 x7 x8 x9 x10 x11 x12 x13 x14 x15 x16 x17 x18 x19 x20 x21 x22 x23 x24 x25 x26 x27 (ix3 b s e) = It b e := fun e => bcastItem_apply (rv_main_v72 (F := Ideal) x0 x1 x2 x3 x4 x5 x6 x7 x8 x9 x10 x11 x12 x13 x14 x15 x16 x17 x18 x19 x20 x21 x22 x23 x24 x25 x26 x27) b s e
  have e74 : ∀ e : Fin 88, rv_main_v74 (F := Ideal) x0 x1 x2 x3 x4 x5 x6 x7 x8 x9 x10 x11 x12 x13 x14 x15 x16 x17 x18 x19 x20 x21 x22 x23 x24 x25 x26 x27 (ix3 b s e) = Hs b s e - It b e := fun e =>
    (subf_apply (rv_main_v70 (F := Ideal) x0 x1 x2 x3 x4 x5 x6 x7 x8 x9 x10 x11 x12 x13 x14 x15 x16 x17 x18 x19 x20 x21 x22 x23 x24 x25 x26 x27) (rv_main_v73 (F := Ideal) x0 x1 x2 x3 x4 x5 x6 x7 x8 x9 x10 x11 x12 x13 x14 x15 x16 x17 x18 x19 x20 x21 x22 x23 x24 x25 x26 x27) (ix3 b s e)).trans (congrArg (Hs b s e - ·) (e73 e))
  by_cases h1 : d.val < 88
  · rw [dif_pos h1, dif_pos h1]
  · rw [dif_neg h1, dif_neg h1]
    by_cases h2 : d.val < 176
    · rw [dif_pos h2, dif_pos h2, e74]
    · rw [dif_neg h2, dif_neg h2, e73]

theorem v80_row (b : Fin 65536) (s : Fin 5) (o : Fin 64) :
    rv_main_v80 (F := Ideal) x0 x1 x2 x3 x4 x5 x6 x7 x8 x9 x10 x11 x12 x13 x14 x15 x16 x17 x18 x19 x20 x21 x22 x23 x24 x25 x26 x27 (ix3 b s o)
      = Cert.Gating.relu (Cert.Gating.dense (Cert.Gating.actIn (Hs b) (It b) s) W1 B1 o) :=
  (layerA (rv_main_v75 (F := Ideal) x0 x1 x2 x3 x4 x5 x6 x7 x8 x9 x10 x11 x12 x13 x14 x15 x16 x17 x18 x19 x20 x21 x22 x23 x24 x25 x26 x27) x14 x15 b s o).trans
    (congrArg (fun f => Cert.Gating.relu (Cert.Gating.dense f W1 B1 o)) (funext fun k => v75_row x0 x1 x2 x3 x4 x5 x6 x7 x8 x9 x10 x11 x12 x13 x14 x15 x16 x17 x18 x19 x20 x21 x22 x23 x24 x25 x26 x27 b s k))

theorem v85_row (b : Fin 65536) (s : Fin 5) (o : Fin 32) :
    rv_main_v85 (F := Ideal) x0 x1 x2 x3 x4 x5 x6 x7 x8 x9 x10 x11 x12 x13 x14 x15 x16 x17 x18 x19 x20 x21 x22 x23 x24 x25 x26 x27 (ix3 b s o)
      = Cert.Gating.relu (Cert.Gating.dense
          (fun k' => Cert.Gating.relu (Cert.Gating.dense (Cert.Gating.actIn (Hs b) (It b) s) W1 B1 k')) W2 B2 o) :=
  (layerB (rv_main_v80 (F := Ideal) x0 x1 x2 x3 x4 x5 x6 x7 x8 x9 x10 x11 x12 x13 x14 x15 x16 x17 x18 x19 x20 x21 x22 x23 x24 x25 x26 x27) x16 x17 b s o).trans
    (congrArg (fun f => Cert.Gating.relu (Cert.Gating.dense f W2 B2 o)) (funext fun k => v80_row x0 x1 x2 x3 x4 x5 x6 x7 x8 x9 x10 x11 x12 x13 x14 x15 x16 x17 x18 x19 x20 x21 x22 x23 x24 x25 x26 x27 b s k))

/-- The score of history item `s`. -/
theorem v89_row (b : Fin 65536) (s : Fin 5) :
    rv_main_v89 (F := Ideal) x0 x1 x2 x3 x4 x5 x6 x7 x8 x9 x10 x11 x12 x13 x14 x15 x16 x17 x18 x19 x20 x21 x22 x23 x24 x25 x26 x27 (ix3 b s (0 : Fin 1))
      = Cert.Gating.score (Hs b) (It b) W1 B1 W2 B2 W3 B3 s :=
  (layerC (rv_main_v85 (F := Ideal) x0 x1 x2 x3 x4 x5 x6 x7 x8 x9 x10 x11 x12 x13 x14 x15 x16 x17 x18 x19 x20 x21 x22 x23 x24 x25 x26 x27) x18 x19 b s 0).trans
    (congrArg (fun f => Cert.Gating.dense f W3 B3 0) (funext fun k => v85_row x0 x1 x2 x3 x4 x5 x6 x7 x8 x9 x10 x11 x12 x13 x14 x15 x16 x17 x18 x19 x20 x21 x22 x23 x24 x25 x26 x27 b s k))

/-- The history pooled with the scores as weights. -/
theorem v93_row (b : Fin 65536) (e : Fin 88) :
    rv_main_v93 (F := Ideal) x0 x1 x2 x3 x4 x5 x6 x7 x8 x9 x10 x11 x12 x13 x14 x15 x16 x17 x18 x19 x20 x21 x22 x23 x24 x25 x26 x27 (ix2 b e)
      = Cert.Gating.pool (Hs b) (Cert.Gating.score (Hs b) (It b) W1 B1 W2 B2 W3 B3) e := by
  refine (reduce5_apply (rv_main_v92 (F := Ideal) x0 x1 x2 x3 x4 x5 x6 x7 x8 x9 x10 x11 x12 x13 x14 x15 x16 x17 x18 x19 x20 x21 x22 x23 x24 x25 x26 x27) b e).trans ?_
  unfold Cert.Gating.pool
  refine Finset.sum_congr rfl fun k _ => ?_
  refine (mulf_apply (rv_main_v70 (F := Ideal) x0 x1 x2 x3 x4 x5 x6 x7 x8 x9 x10 x11 x12 x13 x14 x15 x16 x17 x18 x19 x20 x21 x22 x23 x24 x25 x26 x27) (rv_main_v91 (F := Ideal) x0 x1 x2 x3 x4 x5 x6 x7 x8 x9 x10 x11 x12 x13 x14 x15 x16 x17 x18 x19 x20 x21 x22 x23 x24 x25 x26 x27) (ix3 b k e)).trans (congrArg (Hs b k e * ·) ?_)
  refine (mulf_apply (rv_main_v70 (F := Ideal) x0 x1 x2 x3 x4 x5 x6 x7 x8 x9 x10 x11 x12 x13 x14 x15 x16 x17 x18 x19 x20 x21 x22 x23 x24 x25 x26 x27) (rv_main_v90 (F := Ideal) x0 x1 x2 x3 x4 x5 x6 x7 x8 x9 x10 x11 x12 x13 x14 x15 x16 x17 x18 x19 x20 x21 x22 x23 x24 x25 x26 x27) (ix3 b k e)).trans (congrArg (Hs b k e * ·) ?_)
  exact (bcastScore_apply (rv_main_v89 (F := Ideal) x0 x1 x2 x3 x4 x5 x6 x7 x8 x9 x10 x11 x12 x13 x14 x15 x16 x17 x18 x19 x20 x21 x22 x23 x24 x25 x26 x27) b k e).trans (v89_row x0 x1 x2 x3 x4 x5 x6 x7 x8 x9 x10 x11 x12 x13 x14 x15 x16 x17 x18 x19 x20 x21 x22 x23 x24 x25 x26 x27 b k)

/-- The final network's input of row `b`. -/
abbrev feat (b : Fin 65536) : Fin 208 → EReal :=
  Cert.Gating.allFeat (Bs b) (Cert.Gating.pool (Hs b) (Cert.Gating.score (Hs b) (It b) W1 B1 W2 B2 W3 B3))

local notation "FT" => feat x0 x1 x2 x3 x4 x5 x6 x7 x8 x9 x10 x11 x12 x13 x14 x15 x16 x17 x18 x19 x20 x21 x22 x23 x24 x25 x26 x27

theorem v96_row (b : Fin 65536) (d : Fin 208) :
    rv_main_v96 (F := Ideal) x0 x1 x2 x3 x4 x5 x6 x7 x8 x9 x10 x11 x12 x13 x14 x15 x16 x17 x18 x19 x20 x21 x22 x23 x24 x25 x26 x27 (ix2 b d) = FT b d := by
  refine (cat2_apply (rv_main_v95 (F := Ideal) x0 x1 x2 x3 x4 x5 x6 x7 x8 x9 x10 x11 x12 x13 x14 x15 x16 x17 x18 x19 x20 x21 x22 x23 x24 x25 x26 x27) (rv_main_v93 (F := Ideal) x0 x1 x2 x3 x4 x5 x6 x7 x8 x9 x10 x11 x12 x13 x14 x15 x16 x17 x18 x19 x20 x21 x22 x23 x24 x25 x26 x27) b d).trans ?_
  unfold feat Cert.Gating.allFeat
  by_cases h1 : d.val < 120
  · rw [dif_pos h1, dif_pos h1]
  · rw [dif_neg h1, dif_neg h1, v93_row]

theorem v102_row (b : Fin 65536) (o : Fin 128) :
    rv_main_v102 (F := Ideal) x0 x1 x2 x3 x4 x5 x6 x7 x8 x9 x10 x11 x12 x13 x14 x15 x16 x17 x18 x19 x20 x21 x22 x23 x24 x25 x26 x27 (ix2 b o) = Cert.Gating.relu (Cert.Gating.dense (FT b) M1 C1 o) :=
  (layerD (rv_main_v96 (F := Ideal) x0 x1 x2 x3 x4 x5 x6 x7 x8 x9 x10 x11 x12 x13 x14 x15 x16 x17 x18 x19 x20 x21 x22 x23 x24 x25 x26 x27) x20 x21 b o).trans
    (congrArg (fun f => Cert.Gating.relu (Cert.Gating.dense f M1 C1 o)) (funext fun k => v96_row x0 x1 x2 x3 x4 x5 x6 x7 x8 x9 x10 x11 x12 x13 x14 x15 x16 x17 x18 x19 x20 x21 x22 x23 x24 x25 x26 x27 b k))

theorem v108_row (b : Fin 65536) (o : Fin 64) :
    rv_main_v108 (F := Ideal) x0 x1 x2 x3 x4 x5 x6 x7 x8 x9 x10 x11 x12 x13 x14 x15 x16 x17 x18 x19 x20 x21 x22 x23 x24 x25 x26 x27 (ix2 b o)
      = Cert.Gating.relu (Cert.Gating.dense (fun k'' => Cert.Gating.relu (Cert.Gating.dense (FT b) M1 C1 k'')) M2 C2 o) :=
  (layerE (rv_main_v102 (F := Ideal) x0 x1 x2 x3 x4 x5 x6 x7 x8 x9 x10 x11 x12 x13 x14 x15 x16 x17 x18 x19 x20 x21 x22 x23 x24 x25 x26 x27) x22 x23 b o).trans
    (congrArg (fun f => Cert.Gating.relu (Cert.Gating.dense f M2 C2 o)) (funext fun k => v102_row x0 x1 x2 x3 x4 x5 x6 x7 x8 x9 x10 x11 x12 x13 x14 x15 x16 x17 x18 x19 x20 x21 x22 x23 x24 x25 x26 x27 b k))

theorem v114_row (b : Fin 65536) (o : Fin 32) :
    rv_main_v114 (F := Ideal) x0 x1 x2 x3 x4 x5 x6 x7 x8 x9 x10 x11 x12 x13 x14 x15 x16 x17 x18 x19 x20 x21 x22 x23 x24 x25 x26 x27 (ix2 b o)
      = Cert.Gating.relu (Cert.Gating.dense (fun k' => Cert.Gating.relu (Cert.Gating.dense
          (fun k'' => Cert.Gating.relu (Cert.Gating.dense (FT b) M1 C1 k'')) M2 C2 k')) M3 C3 o) :=
  (layerF (rv_main_v108 (F := Ideal) x0 x1 x2 x3 x4 x5 x6 x7 x8 x9 x10 x11 x12 x13 x14 x15 x16 x17 x18 x19 x20 x21 x22 x23 x24 x25 x26 x27) x24 x25 b o).trans
    (congrArg (fun f => Cert.Gating.relu (Cert.Gating.dense f M3 C3 o)) (funext fun k => v108_row x0 x1 x2 x3 x4 x5 x6 x7 x8 x9 x10 x11 x12 x13 x14 x15 x16 x17 x18 x19 x20 x21 x22 x23 x24 x25 x26 x27 b k))

/-- The logit of row `b`. -/
theorem v119_row (b : Fin 65536) :
    rv_main_v119 (F := Ideal) x0 x1 x2 x3 x4 x5 x6 x7 x8 x9 x10 x11 x12 x13 x14 x15 x16 x17 x18 x19 x20 x21 x22 x23 x24 x25 x26 x27 (ix2 b (0 : Fin 1))
      = Cert.Gating.dense (fun k => Cert.Gating.relu (Cert.Gating.dense (fun k' => Cert.Gating.relu (Cert.Gating.dense
          (fun k'' => Cert.Gating.relu (Cert.Gating.dense (FT b) M1 C1 k'')) M2 C2 k')) M3 C3 k)) M4 C4 0 :=
  (layerG (rv_main_v114 (F := Ideal) x0 x1 x2 x3 x4 x5 x6 x7 x8 x9 x10 x11 x12 x13 x14 x15 x16 x17 x18 x19 x20 x21 x22 x23 x24 x25 x26 x27) x26 x27 b 0).trans
    (congrArg (fun f => Cert.Gating.dense f M4 C4 0) (funext fun k => v114_row x0 x1 x2 x3 x4 x5 x6 x7 x8 x9 x10 x11 x12 x13 x14 x15 x16 x17 x18 x19 x20 x21 x22 x23 x24 x25 x26 x27 b k))

/-- The reference's result at row `b` is the specification's row score. -/
theorem ref_row (b : Fin 65536) :
    Cert.ReferenceIdeal.RRead.rv_main_v125 (F := Ideal) x0 x1 x2 x3 x4 x5 x6 x7 x8 x9 x10 x11 x12 x13 x14 x15 x16 x17 x18 x19 x20 x21 x22 x23 x24 x25 x26 x27 (ix2 b (0 : Fin 1))
      = Cert.Gating.rowScore
          (fun s e => rv_main_v70 (F := Ideal) x0 x1 x2 x3 x4 x5 x6 x7 x8 x9 x10 x11 x12 x13 x14 x15 x16 x17 x18 x19 x20 x21 x22 x23 x24 x25 x26 x27 (ix3 b s e))
          (fun e => rv_main_v72 (F := Ideal) x0 x1 x2 x3 x4 x5 x6 x7 x8 x9 x10 x11 x12 x13 x14 x15 x16 x17 x18 x19 x20 x21 x22 x23 x24 x25 x26 x27 (ix3 b (0 : Fin 1) e))
          (fun d => rv_main_v95 (F := Ideal) x0 x1 x2 x3 x4 x5 x6 x7 x8 x9 x10 x11 x12 x13 x14 x15 x16 x17 x18 x19 x20 x21 x22 x23 x24 x25 x26 x27 (ix2 b d))
          (fun d o => x14 (ix2 o d)) (fun o => x15 (ix1 o)) (fun d o => x16 (ix2 o d)) (fun o => x17 (ix1 o))
          (fun d o => x18 (ix2 o d)) (fun o => x19 (ix1 o))
          (fun d o => x20 (ix2 o d)) (fun o => x21 (ix1 o)) (fun d o => x22 (ix2 o d)) (fun o => x23 (ix1 o))
          (fun d o => x24 (ix2 o d)) (fun o => x25 (ix1 o)) (fun d o => x26 (ix2 o d)) (fun o => x27 (ix1 o)) :=
  (logistic_apply (rv_main_v119 (F := Ideal) x0 x1 x2 x3 x4 x5 x6 x7 x8 x9 x10 x11 x12 x13 x14 x15 x16 x17 x18 x19 x20 x21 x22 x23 x24 x25 x26 x27) (ix2 b (0 : Fin 1))).trans
    (congrArg Ideal.logistic (v119_row x0 x1 x2 x3 x4 x5 x6 x7 x8 x9 x10 x11 x12 x13 x14 x15 x16 x17 x18 x19 x20 x21 x22 x23 x24 x25 x26 x27 b))

end Cert.ReferenceIdeal.RefRow

end
-- ==== Proof.LibRowGather.lean ====
/-
  Whole rows taken out of a table.

  `stablehlo.gather` of a rank-2 operand [R, C] at a column [N, 1] of start indices, with the row axis collapsed, the
  column axis an offset axis of full width C, and the one start-index component naming the row axis: what `x[idx]` lowers
  to for a table `x` and a vector `idx` of row numbers. Result element (r, c) is the operand's at (row r, c), where
  row r is the start index at [r, 0] read as a signed integer and clamped into [0, R − 1] (StableHLO clamps every
  start index so that the slice fits). In particular two such gathers over the same start indices, out of tables with
  the same number of rows, read the same rows — whatever their widths.
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The dimension numbers of a row gather: operand [R, C], start indices [N, 1], result [N, C]. -/
abbrev rowDims (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row read for result row `r`: the start index at [r, 0], signed, clamped into [0, R − 1]. -/
def rowOf {N w : Nat} (R : Nat) (hR : 0 < R) (idx : IVec ⟨2, ![N, 1]⟩ w) (r : Fin N) : Fin R :=
  ⟨min (idx (ix2 r (0 : Fin 1))).toInt.toNat (R - 1), by omega⟩

/-- THE ROW GATHER READ AT (r, c): the operand at (row r, c). -/
theorem gather_rows_apply {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (y : (⟨2, ![N, C]⟩ : Shape).Idx) :
    Host.gather (rowDims R C N wf) x idx y = x (ix2 (rowOf R hR idx (y 0)) (y 1)) := by
  unfold Host.gather
  congr 1
  funext a
  refine Fin.ext ?_
  show (rowDims R C N wf).start y idx a + (rowDims R C N wf).batchCoord y a + (rowDims R C N wf).offCoord y a = _
  rw [GatherDims.batchCoord_eq_zero _ _ _ List.not_mem_nil]
  match a with
  | ⟨0, _⟩ =>
    show (rowDims R C N wf).start y idx (0 : Fin 2) + 0 + (rowDims R C N wf).offCoord y (0 : Fin 2)
      = (rowOf R hR idx (y 0)).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C N wf).startIndexMap from List.mem_singleton.mpr rfl)]
    have hsi : (rowDims R C N wf).siIdx y ⟨List.idxOf (0 : Fin 2) (rowDims R C N wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    have hs : (rowDims R C N wf).start y idx (1 : Fin 2) = 0 := by
      unfold GatherDims.start
      rw [dif_neg (show ¬ (1 : Fin 2) ∈ ([0] : List (Fin 2)) by decide)]
    have ho : (rowDims R C N wf).offCoord y (1 : Fin 2) = (y 1).val := by
      unfold GatherDims.offCoord
      rw [dif_pos ((GatherDims.mem_sKept _ _).mpr ⟨(show ¬ (1 : Fin 2) ∈ ([0] : List (Fin 2)) by decide), List.not_mem_nil⟩)]
      rfl
    show (rowDims R C N wf).start y idx (1 : Fin 2) + 0 + (rowDims R C N wf).offCoord y (1 : Fin 2) = (y 1).val
    rw [hs, ho]; omega

/-- Two row gathers over the same start indices, out of tables with the same number of rows, read the same row. -/
theorem rowOf_congr {N w : Nat} (R : Nat) (hR hR' : 0 < R) (idx : IVec ⟨2, ![N, 1]⟩ w) (r : Fin N) :
    rowOf R hR idx r = rowOf R hR' idx r := rfl

end Idealize.ShloMosaic.RowGather

end
-- ==== Proof.LibRowGather3.lean ====
/-
  Whole rows taken out of a table, by a rank-3 block of row numbers.

  `stablehlo.gather` of a rank-2 operand [R, C] at start indices [N, P, 1] (the last axis the index vector), with the
  row axis collapsed, the column axis an offset axis of full width C, and the one start-index component naming the row
  axis: what `x[idx]` lowers to for a table `x` and an [N, P] array `idx` of row numbers. Result element (n, p, c) is the
  operand's at (row, c), where the row is the start index at [n, p, 0] read as a signed integer and clamped into
  [0, R − 1] (StableHLO clamps every start index so that the slice fits).
-/
import Idealize.ShloMosaic.PureOps.ShapeOps
import Idealize.ShloMosaic.Lib.ValueIdx

noncomputable section

namespace Idealize.ShloMosaic.RowGather3

open Idealize.ShloMosaic Idealize.ShloMosaic.ValueIdx

variable {α : Type}

/-- The dimension numbers of such a gather: operand [R, C], start indices [N, P, 1], result [N, P, C]. -/
abbrev rowDims3 (R C N P : Nat)
    (wf : GatherDims.WF ⟨2, ![R, C]⟩ ⟨3, ![N, P, 1]⟩ ⟨3, ![N, P, C]⟩ [2] [0] [] [0] [] 2 ![1, C]) :
    GatherDims ⟨2, ![R, C]⟩ ⟨3, ![N, P, 1]⟩ ⟨3, ![N, P, C]⟩ where
  offsetDims := [2]
  collapsedSliceDims := [0]
  operandBatchingDims := []
  startIndicesBatchingDims := []
  startIndexMap := [0]
  indexVectorDim := 2
  sliceSizes := ![1, C]
  wf := wf

/-- The row read for result position (n, p): the start index at [n, p, 0], signed, clamped into [0, R − 1]. -/
def rowOf3 {N P w : Nat} (R : Nat) (hR : 0 < R) (idx : IVec ⟨3, ![N, P, 1]⟩ w) (n : Fin N) (p : Fin P) : Fin R :=
  ⟨min (idx (ix3 n p (0 : Fin 1))).toInt.toNat (R - 1), by omega⟩

/-- THE GATHER READ AT (n, p, c): the operand at (its row, c). -/
theorem gather_rows3_apply {R C N P w : Nat} (hR : 0 < R)
    (wf : GatherDims.WF ⟨2, ![R, C]⟩ ⟨3, ![N, P, 1]⟩ ⟨3, ![N, P, C]⟩ [2] [0] [] [0] [] 2 ![1, C])
    (x : (⟨2, ![R, C]⟩ : Shape).Idx → α) (idx : IVec ⟨3, ![N, P, 1]⟩ w) (y : (⟨3, ![N, P, C]⟩ : Shape).Idx) :
    Host.gather (rowDims3 R C N P wf) x idx y = x (ix2 (rowOf3 R hR idx (y 0) (y 1)) (y 2)) := by
  unfold Host.gather
  congr 1
  funext a
  refine Fin.ext ?_
  show (rowDims3 R C N P wf).start y idx a + (rowDims3 R C N P wf).batchCoord y a + (rowDims3 R C N P wf).offCoord y a = _
  rw [GatherDims.batchCoord_eq_zero _ _ _ List.not_mem_nil]
  match a with
  | ⟨0, _⟩ =>
    show (rowDims3 R C N P wf).start y idx (0 : Fin 2) + 0 + (rowDims3 R C N P wf).offCoord y (0 : Fin 2)
      = (rowOf3 R hR idx (y 0) (y 1)).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 R C N P wf).startIndexMap from List.mem_singleton.mpr rfl)]
    have hsi : (rowDims3 R C N P wf).siIdx y ⟨List.idxOf (0 : Fin 2) (rowDims3 R C N P wf).startIndexMap,
        List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    rw [hsi]
    rfl
  | ⟨1, _⟩ =>
    have hs : (rowDims3 R C N P wf).start y idx (1 : Fin 2) = 0 := by
      unfold GatherDims.start
      rw [dif_neg (show ¬ (1 : Fin 2) ∈ ([0] : List (Fin 2)) by decide)]
    have ho : (rowDims3 R C N P wf).offCoord y (1 : Fin 2) = (y 2).val := by
      unfold GatherDims.offCoord
      rw [dif_pos ((GatherDims.mem_sKept _ _).mpr ⟨(show ¬ (1 : Fin 2) ∈ ([0] : List (Fin 2)) by decide), List.not_mem_nil⟩)]
      rfl
    show (rowDims3 R C N P wf).start y idx (1 : Fin 2) + 0 + (rowDims3 R C N P wf).offCoord y (1 : Fin 2) = (y 2).val
    rw [hs, ho]; omega

end Idealize.ShloMosaic.RowGather3

end
-- ==== Proof.Features.lean ====
/-
  The arrays the kernel's host prefix prepares for its region agree, index by index, with the reference's: the five
  single-row embeddings (a table's row at a wrapped, then clamped, row number), the current item's 88 features, the 120
  base features, and the transposed weights and row-shaped biases. Both sides are functions of the same 28 argument
  arrays.
-/
import proofs.«117253_j35613868819029_1_alg».proof.Proof.KRead
import proofs.«117253_j35613868819029_1_alg».proof.Proof.RRead
import proofs.«117253_j35613868819029_1_alg».proof.Proof.LibRowGather
import proofs.«117253_j35613868819029_1_alg».proof.Proof.LibRowGather3
import Idealize.ShloMosaic.Lib.ValueLayout
import Idealize.ShloMosaic.PureOps.Ideal

set_option maxRecDepth 16384

noncomputable section

namespace Cert.Features

open Idealize.ShloMosaic Idealize.ShloMosaic.ValueIdx

/-! ## Row numbers: a negative one wrapped by the table's row count -/

/-- A row number with a negative one wrapped: `v + cnt` where `v < 0`, else `v`. -/
def wrapAt (cnt v : BitVec 32) : BitVec 32 :=
  Scalar.select (IntOp.cmpi .slt v 0#32) (IntOp.addi v cnt) v

/-- The kernel's start indices: the column reshaped to a vector, wrapped there, and put back as a column. At row `b` it
    is the wrapped entry of row `b`. -/
theorem kstart {N : Nat} (cnt : BitVec 32) (x : IVec ⟨2, ![N, 1]⟩ 32)
    (hsc : (⟨2, ![N, 1]⟩ : Shape).ShapeCasts ⟨1, ![N]⟩)
    (hb0 : (⟨0, ![]⟩ : Shape).BroadcastsInDim ⟨1, ![N]⟩ (![] : Fin 0 → Fin 1))
    (hb1 : (⟨1, ![N]⟩ : Shape).BroadcastsInDim ⟨2, ![N, 1]⟩ (![0] : Fin 1 → Fin 2)) (hN : N ≠ 1) (b : Fin N) :
    broadcastInDim ⟨2, ![N, 1]⟩ ![0] hb1
      (select (cmpi .slt (shapeCast ⟨1, ![N]⟩ x hsc) (broadcastInDim ⟨1, ![N]⟩ ![] hb0 (constantI ⟨0, ![]⟩ 32 0#32)))
        (addi (shapeCast ⟨1, ![N]⟩ x hsc) (broadcastInDim ⟨1, ![N]⟩ ![] hb0 (constantI ⟨0, ![]⟩ 32 cnt)))
        (shapeCast ⟨1, ![N]⟩ x hsc)) (ix2 b (0 : Fin 1))
      = wrapAt cnt (x (ix2 b (0 : Fin 1))) := by
  refine (broadcastInDim_apply _ hb1 _ (ix2 b (0 : Fin 1)) (ix1 b) (fun a => match a with
    | ⟨0, _⟩ => by show b.val = if N = 1 then 0 else b.val; rw [if_neg hN])).trans ?_
  have e : shapeCast ⟨1, ![N]⟩ x hsc (ix1 b) = x (ix2 b (0 : Fin 1)) :=
    shapeCast_apply x hsc (ix1 b) (ix2 b (0 : Fin 1)) (by
      rw [Shape.rowMajor_val_two, Shape.rowMajor_val_one]
      show b.val * 1 + 0 = b.val
      omega)
  show Scalar.select (IntOp.cmpi .slt (shapeCast ⟨1, ![N]⟩ x hsc (ix1 b)) 0#32)
      (IntOp.addi (shapeCast ⟨1, ![N]⟩ x hsc (ix1 b)) cnt) (shapeCast ⟨1, ![N]⟩ x hsc (ix1 b)) = _
  rw [e]
  rfl

/-- The reference's start indices: the column wrapped as it is, then given a third unit axis. At `(b, 0, 0)` it is the
    wrapped entry of row `b`. -/
theorem rstart {N : Nat} (cnt : BitVec 32) (x : IVec ⟨2, ![N, 1]⟩ 32)
    (hb0 : (⟨0, ![]⟩ : Shape).BroadcastsInDim ⟨2, ![N, 1]⟩ (![] : Fin 0 → Fin 2))
    (hb1 : (⟨2, ![N, 1]⟩ : Shape).BroadcastsInDim ⟨3, ![N, 1, 1]⟩ (![0, 1] : Fin 2 → Fin 3)) (hN : N ≠ 1) (b : Fin N) :
    broadcastInDim ⟨3, ![N, 1, 1]⟩ ![0, 1] hb1
      (select (cmpi .slt x (broadcastInDim ⟨2, ![N, 1]⟩ ![] hb0 (constantI ⟨0, ![]⟩ 32 0#32)))
        (addi x (broadcastInDim ⟨2, ![N, 1]⟩ ![] hb0 (constantI ⟨0, ![]⟩ 32 cnt)))
        x) (ix3 b (0 : Fin 1) (0 : Fin 1))
      = wrapAt cnt (x (ix2 b (0 : Fin 1))) := by
  refine (broadcastInDim_apply _ hb1 _ (ix3 b (0 : Fin 1) (0 : Fin 1)) (ix2 b (0 : Fin 1)) (fun a => match a with
    | ⟨0, _⟩ => by show b.val = if N = 1 then 0 else b.val; rw [if_neg hN]
    | ⟨1, _⟩ => by show 0 = if (1 : Nat) = 1 then 0 else 0; rw [if_pos rfl])).trans ?_
  rfl

/-- Two gathers of whole rows out of the same table, one with its start indices as a column `[N, 1]` and result
    `[N, C]`, the other with start indices `[N, 1, 1]` and result `[N, 1, C]`, read the same element when the two
    start indices of row `b` are the same word. -/
theorem rows_eq {α : Type} {R C N : Nat} (hR : 0 < R)
    (wfK : GatherDims.WF ⟨2, ![R, C]⟩ ⟨2, ![N, 1]⟩ ⟨2, ![N, C]⟩ [1] [0] [] [0] [] 1 ![1, C])
    (wfR : GatherDims.WF ⟨2, ![R, C]⟩ ⟨3, ![N, 1, 1]⟩ ⟨3, ![N, 1, C]⟩ [2] [0] [] [0] [] 2 ![1, C])
    (tbl : (⟨2, ![R, C]⟩ : Shape).Idx → α) (ik : IVec ⟨2, ![N, 1]⟩ 32) (ir : IVec ⟨3, ![N, 1, 1]⟩ 32)
    (b : Fin N) (j : Fin C) (h : ik (ix2 b (0 : Fin 1)) = ir (ix3 b (0 : Fin 1) (0 : Fin 1))) :
    Host.gather (RowGather.rowDims R C N wfK) tbl ik (ix2 b j)
      = Host.gather (RowGather3.rowDims3 R C N 1 wfR) tbl ir (ix3 b (0 : Fin 1) j) := by
  rw [RowGather.gather_rows_apply hR wfK tbl ik (ix2 b j), RowGather3.gather_rows3_apply hR wfR tbl ir (ix3 b (0 : Fin 1) j)]
  have hrow : RowGather.rowOf R hR ik b = RowGather3.rowOf3 R hR ir b (0 : Fin 1) := by
    unfold RowGather.rowOf RowGather3.rowOf3
    refine Fin.ext ?_
    show min (ik (ix2 b (0 : Fin 1))).toInt.toNat (R - 1) = min (ir (ix3 b (0 : Fin 1) (0 : Fin 1))).toInt.toNat (R - 1)
    rw [h]
  show tbl (ix2 (RowGather.rowOf R hR ik b) j) = tbl (ix2 (RowGather3.rowOf3 R hR ir b (0 : Fin 1)) j)
  rw [hrow]

/-! ## Feature tables laid side by side -/

/-- The 120 base features. The kernel lays five `[N, 8]` embeddings and the kind features (a `[N, 10, 8]` array
    viewed `[N, 80]`) side by side; the reference stacks five `[N, 1, 8]` embeddings and the `[N, 10, 8]` kind features
    into `[N, 15, 8]` and views that as `[N, 120]`. With `d = 8 p + j` both read piece `p` (the kind features from
    `p = 5` on) at `j`, so they agree at row `b` as soon as the pieces do. -/
theorem base_eq {α : Type} {N : Nat}
    (a0 a1 a2 a3 a4 : (⟨2, ![N, 8]⟩ : Shape).Idx → α) (a5 : (⟨3, ![N, 10, 8]⟩ : Shape).Idx → α)
    (r0 r1 r2 r3 r4 : (⟨3, ![N, 1, 8]⟩ : Shape).Idx → α) (r5 : (⟨3, ![N, 10, 8]⟩ : Shape).Idx → α)
    (hks : (⟨3, ![N, 10, 8]⟩ : Shape).ShapeCasts ⟨2, ![N, 80]⟩)
    (hk : Shape.Concatenates [⟨2, ![N, 8]⟩, ⟨2, ![N, 8]⟩, ⟨2, ![N, 8]⟩, ⟨2, ![N, 8]⟩, ⟨2, ![N, 8]⟩, ⟨2, ![N, 80]⟩]
      ⟨2, ![N, 120]⟩ 1)
    (hr : Shape.Concatenates [⟨3, ![N, 1, 8]⟩, ⟨3, ![N, 1, 8]⟩, ⟨3, ![N, 1, 8]⟩, ⟨3, ![N, 1, 8]⟩, ⟨3, ![N, 1, 8]⟩,
      ⟨3, ![N, 10, 8]⟩] ⟨3, ![N, 15, 8]⟩ 1)
    (hrs : (⟨3, ![N, 15, 8]⟩ : Shape).ShapeCasts ⟨2, ![N, 120]⟩)
    (b : Fin N)
    (e0 : ∀ j : Fin 8, a0 (ix2 b j) = r0 (ix3 b (0 : Fin 1) j))
    (e1 : ∀ j : Fin 8, a1 (ix2 b j) = r1 (ix3 b (0 : Fin 1) j))
    (e2 : ∀ j : Fin 8, a2 (ix2 b j) = r2 (ix3 b (0 : Fin 1) j))
    (e3 : ∀ j : Fin 8, a3 (ix2 b j) = r3 (ix3 b (0 : Fin 1) j))
    (e4 : ∀ j : Fin 8, a4 (ix2 b j) = r4 (ix3 b (0 : Fin 1) j))
    (e5 : ∀ (q : Fin 10) (j : Fin 8), a5 (ix3 b q j) = r5 (ix3 b q j))
    (d : Fin 120) :
    concatenate ⟨2, ![N, 120]⟩ 1 [⟨⟨2, ![N, 8]⟩, a0⟩, ⟨⟨2, ![N, 8]⟩, a1⟩, ⟨⟨2, ![N, 8]⟩, a2⟩, ⟨⟨2, ![N, 8]⟩, a3⟩,
        ⟨⟨2, ![N, 8]⟩, a4⟩, ⟨⟨2, ![N, 80]⟩, shapeCast ⟨2, ![N, 80]⟩ a5 hks⟩] hk (ix2 b d)
      = shapeCast ⟨2, ![N, 120]⟩ (concatenate ⟨3, ![N, 15, 8]⟩ 1 [⟨⟨3, ![N, 1, 8]⟩, r0⟩, ⟨⟨3, ![N, 1, 8]⟩, r1⟩,
          ⟨⟨3, ![N, 1, 8]⟩, r2⟩, ⟨⟨3, ![N, 1, 8]⟩, r3⟩, ⟨⟨3, ![N, 1, 8]⟩, r4⟩, ⟨⟨3, ![N, 10, 8]⟩, r5⟩] hr) hrs (ix2 b d) := by
  have hd := d.isLt
  have hp : d.val / 8 < 15 := by omega
  have hj : d.val % 8 < 8 := by omega
  refine Eq.trans ?_ (shapeCast_apply _ hrs (ix2 b d) (ix3 b (⟨d.val / 8, hp⟩ : Fin 15) (⟨d.val % 8, hj⟩ : Fin 8)) (by
    rw [Shape.rowMajor_val_three, Shape.rowMajor_val_two]
    show (b.val * 15 + d.val / 8) * 8 + d.val % 8 = b.val * 120 + d.val
    omega)).symm
  have hcase : d.val / 8 = 0 ∨ d.val / 8 = 1 ∨ d.val / 8 = 2 ∨ d.val / 8 = 3 ∨ d.val / 8 = 4 ∨ 5 ≤ d.val / 8 := by omega
  rcases hcase with h | h | h | h | h | h
  · -- the first embedding
    refine (concatenate_apply_piece (1 : Fin 2) _ _ (ix2 b d) 0 (by simp) ⟨2, ![N, 8]⟩ a0 rfl rfl 0 rfl
      (ix2 b (⟨d.val % 8, hj⟩ : Fin 8)) (fun c hc => by
        match c with
        | ⟨0, _⟩ => rfl
        | ⟨1, _⟩ => exact absurd rfl hc) (by show 0 + d.val % 8 = d.val; omega)).trans ?_
    refine Eq.trans (e0 _) (concatenate_apply_piece (1 : Fin 3) _ _
      (ix3 b (⟨d.val / 8, hp⟩ : Fin 15) (⟨d.val % 8, hj⟩ : Fin 8)) 0 (by simp) ⟨3, ![N, 1, 8]⟩ r0 rfl rfl 0 rfl
      (ix3 b (0 : Fin 1) (⟨d.val % 8, hj⟩ : Fin 8)) (fun c hc => by
        match c with
        | ⟨0, _⟩ => rfl
        | ⟨1, _⟩ => exact absurd rfl hc
        | ⟨2, _⟩ => rfl) (by show 0 + 0 = d.val / 8; omega)).symm
  · -- the second embedding
    refine (concatenate_apply_piece (1 : Fin 2) _ _ (ix2 b d) 1 (by simp) ⟨2, ![N, 8]⟩ a1 rfl rfl 8 rfl
      (ix2 b (⟨d.val % 8, hj⟩ : Fin 8)) (fun c hc => by
        match c with
        | ⟨0, _⟩ => rfl
        | ⟨1, _⟩ => exact absurd rfl hc) (by show 8 + d.val % 8 = d.val; omega)).trans ?_
    refine Eq.trans (e1 _) (concatenate_apply_piece (1 : Fin 3) _ _
      (ix3 b (⟨d.val / 8, hp⟩ : Fin 15) (⟨d.val % 8, hj⟩ : Fin 8)) 1 (by simp) ⟨3, ![N, 1, 8]⟩ r1 rfl rfl 1 rfl
      (ix3 b (0 : Fin 1) (⟨d.val % 8, hj⟩ : Fin 8)) (fun c hc => by
        match c with
        | ⟨0, _⟩ => rfl
        | ⟨1, _⟩ => exact absurd rfl hc
        | ⟨2, _⟩ => rfl) (by show 1 + 0 = d.val / 8; omega)).symm
  · -- the third embedding
    refine (concatenate_apply_piece (1 : Fin 2) _ _ (ix2 b d) 2 (by simp) ⟨2, ![N, 8]⟩ a2 rfl rfl 16 rfl
      (ix2 b (⟨d.val % 8, hj⟩ : Fin 8)) (fun c hc => by
        match c with
        | ⟨0, _⟩ => rfl
        | ⟨1, _⟩ => exact absurd rfl hc) (by show 16 + d.val % 8 = d.val; omega)).trans ?_
    refine Eq.trans (e2 _) (concatenate_apply_piece (1 : Fin 3) _ _
      (ix3 b (⟨d.val / 8, hp⟩ : Fin 15) (⟨d.val % 8, hj⟩ : Fin 8)) 2 (by simp) ⟨3, ![N, 1, 8]⟩ r2 rfl rfl 2 rfl
      (ix3 b (0 : Fin 1) (⟨d.val % 8, hj⟩ : Fin 8)) (fun c hc => by
        match c with
        | ⟨0, _⟩ => rfl
        | ⟨1, _⟩ => exact absurd rfl hc
        | ⟨2, _⟩ => rfl) (by show 2 + 0 = d.val / 8; omega)).symm
  · -- the fourth embedding
    refine (concatenate_apply_piece (1 : Fin 2) _ _ (ix2 b d) 3 (by simp) ⟨2, ![N, 8]⟩ a3 rfl rfl 24 rfl
      (ix2 b (⟨d.val % 8, hj⟩ : Fin 8)) (fun c hc => by
        match c with
        | ⟨0, _⟩ => rfl
        | ⟨1, _⟩ => exact absurd rfl hc) (by show 24 + d.val % 8 = d.val; omega)).trans ?_
    refine Eq.trans (e3 _) (concatenate_apply_piece (1 : Fin 3) _ _
      (ix3 b (⟨d.val / 8, hp⟩ : Fin 15) (⟨d.val % 8, hj⟩ : Fin 8)) 3 (by simp) ⟨3, ![N, 1, 8]⟩ r3 rfl rfl 3 rfl
      (ix3 b (0 : Fin 1) (⟨d.val % 8, hj⟩ : Fin 8)) (fun c hc => by
        match c with
        | ⟨0, _⟩ => rfl
        | ⟨1, _⟩ => exact absurd rfl hc
        | ⟨2, _⟩ => rfl) (by show 3 + 0 = d.val / 8; omega)).symm
  · -- the fifth embedding
    refine (concatenate_apply_piece (1 : Fin 2) _ _ (ix2 b d) 4 (by simp) ⟨2, ![N, 8]⟩ a4 rfl rfl 32 rfl
      (ix2 b (⟨d.val % 8, hj⟩ : Fin 8)) (fun c hc => by
        match c with
        | ⟨0, _⟩ => rfl
        | ⟨1, _⟩ => exact absurd rfl hc) (by show 32 + d.val % 8 = d.val; omega)).trans ?_
    refine Eq.trans (e4 _) (concatenate_apply_piece (1 : Fin 3) _ _
      (ix3 b (⟨d.val / 8, hp⟩ : Fin 15) (⟨d.val % 8, hj⟩ : Fin 8)) 4 (by simp) ⟨3, ![N, 1, 8]⟩ r4 rfl rfl 4 rfl
      (ix3 b (0 : Fin 1) (⟨d.val % 8, hj⟩ : Fin 8)) (fun c hc => by
        match c with
        | ⟨0, _⟩ => rfl
        | ⟨1, _⟩ => exact absurd rfl hc
        | ⟨2, _⟩ => rfl) (by show 4 + 0 = d.val / 8; omega)).symm
  · -- the kind features
    have hq : d.val / 8 - 5 < 10 := by omega
    have hd40 : d.val - 40 < 80 := by omega
    refine (concatenate_apply_piece (1 : Fin 2) _ _ (ix2 b d) 5 (by simp) ⟨2, ![N, 80]⟩ (shapeCast ⟨2, ![N, 80]⟩ a5 hks) rfl rfl
      40 rfl (ix2 b (⟨d.val - 40, hd40⟩ : Fin 80)) (fun c hc => by
        match c with
        | ⟨0, _⟩ => rfl
        | ⟨1, _⟩ => exact absurd rfl hc) (by show 40 + (d.val - 40) = d.val; omega)).trans ?_
    refine (shapeCast_apply a5 hks (ix2 b (⟨d.val - 40, hd40⟩ : Fin 80))
      (ix3 b (⟨d.val / 8 - 5, hq⟩ : Fin 10) (⟨d.val % 8, hj⟩ : Fin 8)) (by
        rw [Shape.rowMajor_val_three, Shape.rowMajor_val_two]
        show (b.val * 10 + (d.val / 8 - 5)) * 8 + d.val % 8 = b.val * 80 + (d.val - 40)
        omega)).trans ?_
    refine Eq.trans (e5 _ _) (concatenate_apply_piece (1 : Fin 3) _ _
      (ix3 b (⟨d.val / 8, hp⟩ : Fin 15) (⟨d.val % 8, hj⟩ : Fin 8)) 5 (by simp) ⟨3, ![N, 10, 8]⟩ r5 rfl rfl 5 rfl
      (ix3 b (⟨d.val / 8 - 5, hq⟩ : Fin 10) (⟨d.val % 8, hj⟩ : Fin 8)) (fun c hc => by
        match c with
        | ⟨0, _⟩ => rfl
        | ⟨1, _⟩ => exact absurd rfl hc
        | ⟨2, _⟩ => rfl) (by show 5 + (d.val / 8 - 5) = d.val / 8; omega)).symm

/-- The current item's 88 features. The kernel gives the item's `[N, 8]` embedding a middle unit axis, stacks it on the
    `[N, 10, 8]` kind features and views the `[N, 11, 8]` stack as `[N, 88]`; the reference stacks its `[N, 1, 8]`
    embedding on its kind features and views the stack as `[N, 1, 88]`. With `e = 8 p + j` both read the stack at
    `(b, p, j)`: the embedding for `p = 0`, kind feature `p − 1` otherwise. -/
theorem feat88_eq {α : Type} {N : Nat}
    (ai : (⟨2, ![N, 8]⟩ : Shape).Idx → α) (ak : (⟨3, ![N, 10, 8]⟩ : Shape).Idx → α)
    (ri : (⟨3, ![N, 1, 8]⟩ : Shape).Idx → α) (rk : (⟨3, ![N, 10, 8]⟩ : Shape).Idx → α)
    (hb : (⟨2, ![N, 8]⟩ : Shape).BroadcastsInDim ⟨3, ![N, 1, 8]⟩ (![0, 2] : Fin 2 → Fin 3))
    (hc : Shape.Concatenates [⟨3, ![N, 1, 8]⟩, ⟨3, ![N, 10, 8]⟩] ⟨3, ![N, 11, 8]⟩ 1)
    (hks : (⟨3, ![N, 11, 8]⟩ : Shape).ShapeCasts ⟨2, ![N, 88]⟩)
    (hrs : (⟨3, ![N, 11, 8]⟩ : Shape).ShapeCasts ⟨3, ![N, 1, 88]⟩)
    (b : Fin N)
    (ei : ∀ j : Fin 8, ai (ix2 b j) = ri (ix3 b (0 : Fin 1) j))
    (ek : ∀ (q : Fin 10) (j : Fin 8), ak (ix3 b q j) = rk (ix3 b q j))
    (e : Fin 88) :
    shapeCast ⟨2, ![N, 88]⟩ (concatenate ⟨3, ![N, 11, 8]⟩ 1
        [⟨⟨3, ![N, 1, 8]⟩, broadcastInDim ⟨3, ![N, 1, 8]⟩ ![0, 2] hb ai⟩, ⟨⟨3, ![N, 10, 8]⟩, ak⟩] hc) hks (ix2 b e)
      = shapeCast ⟨3, ![N, 1, 88]⟩ (concatenate ⟨3, ![N, 11, 8]⟩ 1
        [⟨⟨3, ![N, 1, 8]⟩, ri⟩, ⟨⟨3, ![N, 10, 8]⟩, rk⟩] hc) hrs (ix3 b (0 : Fin 1) e) := by
  have he := e.isLt
  have hbN := b.isLt
  have hp : e.val / 8 < 11 := by omega
  have hj : e.val % 8 < 8 := by omega
  refine (shapeCast_apply _ hks (ix2 b e) (ix3 b (⟨e.val / 8, hp⟩ : Fin 11) (⟨e.val % 8, hj⟩ : Fin 8)) (by
    rw [Shape.rowMajor_val_three, Shape.rowMajor_val_two]
    show (b.val * 11 + e.val / 8) * 8 + e.val % 8 = b.val * 88 + e.val
    omega)).trans ?_
  refine Eq.trans ?_ (shapeCast_apply _ hrs (ix3 b (0 : Fin 1) e) (ix3 b (⟨e.val / 8, hp⟩ : Fin 11) (⟨e.val % 8, hj⟩ : Fin 8)) (by
    rw [Shape.rowMajor_val_three, Shape.rowMajor_val_three]
    show (b.val * 11 + e.val / 8) * 8 + e.val % 8 = (b.val * 1 + 0) * 88 + e.val
    omega)).symm
  by_cases h : e.val / 8 = 0
  · -- the embedding
    refine (concatenate_pair_apply_left (t := ⟨3, ![N, 11, 8]⟩) (s₁ := ⟨3, ![N, 1, 8]⟩) (s₂ := ⟨3, ![N, 10, 8]⟩) (1 : Fin 3) _ _ hc _ rfl (ix3 b (0 : Fin 1) (⟨e.val % 8, hj⟩ : Fin 8)) (fun c => by
      match c with
      | ⟨0, _⟩ => rfl
      | ⟨1, _⟩ => show 0 = e.val / 8; omega
      | ⟨2, _⟩ => rfl)).trans ?_
    refine (broadcastInDim_apply _ hb ai (ix3 b (0 : Fin 1) (⟨e.val % 8, hj⟩ : Fin 8)) (ix2 b (⟨e.val % 8, hj⟩ : Fin 8)) (fun c => by
      match c with
      | ⟨0, _⟩ => show b.val = if N = 1 then 0 else b.val; split <;> omega
      | ⟨1, _⟩ => show e.val % 8 = if (8 : Nat) = 1 then 0 else e.val % 8; rw [if_neg (by decide)])).trans ?_
    refine Eq.trans (ei _) (concatenate_pair_apply_left (t := ⟨3, ![N, 11, 8]⟩) (s₁ := ⟨3, ![N, 1, 8]⟩) (s₂ := ⟨3, ![N, 10, 8]⟩) (1 : Fin 3) _ _ hc _ rfl (ix3 b (0 : Fin 1) (⟨e.val % 8, hj⟩ : Fin 8)) (fun c => by
      match c with
      | ⟨0, _⟩ => rfl
      | ⟨1, _⟩ => show 0 = e.val / 8; omega
      | ⟨2, _⟩ => rfl)).symm
  · -- a kind feature
    have hq : e.val / 8 - 1 < 10 := by omega
    refine (concatenate_pair_apply_right (t := ⟨3, ![N, 11, 8]⟩) (s₁ := ⟨3, ![N, 1, 8]⟩) (s₂ := ⟨3, ![N, 10, 8]⟩) (1 : Fin 3) _ _ hc _ rfl rfl
      (ix3 b (⟨e.val / 8 - 1, hq⟩ : Fin 10) (⟨e.val % 8, hj⟩ : Fin 8)) (fun c hcne => by
        match c with
        | ⟨0, _⟩ => rfl
        | ⟨1, _⟩ => exact absurd rfl hcne
        | ⟨2, _⟩ => rfl) (by show (e.val / 8 - 1) + 1 = e.val / 8; omega)).trans ?_
    refine Eq.trans (ek _ _) (concatenate_pair_apply_right (t := ⟨3, ![N, 11, 8]⟩) (s₁ := ⟨3, ![N, 1, 8]⟩) (s₂ := ⟨3, ![N, 10, 8]⟩) (1 : Fin 3) _ _ hc _ rfl rfl
      (ix3 b (⟨e.val / 8 - 1, hq⟩ : Fin 10) (⟨e.val % 8, hj⟩ : Fin 8)) (fun c hcne => by
        match c with
        | ⟨0, _⟩ => rfl
        | ⟨1, _⟩ => exact absurd rfl hcne
        | ⟨2, _⟩ => rfl) (by show (e.val / 8 - 1) + 1 = e.val / 8; omega)).symm

section

variable (x0 : (⟨Cert.KernelIdeal.S65536x1, .i32⟩ : BufTy).Contents (Elt Ideal))
  (x1 : (⟨Cert.KernelIdeal.S65536x1, .i32⟩ : BufTy).Contents (Elt Ideal))
  (x2 : (⟨Cert.KernelIdeal.S65536x1, .i32⟩ : BufTy).Contents (Elt Ideal))
  (x3 : (⟨Cert.KernelIdeal.S65536x1, .i32⟩ : BufTy).Contents (Elt Ideal))
  (x4 : (⟨Cert.KernelIdeal.S65536x1, .i32⟩ : BufTy).Contents (Elt Ideal))
  (x5 : (⟨Cert.KernelIdeal.S65536x10, .i32⟩ : BufTy).Contents (Elt Ideal))
  (x6 : (⟨Cert.KernelIdeal.S65536x5, .i32⟩ : BufTy).Contents (Elt Ideal))
  (x7 : (⟨Cert.KernelIdeal.S65536x5x10, .i32⟩ : BufTy).Contents (Elt Ideal))
  (x8 : (⟨Cert.KernelIdeal.S1000000x8, .f32⟩ : BufTy).Contents (Elt Ideal))
  (x9 : (⟨Cert.KernelIdeal.S1000000x8, .f32⟩ : BufTy).Contents (Elt Ideal))
  (x10 : (⟨Cert.KernelIdeal.S8x8, .f32⟩ : BufTy).Contents (Elt Ideal))
  (x11 : (⟨Cert.KernelIdeal.S3x8, .f32⟩ : BufTy).Contents (Elt Ideal))
  (x12 : (⟨Cert.KernelIdeal.S25x8, .f32⟩ : BufTy).Contents (Elt Ideal))
  (x13 : (⟨Cert.KernelIdeal.S20x8, .f32⟩ : BufTy).Contents (Elt Ideal))
  (x14 : (⟨Cert.KernelIdeal.S64x264, .f32⟩ : BufTy).Contents (Elt Ideal))
  (x15 : (⟨Cert.KernelIdeal.S64, .f32⟩ : BufTy).Contents (Elt Ideal))
  (x16 : (⟨Cert.KernelIdeal.S32x64, .f32⟩ : BufTy).Contents (Elt Ideal))
  (x17 : (⟨Cert.KernelIdeal.S32, .f32⟩ : BufTy).Contents (Elt Ideal))
  (x18 : (⟨Cert.KernelIdeal.S1x32, .f32⟩ : BufTy).Contents (Elt Ideal))
  (x19 : (⟨Cert.KernelIdeal.S1, .f32⟩ : BufTy).Contents (Elt Ideal))
  (x20 : (⟨Cert.KernelIdeal.S128x208, .f32⟩ : BufTy).Contents (Elt Ideal))
  (x21 : (⟨Cert.KernelIdeal.S128, .f32⟩ : BufTy).Contents (Elt Ideal))
  (x22 : (⟨Cert.KernelIdeal.S64x128, .f32⟩ : BufTy).Contents (Elt Ideal))
  (x23 : (⟨Cert.KernelIdeal.S64, .f32⟩ : BufTy).Contents (Elt Ideal))
  (x24 : (⟨Cert.KernelIdeal.S32x64, .f32⟩ : BufTy).Contents (Elt Ideal))
  (x25 : (⟨Cert.KernelIdeal.S32, .f32⟩ : BufTy).Contents (Elt Ideal))
  (x26 : (⟨Cert.KernelIdeal.S1x32, .f32⟩ : BufTy).Contents (Elt Ideal))
  (x27 : (⟨Cert.KernelIdeal.S1, .f32⟩ : BufTy).Contents (Elt Ideal))

/-! ## The weights and biases -/

/-- The weight `x14` transposed: entry (input `d`, output `o`) is `x14` at `(o, d)`. -/
theorem w_v81 (d : Fin 264) (o : Fin 64) :
    Cert.KernelIdeal.KRead.kv_main_v81 (F := Ideal) x0 x1 x2 x3 x4 x5 x6 x7 x8 x9 x10 x11 x12 x13 x14 x15 x16 x17 x18 x19 x20 x21 x22 x23 x24 x25 x26 x27 (ix2 d o) = x14 (ix2 o d) := by
  unfold Cert.KernelIdeal.KRead.kv_main_v81
  exact transpose_ix2_apply x14 _ d o

/-- The bias `x15` as one row. -/
theorem b_v82 (o : Fin 64) :
    Cert.KernelIdeal.KRead.kv_main_v82 (F := Ideal) x0 x1 x2 x3 x4 x5 x6 x7 x8 x9 x10 x11 x12 x13 x14 x15 x16 x17 x18 x19 x20 x21 x22 x23 x24 x25 x26 x27 (ix2 (0 : Fin 1) o) = x15 (ix1 o) := by
  unfold Cert.KernelIdeal.KRead.kv_main_v82
  exact shapeCast_a_1a_apply x15 _ (0 : Fin 1) o

/-- The weight `x16` transposed: entry (input `d`, output `o`) is `x16` at `(o, d)`. -/
theorem w_v83 (d : Fin 64) (o : Fin 32) :
    Cert.KernelIdeal.KRead.kv_main_v83 (F := Ideal) x0 x1 x2 x3 x4 x5 x6 x7 x8 x9 x10 x11 x12 x13 x14 x15 x16 x17 x18 x19 x20 x21 x22 x23 x24 x25 x26 x27 (ix2 d o) = x16 (ix2 o d) := by
  unfold Cert.KernelIdeal.KRead.kv_main_v83
  exact transpose_ix2_apply x16 _ d o

/-- The bias `x17` as one row. -/
theorem b_v84 (o : Fin 32) :
    Cert.KernelIdeal.KRead.kv_main_v84 (F := Ideal) x0 x1 x2 x3 x4 x5 x6 x7 x8 x9 x10 x11 x12 x13 x14 x15 x16 x17 x18 x19 x20 x21 x22 x23 x24 x25 x26 x27 (ix2 (0 : Fin 1) o) = x17 (ix1 o) := by
  unfold Cert.KernelIdeal.KRead.kv_main_v84
  exact shapeCast_a_1a_apply x17 _ (0 : Fin 1) o

/-- The weight `x18` transposed: entry (input `d`, output `o`) is `x18` at `(o, d)`. -/
theorem w_v85 (d : Fin 32) (o : Fin 1) :
    Cert.KernelIdeal.KRead.kv_main_v85 (F := Ideal) x0 x1 x2 x3 x4 x5 x6 x7 x8 x9 x10 x11 x12 x13 x14 x15 x16 x17 x18 x19 x20 x21 x22 x23 x24 x25 x26 x27 (ix2 d o) = x18 (ix2 o d) := by
  unfold Cert.KernelIdeal.KRead.kv_main_v85
  exact transpose_ix2_apply x18 _ d o

/-- The bias `x19` as one row. -/
theorem b_v86 (o : Fin 1) :
    Cert.KernelIdeal.KRead.kv_main_v86 (F := Ideal) x0 x1 x2 x3 x4 x5 x6 x7 x8 x9 x10 x11 x12 x13 x14 x15 x16 x17 x18 x19 x20 x21 x22 x23 x24 x25 x26 x27 (ix2 (0 : Fin 1) o) = x19 (ix1 o) := by
  unfold Cert.KernelIdeal.KRead.kv_main_v86
  exact shapeCast_a_1a_apply x19 _ (0 : Fin 1) o

/-- The weight `x20` transposed: entry (input `d`, output `o`) is `x20` at `(o, d)`. -/
theorem w_v87 (d : Fin 208) (o : Fin 128) :
    Cert.KernelIdeal.KRead.kv_main_v87 (F := Ideal) x0 x1 x2 x3 x4 x5 x6 x7 x8 x9 x10 x11 x12 x13 x14 x15 x16 x17 x18 x19 x20 x21 x22 x23 x24 x25 x26 x27 (ix2 d o) = x20 (ix2 o d) := by
  unfold Cert.KernelIdeal.KRead.kv_main_v87
  exact transpose_ix2_apply x20 _ d o

/-- The bias `x21` as one row. -/
theorem b_v88 (o : Fin 128) :
    Cert.KernelIdeal.KRead.kv_main_v88 (F := Ideal) x0 x1 x2 x3 x4 x5 x6 x7 x8 x9 x10 x11 x12 x13 x14 x15 x16 x17 x18 x19 x20 x21 x22 x23 x24 x25 x26 x27 (ix2 (0 : Fin 1) o) = x21 (ix1 o) := by
  unfold Cert.KernelIdeal.KRead.kv_main_v88
  exact shapeCast_a_1a_apply x21 _ (0 : Fin 1) o

/-- The weight `x22` transposed: entry (input `d`, output `o`) is `x22` at `(o, d)`. -/
theorem w_v89 (d : Fin 128) (o : Fin 64) :
    Cert.KernelIdeal.KRead.kv_main_v89 (F := Ideal) x0 x1 x2 x3 x4 x5 x6 x7 x8 x9 x10 x11 x12 x13 x14 x15 x16 x17 x18 x19 x20 x21 x22 x23 x24 x25 x26 x27 (ix2 d o) = x22 (ix2 o d) := by
  unfold Cert.KernelIdeal.KRead.kv_main_v89
  exact transpose_ix2_apply x22 _ d o

/-- The bias `x23` as one row. -/
theorem b_v90 (o : Fin 64) :
    Cert.KernelIdeal.KRead.kv_main_v90 (F := Ideal) x0 x1 x2 x3 x4 x5 x6 x7 x8 x9 x10 x11 x12 x13 x14 x15 x16 x17 x18 x19 x20 x21 x22 x23 x24 x25 x26 x27 (ix2 (0 : Fin 1) o) = x23 (ix1 o) := by
  unfold Cert.KernelIdeal.KRead.kv_main_v90
  exact shapeCast_a_1a_apply x23 _ (0 : Fin 1) o

/-- The weight `x24` transposed: entry (input `d`, output `o`) is `x24` at `(o, d)`. -/
theorem w_v91 (d : Fin 64) (o : Fin 32) :
    Cert.KernelIdeal.KRead.kv_main_v91 (F := Ideal) x0 x1 x2 x3 x4 x5 x6 x7 x8 x9 x10 x11 x12 x13 x14 x15 x16 x17 x18 x19 x20 x21 x22 x23 x24 x25 x26 x27 (ix2 d o) = x24 (ix2 o d) := by
  unfold Cert.KernelIdeal.KRead.kv_main_v91
  exact transpose_ix2_apply x24 _ d o

/-- The bias `x25` as one row. -/
theorem b_v92 (o : Fin 32) :
    Cert.KernelIdeal.KRead.kv_main_v92 (F := Ideal) x0 x1 x2 x3 x4 x5 x6 x7 x8 x9 x10 x11 x12 x13 x14 x15 x16 x17 x18 x19 x20 x21 x22 x23 x24 x25 x26 x27 (ix2 (0 : Fin 1) o) = x25 (ix1 o) := by
  unfold Cert.KernelIdeal.KRead.kv_main_v92
  exact shapeCast_a_1a_apply x25 _ (0 : Fin 1) o

/-- The weight `x26` transposed: entry (input `d`, output `o`) is `x26` at `(o, d)`. -/
theorem w_v93 (d : Fin 32) (o : Fin 1) :
    Cert.KernelIdeal.KRead.kv_main_v93 (F := Ideal) x0 x1 x2 x3 x4 x5 x6 x7 x8 x9 x10 x11 x12 x13 x14 x15 x16 x17 x18 x19 x20 x21 x22 x23 x24 x25 x26 x27 (ix2 d o) = x26 (ix2 o d) := by
  unfold Cert.KernelIdeal.KRead.kv_main_v93
  exact transpose_ix2_apply x26 _ d o

/-- The bias `x27` as one row. -/
theorem b_v94 (o : Fin 1) :
    Cert.KernelIdeal.KRead.kv_main_v94 (F := Ideal) x0 x1 x2 x3 x4 x5 x6 x7 x8 x9 x10 x11 x12 x13 x14 x15 x16 x17 x18 x19 x20 x21 x22 x23 x24 x25 x26 x27 (ix2 (0 : Fin 1) o) = x27 (ix1 o) := by
  unfold Cert.KernelIdeal.KRead.kv_main_v94
  exact shapeCast_a_1a_apply x27 _ (0 : Fin 1) o

/-! ## The five single-row embeddings -/

/-- The kernel's start index for the user's row at `b`: the wrapped entry. -/
theorem kstart_v6 (b : Fin 65536) :
    Cert.KernelIdeal.KRead.kv_main_v6 (F := Ideal) x0 x1 x2 x3 x4 x5 x6 x7 x8 x9 x10 x11 x12 x13 x14 x15 x16 x17 x18 x19 x20 x21 x22 x23 x24 x25 x26 x27 (ix2 b (0 : Fin 1)) = wrapAt 1000000#32 (x0 (ix2 b (0 : Fin 1))) :=
  kstart 1000000#32 x0 _ _ _ (by decide) b

/-- The reference's start index for the user's row at `b`: the same wrapped entry. -/
theorem rstart_v5 (b : Fin 65536) :
    Cert.ReferenceIdeal.RRead.rv_main_v5 (F := Ideal) x0 x1 x2 x3 x4 x5 x6 x7 x8 x9 x10 x11 x12 x13 x14 x15 x16 x17 x18 x19 x20 x21 x22 x23 x24 x25 x26 x27 (ix3 b (0 : Fin 1) (0 : Fin 1))
      = wrapAt 1000000#32 (x0 (ix2 b (0 : Fin 1))) :=
  rstart 1000000#32 x0 _ _ (by decide) b

/-- The embedding of the user: the kernel's `[65536, 8]` table and the reference's `[65536, 1, 8]` one read the same row. -/
theorem user_eq (b : Fin 65536) (j : Fin 8) :
    Cert.KernelIdeal.KRead.kv_main_v7 (F := Ideal) x0 x1 x2 x3 x4 x5 x6 x7 x8 x9 x10 x11 x12 x13 x14 x15 x16 x17 x18 x19 x20 x21 x22 x23 x24 x25 x26 x27 (ix2 b j)
      = Cert.ReferenceIdeal.RRead.rv_main_v6 (F := Ideal) x0 x1 x2 x3 x4 x5 x6 x7 x8 x9 x10 x11 x12 x13 x14 x15 x16 x17 x18 x19 x20 x21 x22 x23 x24 x25 x26 x27 (ix3 b (0 : Fin 1) j) := by
  unfold Cert.KernelIdeal.KRead.kv_main_v7 Cert.ReferenceIdeal.RRead.rv_main_v6
  exact rows_eq (R := 1000000) (C := 8) (N := 65536) (by decide) _ _ x8 _ _ b j
    ((kstart_v6 x0 x1 x2 x3 x4 x5 x6 x7 x8 x9 x10 x11 x12 x13 x14 x15 x16 x17 x18 x19 x20 x21 x22 x23 x24 x25 x26 x27 b).trans (rstart_v5 x0 x1 x2 x3 x4 x5 x6 x7 x8 x9 x10 x11 x12 x13 x14 x15 x16 x17 x18 x19 x20 x21 x22 x23 x24 x25 x26 x27 b).symm)

/-- The kernel's start index for the current item's row at `b`: the wrapped entry. -/
theorem kstart_v14 (b : Fin 65536) :
    Cert.KernelIdeal.KRead.kv_main_v14 (F := Ideal) x0 x1 x2 x3 x4 x5 x6 x7 x8 x9 x10 x11 x12 x13 x14 x15 x16 x17 x18 x19 x20 x21 x22 x23 x24 x25 x26 x27 (ix2 b (0 : Fin 1)) = wrapAt 1000000#32 (x1 (ix2 b (0 : Fin 1))) :=
  kstart 1000000#32 x1 _ _ _ (by decide) b

/-- The reference's start index for the current item's row at `b`: the same wrapped entry. -/
theorem rstart_v12 (b : Fin 65536) :
    Cert.ReferenceIdeal.RRead.rv_main_v12 (F := Ideal) x0 x1 x2 x3 x4 x5 x6 x7 x8 x9 x10 x11 x12 x13 x14 x15 x16 x17 x18 x19 x20 x21 x22 x23 x24 x25 x26 x27 (ix3 b (0 : Fin 1) (0 : Fin 1))
      = wrapAt 1000000#32 (x1 (ix2 b (0 : Fin 1))) :=
  rstart 1000000#32 x1 _ _ (by decide) b

/-- The embedding of the current item: the kernel's `[65536, 8]` table and the reference's `[65536, 1, 8]` one read the same row. -/
theorem item_eq (b : Fin 65536) (j : Fin 8) :
    Cert.KernelIdeal.KRead.kv_main_v15 (F := Ideal) x0 x1 x2 x3 x4 x5 x6 x7 x8 x9 x10 x11 x12 x13 x14 x15 x16 x17 x18 x19 x20 x21 x22 x23 x24 x25 x26 x27 (ix2 b j)
      = Cert.ReferenceIdeal.RRead.rv_main_v13 (F := Ideal) x0 x1 x2 x3 x4 x5 x6 x7 x8 x9 x10 x11 x12 x13 x14 x15 x16 x17 x18 x19 x20 x21 x22 x23 x24 x25 x26 x27 (ix3 b (0 : Fin 1) j) := by
  unfold Cert.KernelIdeal.KRead.kv_main_v15 Cert.ReferenceIdeal.RRead.rv_main_v13
  exact rows_eq (R := 1000000) (C := 8) (N := 65536) (by decide) _ _ x9 _ _ b j
    ((kstart_v14 x0 x1 x2 x3 x4 x5 x6 x7 x8 x9 x10 x11 x12 x13 x14 x15 x16 x17 x18 x19 x20 x21 x22 x23 x24 x25 x26 x27 b).trans (rstart_v12 x0 x1 x2 x3 x4 x5 x6 x7 x8 x9 x10 x11 x12 x13 x14 x15 x16 x17 x18 x19 x20 x21 x22 x23 x24 x25 x26 x27 b).symm)

/-- The kernel's start index for the age group's row at `b`: the wrapped entry. -/
theorem kstart_v22 (b : Fin 65536) :
    Cert.KernelIdeal.KRead.kv_main_v22 (F := Ideal) x0 x1 x2 x3 x4 x5 x6 x7 x8 x9 x10 x11 x12 x13 x14 x15 x16 x17 x18 x19 x20 x21 x22 x23 x24 x25 x26 x27 (ix2 b (0 : Fin 1)) = wrapAt 8#32 (x2 (ix2 b (0 : Fin 1))) :=
  kstart 8#32 x2 _ _ _ (by decide) b

/-- The reference's start index for the age group's row at `b`: the same wrapped entry. -/
theorem rstart_v19 (b : Fin 65536) :
    Cert.ReferenceIdeal.RRead.rv_main_v19 (F := Ideal) x0 x1 x2 x3 x4 x5 x6 x7 x8 x9 x10 x11 x12 x13 x14 x15 x16 x17 x18 x19 x20 x21 x22 x23 x24 x25 x26 x27 (ix3 b (0 : Fin 1) (0 : Fin 1))
      = wrapAt 8#32 (x2 (ix2 b (0 : Fin 1))) :=
  rstart 8#32 x2 _ _ (by decide) b

/-- The embedding of the age group: the kernel's `[65536, 8]` table and the reference's `[65536, 1, 8]` one read the same row. -/
theorem age_eq (b : Fin 65536) (j : Fin 8) :
    Cert.KernelIdeal.KRead.kv_main_v23 (F := Ideal) x0 x1 x2 x3 x4 x5 x6 x7 x8 x9 x10 x11 x12 x13 x14 x15 x16 x17 x18 x19 x20 x21 x22 x23 x24 x25 x26 x27 (ix2 b j)
      = Cert.ReferenceIdeal.RRead.rv_main_v20 (F := Ideal) x0 x1 x2 x3 x4 x5 x6 x7 x8 x9 x10 x11 x12 x13 x14 x15 x16 x17 x18 x19 x20 x21 x22 x23 x24 x25 x26 x27 (ix3 b (0 : Fin 1) j) := by
  unfold Cert.KernelIdeal.KRead.kv_main_v23 Cert.ReferenceIdeal.RRead.rv_main_v20
  exact rows_eq (R := 8) (C := 8) (N := 65536) (by decide) _ _ x10 _ _ b j
    ((kstart_v22 x0 x1 x2 x3 x4 x5 x6 x7 x8 x9 x10 x11 x12 x13 x14 x15 x16 x17 x18 x19 x20 x21 x22 x23 x24 x25 x26 x27 b).trans (rstart_v19 x0 x1 x2 x3 x4 x5 x6 x7 x8 x9 x10 x11 x12 x13 x14 x15 x16 x17 x18 x19 x20 x21 x22 x23 x24 x25 x26 x27 b).symm)

/-- The kernel's start index for the gender's row at `b`: the wrapped entry. -/
theorem kstart_v30 (b : Fin 65536) :
    Cert.KernelIdeal.KRead.kv_main_v30 (F := Ideal) x0 x1 x2 x3 x4 x5 x6 x7 x8 x9 x10 x11 x12 x13 x14 x15 x16 x17 x18 x19 x20 x21 x22 x23 x24 x25 x26 x27 (ix2 b (0 : Fin 1)) = wrapAt 3#32 (x3 (ix2 b (0 : Fin 1))) :=
  kstart 3#32 x3 _ _ _ (by decide) b

/-- The reference's start index for the gender's row at `b`: the same wrapped entry. -/
theorem rstart_v26 (b : Fin 65536) :
    Cert.ReferenceIdeal.RRead.rv_main_v26 (F := Ideal) x0 x1 x2 x3 x4 x5 x6 x7 x8 x9 x10 x11 x12 x13 x14 x15 x16 x17 x18 x19 x20 x21 x22 x23 x24 x25 x26 x27 (ix3 b (0 : Fin 1) (0 : Fin 1))
      = wrapAt 3#32 (x3 (ix2 b (0 : Fin 1))) :=
  rstart 3#32 x3 _ _ (by decide) b

/-- The embedding of the gender: the kernel's `[65536, 8]` table and the reference's `[65536, 1, 8]` one read the same row. -/
theorem gender_eq (b : Fin 65536) (j : Fin 8) :
    Cert.KernelIdeal.KRead.kv_main_v31 (F := Ideal) x0 x1 x2 x3 x4 x5 x6 x7 x8 x9 x10 x11 x12 x13 x14 x15 x16 x17 x18 x19 x20 x21 x22 x23 x24 x25 x26 x27 (ix2 b j)
      = Cert.ReferenceIdeal.RRead.rv_main_v27 (F := Ideal) x0 x1 x2 x3 x4 x5 x6 x7 x8 x9 x10 x11 x12 x13 x14 x15 x16 x17 x18 x19 x20 x21 x22 x23 x24 x25 x26 x27 (ix3 b (0 : Fin 1) j) := by
  unfold Cert.KernelIdeal.KRead.kv_main_v31 Cert.ReferenceIdeal.RRead.rv_main_v27
  exact rows_eq (R := 3) (C := 8) (N := 65536) (by decide) _ _ x11 _ _ b j
    ((kstart_v30 x0 x1 x2 x3 x4 x5 x6 x7 x8 x9 x10 x11 x12 x13 x14 x15 x16 x17 x18 x19 x20 x21 x22 x23 x24 x25 x26 x27 b).trans (rstart_v26 x0 x1 x2 x3 x4 x5 x6 x7 x8 x9 x10 x11 x12 x13 x14 x15 x16 x17 x18 x19 x20 x21 x22 x23 x24 x25 x26 x27 b).symm)

/-- The kernel's start index for the occupation's row at `b`: the wrapped entry. -/
theorem kstart_v38 (b : Fin 65536) :
    Cert.KernelIdeal.KRead.kv_main_v38 (F := Ideal) x0 x1 x2 x3 x4 x5 x6 x7 x8 x9 x10 x11 x12 x13 x14 x15 x16 x17 x18 x19 x20 x21 x22 x23 x24 x25 x26 x27 (ix2 b (0 : Fin 1)) = wrapAt 25#32 (x4 (ix2 b (0 : Fin 1))) :=
  kstart 25#32 x4 _ _ _ (by decide) b

/-- The reference's start index for the occupation's row at `b`: the same wrapped entry. -/
theorem rstart_v33 (b : Fin 65536) :
    Cert.ReferenceIdeal.RRead.rv_main_v33 (F := Ideal) x0 x1 x2 x3 x4 x5 x6 x7 x8 x9 x10 x11 x12 x13 x14 x15 x16 x17 x18 x19 x20 x21 x22 x23 x24 x25 x26 x27 (ix3 b (0 : Fin 1) (0 : Fin 1))
      = wrapAt 25#32 (x4 (ix2 b (0 : Fin 1))) :=
  rstart 25#32 x4 _ _ (by decide) b

/-- The embedding of the occupation: the kernel's `[65536, 8]` table and the reference's `[65536, 1, 8]` one read the same row. -/
theorem occ_eq (b : Fin 65536) (j : Fin 8) :
    Cert.KernelIdeal.KRead.kv_main_v39 (F := Ideal) x0 x1 x2 x3 x4 x5 x6 x7 x8 x9 x10 x11 x12 x13 x14 x15 x16 x17 x18 x19 x20 x21 x22 x23 x24 x25 x26 x27 (ix2 b j)
      = Cert.ReferenceIdeal.RRead.rv_main_v34 (F := Ideal) x0 x1 x2 x3 x4 x5 x6 x7 x8 x9 x10 x11 x12 x13 x14 x15 x16 x17 x18 x19 x20 x21 x22 x23 x24 x25 x26 x27 (ix3 b (0 : Fin 1) j) := by
  unfold Cert.KernelIdeal.KRead.kv_main_v39 Cert.ReferenceIdeal.RRead.rv_main_v34
  exact rows_eq (R := 25) (C := 8) (N := 65536) (by decide) _ _ x12 _ _ b j
    ((kstart_v38 x0 x1 x2 x3 x4 x5 x6 x7 x8 x9 x10 x11 x12 x13 x14 x15 x16 x17 x18 x19 x20 x21 x22 x23 x24 x25 x26 x27 b).trans (rstart_v33 x0 x1 x2 x3 x4 x5 x6 x7 x8 x9 x10 x11 x12 x13 x14 x15 x16 x17 x18 x19 x20 x21 x22 x23 x24 x25 x26 x27 b).symm)

/-! ## The base features and the current item's features -/

/-- The 120 base features agree, given that the masked kind features do. -/
theorem basefeat_eq (hKW : Cert.KernelIdeal.KRead.kv_main_v52 (F := Ideal) x0 x1 x2 x3 x4 x5 x6 x7 x8 x9 x10 x11 x12 x13 x14 x15 x16 x17 x18 x19 x20 x21 x22 x23 x24 x25 x26 x27 = Cert.ReferenceIdeal.RRead.rv_main_v47 (F := Ideal) x0 x1 x2 x3 x4 x5 x6 x7 x8 x9 x10 x11 x12 x13 x14 x15 x16 x17 x18 x19 x20 x21 x22 x23 x24 x25 x26 x27)
    (b : Fin 65536) (d : Fin 120) :
    Cert.KernelIdeal.KRead.kv_main_v80 (F := Ideal) x0 x1 x2 x3 x4 x5 x6 x7 x8 x9 x10 x11 x12 x13 x14 x15 x16 x17 x18 x19 x20 x21 x22 x23 x24 x25 x26 x27 (ix2 b d)
      = Cert.ReferenceIdeal.RRead.rv_main_v95 (F := Ideal) x0 x1 x2 x3 x4 x5 x6 x7 x8 x9 x10 x11 x12 x13 x14 x15 x16 x17 x18 x19 x20 x21 x22 x23 x24 x25 x26 x27 (ix2 b d) := by
  unfold Cert.KernelIdeal.KRead.kv_main_v80 Cert.KernelIdeal.KRead.kv_main_v79 Cert.ReferenceIdeal.RRead.rv_main_v95 Cert.ReferenceIdeal.RRead.rv_main_v94
  exact base_eq (N := 65536)
    (Cert.KernelIdeal.KRead.kv_main_v7 (F := Ideal) x0 x1 x2 x3 x4 x5 x6 x7 x8 x9 x10 x11 x12 x13 x14 x15 x16 x17 x18 x19 x20 x21 x22 x23 x24 x25 x26 x27)
    (Cert.KernelIdeal.KRead.kv_main_v15 (F := Ideal) x0 x1 x2 x3 x4 x5 x6 x7 x8 x9 x10 x11 x12 x13 x14 x15 x16 x17 x18 x19 x20 x21 x22 x23 x24 x25 x26 x27)
    (Cert.KernelIdeal.KRead.kv_main_v23 (F := Ideal) x0 x1 x2 x3 x4 x5 x6 x7 x8 x9 x10 x11 x12 x13 x14 x15 x16 x17 x18 x19 x20 x21 x22 x23 x24 x25 x26 x27)
    (Cert.KernelIdeal.KRead.kv_main_v31 (F := Ideal) x0 x1 x2 x3 x4 x5 x6 x7 x8 x9 x10 x11 x12 x13 x14 x15 x16 x17 x18 x19 x20 x21 x22 x23 x24 x25 x26 x27)
    (Cert.KernelIdeal.KRead.kv_main_v39 (F := Ideal) x0 x1 x2 x3 x4 x5 x6 x7 x8 x9 x10 x11 x12 x13 x14 x15 x16 x17 x18 x19 x20 x21 x22 x23 x24 x25 x26 x27)
    (Cert.KernelIdeal.KRead.kv_main_v52 (F := Ideal) x0 x1 x2 x3 x4 x5 x6 x7 x8 x9 x10 x11 x12 x13 x14 x15 x16 x17 x18 x19 x20 x21 x22 x23 x24 x25 x26 x27)
    (Cert.ReferenceIdeal.RRead.rv_main_v6 (F := Ideal) x0 x1 x2 x3 x4 x5 x6 x7 x8 x9 x10 x11 x12 x13 x14 x15 x16 x17 x18 x19 x20 x21 x22 x23 x24 x25 x26 x27)
    (Cert.ReferenceIdeal.RRead.rv_main_v13 (F := Ideal) x0 x1 x2 x3 x4 x5 x6 x7 x8 x9 x10 x11 x12 x13 x14 x15 x16 x17 x18 x19 x20 x21 x22 x23 x24 x25 x26 x27)
    (Cert.ReferenceIdeal.RRead.rv_main_v20 (F := Ideal) x0 x1 x2 x3 x4 x5 x6 x7 x8 x9 x10 x11 x12 x13 x14 x15 x16 x17 x18 x19 x20 x21 x22 x23 x24 x25 x26 x27)
    (Cert.ReferenceIdeal.RRead.rv_main_v27 (F := Ideal) x0 x1 x2 x3 x4 x5 x6 x7 x8 x9 x10 x11 x12 x13 x14 x15 x16 x17 x18 x19 x20 x21 x22 x23 x24 x25 x26 x27)
    (Cert.ReferenceIdeal.RRead.rv_main_v34 (F := Ideal) x0 x1 x2 x3 x4 x5 x6 x7 x8 x9 x10 x11 x12 x13 x14 x15 x16 x17 x18 x19 x20 x21 x22 x23 x24 x25 x26 x27)
    (Cert.ReferenceIdeal.RRead.rv_main_v47 (F := Ideal) x0 x1 x2 x3 x4 x5 x6 x7 x8 x9 x10 x11 x12 x13 x14 x15 x16 x17 x18 x19 x20 x21 x22 x23 x24 x25 x26 x27)
    _ _ _ _ b
    (fun j => user_eq x0 x1 x2 x3 x4 x5 x6 x7 x8 x9 x10 x11 x12 x13 x14 x15 x16 x17 x18 x19 x20 x21 x22 x23 x24 x25 x26 x27 b j) (fun j => item_eq x0 x1 x2 x3 x4 x5 x6 x7 x8 x9 x10 x11 x12 x13 x14 x15 x16 x17 x18 x19 x20 x21 x22 x23 x24 x25 x26 x27 b j) (fun j => age_eq x0 x1 x2 x3 x4 x5 x6 x7 x8 x9 x10 x11 x12 x13 x14 x15 x16 x17 x18 x19 x20 x21 x22 x23 x24 x25 x26 x27 b j)
    (fun j => gender_eq x0 x1 x2 x3 x4 x5 x6 x7 x8 x9 x10 x11 x12 x13 x14 x15 x16 x17 x18 x19 x20 x21 x22 x23 x24 x25 x26 x27 b j) (fun j => occ_eq x0 x1 x2 x3 x4 x5 x6 x7 x8 x9 x10 x11 x12 x13 x14 x15 x16 x17 x18 x19 x20 x21 x22 x23 x24 x25 x26 x27 b j)
    (fun q j => congrFun hKW (ix3 b q j)) d

/-- The current item's 88 features agree, given that the masked kind features do. -/
theorem itemfeat_eq (hKW : Cert.KernelIdeal.KRead.kv_main_v52 (F := Ideal) x0 x1 x2 x3 x4 x5 x6 x7 x8 x9 x10 x11 x12 x13 x14 x15 x16 x17 x18 x19 x20 x21 x22 x23 x24 x25 x26 x27 = Cert.ReferenceIdeal.RRead.rv_main_v47 (F := Ideal) x0 x1 x2 x3 x4 x5 x6 x7 x8 x9 x10 x11 x12 x13 x14 x15 x16 x17 x18 x19 x20 x21 x22 x23 x24 x25 x26 x27)
    (b : Fin 65536) (e : Fin 88) :
    Cert.KernelIdeal.KRead.kv_main_v78 (F := Ideal) x0 x1 x2 x3 x4 x5 x6 x7 x8 x9 x10 x11 x12 x13 x14 x15 x16 x17 x18 x19 x20 x21 x22 x23 x24 x25 x26 x27 (ix2 b e)
      = Cert.ReferenceIdeal.RRead.rv_main_v72 (F := Ideal) x0 x1 x2 x3 x4 x5 x6 x7 x8 x9 x10 x11 x12 x13 x14 x15 x16 x17 x18 x19 x20 x21 x22 x23 x24 x25 x26 x27 (ix3 b (0 : Fin 1) e) := by
  unfold Cert.KernelIdeal.KRead.kv_main_v78 Cert.KernelIdeal.KRead.kv_main_v77 Cert.KernelIdeal.KRead.kv_main_v76 Cert.ReferenceIdeal.RRead.rv_main_v72 Cert.ReferenceIdeal.RRead.rv_main_v71
  exact feat88_eq (N := 65536)
    (Cert.KernelIdeal.KRead.kv_main_v15 (F := Ideal) x0 x1 x2 x3 x4 x5 x6 x7 x8 x9 x10 x11 x12 x13 x14 x15 x16 x17 x18 x19 x20 x21 x22 x23 x24 x25 x26 x27)
    (Cert.KernelIdeal.KRead.kv_main_v52 (F := Ideal) x0 x1 x2 x3 x4 x5 x6 x7 x8 x9 x10 x11 x12 x13 x14 x15 x16 x17 x18 x19 x20 x21 x22 x23 x24 x25 x26 x27)
    (Cert.ReferenceIdeal.RRead.rv_main_v13 (F := Ideal) x0 x1 x2 x3 x4 x5 x6 x7 x8 x9 x10 x11 x12 x13 x14 x15 x16 x17 x18 x19 x20 x21 x22 x23 x24 x25 x26 x27)
    (Cert.ReferenceIdeal.RRead.rv_main_v47 (F := Ideal) x0 x1 x2 x3 x4 x5 x6 x7 x8 x9 x10 x11 x12 x13 x14 x15 x16 x17 x18 x19 x20 x21 x22 x23 x24 x25 x26 x27)
    _ _ _ _ b
    (fun j => item_eq x0 x1 x2 x3 x4 x5 x6 x7 x8 x9 x10 x11 x12 x13 x14 x15 x16 x17 x18 x19 x20 x21 x22 x23 x24 x25 x26 x27 b j) (fun q j => congrFun hKW (ix3 b q j)) e

end

end Cert.Features

end
-- ==== Proof.FeatSame.lean ====
/- The kernel's host operations compute the masked kind features and the history-feature table by the same
   operations, in the same order, as the reference program does: as functions of @main's argument arrays the two
   values are equal. -/
import proofs.«117253_j35613868819029_1_alg».proof.Proof.KRead
import proofs.«117253_j35613868819029_1_alg».proof.Proof.RRead
import Idealize.ShloMosaic.PureOps.Ideal.Laws

set_option maxRecDepth 16384

noncomputable section

namespace Cert.FeatSame

open Idealize.ShloMosaic

variable (x0 : (⟨Cert.KernelIdeal.S65536x1, .i32⟩ : BufTy).Contents (Elt Ideal)) (x1 : (⟨Cert.KernelIdeal.S65536x1, .i32⟩ : BufTy).Contents (Elt Ideal)) (x2 : (⟨Cert.KernelIdeal.S65536x1, .i32⟩ : BufTy).Contents (Elt Ideal)) (x3 : (⟨Cert.KernelIdeal.S65536x1, .i32⟩ : BufTy).Contents (Elt Ideal)) (x4 : (⟨Cert.KernelIdeal.S65536x1, .i32⟩ : BufTy).Contents (Elt Ideal)) (x5 : (⟨Cert.KernelIdeal.S65536x10, .i32⟩ : BufTy).Contents (Elt Ideal)) (x6 : (⟨Cert.KernelIdeal.S65536x5, .i32⟩ : BufTy).Contents (Elt Ideal)) (x7 : (⟨Cert.KernelIdeal.S65536x5x10, .i32⟩ : BufTy).Contents (Elt Ideal)) (x8 : (⟨Cert.KernelIdeal.S1000000x8, .f32⟩ : BufTy).Contents (Elt Ideal)) (x9 : (⟨Cert.KernelIdeal.S1000000x8, .f32⟩ : BufTy).Contents (Elt Ideal)) (x10 : (⟨Cert.KernelIdeal.S8x8, .f32⟩ : BufTy).Contents (Elt Ideal)) (x11 : (⟨Cert.KernelIdeal.S3x8, .f32⟩ : BufTy).Contents (Elt Ideal)) (x12 : (⟨Cert.KernelIdeal.S25x8, .f32⟩ : BufTy).Contents (Elt Ideal)) (x13 : (⟨Cert.KernelIdeal.S20x8, .f32⟩ : BufTy).Contents (Elt Ideal)) (x14 : (⟨Cert.KernelIdeal.S64x264, .f32⟩ : BufTy).Contents (Elt Ideal)) (x15 : (⟨Cert.KernelIdeal.S64, .f32⟩ : BufTy).Contents (Elt Ideal)) (x16 : (⟨Cert.KernelIdeal.S32x64, .f32⟩ : BufTy).Contents (Elt Ideal)) (x17 : (⟨Cert.KernelIdeal.S32, .f32⟩ : BufTy).Contents (Elt Ideal)) (x18 : (⟨Cert.KernelIdeal.S1x32, .f32⟩ : BufTy).Contents (Elt Ideal)) (x19 : (⟨Cert.KernelIdeal.S1, .f32⟩ : BufTy).Contents (Elt Ideal)) (x20 : (⟨Cert.KernelIdeal.S128x208, .f32⟩ : BufTy).Contents (Elt Ideal)) (x21 : (⟨Cert.KernelIdeal.S128, .f32⟩ : BufTy).Contents (Elt Ideal)) (x22 : (⟨Cert.KernelIdeal.S64x128, .f32⟩ : BufTy).Contents (Elt Ideal)) (x23 : (⟨Cert.KernelIdeal.S64, .f32⟩ : BufTy).Contents (Elt Ideal)) (x24 : (⟨Cert.KernelIdeal.S32x64, .f32⟩ : BufTy).Contents (Elt Ideal)) (x25 : (⟨Cert.KernelIdeal.S32, .f32⟩ : BufTy).Contents (Elt Ideal)) (x26 : (⟨Cert.KernelIdeal.S1x32, .f32⟩ : BufTy).Contents (Elt Ideal)) (x27 : (⟨Cert.KernelIdeal.S1, .f32⟩ : BufTy).Contents (Elt Ideal))

/-- The masked kind features: the kernel's `%52` is the reference's `%47`. -/
theorem kind_same : Cert.KernelIdeal.KRead.kv_main_v52 (F := Ideal) x0 x1 x2 x3 x4 x5 x6 x7 x8 x9 x10 x11 x12 x13 x14 x15 x16 x17 x18 x19 x20 x21 x22 x23 x24 x25 x26 x27 = Cert.ReferenceIdeal.RRead.rv_main_v47 (F := Ideal) x0 x1 x2 x3 x4 x5 x6 x7 x8 x9 x10 x11 x12 x13 x14 x15 x16 x17 x18 x19 x20 x21 x22 x23 x24 x25 x26 x27 := by
  rfl

/-- The history-feature table: the kernel's `%75` is the reference's `%70`. -/
theorem hist_same : Cert.KernelIdeal.KRead.kv_main_v75 (F := Ideal) x0 x1 x2 x3 x4 x5 x6 x7 x8 x9 x10 x11 x12 x13 x14 x15 x16 x17 x18 x19 x20 x21 x22 x23 x24 x25 x26 x27 = Cert.ReferenceIdeal.RRead.rv_main_v70 (F := Ideal) x0 x1 x2 x3 x4 x5 x6 x7 x8 x9 x10 x11 x12 x13 x14 x15 x16 x17 x18 x19 x20 x21 x22 x23 x24 x25 x26 x27 := by
  rfl

end Cert.FeatSame

end
-- ==== Proof.Bridge.lean ====
/-
  The kernel program's result array is the reference's result.

  The kernel program first runs host operations that gather and lay out three feature tables (history, current item,
  base features) and transpose the weights, then a region whose result array holds, at row b, the row score
  `Gating.rowScore` of row b of those tables. The reference computes, at row b, the same row score of its own feature
  rows and weights. Table by table the two sides' inputs agree — the feature tables row by row, each weight table as
  the transpose of the reference's, each bias row as the reference's bias — so the two arrays are one.
-/
import proofs.«117253_j35613868819029_1_alg».proof.Proof.KernelValue
import proofs.«117253_j35613868819029_1_alg».proof.Proof.KRead
import proofs.«117253_j35613868819029_1_alg».proof.Proof.RRead
import proofs.«117253_j35613868819029_1_alg».proof.Proof.RefRow
import proofs.«117253_j35613868819029_1_alg».proof.Proof.Features
import proofs.«117253_j35613868819029_1_alg».proof.Proof.FeatSame
import proofs.«117253_j35613868819029_1_alg».proof.Proof.Spec
import Idealize.ShloMosaic.Lib.ValueIdx

set_option maxRecDepth 16384

noncomputable section

namespace Cert.Bridge

open Cert.KernelIdeal Cert.KernelIdeal.Gen Cert.KernelIdeal.Gen2 Cert.KernelIdeal.KRead
open Idealize.ShloMosaic Idealize.ShloMosaic.TcCoe Idealize.SL.Sem Idealize.ShloMosaic.ValueIdx

/-! ## The buffers the region finds, as functions of the 28 argument arrays -/

/-- `f` applied to the 28 argument arrays as the launch memory `m` holds them on core `c`. -/
local macro "atArgs% " f:term:max m:ident c:ident : term => `($f ($m ((($c).tc : Thread nD τ).loc main_arg0)) ($m ((($c).tc : Thread nD τ).loc main_arg1)) ($m ((($c).tc : Thread nD τ).loc main_arg2)) ($m ((($c).tc : Thread nD τ).loc main_arg3)) ($m ((($c).tc : Thread nD τ).loc main_arg4)) ($m ((($c).tc : Thread nD τ).loc main_arg5)) ($m ((($c).tc : Thread nD τ).loc main_arg6)) ($m ((($c).tc : Thread nD τ).loc main_arg7)) ($m ((($c).tc : Thread nD τ).loc main_arg8)) ($m ((($c).tc : Thread nD τ).loc main_arg9)) ($m ((($c).tc : Thread nD τ).loc main_arg10)) ($m ((($c).tc : Thread nD τ).loc main_arg11)) ($m ((($c).tc : Thread nD τ).loc main_arg12)) ($m ((($c).tc : Thread nD τ).loc main_arg13)) ($m ((($c).tc : Thread nD τ).loc main_arg14)) ($m ((($c).tc : Thread nD τ).loc main_arg15)) ($m ((($c).tc : Thread nD τ).loc main_arg16)) ($m ((($c).tc : Thread nD τ).loc main_arg17)) ($m ((($c).tc : Thread nD τ).loc main_arg18)) ($m ((($c).tc : Thread nD τ).loc main_arg19)) ($m ((($c).tc : Thread nD τ).loc main_arg20)) ($m ((($c).tc : Thread nD τ).loc main_arg21)) ($m ((($c).tc : Thread nD τ).loc main_arg22)) ($m ((($c).tc : Thread nD τ).loc main_arg23)) ($m ((($c).tc : Thread nD τ).loc main_arg24)) ($m ((($c).tc : Thread nD τ).loc main_arg25)) ($m ((($c).tc : Thread nD τ).loc main_arg26)) ($m ((($c).tc : Thread nD τ).loc main_arg27)))

/-- A one-element list of lists flattens to its element. -/
theorem flatten_single {α : Type} (l : List α) : List.flatten [l] = l := by
  simp only [List.flatten_cons, List.flatten_nil, List.append_nil]

section
variable (m : (ℓ : Loc nD τ sig) → Buf (Elt Ideal) ℓ) (c : Dev nD)

theorem V_kv_75 : (V m c main_v75 : S65536x5x88.Idx → EReal) = atArgs% kv_main_v75 m c := by
  show StableHlo.after (List.flatten [hostOps0]) (fun b => m (c, b)) _ = _
  rw [flatten_single]
  exact after_main_v75 m c

theorem V_kv_78 : (V m c main_v78 : S65536x88.Idx → EReal) = atArgs% kv_main_v78 m c := by
  show StableHlo.after (List.flatten [hostOps0]) (fun b => m (c, b)) _ = _
  rw [flatten_single]
  exact after_main_v78 m c

theorem V_kv_80 : (V m c main_v80 : S65536x120.Idx → EReal) = atArgs% kv_main_v80 m c := by
  show StableHlo.after (List.flatten [hostOps0]) (fun b => m (c, b)) _ = _
  rw [flatten_single]
  exact after_main_v80 m c

theorem V_kv_81 : (V m c main_v81 : S264x64.Idx → EReal) = atArgs% kv_main_v81 m c := by
  show StableHlo.after (List.flatten [hostOps0]) (fun b => m (c, b)) _ = _
  rw [flatten_single]
  exact after_main_v81 m c

theorem V_kv_82 : (V m c main_v82 : S1x64.Idx → EReal) = atArgs% kv_main_v82 m c := by
  show StableHlo.after (List.flatten [hostOps0]) (fun b => m (c, b)) _ = _
  rw [flatten_single]
  exact after_main_v82 m c

theorem V_kv_83 : (V m c main_v83 : S64x32.Idx → EReal) = atArgs% kv_main_v83 m c := by
  show StableHlo.after (List.flatten [hostOps0]) (fun b => m (c, b)) _ = _
  rw [flatten_single]
  exact after_main_v83 m c

theorem V_kv_84 : (V m c main_v84 : S1x32.Idx → EReal) = atArgs% kv_main_v84 m c := by
  show StableHlo.after (List.flatten [hostOps0]) (fun b => m (c, b)) _ = _
  rw [flatten_single]
  exact after_main_v84 m c

theorem V_kv_85 : (V m c main_v85 : S32x1.Idx → EReal) = atArgs% kv_main_v85 m c := by
  show StableHlo.after (List.flatten [hostOps0]) (fun b => m (c, b)) _ = _
  rw [flatten_single]
  exact after_main_v85 m c

theorem V_kv_86 : (V m c main_v86 : S1x1.Idx → EReal) = atArgs% kv_main_v86 m c := by
  show StableHlo.after (List.flatten [hostOps0]) (fun b => m (c, b)) _ = _
  rw [flatten_single]
  exact after_main_v86 m c

theorem V_kv_87 : (V m c main_v87 : S208x128.Idx → EReal) = atArgs% kv_main_v87 m c := by
  show StableHlo.after (List.flatten [hostOps0]) (fun b => m (c, b)) _ = _
  rw [flatten_single]
  exact after_main_v87 m c

theorem V_kv_88 : (V m c main_v88 : S1x128.Idx → EReal) = atArgs% kv_main_v88 m c := by
  show StableHlo.after (List.flatten [hostOps0]) (fun b => m (c, b)) _ = _
  rw [flatten_single]
  exact after_main_v88 m c

theorem V_kv_89 : (V m c main_v89 : S128x64.Idx → EReal) = atArgs% kv_main_v89 m c := by
  show StableHlo.after (List.flatten [hostOps0]) (fun b => m (c, b)) _ = _
  rw [flatten_single]
  exact after_main_v89 m c

theorem V_kv_90 : (V m c main_v90 : S1x64.Idx → EReal) = atArgs% kv_main_v90 m c := by
  show StableHlo.after (List.flatten [hostOps0]) (fun b => m (c, b)) _ = _
  rw [flatten_single]
  exact after_main_v90 m c

theorem V_kv_91 : (V m c main_v91 : S64x32.Idx → EReal) = atArgs% kv_main_v91 m c := by
  show StableHlo.after (List.flatten [hostOps0]) (fun b => m (c, b)) _ = _
  rw [flatten_single]
  exact after_main_v91 m c

theorem V_kv_92 : (V m c main_v92 : S1x32.Idx → EReal) = atArgs% kv_main_v92 m c := by
  show StableHlo.after (List.flatten [hostOps0]) (fun b => m (c, b)) _ = _
  rw [flatten_single]
  exact after_main_v92 m c

theorem V_kv_93 : (V m c main_v93 : S32x1.Idx → EReal) = atArgs% kv_main_v93 m c := by
  show StableHlo.after (List.flatten [hostOps0]) (fun b => m (c, b)) _ = _
  rw [flatten_single]
  exact after_main_v93 m c

theorem V_kv_94 : (V m c main_v94 : S1x1.Idx → EReal) = atArgs% kv_main_v94 m c := by
  show StableHlo.after (List.flatten [hostOps0]) (fun b => m (c, b)) _ = _
  rw [flatten_single]
  exact after_main_v94 m c

end

/-! ## Two descriptions of one array of row scores -/

/-- An array whose entry `i` is the row score of row `row i` of some tables `W…`, and an array `R` whose entry
    (b, 0) is the row score of some data `H b`, `Q b`, `B b` and weights, are one array as soon as the tables' rows
    are those data and the weight tables those weights. -/
theorem core (row : S65536x1.Idx → Fin 65536) (hrow : ∀ i, i = ix2 (row i) (0 : Fin 1)) (R : S65536x1.Idx → EReal)
    (W75 : S65536x5x88.Idx → EReal) (W78 : S65536x88.Idx → EReal) (W80 : S65536x120.Idx → EReal)
    (W81 : S264x64.Idx → EReal) (W82 : S1x64.Idx → EReal) (W83 : S64x32.Idx → EReal) (W84 : S1x32.Idx → EReal) (W85 : S32x1.Idx → EReal) (W86 : S1x1.Idx → EReal) (W87 : S208x128.Idx → EReal) (W88 : S1x128.Idx → EReal) (W89 : S128x64.Idx → EReal) (W90 : S1x64.Idx → EReal) (W91 : S64x32.Idx → EReal) (W92 : S1x32.Idx → EReal) (W93 : S32x1.Idx → EReal) (W94 : S1x1.Idx → EReal)
    (H : Fin 65536 → Fin 5 → Fin 88 → EReal) (Q : Fin 65536 → Fin 88 → EReal) (B : Fin 65536 → Fin 120 → EReal)
    (A1 : Fin 264 → Fin 64 → EReal) (a1 : Fin 64 → EReal) (A2 : Fin 64 → Fin 32 → EReal) (a2 : Fin 32 → EReal) (A3 : Fin 32 → Fin 1 → EReal) (a3 : Fin 1 → EReal) (M1 : Fin 208 → Fin 128 → EReal) (c1 : Fin 128 → EReal) (M2 : Fin 128 → Fin 64 → EReal) (c2 : Fin 64 → EReal) (M3 : Fin 64 → Fin 32 → EReal) (c3 : Fin 32 → EReal) (M4 : Fin 32 → Fin 1 → EReal) (c4 : Fin 1 → EReal)
    (href : ∀ b : Fin 65536, R (ix2 b (0 : Fin 1)) = Cert.Gating.rowScore (H b) (Q b) (B b) A1 a1 A2 a2 A3 a3 M1 c1 M2 c2 M3 c3 M4 c4)
    (h75 : ∀ b s e, W75 (ix3 b s e) = H b s e) (h78 : ∀ b e, W78 (ix2 b e) = Q b e) (h80 : ∀ b d, W80 (ix2 b d) = B b d)
    (h81 : ∀ d o, W81 (ix2 d o) = A1 d o)
    (h82 : ∀ o, W82 (ix2 (0 : Fin 1) o) = a1 o)
    (h83 : ∀ d o, W83 (ix2 d o) = A2 d o)
    (h84 : ∀ o, W84 (ix2 (0 : Fin 1) o) = a2 o)
    (h85 : ∀ d o, W85 (ix2 d o) = A3 d o)
    (h86 : ∀ o, W86 (ix2 (0 : Fin 1) o) = a3 o)
    (h87 : ∀ d o, W87 (ix2 d o) = M1 d o)
    (h88 : ∀ o, W88 (ix2 (0 : Fin 1) o) = c1 o)
    (h89 : ∀ d o, W89 (ix2 d o) = M2 d o)
    (h90 : ∀ o, W90 (ix2 (0 : Fin 1) o) = c2 o)
    (h91 : ∀ d o, W91 (ix2 d o) = M3 d o)
    (h92 : ∀ o, W92 (ix2 (0 : Fin 1) o) = c3 o)
    (h93 : ∀ d o, W93 (ix2 d o) = M4 d o)
    (h94 : ∀ o, W94 (ix2 (0 : Fin 1) o) = c4 o) :
    (fun i => Cert.Gating.rowScore (fun s e => W75 (ix3 (row i) s e)) (fun e => W78 (ix2 (row i) e)) (fun d => W80 (ix2 (row i) d))
      (fun d o => W81 (ix2 d o)) (fun o => W82 (ix2 (0 : Fin 1) o)) (fun d o => W83 (ix2 d o)) (fun o => W84 (ix2 (0 : Fin 1) o)) (fun d o => W85 (ix2 d o)) (fun o => W86 (ix2 (0 : Fin 1) o)) (fun d o => W87 (ix2 d o)) (fun o => W88 (ix2 (0 : Fin 1) o)) (fun d o => W89 (ix2 d o)) (fun o => W90 (ix2 (0 : Fin 1) o)) (fun d o => W91 (ix2 d o)) (fun o => W92 (ix2 (0 : Fin 1) o)) (fun d o => W93 (ix2 d o)) (fun o => W94 (ix2 (0 : Fin 1) o))) = R := by
  funext i
  have e75 : (fun s e => W75 (ix3 (row i) s e)) = H (row i) := funext fun s => funext fun e => h75 _ s e
  have e78 : (fun e => W78 (ix2 (row i) e)) = Q (row i) := funext fun e => h78 _ e
  have e80 : (fun d => W80 (ix2 (row i) d)) = B (row i) := funext fun d => h80 _ d
  have e81 : (fun d o => W81 (ix2 d o)) = A1 := funext fun d => funext fun o => h81 d o
  have e82 : (fun o => W82 (ix2 (0 : Fin 1) o)) = a1 := funext fun o => h82 o
  have e83 : (fun d o => W83 (ix2 d o)) = A2 := funext fun d => funext fun o => h83 d o
  have e84 : (fun o => W84 (ix2 (0 : Fin 1) o)) = a2 := funext fun o => h84 o
  have e85 : (fun d o => W85 (ix2 d o)) = A3 := funext fun d => funext fun o => h85 d o
  have e86 : (fun o => W86 (ix2 (0 : Fin 1) o)) = a3 := funext fun o => h86 o
  have e87 : (fun d o => W87 (ix2 d o)) = M1 := funext fun d => funext fun o => h87 d o
  have e88 : (fun o => W88 (ix2 (0 : Fin 1) o)) = c1 := funext fun o => h88 o
  have e89 : (fun d o => W89 (ix2 d o)) = M2 := funext fun d => funext fun o => h89 d o
  have e90 : (fun o => W90 (ix2 (0 : Fin 1) o)) = c2 := funext fun o => h90 o
  have e91 : (fun d o => W91 (ix2 d o)) = M3 := funext fun d => funext fun o => h91 d o
  have e92 : (fun o => W92 (ix2 (0 : Fin 1) o)) = c3 := funext fun o => h92 o
  have e93 : (fun d o => W93 (ix2 d o)) = M4 := funext fun d => funext fun o => h93 d o
  have e94 : (fun o => W94 (ix2 (0 : Fin 1) o)) = c4 := funext fun o => h94 o
  show Cert.Gating.rowScore (fun s e => W75 (ix3 (row i) s e)) (fun e => W78 (ix2 (row i) e)) (fun d => W80 (ix2 (row i) d))
      (fun d o => W81 (ix2 d o)) (fun o => W82 (ix2 (0 : Fin 1) o)) (fun d o => W83 (ix2 d o)) (fun o => W84 (ix2 (0 : Fin 1) o)) (fun d o => W85 (ix2 d o)) (fun o => W86 (ix2 (0 : Fin 1) o)) (fun d o => W87 (ix2 d o)) (fun o => W88 (ix2 (0 : Fin 1) o)) (fun d o => W89 (ix2 d o)) (fun o => W90 (ix2 (0 : Fin 1) o)) (fun d o => W91 (ix2 d o)) (fun o => W92 (ix2 (0 : Fin 1) o)) (fun d o => W93 (ix2 d o)) (fun o => W94 (ix2 (0 : Fin 1) o)) = R i
  rw [e75, e78, e80, e81, e82, e83, e84, e85, e86, e87, e88, e89, e90, e91, e92, e93, e94]
  exact ((congrArg R (hrow i)).trans (href (row i))).symm

/-! ## The kernel program's result array is the reference's -/

/-- Entry `i` of a [65536, 1] array is entry (row of `i`, 0). -/
theorem rowOf_spec (i : S65536x1.Idx) : i = ix2 (Cert.KernelIdeal.Value2.rowOf i) (0 : Fin 1) := funext fun a => Fin.ext (by
  match a with
  | ⟨0, _⟩ => rfl
  | ⟨1, _⟩ =>
    have h1 : (i 1).val < 1 := (i 1).isLt
    show (i 1).val = 0
    omega)

section
variable {x0 : (⟨Cert.KernelIdeal.S65536x1, .i32⟩ : BufTy).Contents (Elt Ideal)}
  {x1 : (⟨Cert.KernelIdeal.S65536x1, .i32⟩ : BufTy).Contents (Elt Ideal)}
  {x2 : (⟨Cert.KernelIdeal.S65536x1, .i32⟩ : BufTy).Contents (Elt Ideal)}
  {x3 : (⟨Cert.KernelIdeal.S65536x1, .i32⟩ : BufTy).Contents (Elt Ideal)}
  {x4 : (⟨Cert.KernelIdeal.S65536x1, .i32⟩ : BufTy).Contents (Elt Ideal)}
  {x5 : (⟨Cert.KernelIdeal.S65536x10, .i32⟩ : BufTy).Contents (Elt Ideal)}
  {x6 : (⟨Cert.KernelIdeal.S65536x5, .i32⟩ : BufTy).Contents (Elt Ideal)}
  {x7 : (⟨Cert.KernelIdeal.S65536x5x10, .i32⟩ : BufTy).Contents (Elt Ideal)}
  {x8 : (⟨Cert.KernelIdeal.S1000000x8, .f32⟩ : BufTy).Contents (Elt Ideal)}
  {x9 : (⟨Cert.KernelIdeal.S1000000x8, .f32⟩ : BufTy).Contents (Elt Ideal)}
  {x10 : (⟨Cert.KernelIdeal.S8x8, .f32⟩ : BufTy).Contents (Elt Ideal)}
  {x11 : (⟨Cert.KernelIdeal.S3x8, .f32⟩ : BufTy).Contents (Elt Ideal)}
  {x12 : (⟨Cert.KernelIdeal.S25x8, .f32⟩ : BufTy).Contents (Elt Ideal)}
  {x13 : (⟨Cert.KernelIdeal.S20x8, .f32⟩ : BufTy).Contents (Elt Ideal)}
  {x14 : (⟨Cert.KernelIdeal.S64x264, .f32⟩ : BufTy).Contents (Elt Ideal)}
  {x15 : (⟨Cert.KernelIdeal.S64, .f32⟩ : BufTy).Contents (Elt Ideal)}
  {x16 : (⟨Cert.KernelIdeal.S32x64, .f32⟩ : BufTy).Contents (Elt Ideal)}
  {x17 : (⟨Cert.KernelIdeal.S32, .f32⟩ : BufTy).Contents (Elt Ideal)}
  {x18 : (⟨Cert.KernelIdeal.S1x32, .f32⟩ : BufTy).Contents (Elt Ideal)}
  {x19 : (⟨Cert.KernelIdeal.S1, .f32⟩ : BufTy).Contents (Elt Ideal)}
  {x20 : (⟨Cert.KernelIdeal.S128x208, .f32⟩ : BufTy).Contents (Elt Ideal)}
  {x21 : (⟨Cert.KernelIdeal.S128, .f32⟩ : BufTy).Contents (Elt Ideal)}
  {x22 : (⟨Cert.KernelIdeal.S64x128, .f32⟩ : BufTy).Contents (Elt Ideal)}
  {x23 : (⟨Cert.KernelIdeal.S64, .f32⟩ : BufTy).Contents (Elt Ideal)}
  {x24 : (⟨Cert.KernelIdeal.S32x64, .f32⟩ : BufTy).Contents (Elt Ideal)}
  {x25 : (⟨Cert.KernelIdeal.S32, .f32⟩ : BufTy).Contents (Elt Ideal)}
  {x26 : (⟨Cert.KernelIdeal.S1x32, .f32⟩ : BufTy).Contents (Elt Ideal)}
  {x27 : (⟨Cert.KernelIdeal.S1, .f32⟩ : BufTy).Contents (Elt Ideal)}

/-- Over ANY tables `W…` that are what the host operations before the region compute from the 28 argument arrays:
    the array of row scores of those tables is the reference's result on those arrays. The reference's result at
    (b, 0) is the row score of its own feature rows and of the transposed weights; the history, current-item and base
    feature tables agree with the reference's row by row, the weight tables are the transposes and the bias rows the
    biases. -/
theorem bridge_args {W75 : S65536x5x88.Idx → EReal} {W78 : S65536x88.Idx → EReal} {W80 : S65536x120.Idx → EReal} {W81 : S264x64.Idx → EReal} {W82 : S1x64.Idx → EReal} {W83 : S64x32.Idx → EReal} {W84 : S1x32.Idx → EReal} {W85 : S32x1.Idx → EReal} {W86 : S1x1.Idx → EReal} {W87 : S208x128.Idx → EReal} {W88 : S1x128.Idx → EReal} {W89 : S128x64.Idx → EReal} {W90 : S1x64.Idx → EReal} {W91 : S64x32.Idx → EReal} {W92 : S1x32.Idx → EReal} {W93 : S32x1.Idx → EReal} {W94 : S1x1.Idx → EReal}
    (hV75 : W75 = kv_main_v75 (F := Ideal) x0 x1 x2 x3 x4 x5 x6 x7 x8 x9 x10 x11 x12 x13 x14 x15 x16 x17 x18 x19 x20 x21 x22 x23 x24 x25 x26 x27)
    (hV78 : W78 = kv_main_v78 (F := Ideal) x0 x1 x2 x3 x4 x5 x6 x7 x8 x9 x10 x11 x12 x13 x14 x15 x16 x17 x18 x19 x20 x21 x22 x23 x24 x25 x26 x27)
    (hV80 : W80 = kv_main_v80 (F := Ideal) x0 x1 x2 x3 x4 x5 x6 x7 x8 x9 x10 x11 x12 x13 x14 x15 x16 x17 x18 x19 x20 x21 x22 x23 x24 x25 x26 x27)
    (hV81 : W81 = kv_main_v81 (F := Ideal) x0 x1 x2 x3 x4 x5 x6 x7 x8 x9 x10 x11 x12 x13 x14 x15 x16 x17 x18 x19 x20 x21 x22 x23 x24 x25 x26 x27)
    (hV82 : W82 = kv_main_v82 (F := Ideal) x0 x1 x2 x3 x4 x5 x6 x7 x8 x9 x10 x11 x12 x13 x14 x15 x16 x17 x18 x19 x20 x21 x22 x23 x24 x25 x26 x27)
    (hV83 : W83 = kv_main_v83 (F := Ideal) x0 x1 x2 x3 x4 x5 x6 x7 x8 x9 x10 x11 x12 x13 x14 x15 x16 x17 x18 x19 x20 x21 x22 x23 x24 x25 x26 x27)
    (hV84 : W84 = kv_main_v84 (F := Ideal) x0 x1 x2 x3 x4 x5 x6 x7 x8 x9 x10 x11 x12 x13 x14 x15 x16 x17 x18 x19 x20 x21 x22 x23 x24 x25 x26 x27)
    (hV85 : W85 = kv_main_v85 (F := Ideal) x0 x1 x2 x3 x4 x5 x6 x7 x8 x9 x10 x11 x12 x13 x14 x15 x16 x17 x18 x19 x20 x21 x22 x23 x24 x25 x26 x27)
    (hV86 : W86 = kv_main_v86 (F := Ideal) x0 x1 x2 x3 x4 x5 x6 x7 x8 x9 x10 x11 x12 x13 x14 x15 x16 x17 x18 x19 x20 x21 x22 x23 x24 x25 x26 x27)
    (hV87 : W87 = kv_main_v87 (F := Ideal) x0 x1 x2 x3 x4 x5 x6 x7 x8 x9 x10 x11 x12 x13 x14 x15 x16 x17 x18 x19 x20 x21 x22 x23 x24 x25 x26 x27)
    (hV88 : W88 = kv_main_v88 (F := Ideal) x0 x1 x2 x3 x4 x5 x6 x7 x8 x9 x10 x11 x12 x13 x14 x15 x16 x17 x18 x19 x20 x21 x22 x23 x24 x25 x26 x27)
    (hV89 : W89 = kv_main_v89 (F := Ideal) x0 x1 x2 x3 x4 x5 x6 x7 x8 x9 x10 x11 x12 x13 x14 x15 x16 x17 x18 x19 x20 x21 x22 x23 x24 x25 x26 x27)
    (hV90 : W90 = kv_main_v90 (F := Ideal) x0 x1 x2 x3 x4 x5 x6 x7 x8 x9 x10 x11 x12 x13 x14 x15 x16 x17 x18 x19 x20 x21 x22 x23 x24 x25 x26 x27)
    (hV91 : W91 = kv_main_v91 (F := Ideal) x0 x1 x2 x3 x4 x5 x6 x7 x8 x9 x10 x11 x12 x13 x14 x15 x16 x17 x18 x19 x20 x21 x22 x23 x24 x25 x26 x27)
    (hV92 : W92 = kv_main_v92 (F := Ideal) x0 x1 x2 x3 x4 x5 x6 x7 x8 x9 x10 x11 x12 x13 x14 x15 x16 x17 x18 x19 x20 x21 x22 x23 x24 x25 x26 x27)
    (hV93 : W93 = kv_main_v93 (F := Ideal) x0 x1 x2 x3 x4 x5 x6 x7 x8 x9 x10 x11 x12 x13 x14 x15 x16 x17 x18 x19 x20 x21 x22 x23 x24 x25 x26 x27)
    (hV94 : W94 = kv_main_v94 (F := Ideal) x0 x1 x2 x3 x4 x5 x6 x7 x8 x9 x10 x11 x12 x13 x14 x15 x16 x17 x18 x19 x20 x21 x22 x23 x24 x25 x26 x27) :
    (fun i => Cert.Gating.rowScore (fun s e => W75 (ix3 (Cert.KernelIdeal.Value2.rowOf i) s e))
        (fun e => W78 (ix2 (Cert.KernelIdeal.Value2.rowOf i) e)) (fun d => W80 (ix2 (Cert.KernelIdeal.Value2.rowOf i) d))
        (fun d o => W81 (ix2 d o)) (fun o => W82 (ix2 (0 : Fin 1) o)) (fun d o => W83 (ix2 d o)) (fun o => W84 (ix2 (0 : Fin 1) o)) (fun d o => W85 (ix2 d o)) (fun o => W86 (ix2 (0 : Fin 1) o)) (fun d o => W87 (ix2 d o)) (fun o => W88 (ix2 (0 : Fin 1) o)) (fun d o => W89 (ix2 d o)) (fun o => W90 (ix2 (0 : Fin 1) o)) (fun d o => W91 (ix2 d o)) (fun o => W92 (ix2 (0 : Fin 1) o)) (fun d o => W93 (ix2 d o)) (fun o => W94 (ix2 (0 : Fin 1) o)))
      = Cert.ReferenceIdeal.RRead.rv_main_v125 (F := Ideal) x0 x1 x2 x3 x4 x5 x6 x7 x8 x9 x10 x11 x12 x13 x14 x15 x16 x17 x18 x19 x20 x21 x22 x23 x24 x25 x26 x27 := by
  subst hV75 hV78 hV80 hV81 hV82 hV83 hV84 hV85 hV86 hV87 hV88 hV89 hV90 hV91 hV92 hV93 hV94
  exact core Cert.KernelIdeal.Value2.rowOf rowOf_spec _ _ _ _ _ _ _ _ _ _ _ _ _ _ _ _ _ _
    (fun b s e => Cert.ReferenceIdeal.RRead.rv_main_v70 (F := Ideal) x0 x1 x2 x3 x4 x5 x6 x7 x8 x9 x10 x11 x12 x13 x14 x15 x16 x17 x18 x19 x20 x21 x22 x23 x24 x25 x26 x27 (ix3 b s e))
    (fun b e => Cert.ReferenceIdeal.RRead.rv_main_v72 (F := Ideal) x0 x1 x2 x3 x4 x5 x6 x7 x8 x9 x10 x11 x12 x13 x14 x15 x16 x17 x18 x19 x20 x21 x22 x23 x24 x25 x26 x27 (ix3 b (0 : Fin 1) e))
    (fun b d => Cert.ReferenceIdeal.RRead.rv_main_v95 (F := Ideal) x0 x1 x2 x3 x4 x5 x6 x7 x8 x9 x10 x11 x12 x13 x14 x15 x16 x17 x18 x19 x20 x21 x22 x23 x24 x25 x26 x27 (ix2 b d))
    (fun d o => x14 (ix2 o d)) (fun o => x15 (ix1 o)) (fun d o => x16 (ix2 o d)) (fun o => x17 (ix1 o)) (fun d o => x18 (ix2 o d)) (fun o => x19 (ix1 o)) (fun d o => x20 (ix2 o d)) (fun o => x21 (ix1 o)) (fun d o => x22 (ix2 o d)) (fun o => x23 (ix1 o)) (fun d o => x24 (ix2 o d)) (fun o => x25 (ix1 o)) (fun d o => x26 (ix2 o d)) (fun o => x27 (ix1 o))
    (fun b => Cert.ReferenceIdeal.RefRow.ref_row x0 x1 x2 x3 x4 x5 x6 x7 x8 x9 x10 x11 x12 x13 x14 x15 x16 x17 x18 x19 x20 x21 x22 x23 x24 x25 x26 x27 b)
    (fun b s e => congrFun (Cert.FeatSame.hist_same x0 x1 x2 x3 x4 x5 x6 x7 x8 x9 x10 x11 x12 x13 x14 x15 x16 x17 x18 x19 x20 x21 x22 x23 x24 x25 x26 x27) (ix3 b s e))
    (fun b e => Cert.Features.itemfeat_eq x0 x1 x2 x3 x4 x5 x6 x7 x8 x9 x10 x11 x12 x13 x14 x15 x16 x17 x18 x19 x20 x21 x22 x23 x24 x25 x26 x27 (Cert.FeatSame.kind_same x0 x1 x2 x3 x4 x5 x6 x7 x8 x9 x10 x11 x12 x13 x14 x15 x16 x17 x18 x19 x20 x21 x22 x23 x24 x25 x26 x27) b e)
    (fun b d => Cert.Features.basefeat_eq x0 x1 x2 x3 x4 x5 x6 x7 x8 x9 x10 x11 x12 x13 x14 x15 x16 x17 x18 x19 x20 x21 x22 x23 x24 x25 x26 x27 (Cert.FeatSame.kind_same x0 x1 x2 x3 x4 x5 x6 x7 x8 x9 x10 x11 x12 x13 x14 x15 x16 x17 x18 x19 x20 x21 x22 x23 x24 x25 x26 x27) b d)
    (fun d o => Cert.Features.w_v81 x0 x1 x2 x3 x4 x5 x6 x7 x8 x9 x10 x11 x12 x13 x14 x15 x16 x17 x18 x19 x20 x21 x22 x23 x24 x25 x26 x27 d o)
    (fun o => Cert.Features.b_v82 x0 x1 x2 x3 x4 x5 x6 x7 x8 x9 x10 x11 x12 x13 x14 x15 x16 x17 x18 x19 x20 x21 x22 x23 x24 x25 x26 x27 o)
    (fun d o => Cert.Features.w_v83 x0 x1 x2 x3 x4 x5 x6 x7 x8 x9 x10 x11 x12 x13 x14 x15 x16 x17 x18 x19 x20 x21 x22 x23 x24 x25 x26 x27 d o)
    (fun o => Cert.Features.b_v84 x0 x1 x2 x3 x4 x5 x6 x7 x8 x9 x10 x11 x12 x13 x14 x15 x16 x17 x18 x19 x20 x21 x22 x23 x24 x25 x26 x27 o)
    (fun d o => Cert.Features.w_v85 x0 x1 x2 x3 x4 x5 x6 x7 x8 x9 x10 x11 x12 x13 x14 x15 x16 x17 x18 x19 x20 x21 x22 x23 x24 x25 x26 x27 d o)
    (fun o => Cert.Features.b_v86 x0 x1 x2 x3 x4 x5 x6 x7 x8 x9 x10 x11 x12 x13 x14 x15 x16 x17 x18 x19 x20 x21 x22 x23 x24 x25 x26 x27 o)
    (fun d o => Cert.Features.w_v87 x0 x1 x2 x3 x4 x5 x6 x7 x8 x9 x10 x11 x12 x13 x14 x15 x16 x17 x18 x19 x20 x21 x22 x23 x24 x25 x26 x27 d o)
    (fun o => Cert.Features.b_v88 x0 x1 x2 x3 x4 x5 x6 x7 x8 x9 x10 x11 x12 x13 x14 x15 x16 x17 x18 x19 x20 x21 x22 x23 x24 x25 x26 x27 o)
    (fun d o => Cert.Features.w_v89 x0 x1 x2 x3 x4 x5 x6 x7 x8 x9 x10 x11 x12 x13 x14 x15 x16 x17 x18 x19 x20 x21 x22 x23 x24 x25 x26 x27 d o)
    (fun o => Cert.Features.b_v90 x0 x1 x2 x3 x4 x5 x6 x7 x8 x9 x10 x11 x12 x13 x14 x15 x16 x17 x18 x19 x20 x21 x22 x23 x24 x25 x26 x27 o)
    (fun d o => Cert.Features.w_v91 x0 x1 x2 x3 x4 x5 x6 x7 x8 x9 x10 x11 x12 x13 x14 x15 x16 x17 x18 x19 x20 x21 x22 x23 x24 x25 x26 x27 d o)
    (fun o => Cert.Features.b_v92 x0 x1 x2 x3 x4 x5 x6 x7 x8 x9 x10 x11 x12 x13 x14 x15 x16 x17 x18 x19 x20 x21 x22 x23 x24 x25 x26 x27 o)
    (fun d o => Cert.Features.w_v93 x0 x1 x2 x3 x4 x5 x6 x7 x8 x9 x10 x11 x12 x13 x14 x15 x16 x17 x18 x19 x20 x21 x22 x23 x24 x25 x26 x27 d o)
    (fun o => Cert.Features.b_v94 x0 x1 x2 x3 x4 x5 x6 x7 x8 x9 x10 x11 x12 x13 x14 x15 x16 x17 x18 x19 x20 x21 x22 x23 x24 x25 x26 x27 o)

end

/-- THE KERNEL PROGRAM'S RESULT ARRAY on core `c` is the reference's result on the 28 argument arrays the launch memory
    holds there. -/
theorem result_eq (m : (ℓ : Loc nD τ sig) → Buf (Elt Ideal) ℓ) (c : Dev nD) :
    Cert.KernelIdeal.Value2.G m c = atArgs% (Cert.ReferenceIdeal.RRead.rv_main_v125 (F := Ideal)) m c := by
  unfold Cert.KernelIdeal.Value2.G Cert.KernelIdeal.Value2.Gw
  exact bridge_args (V_kv_75 m c) (V_kv_78 m c) (V_kv_80 m c) (V_kv_81 m c) (V_kv_82 m c) (V_kv_83 m c) (V_kv_84 m c) (V_kv_85 m c) (V_kv_86 m c) (V_kv_87 m c) (V_kv_88 m c) (V_kv_89 m c) (V_kv_90 m c) (V_kv_91 m c) (V_kv_92 m c) (V_kv_93 m c) (V_kv_94 m c)

end Cert.Bridge

end
-- ==== Proof.RAfter.lean ====
/- The reference program's result array after its 157 host operations is the operations' value of the 28 argument
   arrays: proved one operation at a time — after the first k+1 operations the k-th result buffer holds its value,
   each operand read back at the state after its producer because no later operation writes it. -/
import proofs.«117253_j35613868819029_1_alg».proof.Proof.RRead

set_option maxRecDepth 16384

noncomputable section

namespace Cert.ReferenceIdeal.RAfter

open Cert.ReferenceIdeal Cert.ReferenceIdeal.Gen Idealize.ShloMosaic Idealize.ShloMosaic.TcCoe Idealize.SL.Sem Idealize.ShloMosaic.StableHlo

variable {F : FTy → Type} [FloatOps F]

/-! ## Lines of operations, cut -/

section Generic
variable {τ' : Topo} {sig' : RefSig} {Val : EltTy → Type}

/-- Two lines run one after the other leave what their concatenation leaves. -/
theorem after_append (l₁ l₂ : List (HloOp τ' sig' Val)) (G : Valuation τ' sig' Val) :
    after (l₁ ++ l₂) G = after l₂ (after l₁ G) := by
  induction l₁ generalizing G with
  | nil => rfl
  | cons op l ih => simp only [List.cons_append, after_cons, ih]

/-- One more operation of the line. -/
theorem after_take_succ (l : List (HloOp τ' sig' Val)) (G : Valuation τ' sig' Val) (k : ℕ) (hk : k < l.length) :
    after (l.take (k + 1)) G = (l[k]).result (after (l.take k) G) := by
  rw [List.take_succ, List.getElem?_eq_getElem hk, Option.toList_some, after_append]
  rfl

/-- Operations each writing one listed reference write none that is not listed. -/
theorem not_writes_of_forall₂ {l : List (HloOp τ' sig' Val)} {W : List (Ref sig' .tc)}
    (h : List.Forall₂ (fun op w => op.writes = {Proc.devRef (τ := τ') .tc w}) l W) {r : Ref sig' .tc} (hr : r ∉ W) :
    ∀ op ∈ l, (Proc.devRef (τ := τ') .tc r) ∉ op.writes := by
  induction h with
  | nil => intro op hop; exact absurd hop (List.not_mem_nil)
  | cons hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A reference none of the operations `j … k-1` writes holds after `k` operations what it held after `j`. -/
theorem after_take_persist {l : List (HloOp τ' sig' Val)} {W : List (Ref sig' .tc)}
    (h : List.Forall₂ (fun op w => op.writes = {Proc.devRef (τ := τ') .tc w}) l W) (G : Valuation τ' sig' Val)
    (j k : ℕ) (hjk : j ≤ k) (r : Ref sig' .tc) (hr : r ∉ (W.take k).drop j) :
    after (l.take k) G (Proc.devRef .tc r) = after (l.take j) G (Proc.devRef .tc r) := by
  have hcut : l.take k = l.take j ++ (l.take k).drop j := by
    conv_lhs => rw [← List.take_append_drop j (l.take k)]
    rw [List.take_take, Nat.min_eq_left hjk]
  rw [hcut, after_append]
  exact after_of_forall_not_mem _ _ (not_writes_of_forall₂ (List.forall₂_drop j (List.forall₂_take k h)) hr)

end Generic

/-! ## The operations' results, one by one -/

/-- The references the operations write, in order: each operation's one result. -/
abbrev ops_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_c_7, main_v28, main_v29, main_c_8, main_v30, main_v31, main_v32, main_v33, main_v34, main_c_9, main_v35, main_v36, main_c_10, main_v37, main_v38, main_v39, main_v40, main_v41, main_c_11, main_v42, main_v43, main_v44, main_v45, main_v46, main_v47, main_c_12, main_v48, main_v49, main_c_13, main_v50, main_v51, main_v52, main_v53, main_v54, main_c_14, main_v55, main_v56, main_c_15, main_v57, main_v58, main_v59, main_v60, main_v61, main_c_16, main_v62, main_v63, main_v64, main_v65, main_v66, main_v67, main_v68, main_v69, main_v70, main_v71, main_v72, main_v73, main_v74, main_v75, main_v76, main_v77, main_v78, main_v79, main_call0_cst, main_call0_v0, main_v80, main_v81, main_v82, main_v83, main_v84, main_call1_cst, main_call1_v0, main_v85, main_v86, main_v87, main_v88, main_v89, main_v90, main_v91, main_v92, main_cst, main_v93, main_v94, main_v95, main_v96, main_v97, main_v98, main_v99, main_v100, main_v101, main_call2_cst, main_call2_v0, main_v102, main_v103, main_v104, main_v105, main_v106, main_v107, main_call3_cst, main_call3_v0, main_v108, main_v109, main_v110, main_v111, main_v112, main_v113, main_call4_cst, main_call4_v0, main_v114, main_v115, main_v116, main_v117, main_v118, main_v119, main_v120, main_v121, main_cst_17, main_v122, main_v123, main_cst_18, main_v124, main_v125]

set_option maxHeartbeats 4000000 in
/-- Operation `k` writes exactly the `k`-th listed reference. -/
theorem ops_writes₂ : List.Forall₂ (fun (op : HloOp τ sig (Elt F)) w => op.writes = {Proc.devRef (τ := τ) .tc w}) RRead.ops ops_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))))))))))))))))))))))))))))))))))

/-- A three-operand operation's result, each operand's contents at its own reference. -/
theorem nary3_result {Val : EltTy → Type} {r0 r1 r2 y : Ref sig .tc}
    (f : ((k : Fin 3) → ((![r0, r1, r2] : Fin 3 → Ref sig .tc) k).ty.Contents Val) → y.ty.Contents Val) (hxs hy)
    (Fv : Valuation τ sig Val) :
    (nary (τ := τ) ![r0, r1, r2] y f hxs hy).result Fv (Proc.devRef .tc y)
      = f (Fin.cons (Fv (Proc.devRef .tc r0)) (Fin.cons (Fv (Proc.devRef .tc r1)) (Fin.cons (Fv (Proc.devRef .tc r2)) (fun i => i.elim0)))) := by
  rw [nary_result]; congr 1; funext k; fin_cases k <;> rfl

/-- A six-operand operation's result, each operand's contents at its own reference. -/
theorem nary6_result {Val : EltTy → Type} {r0 r1 r2 r3 r4 r5 y : Ref sig .tc}
    (f : ((k : Fin 6) → ((![r0, r1, r2, r3, r4, r5] : Fin 6 → Ref sig .tc) k).ty.Contents Val) → y.ty.Contents Val) (hxs hy)
    (Fv : Valuation τ sig Val) :
    (nary (τ := τ) ![r0, r1, r2, r3, r4, r5] y f hxs hy).result Fv (Proc.devRef .tc y)
      = f (Fin.cons (Fv (Proc.devRef .tc r0)) (Fin.cons (Fv (Proc.devRef .tc r1)) (Fin.cons (Fv (Proc.devRef .tc r2))
          (Fin.cons (Fv (Proc.devRef .tc r3)) (Fin.cons (Fv (Proc.devRef .tc r4)) (Fin.cons (Fv (Proc.devRef .tc r5)) (fun i => i.elim0))))))) := by
  rw [nary_result]; congr 1; funext k; fin_cases k <;> rfl

variable (m : (ℓ : Loc nD τ sig) → Buf (Elt F) ℓ) (c : Dev nD)

/-- The line has 157 operations. -/
theorem ops_length : (RRead.ops (F := F)).length = 157 := rfl

/-- The state after `k+1` operations is operation `k`'s result on the state after `k`. -/
theorem step (k : ℕ) (hk : k < 157) :
    after ((RRead.ops (F := F)).take (k + 1)) (fun b => m (c, b)) = ((RRead.ops (F := F))[k]).result (after ((RRead.ops (F := F)).take k) (fun b => m (c, b))) :=
  after_take_succ _ _ k (ops_length (F := F) ▸ hk)

/-- A reference none of the operations `j … k-1` writes holds after `k` operations what it held after `j`. -/
theorem persist (j k : ℕ) (hjk : j ≤ k) (r : Ref sig .tc) (hr : r ∉ (ops_W.take k).drop j) :
    after ((RRead.ops (F := F)).take k) (fun b => m (c, b)) (Proc.devRef .tc r) = after ((RRead.ops (F := F)).take j) (fun b => m (c, b)) (Proc.devRef .tc r) :=
  after_take_persist ops_writes₂ _ j k hjk r hr

/-- An argument array is never written: after any number of operations it is as launched. -/
theorem arg_at (k : ℕ) (r : Ref sig .tc) (hr : r ∉ (ops_W.take k).drop 0) :
    after ((RRead.ops (F := F)).take k) (fun b => m (c, b)) (Proc.devRef .tc r) = m ((c.tc : Thread nD τ).loc r) :=
  persist m c 0 k (Nat.zero_le k) r hr

theorem A_main_c : after ((RRead.ops (F := F)).take 1) (fun b => m (c, b)) (Proc.devRef .tc main_c) = RRead.rv_main_c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 0 (by decide)]
  show HloOp.result (τ := τ) (sig := sig) (Val := Elt F) (nullary main_c (constantI S_ 32 0#32)) _ _ = _
  rw [nullary_result]
  try rfl
theorem A_main_v0 : after ((RRead.ops (F := F)).take 2) (fun b => m (c, b)) (Proc.devRef .tc main_v0) = RRead.rv_main_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 1 (by decide)]
  show HloOp.result (τ := τ) (sig := sig) (Val := Elt F) (unary main_c main_v0 (broadcastInDim S65536x1 ![] bcast_S_S65536x1 : (⟨S_, .i32⟩ : BufTy).Contents (Elt F) → (⟨S65536x1, .i32⟩ : BufTy).Contents (Elt F))) _ _ = _
  rw [unary_result, A_main_c m c]
  try rfl
theorem A_main_v1 : after ((RRead.ops (F := F)).take 3) (fun b => m (c, b)) (Proc.devRef .tc main_v1) = RRead.rv_main_v1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 2 (by decide)]
  show HloOp.result (τ := τ) (sig := sig) (Val := Elt F) (binary main_arg0 main_v0 main_v1 (cmpi .slt : (⟨S65536x1, .i32⟩ : BufTy).Contents (Elt F) → (⟨S65536x1, .i32⟩ : BufTy).Contents (Elt F) → (⟨S65536x1, .i1⟩ : BufTy).Contents (Elt F))) _ _ = _
  rw [binary_result, arg_at m c 2 main_arg0 (by decide), A_main_v0 m c]
  try rfl
theorem A_main_c_0 : after ((RRead.ops (F := F)).take 4) (fun b => m (c, b)) (Proc.devRef .tc main_c_0) = RRead.rv_main_c_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 3 (by decide)]
  show HloOp.result (τ := τ) (sig := sig) (Val := Elt F) (nullary main_c_0 (constantI S_ 32 1000000#32)) _ _ = _
  rw [nullary_result]
  try rfl
theorem A_main_v2 : after ((RRead.ops (F := F)).take 5) (fun b => m (c, b)) (Proc.devRef .tc main_v2) = RRead.rv_main_v2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 4 (by decide)]
  show HloOp.result (τ := τ) (sig := sig) (Val := Elt F) (unary main_c_0 main_v2 (broadcastInDim S65536x1 ![] bcast_S_S65536x1 : (⟨S_, .i32⟩ : BufTy).Contents (Elt F) → (⟨S65536x1, .i32⟩ : BufTy).Contents (Elt F))) _ _ = _
  rw [unary_result, A_main_c_0 m c]
  try rfl
theorem A_main_v3 : after ((RRead.ops (F := F)).take 6) (fun b => m (c, b)) (Proc.devRef .tc main_v3) = RRead.rv_main_v3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 5 (by decide)]
  show HloOp.result (τ := τ) (sig := sig) (Val := Elt F) (binary main_arg0 main_v2 main_v3 (addi : (⟨S65536x1, .i32⟩ : BufTy).Contents (Elt F) → (⟨S65536x1, .i32⟩ : BufTy).Contents (Elt F) → (⟨S65536x1, .i32⟩ : BufTy).Contents (Elt F))) _ _ = _
  rw [binary_result, arg_at m c 5 main_arg0 (by decide), A_main_v2 m c]
  try rfl
theorem A_main_v4 : after ((RRead.ops (F := F)).take 7) (fun b => m (c, b)) (Proc.devRef .tc main_v4) = RRead.rv_main_v4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 6 (by decide)]
  show HloOp.result (τ := τ) (sig := sig) (Val := Elt F) (ternary main_v1 main_v3 main_arg0 main_v4 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F))) _ _ = _
  rw [ternary_result, persist m c 3 6 (by decide) main_v1 (by decide), A_main_v1 m c, A_main_v3 m c, arg_at m c 6 main_arg0 (by decide)]
  try rfl
theorem A_main_v5 : after ((RRead.ops (F := F)).take 8) (fun b => m (c, b)) (Proc.devRef .tc main_v5) = RRead.rv_main_v5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 7 (by decide)]
  show HloOp.result (τ := τ) (sig := sig) (Val := Elt F) (unary main_v4 main_v5 (broadcastInDim S65536x1x1 ![0, 1] bcast_S65536x1_S65536x1x1_0_1 : (⟨S65536x1, .i32⟩ : BufTy).Contents (Elt F) → (⟨S65536x1x1, .i32⟩ : BufTy).Contents (Elt F))) _ _ = _
  rw [unary_result, A_main_v4 m c]
  try rfl
theorem A_main_v6 : after ((RRead.ops (F := F)).take 9) (fun b => m (c, b)) (Proc.devRef .tc main_v6) = RRead.rv_main_v6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 8 (by decide)]
  show HloOp.result (τ := τ) (sig := sig) (Val := Elt F) (binary main_arg8 main_v5 main_v6 ((fun x i => Host.gather gather_S1000000x8_S65536x1x1_S65536x1x8_2_0_n_n_0_2_18 x i) : (⟨S1000000x8, .f32⟩ : BufTy).Contents (Elt F) → (⟨S65536x1x1, .i32⟩ : BufTy).Contents (Elt F) → (⟨S65536x1x8, .f32⟩ : BufTy).Contents (Elt F))) _ _ = _
  rw [binary_result, arg_at m c 8 main_arg8 (by decide), A_main_v5 m c]
  try rfl
theorem A_main_c_1 : after ((RRead.ops (F := F)).take 10) (fun b => m (c, b)) (Proc.devRef .tc main_c_1) = RRead.rv_main_c_1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 9 (by decide)]
  show HloOp.result (τ := τ) (sig := sig) (Val := Elt F) (nullary main_c_1 (constantI S_ 32 0#32)) _ _ = _
  rw [nullary_result]
  try rfl
theorem A_main_v7 : after ((RRead.ops (F := F)).take 11) (fun b => m (c, b)) (Proc.devRef .tc main_v7) = RRead.rv_main_v7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 10 (by decide)]
  show HloOp.result (τ := τ) (sig := sig) (Val := Elt F) (unary main_c_1 main_v7 (broadcastInDim S65536x1 ![] bcast_S_S65536x1 : (⟨S_, .i32⟩ : BufTy).Contents (Elt F) → (⟨S65536x1, .i32⟩ : BufTy).Contents (Elt F))) _ _ = _
  rw [unary_result, A_main_c_1 m c]
  try rfl
theorem A_main_v8 : after ((RRead.ops (F := F)).take 12) (fun b => m (c, b)) (Proc.devRef .tc main_v8) = RRead.rv_main_v8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 11 (by decide)]
  show HloOp.result (τ := τ) (sig := sig) (Val := Elt F) (binary main_arg1 main_v7 main_v8 (cmpi .slt : (⟨S65536x1, .i32⟩ : BufTy).Contents (Elt F) → (⟨S65536x1, .i32⟩ : BufTy).Contents (Elt F) → (⟨S65536x1, .i1⟩ : BufTy).Contents (Elt F))) _ _ = _
  rw [binary_result, arg_at m c 11 main_arg1 (by decide), A_main_v7 m c]
  try rfl
theorem A_main_c_2 : after ((RRead.ops (F := F)).take 13) (fun b => m (c, b)) (Proc.devRef .tc main_c_2) = RRead.rv_main_c_2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 12 (by decide)]
  show HloOp.result (τ := τ) (sig := sig) (Val := Elt F) (nullary main_c_2 (constantI S_ 32 1000000#32)) _ _ = _
  rw [nullary_result]
  try rfl
theorem A_main_v9 : after ((RRead.ops (F := F)).take 14) (fun b => m (c, b)) (Proc.devRef .tc main_v9) = RRead.rv_main_v9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 13 (by decide)]
  show HloOp.result (τ := τ) (sig := sig) (Val := Elt F) (unary main_c_2 main_v9 (broadcastInDim S65536x1 ![] bcast_S_S65536x1 : (⟨S_, .i32⟩ : BufTy).Contents (Elt F) → (⟨S65536x1, .i32⟩ : BufTy).Contents (Elt F))) _ _ = _
  rw [unary_result, A_main_c_2 m c]
  try rfl
theorem A_main_v10 : after ((RRead.ops (F := F)).take 15) (fun b => m (c, b)) (Proc.devRef .tc main_v10) = RRead.rv_main_v10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 14 (by decide)]
  show HloOp.result (τ := τ) (sig := sig) (Val := Elt F) (binary main_arg1 main_v9 main_v10 (addi : (⟨S65536x1, .i32⟩ : BufTy).Contents (Elt F) → (⟨S65536x1, .i32⟩ : BufTy).Contents (Elt F) → (⟨S65536x1, .i32⟩ : BufTy).Contents (Elt F))) _ _ = _
  rw [binary_result, arg_at m c 14 main_arg1 (by decide), A_main_v9 m c]
  try rfl
theorem A_main_v11 : after ((RRead.ops (F := F)).take 16) (fun b => m (c, b)) (Proc.devRef .tc main_v11) = RRead.rv_main_v11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 15 (by decide)]
  show HloOp.result (τ := τ) (sig := sig) (Val := Elt F) (ternary main_v8 main_v10 main_arg1 main_v11 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F))) _ _ = _
  rw [ternary_result, persist m c 12 15 (by decide) main_v8 (by decide), A_main_v8 m c, A_main_v10 m c, arg_at m c 15 main_arg1 (by decide)]
  try rfl
theorem A_main_v12 : after ((RRead.ops (F := F)).take 17) (fun b => m (c, b)) (Proc.devRef .tc main_v12) = RRead.rv_main_v12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 16 (by decide)]
  show HloOp.result (τ := τ) (sig := sig) (Val := Elt F) (unary main_v11 main_v12 (broadcastInDim S65536x1x1 ![0, 1] bcast_S65536x1_S65536x1x1_0_1 : (⟨S65536x1, .i32⟩ : BufTy).Contents (Elt F) → (⟨S65536x1x1, .i32⟩ : BufTy).Contents (Elt F))) _ _ = _
  rw [unary_result, A_main_v11 m c]
  try rfl
theorem A_main_v13 : after ((RRead.ops (F := F)).take 18) (fun b => m (c, b)) (Proc.devRef .tc main_v13) = RRead.rv_main_v13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 17 (by decide)]
  show HloOp.result (τ := τ) (sig := sig) (Val := Elt F) (binary main_arg9 main_v12 main_v13 ((fun x i => Host.gather gather_S1000000x8_S65536x1x1_S65536x1x8_2_0_n_n_0_2_18 x i) : (⟨S1000000x8, .f32⟩ : BufTy).Contents (Elt F) → (⟨S65536x1x1, .i32⟩ : BufTy).Contents (Elt F) → (⟨S65536x1x8, .f32⟩ : BufTy).Contents (Elt F))) _ _ = _
  rw [binary_result, arg_at m c 17 main_arg9 (by decide), A_main_v12 m c]
  try rfl
theorem A_main_c_3 : after ((RRead.ops (F := F)).take 19) (fun b => m (c, b)) (Proc.devRef .tc main_c_3) = RRead.rv_main_c_3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 18 (by decide)]
  show HloOp.result (τ := τ) (sig := sig) (Val := Elt F) (nullary main_c_3 (constantI S_ 32 0#32)) _ _ = _
  rw [nullary_result]
  try rfl
theorem A_main_v14 : after ((RRead.ops (F := F)).take 20) (fun b => m (c, b)) (Proc.devRef .tc main_v14) = RRead.rv_main_v14 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 19 (by decide)]
  show HloOp.result (τ := τ) (sig := sig) (Val := Elt F) (unary main_c_3 main_v14 (broadcastInDim S65536x1 ![] bcast_S_S65536x1 : (⟨S_, .i32⟩ : BufTy).Contents (Elt F) → (⟨S65536x1, .i32⟩ : BufTy).Contents (Elt F))) _ _ = _
  rw [unary_result, A_main_c_3 m c]
  try rfl
theorem A_main_v15 : after ((RRead.ops (F := F)).take 21) (fun b => m (c, b)) (Proc.devRef .tc main_v15) = RRead.rv_main_v15 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 20 (by decide)]
  show HloOp.result (τ := τ) (sig := sig) (Val := Elt F) (binary main_arg2 main_v14 main_v15 (cmpi .slt : (⟨S65536x1, .i32⟩ : BufTy).Contents (Elt F) → (⟨S65536x1, .i32⟩ : BufTy).Contents (Elt F) → (⟨S65536x1, .i1⟩ : BufTy).Contents (Elt F))) _ _ = _
  rw [binary_result, arg_at m c 20 main_arg2 (by decide), A_main_v14 m c]
  try rfl
theorem A_main_c_4 : after ((RRead.ops (F := F)).take 22) (fun b => m (c, b)) (Proc.devRef .tc main_c_4) = RRead.rv_main_c_4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 21 (by decide)]
  show HloOp.result (τ := τ) (sig := sig) (Val := Elt F) (nullary main_c_4 (constantI S_ 32 8#32)) _ _ = _
  rw [nullary_result]
  try rfl
theorem A_main_v16 : after ((RRead.ops (F := F)).take 23) (fun b => m (c, b)) (Proc.devRef .tc main_v16) = RRead.rv_main_v16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 22 (by decide)]
  show HloOp.result (τ := τ) (sig := sig) (Val := Elt F) (unary main_c_4 main_v16 (broadcastInDim S65536x1 ![] bcast_S_S65536x1 : (⟨S_, .i32⟩ : BufTy).Contents (Elt F) → (⟨S65536x1, .i32⟩ : BufTy).Contents (Elt F))) _ _ = _
  rw [unary_result, A_main_c_4 m c]
  try rfl
theorem A_main_v17 : after ((RRead.ops (F := F)).take 24) (fun b => m (c, b)) (Proc.devRef .tc main_v17) = RRead.rv_main_v17 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 23 (by decide)]
  show HloOp.result (τ := τ) (sig := sig) (Val := Elt F) (binary main_arg2 main_v16 main_v17 (addi : (⟨S65536x1, .i32⟩ : BufTy).Contents (Elt F) → (⟨S65536x1, .i32⟩ : BufTy).Contents (Elt F) → (⟨S65536x1, .i32⟩ : BufTy).Contents (Elt F))) _ _ = _
  rw [binary_result, arg_at m c 23 main_arg2 (by decide), A_main_v16 m c]
  try rfl
theorem A_main_v18 : after ((RRead.ops (F := F)).take 25) (fun b => m (c, b)) (Proc.devRef .tc main_v18) = RRead.rv_main_v18 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 24 (by decide)]
  show HloOp.result (τ := τ) (sig := sig) (Val := Elt F) (ternary main_v15 main_v17 main_arg2 main_v18 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F))) _ _ = _
  rw [ternary_result, persist m c 21 24 (by decide) main_v15 (by decide), A_main_v15 m c, A_main_v17 m c, arg_at m c 24 main_arg2 (by decide)]
  try rfl
theorem A_main_v19 : after ((RRead.ops (F := F)).take 26) (fun b => m (c, b)) (Proc.devRef .tc main_v19) = RRead.rv_main_v19 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 25 (by decide)]
  show HloOp.result (τ := τ) (sig := sig) (Val := Elt F) (unary main_v18 main_v19 (broadcastInDim S65536x1x1 ![0, 1] bcast_S65536x1_S65536x1x1_0_1 : (⟨S65536x1, .i32⟩ : BufTy).Contents (Elt F) → (⟨S65536x1x1, .i32⟩ : BufTy).Contents (Elt F))) _ _ = _
  rw [unary_result, A_main_v18 m c]
  try rfl
theorem A_main_v20 : after ((RRead.ops (F := F)).take 27) (fun b => m (c, b)) (Proc.devRef .tc main_v20) = RRead.rv_main_v20 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 26 (by decide)]
  show HloOp.result (τ := τ) (sig := sig) (Val := Elt F) (binary main_arg10 main_v19 main_v20 ((fun x i => Host.gather gather_S8x8_S65536x1x1_S65536x1x8_2_0_n_n_0_2_18 x i) : (⟨S8x8, .f32⟩ : BufTy).Contents (Elt F) → (⟨S65536x1x1, .i32⟩ : BufTy).Contents (Elt F) → (⟨S65536x1x8, .f32⟩ : BufTy).Contents (Elt F))) _ _ = _
  rw [binary_result, arg_at m c 26 main_arg10 (by decide), A_main_v19 m c]
  try rfl
theorem A_main_c_5 : after ((RRead.ops (F := F)).take 28) (fun b => m (c, b)) (Proc.devRef .tc main_c_5) = RRead.rv_main_c_5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 27 (by decide)]
  show HloOp.result (τ := τ) (sig := sig) (Val := Elt F) (nullary main_c_5 (constantI S_ 32 0#32)) _ _ = _
  rw [nullary_result]
  try rfl
theorem A_main_v21 : after ((RRead.ops (F := F)).take 29) (fun b => m (c, b)) (Proc.devRef .tc main_v21) = RRead.rv_main_v21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 28 (by decide)]
  show HloOp.result (τ := τ) (sig := sig) (Val := Elt F) (unary main_c_5 main_v21 (broadcastInDim S65536x1 ![] bcast_S_S65536x1 : (⟨S_, .i32⟩ : BufTy).Contents (Elt F) → (⟨S65536x1, .i32⟩ : BufTy).Contents (Elt F))) _ _ = _
  rw [unary_result, A_main_c_5 m c]
  try rfl
theorem A_main_v22 : after ((RRead.ops (F := F)).take 30) (fun b => m (c, b)) (Proc.devRef .tc main_v22) = RRead.rv_main_v22 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 29 (by decide)]
  show HloOp.result (τ := τ) (sig := sig) (Val := Elt F) (binary main_arg3 main_v21 main_v22 (cmpi .slt : (⟨S65536x1, .i32⟩ : BufTy).Contents (Elt F) → (⟨S65536x1, .i32⟩ : BufTy).Contents (Elt F) → (⟨S65536x1, .i1⟩ : BufTy).Contents (Elt F))) _ _ = _
  rw [binary_result, arg_at m c 29 main_arg3 (by decide), A_main_v21 m c]
  try rfl
theorem A_main_c_6 : after ((RRead.ops (F := F)).take 31) (fun b => m (c, b)) (Proc.devRef .tc main_c_6) = RRead.rv_main_c_6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 30 (by decide)]
  show HloOp.result (τ := τ) (sig := sig) (Val := Elt F) (nullary main_c_6 (constantI S_ 32 3#32)) _ _ = _
  rw [nullary_result]
  try rfl
theorem A_main_v23 : after ((RRead.ops (F := F)).take 32) (fun b => m (c, b)) (Proc.devRef .tc main_v23) = RRead.rv_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 31 (by decide)]
  show HloOp.result (τ := τ) (sig := sig) (Val := Elt F) (unary main_c_6 main_v23 (broadcastInDim S65536x1 ![] bcast_S_S65536x1 : (⟨S_, .i32⟩ : BufTy).Contents (Elt F) → (⟨S65536x1, .i32⟩ : BufTy).Contents (Elt F))) _ _ = _
  rw [unary_result, A_main_c_6 m c]
  try rfl
theorem A_main_v24 : after ((RRead.ops (F := F)).take 33) (fun b => m (c, b)) (Proc.devRef .tc main_v24) = RRead.rv_main_v24 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 32 (by decide)]
  show HloOp.result (τ := τ) (sig := sig) (Val := Elt F) (binary main_arg3 main_v23 main_v24 (addi : (⟨S65536x1, .i32⟩ : BufTy).Contents (Elt F) → (⟨S65536x1, .i32⟩ : BufTy).Contents (Elt F) → (⟨S65536x1, .i32⟩ : BufTy).Contents (Elt F))) _ _ = _
  rw [binary_result, arg_at m c 32 main_arg3 (by decide), A_main_v23 m c]
  try rfl
theorem A_main_v25 : after ((RRead.ops (F := F)).take 34) (fun b => m (c, b)) (Proc.devRef .tc main_v25) = RRead.rv_main_v25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 33 (by decide)]
  show HloOp.result (τ := τ) (sig := sig) (Val := Elt F) (ternary main_v22 main_v24 main_arg3 main_v25 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F))) _ _ = _
  rw [ternary_result, persist m c 30 33 (by decide) main_v22 (by decide), A_main_v22 m c, A_main_v24 m c, arg_at m c 33 main_arg3 (by decide)]
  try rfl
theorem A_main_v26 : after ((RRead.ops (F := F)).take 35) (fun b => m (c, b)) (Proc.devRef .tc main_v26) = RRead.rv_main_v26 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 34 (by decide)]
  show HloOp.result (τ := τ) (sig := sig) (Val := Elt F) (unary main_v25 main_v26 (broadcastInDim S65536x1x1 ![0, 1] bcast_S65536x1_S65536x1x1_0_1 : (⟨S65536x1, .i32⟩ : BufTy).Contents (Elt F) → (⟨S65536x1x1, .i32⟩ : BufTy).Contents (Elt F))) _ _ = _
  rw [unary_result, A_main_v25 m c]
  try rfl
theorem A_main_v27 : after ((RRead.ops (F := F)).take 36) (fun b => m (c, b)) (Proc.devRef .tc main_v27) = RRead.rv_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 35 (by decide)]
  show HloOp.result (τ := τ) (sig := sig) (Val := Elt F) (binary main_arg11 main_v26 main_v27 ((fun x i => Host.gather gather_S3x8_S65536x1x1_S65536x1x8_2_0_n_n_0_2_18 x i) : (⟨S3x8, .f32⟩ : BufTy).Contents (Elt F) → (⟨S65536x1x1, .i32⟩ : BufTy).Contents (Elt F) → (⟨S65536x1x8, .f32⟩ : BufTy).Contents (Elt F))) _ _ = _
  rw [binary_result, arg_at m c 35 main_arg11 (by decide), A_main_v26 m c]
  try rfl
theorem A_main_c_7 : after ((RRead.ops (F := F)).take 37) (fun b => m (c, b)) (Proc.devRef .tc main_c_7) = RRead.rv_main_c_7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 36 (by decide)]
  show HloOp.result (τ := τ) (sig := sig) (Val := Elt F) (nullary main_c_7 (constantI S_ 32 0#32)) _ _ = _
  rw [nullary_result]
  try rfl
theorem A_main_v28 : after ((RRead.ops (F := F)).take 38) (fun b => m (c, b)) (Proc.devRef .tc main_v28) = RRead.rv_main_v28 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 37 (by decide)]
  show HloOp.result (τ := τ) (sig := sig) (Val := Elt F) (unary main_c_7 main_v28 (broadcastInDim S65536x1 ![] bcast_S_S65536x1 : (⟨S_, .i32⟩ : BufTy).Contents (Elt F) → (⟨S65536x1, .i32⟩ : BufTy).Contents (Elt F))) _ _ = _
  rw [unary_result, A_main_c_7 m c]
  try rfl
theorem A_main_v29 : after ((RRead.ops (F := F)).take 39) (fun b => m (c, b)) (Proc.devRef .tc main_v29) = RRead.rv_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 38 (by decide)]
  show HloOp.result (τ := τ) (sig := sig) (Val := Elt F) (binary main_arg4 main_v28 main_v29 (cmpi .slt : (⟨S65536x1, .i32⟩ : BufTy).Contents (Elt F) → (⟨S65536x1, .i32⟩ : BufTy).Contents (Elt F) → (⟨S65536x1, .i1⟩ : BufTy).Contents (Elt F))) _ _ = _
  rw [binary_result, arg_at m c 38 main_arg4 (by decide), A_main_v28 m c]
  try rfl
theorem A_main_c_8 : after ((RRead.ops (F := F)).take 40) (fun b => m (c, b)) (Proc.devRef .tc main_c_8) = RRead.rv_main_c_8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 39 (by decide)]
  show HloOp.result (τ := τ) (sig := sig) (Val := Elt F) (nullary main_c_8 (constantI S_ 32 25#32)) _ _ = _
  rw [nullary_result]
  try rfl
theorem A_main_v30 : after ((RRead.ops (F := F)).take 41) (fun b => m (c, b)) (Proc.devRef .tc main_v30) = RRead.rv_main_v30 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 40 (by decide)]
  show HloOp.result (τ := τ) (sig := sig) (Val := Elt F) (unary main_c_8 main_v30 (broadcastInDim S65536x1 ![] bcast_S_S65536x1 : (⟨S_, .i32⟩ : BufTy).Contents (Elt F) → (⟨S65536x1, .i32⟩ : BufTy).Contents (Elt F))) _ _ = _
  rw [unary_result, A_main_c_8 m c]
  try rfl
theorem A_main_v31 : after ((RRead.ops (F := F)).take 42) (fun b => m (c, b)) (Proc.devRef .tc main_v31) = RRead.rv_main_v31 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 41 (by decide)]
  show HloOp.result (τ := τ) (sig := sig) (Val := Elt F) (binary main_arg4 main_v30 main_v31 (addi : (⟨S65536x1, .i32⟩ : BufTy).Contents (Elt F) → (⟨S65536x1, .i32⟩ : BufTy).Contents (Elt F) → (⟨S65536x1, .i32⟩ : BufTy).Contents (Elt F))) _ _ = _
  rw [binary_result, arg_at m c 41 main_arg4 (by decide), A_main_v30 m c]
  try rfl
theorem A_main_v32 : after ((RRead.ops (F := F)).take 43) (fun b => m (c, b)) (Proc.devRef .tc main_v32) = RRead.rv_main_v32 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 42 (by decide)]
  show HloOp.result (τ := τ) (sig := sig) (Val := Elt F) (ternary main_v29 main_v31 main_arg4 main_v32 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F))) _ _ = _
  rw [ternary_result, persist m c 39 42 (by decide) main_v29 (by decide), A_main_v29 m c, A_main_v31 m c, arg_at m c 42 main_arg4 (by decide)]
  try rfl
theorem A_main_v33 : after ((RRead.ops (F := F)).take 44) (fun b => m (c, b)) (Proc.devRef .tc main_v33) = RRead.rv_main_v33 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 43 (by decide)]
  show HloOp.result (τ := τ) (sig := sig) (Val := Elt F) (unary main_v32 main_v33 (broadcastInDim S65536x1x1 ![0, 1] bcast_S65536x1_S65536x1x1_0_1 : (⟨S65536x1, .i32⟩ : BufTy).Contents (Elt F) → (⟨S65536x1x1, .i32⟩ : BufTy).Contents (Elt F))) _ _ = _
  rw [unary_result, A_main_v32 m c]
  try rfl
theorem A_main_v34 : after ((RRead.ops (F := F)).take 45) (fun b => m (c, b)) (Proc.devRef .tc main_v34) = RRead.rv_main_v34 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 44 (by decide)]
  show HloOp.result (τ := τ) (sig := sig) (Val := Elt F) (binary main_arg12 main_v33 main_v34 ((fun x i => Host.gather gather_S25x8_S65536x1x1_S65536x1x8_2_0_n_n_0_2_18 x i) : (⟨S25x8, .f32⟩ : BufTy).Contents (Elt F) → (⟨S65536x1x1, .i32⟩ : BufTy).Contents (Elt F) → (⟨S65536x1x8, .f32⟩ : BufTy).Contents (Elt F))) _ _ = _
  rw [binary_result, arg_at m c 44 main_arg12 (by decide), A_main_v33 m c]
  try rfl
theorem A_main_c_9 : after ((RRead.ops (F := F)).take 46) (fun b => m (c, b)) (Proc.devRef .tc main_c_9) = RRead.rv_main_c_9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 45 (by decide)]
  show HloOp.result (τ := τ) (sig := sig) (Val := Elt F) (nullary main_c_9 (constantI S_ 32 0#32)) _ _ = _
  rw [nullary_result]
  try rfl
theorem A_main_v35 : after ((RRead.ops (F := F)).take 47) (fun b => m (c, b)) (Proc.devRef .tc main_v35) = RRead.rv_main_v35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 46 (by decide)]
  show HloOp.result (τ := τ) (sig := sig) (Val := Elt F) (unary main_c_9 main_v35 (broadcastInDim S65536x10 ![] bcast_S_S65536x10 : (⟨S_, .i32⟩ : BufTy).Contents (Elt F) → (⟨S65536x10, .i32⟩ : BufTy).Contents (Elt F))) _ _ = _
  rw [unary_result, A_main_c_9 m c]
  try rfl
theorem A_main_v36 : after ((RRead.ops (F := F)).take 48) (fun b => m (c, b)) (Proc.devRef .tc main_v36) = RRead.rv_main_v36 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 47 (by decide)]
  show HloOp.result (τ := τ) (sig := sig) (Val := Elt F) (binary main_arg5 main_v35 main_v36 (cmpi .slt : (⟨S65536x10, .i32⟩ : BufTy).Contents (Elt F) → (⟨S65536x10, .i32⟩ : BufTy).Contents (Elt F) → (⟨S65536x10, .i1⟩ : BufTy).Contents (Elt F))) _ _ = _
  rw [binary_result, arg_at m c 47 main_arg5 (by decide), A_main_v35 m c]
  try rfl
theorem A_main_c_10 : after ((RRead.ops (F := F)).take 49) (fun b => m (c, b)) (Proc.devRef .tc main_c_10) = RRead.rv_main_c_10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 48 (by decide)]
  show HloOp.result (τ := τ) (sig := sig) (Val := Elt F) (nullary main_c_10 (constantI S_ 32 20#32)) _ _ = _
  rw [nullary_result]
  try rfl
theorem A_main_v37 : after ((RRead.ops (F := F)).take 50) (fun b => m (c, b)) (Proc.devRef .tc main_v37) = RRead.rv_main_v37 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 49 (by decide)]
  show HloOp.result (τ := τ) (sig := sig) (Val := Elt F) (unary main_c_10 main_v37 (broadcastInDim S65536x10 ![] bcast_S_S65536x10 : (⟨S_, .i32⟩ : BufTy).Contents (Elt F) → (⟨S65536x10, .i32⟩ : BufTy).Contents (Elt F))) _ _ = _
  rw [unary_result, A_main_c_10 m c]
  try rfl
theorem A_main_v38 : after ((RRead.ops (F := F)).take 51) (fun b => m (c, b)) (Proc.devRef .tc main_v38) = RRead.rv_main_v38 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 50 (by decide)]
  show HloOp.result (τ := τ) (sig := sig) (Val := Elt F) (binary main_arg5 main_v37 main_v38 (addi : (⟨S65536x10, .i32⟩ : BufTy).Contents (Elt F) → (⟨S65536x10, .i32⟩ : BufTy).Contents (Elt F) → (⟨S65536x10, .i32⟩ : BufTy).Contents (Elt F))) _ _ = _
  rw [binary_result, arg_at m c 50 main_arg5 (by decide), A_main_v37 m c]
  try rfl
theorem A_main_v39 : after ((RRead.ops (F := F)).take 52) (fun b => m (c, b)) (Proc.devRef .tc main_v39) = RRead.rv_main_v39 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 51 (by decide)]
  show HloOp.result (τ := τ) (sig := sig) (Val := Elt F) (ternary main_v36 main_v38 main_arg5 main_v39 (select : (⟨S65536x10, .i1⟩ : BufTy).Contents (Elt F) → (⟨S65536x10, .i32⟩ : BufTy).Contents (Elt F) → (⟨S65536x10, .i32⟩ : BufTy).Contents (Elt F) → (⟨S65536x10, .i32⟩ : BufTy).Contents (Elt F))) _ _ = _
  rw [ternary_result, persist m c 48 51 (by decide) main_v36 (by decide), A_main_v36 m c, A_main_v38 m c, arg_at m c 51 main_arg5 (by decide)]
  try rfl
theorem A_main_v40 : after ((RRead.ops (F := F)).take 53) (fun b => m (c, b)) (Proc.devRef .tc main_v40) = RRead.rv_main_v40 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 52 (by decide)]
  show HloOp.result (τ := τ) (sig := sig) (Val := Elt F) (unary main_v39 main_v40 (broadcastInDim S65536x10x1 ![0, 1] bcast_S65536x10_S65536x10x1_0_1 : (⟨S65536x10, .i32⟩ : BufTy).Contents (Elt F) → (⟨S65536x10x1, .i32⟩ : BufTy).Contents (Elt F))) _ _ = _
  rw [unary_result, A_main_v39 m c]
  try rfl
theorem A_main_v41 : after ((RRead.ops (F := F)).take 54) (fun b => m (c, b)) (Proc.devRef .tc main_v41) = RRead.rv_main_v41 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 53 (by decide)]
  show HloOp.result (τ := τ) (sig := sig) (Val := Elt F) (binary main_arg13 main_v40 main_v41 ((fun x i => Host.gather gather_S20x8_S65536x10x1_S65536x10x8_2_0_n_n_0_2_18 x i) : (⟨S20x8, .f32⟩ : BufTy).Contents (Elt F) → (⟨S65536x10x1, .i32⟩ : BufTy).Contents (Elt F) → (⟨S65536x10x8, .f32⟩ : BufTy).Contents (Elt F))) _ _ = _
  rw [binary_result, arg_at m c 53 main_arg13 (by decide), A_main_v40 m c]
  try rfl
theorem A_main_c_11 : after ((RRead.ops (F := F)).take 55) (fun b => m (c, b)) (Proc.devRef .tc main_c_11) = RRead.rv_main_c_11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 54 (by decide)]
  show HloOp.result (τ := τ) (sig := sig) (Val := Elt F) (nullary main_c_11 (constantI S_ 32 0#32)) _ _ = _
  rw [nullary_result]
  try rfl
theorem A_main_v42 : after ((RRead.ops (F := F)).take 56) (fun b => m (c, b)) (Proc.devRef .tc main_v42) = RRead.rv_main_v42 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 55 (by decide)]
  show HloOp.result (τ := τ) (sig := sig) (Val := Elt F) (unary main_c_11 main_v42 (broadcastInDim S65536x10 ![] bcast_S_S65536x10 : (⟨S_, .i32⟩ : BufTy).Contents (Elt F) → (⟨S65536x10, .i32⟩ : BufTy).Contents (Elt F))) _ _ = _
  rw [unary_result, A_main_c_11 m c]
  try rfl
theorem A_main_v43 : after ((RRead.ops (F := F)).take 57) (fun b => m (c, b)) (Proc.devRef .tc main_v43) = RRead.rv_main_v43 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 56 (by decide)]
  show HloOp.result (τ := τ) (sig := sig) (Val := Elt F) (binary main_arg5 main_v42 main_v43 (cmpi .ne : (⟨S65536x10, .i32⟩ : BufTy).Contents (Elt F) → (⟨S65536x10, .i32⟩ : BufTy).Contents (Elt F) → (⟨S65536x10, .i1⟩ : BufTy).Contents (Elt F))) _ _ = _
  rw [binary_result, arg_at m c 56 main_arg5 (by decide), A_main_v42 m c]
  try rfl
theorem A_main_v44 : after ((RRead.ops (F := F)).take 58) (fun b => m (c, b)) (Proc.devRef .tc main_v44) = RRead.rv_main_v44 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 57 (by decide)]
  show HloOp.result (τ := τ) (sig := sig) (Val := Elt F) (unary main_v43 main_v44 (broadcastInDim S65536x10x1 ![0, 1] bcast_S65536x10_S65536x10x1_0_1 : (⟨S65536x10, .i1⟩ : BufTy).Contents (Elt F) → (⟨S65536x10x1, .i1⟩ : BufTy).Contents (Elt F))) _ _ = _
  rw [unary_result, A_main_v43 m c]
  try rfl
theorem A_main_v45 : after ((RRead.ops (F := F)).take 59) (fun b => m (c, b)) (Proc.devRef .tc main_v45) = RRead.rv_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 58 (by decide)]
  show HloOp.result (τ := τ) (sig := sig) (Val := Elt F) (unary main_v44 main_v45 (uitofp .f32 : (⟨S65536x10x1, .i1⟩ : BufTy).Contents (Elt F) → (⟨S65536x10x1, .f32⟩ : BufTy).Contents (Elt F))) _ _ = _
  rw [unary_result, A_main_v44 m c]
  try rfl
theorem A_main_v46 : after ((RRead.ops (F := F)).take 60) (fun b => m (c, b)) (Proc.devRef .tc main_v46) = RRead.rv_main_v46 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 59 (by decide)]
  show HloOp.result (τ := τ) (sig := sig) (Val := Elt F) (unary main_v45 main_v46 (broadcastInDim S65536x10x8 ![0, 1, 2] bcast_S65536x10x1_S65536x10x8_0_1_2 : (⟨S65536x10x1, .f32⟩ : BufTy).Contents (Elt F) → (⟨S65536x10x8, .f32⟩ : BufTy).Contents (Elt F))) _ _ = _
  rw [unary_result, A_main_v45 m c]
  try rfl
theorem A_main_v47 : after ((RRead.ops (F := F)).take 61) (fun b => m (c, b)) (Proc.devRef .tc main_v47) = RRead.rv_main_v47 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 60 (by decide)]
  show HloOp.result (τ := τ) (sig := sig) (Val := Elt F) (binary main_v41 main_v46 main_v47 (mulf : (⟨S65536x10x8, .f32⟩ : BufTy).Contents (Elt F) → (⟨S65536x10x8, .f32⟩ : BufTy).Contents (Elt F) → (⟨S65536x10x8, .f32⟩ : BufTy).Contents (Elt F))) _ _ = _
  rw [binary_result, persist m c 54 60 (by decide) main_v41 (by decide), A_main_v41 m c, A_main_v46 m c]
  try rfl
theorem A_main_c_12 : after ((RRead.ops (F := F)).take 62) (fun b => m (c, b)) (Proc.devRef .tc main_c_12) = RRead.rv_main_c_12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 61 (by decide)]
  show HloOp.result (τ := τ) (sig := sig) (Val := Elt F) (nullary main_c_12 (constantI S_ 32 0#32)) _ _ = _
  rw [nullary_result]
  try rfl
theorem A_main_v48 : after ((RRead.ops (F := F)).take 63) (fun b => m (c, b)) (Proc.devRef .tc main_v48) = RRead.rv_main_v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 62 (by decide)]
  show HloOp.result (τ := τ) (sig := sig) (Val := Elt F) (unary main_c_12 main_v48 (broadcastInDim S65536x5 ![] bcast_S_S65536x5 : (⟨S_, .i32⟩ : BufTy).Contents (Elt F) → (⟨S65536x5, .i32⟩ : BufTy).Contents (Elt F))) _ _ = _
  rw [unary_result, A_main_c_12 m c]
  try rfl
theorem A_main_v49 : after ((RRead.ops (F := F)).take 64) (fun b => m (c, b)) (Proc.devRef .tc main_v49) = RRead.rv_main_v49 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 63 (by decide)]
  show HloOp.result (τ := τ) (sig := sig) (Val := Elt F) (binary main_arg6 main_v48 main_v49 (cmpi .slt : (⟨S65536x5, .i32⟩ : BufTy).Contents (Elt F) → (⟨S65536x5, .i32⟩ : BufTy).Contents (Elt F) → (⟨S65536x5, .i1⟩ : BufTy).Contents (Elt F))) _ _ = _
  rw [binary_result, arg_at m c 63 main_arg6 (by decide), A_main_v48 m c]
  try rfl
theorem A_main_c_13 : after ((RRead.ops (F := F)).take 65) (fun b => m (c, b)) (Proc.devRef .tc main_c_13) = RRead.rv_main_c_13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 64 (by decide)]
  show HloOp.result (τ := τ) (sig := sig) (Val := Elt F) (nullary main_c_13 (constantI S_ 32 1000000#32)) _ _ = _
  rw [nullary_result]
  try rfl
theorem A_main_v50 : after ((RRead.ops (F := F)).take 66) (fun b => m (c, b)) (Proc.devRef .tc main_v50) = RRead.rv_main_v50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 65 (by decide)]
  show HloOp.result (τ := τ) (sig := sig) (Val := Elt F) (unary main_c_13 main_v50 (broadcastInDim S65536x5 ![] bcast_S_S65536x5 : (⟨S_, .i32⟩ : BufTy).Contents (Elt F) → (⟨S65536x5, .i32⟩ : BufTy).Contents (Elt F))) _ _ = _
  rw [unary_result, A_main_c_13 m c]
  try rfl
theorem A_main_v51 : after ((RRead.ops (F := F)).take 67) (fun b => m (c, b)) (Proc.devRef .tc main_v51) = RRead.rv_main_v51 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 66 (by decide)]
  show HloOp.result (τ := τ) (sig := sig) (Val := Elt F) (binary main_arg6 main_v50 main_v51 (addi : (⟨S65536x5, .i32⟩ : BufTy).Contents (Elt F) → (⟨S65536x5, .i32⟩ : BufTy).Contents (Elt F) → (⟨S65536x5, .i32⟩ : BufTy).Contents (Elt F))) _ _ = _
  rw [binary_result, arg_at m c 66 main_arg6 (by decide), A_main_v50 m c]
  try rfl
theorem A_main_v52 : after ((RRead.ops (F := F)).take 68) (fun b => m (c, b)) (Proc.devRef .tc main_v52) = RRead.rv_main_v52 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 67 (by decide)]
  show HloOp.result (τ := τ) (sig := sig) (Val := Elt F) (ternary main_v49 main_v51 main_arg6 main_v52 (select : (⟨S65536x5, .i1⟩ : BufTy).Contents (Elt F) → (⟨S65536x5, .i32⟩ : BufTy).Contents (Elt F) → (⟨S65536x5, .i32⟩ : BufTy).Contents (Elt F) → (⟨S65536x5, .i32⟩ : BufTy).Contents (Elt F))) _ _ = _
  rw [ternary_result, persist m c 64 67 (by decide) main_v49 (by decide), A_main_v49 m c, A_main_v51 m c, arg_at m c 67 main_arg6 (by decide)]
  try rfl
theorem A_main_v53 : after ((RRead.ops (F := F)).take 69) (fun b => m (c, b)) (Proc.devRef .tc main_v53) = RRead.rv_main_v53 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 68 (by decide)]
  show HloOp.result (τ := τ) (sig := sig) (Val := Elt F) (unary main_v52 main_v53 (broadcastInDim S65536x5x1 ![0, 1] bcast_S65536x5_S65536x5x1_0_1 : (⟨S65536x5, .i32⟩ : BufTy).Contents (Elt F) → (⟨S65536x5x1, .i32⟩ : BufTy).Contents (Elt F))) _ _ = _
  rw [unary_result, A_main_v52 m c]
  try rfl
theorem A_main_v54 : after ((RRead.ops (F := F)).take 70) (fun b => m (c, b)) (Proc.devRef .tc main_v54) = RRead.rv_main_v54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 69 (by decide)]
  show HloOp.result (τ := τ) (sig := sig) (Val := Elt F) (binary main_arg9 main_v53 main_v54 ((fun x i => Host.gather gather_S1000000x8_S65536x5x1_S65536x5x8_2_0_n_n_0_2_18 x i) : (⟨S1000000x8, .f32⟩ : BufTy).Contents (Elt F) → (⟨S65536x5x1, .i32⟩ : BufTy).Contents (Elt F) → (⟨S65536x5x8, .f32⟩ : BufTy).Contents (Elt F))) _ _ = _
  rw [binary_result, arg_at m c 69 main_arg9 (by decide), A_main_v53 m c]
  try rfl
theorem A_main_c_14 : after ((RRead.ops (F := F)).take 71) (fun b => m (c, b)) (Proc.devRef .tc main_c_14) = RRead.rv_main_c_14 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 70 (by decide)]
  show HloOp.result (τ := τ) (sig := sig) (Val := Elt F) (nullary main_c_14 (constantI S_ 32 0#32)) _ _ = _
  rw [nullary_result]
  try rfl
theorem A_main_v55 : after ((RRead.ops (F := F)).take 72) (fun b => m (c, b)) (Proc.devRef .tc main_v55) = RRead.rv_main_v55 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 71 (by decide)]
  show HloOp.result (τ := τ) (sig := sig) (Val := Elt F) (unary main_c_14 main_v55 (broadcastInDim S65536x5x10 ![] bcast_S_S65536x5x10 : (⟨S_, .i32⟩ : BufTy).Contents (Elt F) → (⟨S65536x5x10, .i32⟩ : BufTy).Contents (Elt F))) _ _ = _
  rw [unary_result, A_main_c_14 m c]
  try rfl
theorem A_main_v56 : after ((RRead.ops (F := F)).take 73) (fun b => m (c, b)) (Proc.devRef .tc main_v56) = RRead.rv_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 72 (by decide)]
  show HloOp.result (τ := τ) (sig := sig) (Val := Elt F) (binary main_arg7 main_v55 main_v56 (cmpi .slt : (⟨S65536x5x10, .i32⟩ : BufTy).Contents (Elt F) → (⟨S65536x5x10, .i32⟩ : BufTy).Contents (Elt F) → (⟨S65536x5x10, .i1⟩ : BufTy).Contents (Elt F))) _ _ = _
  rw [binary_result, arg_at m c 72 main_arg7 (by decide), A_main_v55 m c]
  try rfl
theorem A_main_c_15 : after ((RRead.ops (F := F)).take 74) (fun b => m (c, b)) (Proc.devRef .tc main_c_15) = RRead.rv_main_c_15 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 73 (by decide)]
  show HloOp.result (τ := τ) (sig := sig) (Val := Elt F) (nullary main_c_15 (constantI S_ 32 20#32)) _ _ = _
  rw [nullary_result]
  try rfl
theorem A_main_v57 : after ((RRead.ops (F := F)).take 75) (fun b => m (c, b)) (Proc.devRef .tc main_v57) = RRead.rv_main_v57 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 74 (by decide)]
  show HloOp.result (τ := τ) (sig := sig) (Val := Elt F) (unary main_c_15 main_v57 (broadcastInDim S65536x5x10 ![] bcast_S_S65536x5x10 : (⟨S_, .i32⟩ : BufTy).Contents (Elt F) → (⟨S65536x5x10, .i32⟩ : BufTy).Contents (Elt F))) _ _ = _
  rw [unary_result, A_main_c_15 m c]
  try rfl
theorem A_main_v58 : after ((RRead.ops (F := F)).take 76) (fun b => m (c, b)) (Proc.devRef .tc main_v58) = RRead.rv_main_v58 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 75 (by decide)]
  show HloOp.result (τ := τ) (sig := sig) (Val := Elt F) (binary main_arg7 main_v57 main_v58 (addi : (⟨S65536x5x10, .i32⟩ : BufTy).Contents (Elt F) → (⟨S65536x5x10, .i32⟩ : BufTy).Contents (Elt F) → (⟨S65536x5x10, .i32⟩ : BufTy).Contents (Elt F))) _ _ = _
  rw [binary_result, arg_at m c 75 main_arg7 (by decide), A_main_v57 m c]
  try rfl
theorem A_main_v59 : after ((RRead.ops (F := F)).take 77) (fun b => m (c, b)) (Proc.devRef .tc main_v59) = RRead.rv_main_v59 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 76 (by decide)]
  show HloOp.result (τ := τ) (sig := sig) (Val := Elt F) (ternary main_v56 main_v58 main_arg7 main_v59 (select : (⟨S65536x5x10, .i1⟩ : BufTy).Contents (Elt F) → (⟨S65536x5x10, .i32⟩ : BufTy).Contents (Elt F) → (⟨S65536x5x10, .i32⟩ : BufTy).Contents (Elt F) → (⟨S65536x5x10, .i32⟩ : BufTy).Contents (Elt F))) _ _ = _
  rw [ternary_result, persist m c 73 76 (by decide) main_v56 (by decide), A_main_v56 m c, A_main_v58 m c, arg_at m c 76 main_arg7 (by decide)]
  try rfl
theorem A_main_v60 : after ((RRead.ops (F := F)).take 78) (fun b => m (c, b)) (Proc.devRef .tc main_v60) = RRead.rv_main_v60 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 77 (by decide)]
  show HloOp.result (τ := τ) (sig := sig) (Val := Elt F) (unary main_v59 main_v60 (broadcastInDim S65536x5x10x1 ![0, 1, 2] bcast_S65536x5x10_S65536x5x10x1_0_1_2 : (⟨S65536x5x10, .i32⟩ : BufTy).Contents (Elt F) → (⟨S65536x5x10x1, .i32⟩ : BufTy).Contents (Elt F))) _ _ = _
  rw [unary_result, A_main_v59 m c]
  try rfl
theorem A_main_v61 : after ((RRead.ops (F := F)).take 79) (fun b => m (c, b)) (Proc.devRef .tc main_v61) = RRead.rv_main_v61 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 78 (by decide)]
  show HloOp.result (τ := τ) (sig := sig) (Val := Elt F) (binary main_arg13 main_v60 main_v61 ((fun x i => Host.gather gather_S20x8_S65536x5x10x1_S65536x5x10x8_3_0_n_n_0_3_18 x i) : (⟨S20x8, .f32⟩ : BufTy).Contents (Elt F) → (⟨S65536x5x10x1, .i32⟩ : BufTy).Contents (Elt F) → (⟨S65536x5x10x8, .f32⟩ : BufTy).Contents (Elt F))) _ _ = _
  rw [binary_result, arg_at m c 78 main_arg13 (by decide), A_main_v60 m c]
  try rfl
theorem A_main_c_16 : after ((RRead.ops (F := F)).take 80) (fun b => m (c, b)) (Proc.devRef .tc main_c_16) = RRead.rv_main_c_16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 79 (by decide)]
  show HloOp.result (τ := τ) (sig := sig) (Val := Elt F) (nullary main_c_16 (constantI S_ 32 0#32)) _ _ = _
  rw [nullary_result]
  try rfl
theorem A_main_v62 : after ((RRead.ops (F := F)).take 81) (fun b => m (c, b)) (Proc.devRef .tc main_v62) = RRead.rv_main_v62 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 80 (by decide)]
  show HloOp.result (τ := τ) (sig := sig) (Val := Elt F) (unary main_c_16 main_v62 (broadcastInDim S65536x5x10 ![] bcast_S_S65536x5x10 : (⟨S_, .i32⟩ : BufTy).Contents (Elt F) → (⟨S65536x5x10, .i32⟩ : BufTy).Contents (Elt F))) _ _ = _
  rw [unary_result, A_main_c_16 m c]
  try rfl
theorem A_main_v63 : after ((RRead.ops (F := F)).take 82) (fun b => m (c, b)) (Proc.devRef .tc main_v63) = RRead.rv_main_v63 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 81 (by decide)]
  show HloOp.result (τ := τ) (sig := sig) (Val := Elt F) (binary main_arg7 main_v62 main_v63 (cmpi .ne : (⟨S65536x5x10, .i32⟩ : BufTy).Contents (Elt F) → (⟨S65536x5x10, .i32⟩ : BufTy).Contents (Elt F) → (⟨S65536x5x10, .i1⟩ : BufTy).Contents (Elt F))) _ _ = _
  rw [binary_result, arg_at m c 81 main_arg7 (by decide), A_main_v62 m c]
  try rfl
theorem A_main_v64 : after ((RRead.ops (F := F)).take 83) (fun b => m (c, b)) (Proc.devRef .tc main_v64) = RRead.rv_main_v64 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 82 (by decide)]
  show HloOp.result (τ := τ) (sig := sig) (Val := Elt F) (unary main_v63 main_v64 (broadcastInDim S65536x5x10x1 ![0, 1, 2] bcast_S65536x5x10_S65536x5x10x1_0_1_2 : (⟨S65536x5x10, .i1⟩ : BufTy).Contents (Elt F) → (⟨S65536x5x10x1, .i1⟩ : BufTy).Contents (Elt F))) _ _ = _
  rw [unary_result, A_main_v63 m c]
  try rfl
theorem A_main_v65 : after ((RRead.ops (F := F)).take 84) (fun b => m (c, b)) (Proc.devRef .tc main_v65) = RRead.rv_main_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 83 (by decide)]
  show HloOp.result (τ := τ) (sig := sig) (Val := Elt F) (unary main_v64 main_v65 (uitofp .f32 : (⟨S65536x5x10x1, .i1⟩ : BufTy).Contents (Elt F) → (⟨S65536x5x10x1, .f32⟩ : BufTy).Contents (Elt F))) _ _ = _
  rw [unary_result, A_main_v64 m c]
  try rfl
theorem A_main_v66 : after ((RRead.ops (F := F)).take 85) (fun b => m (c, b)) (Proc.devRef .tc main_v66) = RRead.rv_main_v66 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 84 (by decide)]
  show HloOp.result (τ := τ) (sig := sig) (Val := Elt F) (unary main_v65 main_v66 (broadcastInDim S65536x5x10x8 ![0, 1, 2, 3] bcast_S65536x5x10x1_S65536x5x10x8_0_1_2_3 : (⟨S65536x5x10x1, .f32⟩ : BufTy).Contents (Elt F) → (⟨S65536x5x10x8, .f32⟩ : BufTy).Contents (Elt F))) _ _ = _
  rw [unary_result, A_main_v65 m c]
  try rfl
theorem A_main_v67 : after ((RRead.ops (F := F)).take 86) (fun b => m (c, b)) (Proc.devRef .tc main_v67) = RRead.rv_main_v67 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 85 (by decide)]
  show HloOp.result (τ := τ) (sig := sig) (Val := Elt F) (binary main_v61 main_v66 main_v67 (mulf : (⟨S65536x5x10x8, .f32⟩ : BufTy).Contents (Elt F) → (⟨S65536x5x10x8, .f32⟩ : BufTy).Contents (Elt F) → (⟨S65536x5x10x8, .f32⟩ : BufTy).Contents (Elt F))) _ _ = _
  rw [binary_result, persist m c 79 85 (by decide) main_v61 (by decide), A_main_v61 m c, A_main_v66 m c]
  try rfl
theorem A_main_v68 : after ((RRead.ops (F := F)).take 87) (fun b => m (c, b)) (Proc.devRef .tc main_v68) = RRead.rv_main_v68 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 86 (by decide)]
  show HloOp.result (τ := τ) (sig := sig) (Val := Elt F) (unary main_v54 main_v68 (broadcastInDim S65536x5x1x8 ![0, 1, 3] bcast_S65536x5x8_S65536x5x1x8_0_1_3 : (⟨S65536x5x8, .f32⟩ : BufTy).Contents (Elt F) → (⟨S65536x5x1x8, .f32⟩ : BufTy).Contents (Elt F))) _ _ = _
  rw [unary_result, persist m c 70 86 (by decide) main_v54 (by decide), A_main_v54 m c]
  try rfl
theorem A_main_v69 : after ((RRead.ops (F := F)).take 88) (fun b => m (c, b)) (Proc.devRef .tc main_v69) = RRead.rv_main_v69 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 87 (by decide)]
  show HloOp.result (τ := τ) (sig := sig) (Val := Elt F) (binary main_v68 main_v67 main_v69 ((fun a b => concatenate S65536x5x11x8 2 [⟨S65536x5x1x8, a⟩, ⟨S65536x5x10x8, b⟩] concatenates_S65536x5x1x8_S65536x5x10x8_S65536x5x11x8_d2) : (⟨S65536x5x1x8, .f32⟩ : BufTy).Contents (Elt F) → (⟨S65536x5x10x8, .f32⟩ : BufTy).Contents (Elt F) → (⟨S65536x5x11x8, .f32⟩ : BufTy).Contents (Elt F))) _ _ = _
  rw [binary_result, A_main_v68 m c, persist m c 86 87 (by decide) main_v67 (by decide), A_main_v67 m c]
  try rfl
theorem A_main_v70 : after ((RRead.ops (F := F)).take 89) (fun b => m (c, b)) (Proc.devRef .tc main_v70) = RRead.rv_main_v70 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 88 (by decide)]
  show HloOp.result (τ := τ) (sig := sig) (Val := Elt F) (reshape main_v69 main_v70 rfl shapeCasts_S65536x5x11x8_S65536x5x88) _ _ = _
  rw [reshape_result, A_main_v69 m c]
  try rfl
theorem A_main_v71 : after ((RRead.ops (F := F)).take 90) (fun b => m (c, b)) (Proc.devRef .tc main_v71) = RRead.rv_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 89 (by decide)]
  show HloOp.result (τ := τ) (sig := sig) (Val := Elt F) (binary main_v13 main_v47 main_v71 ((fun a b => concatenate S65536x11x8 1 [⟨S65536x1x8, a⟩, ⟨S65536x10x8, b⟩] concatenates_S65536x1x8_S65536x10x8_S65536x11x8_d1) : (⟨S65536x1x8, .f32⟩ : BufTy).Contents (Elt F) → (⟨S65536x10x8, .f32⟩ : BufTy).Contents (Elt F) → (⟨S65536x11x8, .f32⟩ : BufTy).Contents (Elt F))) _ _ = _
  rw [binary_result, persist m c 18 89 (by decide) main_v13 (by decide), A_main_v13 m c, persist m c 61 89 (by decide) main_v47 (by decide), A_main_v47 m c]
  try rfl
theorem A_main_v72 : after ((RRead.ops (F := F)).take 91) (fun b => m (c, b)) (Proc.devRef .tc main_v72) = RRead.rv_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 90 (by decide)]
  show HloOp.result (τ := τ) (sig := sig) (Val := Elt F) (reshape main_v71 main_v72 rfl shapeCasts_S65536x11x8_S65536x1x88) _ _ = _
  rw [reshape_result, A_main_v71 m c]
  try rfl
theorem A_main_v73 : after ((RRead.ops (F := F)).take 92) (fun b => m (c, b)) (Proc.devRef .tc main_v73) = RRead.rv_main_v73 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 91 (by decide)]
  show HloOp.result (τ := τ) (sig := sig) (Val := Elt F) (unary main_v72 main_v73 (broadcastInDim S65536x5x88 ![0, 1, 2] bcast_S65536x1x88_S65536x5x88_0_1_2 : (⟨S65536x1x88, .f32⟩ : BufTy).Contents (Elt F) → (⟨S65536x5x88, .f32⟩ : BufTy).Contents (Elt F))) _ _ = _
  rw [unary_result, A_main_v72 m c]
  try rfl
theorem A_main_v74 : after ((RRead.ops (F := F)).take 93) (fun b => m (c, b)) (Proc.devRef .tc main_v74) = RRead.rv_main_v74 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 92 (by decide)]
  show HloOp.result (τ := τ) (sig := sig) (Val := Elt F) (binary main_v70 main_v73 main_v74 (subf : (⟨S65536x5x88, .f32⟩ : BufTy).Contents (Elt F) → (⟨S65536x5x88, .f32⟩ : BufTy).Contents (Elt F) → (⟨S65536x5x88, .f32⟩ : BufTy).Contents (Elt F))) _ _ = _
  rw [binary_result, persist m c 89 92 (by decide) main_v70 (by decide), A_main_v70 m c, A_main_v73 m c]
  try rfl
theorem A_main_v75 : after ((RRead.ops (F := F)).take 94) (fun b => m (c, b)) (Proc.devRef .tc main_v75) = RRead.rv_main_v75 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 93 (by decide)]
  show HloOp.result (τ := τ) (sig := sig) (Val := Elt F) (nary ![main_v70, main_v74, main_v73] main_v75 (fun u => concatenate S65536x5x264 2 [⟨S65536x5x88, u 0⟩, ⟨S65536x5x88, u 1⟩, ⟨S65536x5x88, u 2⟩] concatenates_S65536x5x88_S65536x5x88_S65536x5x88_S65536x5x264_d2)) _ _ = _
  rw [nary3_result, persist m c 89 93 (by decide) main_v70 (by decide), A_main_v70 m c, A_main_v74 m c, persist m c 92 93 (by decide) main_v73 (by decide), A_main_v73 m c]
  try rfl
theorem A_main_v76 : after ((RRead.ops (F := F)).take 95) (fun b => m (c, b)) (Proc.devRef .tc main_v76) = RRead.rv_main_v76 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 94 (by decide)]
  show HloOp.result (τ := τ) (sig := sig) (Val := Elt F) (binary main_v75 main_arg14 main_v76 ((fun l r => Host.dotGeneral dot_S65536x5x264_S64x264_S65536x5x64_2_1_01_0_n_n none l r) : (⟨S65536x5x264, .f32⟩ : BufTy).Contents (Elt F) → (⟨S64x264, .f32⟩ : BufTy).Contents (Elt F) → (⟨S65536x5x64, .f32⟩ : BufTy).Contents (Elt F))) _ _ = _
  rw [binary_result, A_main_v75 m c, arg_at m c 94 main_arg14 (by decide)]
  try rfl
theorem A_main_v77 : after ((RRead.ops (F := F)).take 96) (fun b => m (c, b)) (Proc.devRef .tc main_v77) = RRead.rv_main_v77 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 95 (by decide)]
  show HloOp.result (τ := τ) (sig := sig) (Val := Elt F) (unary main_arg15 main_v77 (broadcastInDim S1x1x64 ![2] bcast_S64_S1x1x64_2 : (⟨S64, .f32⟩ : BufTy).Contents (Elt F) → (⟨S1x1x64, .f32⟩ : BufTy).Contents (Elt F))) _ _ = _
  rw [unary_result, arg_at m c 95 main_arg15 (by decide)]
  try rfl
theorem A_main_v78 : after ((RRead.ops (F := F)).take 97) (fun b => m (c, b)) (Proc.devRef .tc main_v78) = RRead.rv_main_v78 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 96 (by decide)]
  show HloOp.result (τ := τ) (sig := sig) (Val := Elt F) (unary main_v77 main_v78 (broadcastInDim S65536x5x64 ![0, 1, 2] bcast_S1x1x64_S65536x5x64_0_1_2 : (⟨S1x1x64, .f32⟩ : BufTy).Contents (Elt F) → (⟨S65536x5x64, .f32⟩ : BufTy).Contents (Elt F))) _ _ = _
  rw [unary_result, A_main_v77 m c]
  try rfl
theorem A_main_v79 : after ((RRead.ops (F := F)).take 98) (fun b => m (c, b)) (Proc.devRef .tc main_v79) = RRead.rv_main_v79 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 97 (by decide)]
  show HloOp.result (τ := τ) (sig := sig) (Val := Elt F) (binary main_v76 main_v78 main_v79 (addf : (⟨S65536x5x64, .f32⟩ : BufTy).Contents (Elt F) → (⟨S65536x5x64, .f32⟩ : BufTy).Contents (Elt F) → (⟨S65536x5x64, .f32⟩ : BufTy).Contents (Elt F))) _ _ = _
  rw [binary_result, persist m c 95 97 (by decide) main_v76 (by decide), A_main_v76 m c, A_main_v78 m c]
  try rfl
theorem A_main_call0_cst : after ((RRead.ops (F := F)).take 99) (fun b => m (c, b)) (Proc.devRef .tc main_call0_cst) = RRead.rv_main_call0_cst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 98 (by decide)]
  show HloOp.result (τ := τ) (sig := sig) (Val := Elt F) (TRef.nullary (TRef.of (T := ⟨S_, .f32⟩) main_call0_cst) (constant S_ .f32 0x00000000#32)) _ _ = _
  rw [nullary_result]
  try rfl
theorem A_main_call0_v0 : after ((RRead.ops (F := F)).take 100) (fun b => m (c, b)) (Proc.devRef .tc main_call0_v0) = RRead.rv_main_call0_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 99 (by decide)]
  show HloOp.result (τ := τ) (sig := sig) (Val := Elt F) (TRef.unary (TRef.of (T := ⟨S_, .f32⟩) main_call0_cst) (TRef.of (T := ⟨S65536x5x64, .f32⟩) main_call0_v0) (broadcastInDim S65536x5x64 ![] bcast_S_S65536x5x64)) _ _ = _
  rw [unary_result, A_main_call0_cst m c]
  try rfl
theorem A_main_v80 : after ((RRead.ops (F := F)).take 101) (fun b => m (c, b)) (Proc.devRef .tc main_v80) = RRead.rv_main_v80 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 100 (by decide)]
  show HloOp.result (τ := τ) (sig := sig) (Val := Elt F) (TRef.binary (TRef.of (T := ⟨S65536x5x64, .f32⟩) main_v79) (TRef.of (T := ⟨S65536x5x64, .f32⟩) main_call0_v0) (TRef.of (T := ⟨S65536x5x64, .f32⟩) main_v80) maximumf) _ _ = _
  rw [binary_result, persist m c 98 100 (by decide) main_v79 (by decide), A_main_v79 m c, A_main_call0_v0 m c]
  try rfl
theorem A_main_v81 : after ((RRead.ops (F := F)).take 102) (fun b => m (c, b)) (Proc.devRef .tc main_v81) = RRead.rv_main_v81 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 101 (by decide)]
  show HloOp.result (τ := τ) (sig := sig) (Val := Elt F) (binary main_v80 main_arg16 main_v81 ((fun l r => Host.dotGeneral dot_S65536x5x64_S32x64_S65536x5x32_2_1_01_0_n_n none l r) : (⟨S65536x5x64, .f32⟩ : BufTy).Contents (Elt F) → (⟨S32x64, .f32⟩ : BufTy).Contents (Elt F) → (⟨S65536x5x32, .f32⟩ : BufTy).Contents (Elt F))) _ _ = _
  rw [binary_result, A_main_v80 m c, arg_at m c 101 main_arg16 (by decide)]
  try rfl
theorem A_main_v82 : after ((RRead.ops (F := F)).take 103) (fun b => m (c, b)) (Proc.devRef .tc main_v82) = RRead.rv_main_v82 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 102 (by decide)]
  show HloOp.result (τ := τ) (sig := sig) (Val := Elt F) (unary main_arg17 main_v82 (broadcastInDim S1x1x32 ![2] bcast_S32_S1x1x32_2 : (⟨S32, .f32⟩ : BufTy).Contents (Elt F) → (⟨S1x1x32, .f32⟩ : BufTy).Contents (Elt F))) _ _ = _
  rw [unary_result, arg_at m c 102 main_arg17 (by decide)]
  try rfl
theorem A_main_v83 : after ((RRead.ops (F := F)).take 104) (fun b => m (c, b)) (Proc.devRef .tc main_v83) = RRead.rv_main_v83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 103 (by decide)]
  show HloOp.result (τ := τ) (sig := sig) (Val := Elt F) (unary main_v82 main_v83 (broadcastInDim S65536x5x32 ![0, 1, 2] bcast_S1x1x32_S65536x5x32_0_1_2 : (⟨S1x1x32, .f32⟩ : BufTy).Contents (Elt F) → (⟨S65536x5x32, .f32⟩ : BufTy).Contents (Elt F))) _ _ = _
  rw [unary_result, A_main_v82 m c]
  try rfl
theorem A_main_v84 : after ((RRead.ops (F := F)).take 105) (fun b => m (c, b)) (Proc.devRef .tc main_v84) = RRead.rv_main_v84 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 104 (by decide)]
  show HloOp.result (τ := τ) (sig := sig) (Val := Elt F) (binary main_v81 main_v83 main_v84 (addf : (⟨S65536x5x32, .f32⟩ : BufTy).Contents (Elt F) → (⟨S65536x5x32, .f32⟩ : BufTy).Contents (Elt F) → (⟨S65536x5x32, .f32⟩ : BufTy).Contents (Elt F))) _ _ = _
  rw [binary_result, persist m c 102 104 (by decide) main_v81 (by decide), A_main_v81 m c, A_main_v83 m c]
  try rfl
theorem A_main_call1_cst : after ((RRead.ops (F := F)).take 106) (fun b => m (c, b)) (Proc.devRef .tc main_call1_cst) = RRead.rv_main_call1_cst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 105 (by decide)]
  show HloOp.result (τ := τ) (sig := sig) (Val := Elt F) (TRef.nullary (TRef.of (T := ⟨S_, .f32⟩) main_call1_cst) (constant S_ .f32 0x00000000#32)) _ _ = _
  rw [nullary_result]
  try rfl
theorem A_main_call1_v0 : after ((RRead.ops (F := F)).take 107) (fun b => m (c, b)) (Proc.devRef .tc main_call1_v0) = RRead.rv_main_call1_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 106 (by decide)]
  show HloOp.result (τ := τ) (sig := sig) (Val := Elt F) (TRef.unary (TRef.of (T := ⟨S_, .f32⟩) main_call1_cst) (TRef.of (T := ⟨S65536x5x32, .f32⟩) main_call1_v0) (broadcastInDim S65536x5x32 ![] bcast_S_S65536x5x32)) _ _ = _
  rw [unary_result, A_main_call1_cst m c]
  try rfl
theorem A_main_v85 : after ((RRead.ops (F := F)).take 108) (fun b => m (c, b)) (Proc.devRef .tc main_v85) = RRead.rv_main_v85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 107 (by decide)]
  show HloOp.result (τ := τ) (sig := sig) (Val := Elt F) (TRef.binary (TRef.of (T := ⟨S65536x5x32, .f32⟩) main_v84) (TRef.of (T := ⟨S65536x5x32, .f32⟩) main_call1_v0) (TRef.of (T := ⟨S65536x5x32, .f32⟩) main_v85) maximumf) _ _ = _
  rw [binary_result, persist m c 105 107 (by decide) main_v84 (by decide), A_main_v84 m c, A_main_call1_v0 m c]
  try rfl
theorem A_main_v86 : after ((RRead.ops (F := F)).take 109) (fun b => m (c, b)) (Proc.devRef .tc main_v86) = RRead.rv_main_v86 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 108 (by decide)]
  show HloOp.result (τ := τ) (sig := sig) (Val := Elt F) (binary main_v85 main_arg18 main_v86 ((fun l r => Host.dotGeneral dot_S65536x5x32_S1x32_S65536x5x1_2_1_01_0_n_n none l r) : (⟨S65536x5x32, .f32⟩ : BufTy).Contents (Elt F) → (⟨S1x32, .f32⟩ : BufTy).Contents (Elt F) → (⟨S65536x5x1, .f32⟩ : BufTy).Contents (Elt F))) _ _ = _
  rw [binary_result, A_main_v85 m c, arg_at m c 108 main_arg18 (by decide)]
  try rfl
theorem A_main_v87 : after ((RRead.ops (F := F)).take 110) (fun b => m (c, b)) (Proc.devRef .tc main_v87) = RRead.rv_main_v87 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 109 (by decide)]
  show HloOp.result (τ := τ) (sig := sig) (Val := Elt F) (unary main_arg19 main_v87 (broadcastInDim S1x1x1 ![2] bcast_S1_S1x1x1_2 : (⟨S1, .f32⟩ : BufTy).Contents (Elt F) → (⟨S1x1x1, .f32⟩ : BufTy).Contents (Elt F))) _ _ = _
  rw [unary_result, arg_at m c 109 main_arg19 (by decide)]
  try rfl
theorem A_main_v88 : after ((RRead.ops (F := F)).take 111) (fun b => m (c, b)) (Proc.devRef .tc main_v88) = RRead.rv_main_v88 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 110 (by decide)]
  show HloOp.result (τ := τ) (sig := sig) (Val := Elt F) (unary main_v87 main_v88 (broadcastInDim S65536x5x1 ![0, 1, 2] bcast_S1x1x1_S65536x5x1_0_1_2 : (⟨S1x1x1, .f32⟩ : BufTy).Contents (Elt F) → (⟨S65536x5x1, .f32⟩ : BufTy).Contents (Elt F))) _ _ = _
  rw [unary_result, A_main_v87 m c]
  try rfl
theorem A_main_v89 : after ((RRead.ops (F := F)).take 112) (fun b => m (c, b)) (Proc.devRef .tc main_v89) = RRead.rv_main_v89 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 111 (by decide)]
  show HloOp.result (τ := τ) (sig := sig) (Val := Elt F) (binary main_v86 main_v88 main_v89 (addf : (⟨S65536x5x1, .f32⟩ : BufTy).Contents (Elt F) → (⟨S65536x5x1, .f32⟩ : BufTy).Contents (Elt F) → (⟨S65536x5x1, .f32⟩ : BufTy).Contents (Elt F))) _ _ = _
  rw [binary_result, persist m c 109 111 (by decide) main_v86 (by decide), A_main_v86 m c, A_main_v88 m c]
  try rfl
theorem A_main_v90 : after ((RRead.ops (F := F)).take 113) (fun b => m (c, b)) (Proc.devRef .tc main_v90) = RRead.rv_main_v90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 112 (by decide)]
  show HloOp.result (τ := τ) (sig := sig) (Val := Elt F) (unary main_v89 main_v90 (broadcastInDim S65536x5x88 ![0, 1, 2] bcast_S65536x5x1_S65536x5x88_0_1_2 : (⟨S65536x5x1, .f32⟩ : BufTy).Contents (Elt F) → (⟨S65536x5x88, .f32⟩ : BufTy).Contents (Elt F))) _ _ = _
  rw [unary_result, A_main_v89 m c]
  try rfl
theorem A_main_v91 : after ((RRead.ops (F := F)).take 114) (fun b => m (c, b)) (Proc.devRef .tc main_v91) = RRead.rv_main_v91 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 113 (by decide)]
  show HloOp.result (τ := τ) (sig := sig) (Val := Elt F) (binary main_v70 main_v90 main_v91 (mulf : (⟨S65536x5x88, .f32⟩ : BufTy).Contents (Elt F) → (⟨S65536x5x88, .f32⟩ : BufTy).Contents (Elt F) → (⟨S65536x5x88, .f32⟩ : BufTy).Contents (Elt F))) _ _ = _
  rw [binary_result, persist m c 89 113 (by decide) main_v70 (by decide), A_main_v70 m c, A_main_v90 m c]
  try rfl
theorem A_main_v92 : after ((RRead.ops (F := F)).take 115) (fun b => m (c, b)) (Proc.devRef .tc main_v92) = RRead.rv_main_v92 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 114 (by decide)]
  show HloOp.result (τ := τ) (sig := sig) (Val := Elt F) (binary main_v70 main_v91 main_v92 (mulf : (⟨S65536x5x88, .f32⟩ : BufTy).Contents (Elt F) → (⟨S65536x5x88, .f32⟩ : BufTy).Contents (Elt F) → (⟨S65536x5x88, .f32⟩ : BufTy).Contents (Elt F))) _ _ = _
  rw [binary_result, persist m c 89 114 (by decide) main_v70 (by decide), A_main_v70 m c, A_main_v91 m c]
  try rfl
theorem A_main_cst : after ((RRead.ops (F := F)).take 116) (fun b => m (c, b)) (Proc.devRef .tc main_cst) = RRead.rv_main_cst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 115 (by decide)]
  show HloOp.result (τ := τ) (sig := sig) (Val := Elt F) (nullary main_cst (constant S_ .f32 0x00000000#32)) _ _ = _
  rw [nullary_result]
  try rfl
theorem A_main_v93 : after ((RRead.ops (F := F)).take 117) (fun b => m (c, b)) (Proc.devRef .tc main_v93) = RRead.rv_main_v93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 116 (by decide)]
  show HloOp.result (τ := τ) (sig := sig) (Val := Elt F) (binary main_v92 main_cst main_v93 ((fun x v => Host.reduceAdd x v reducesTo_S65536x5x88_S65536x88_d1 h_S_) : (⟨S65536x5x88, .f32⟩ : BufTy).Contents (Elt F) → (⟨S_, .f32⟩ : BufTy).Contents (Elt F) → (⟨S65536x88, .f32⟩ : BufTy).Contents (Elt F))) _ _ = _
  rw [binary_result, persist m c 115 116 (by decide) main_v92 (by decide), A_main_v92 m c, A_main_cst m c]
  try rfl
theorem A_main_v94 : after ((RRead.ops (F := F)).take 118) (fun b => m (c, b)) (Proc.devRef .tc main_v94) = RRead.rv_main_v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 117 (by decide)]
  show HloOp.result (τ := τ) (sig := sig) (Val := Elt F) (nary ![main_v6, main_v13, main_v20, main_v27, main_v34, main_v47] main_v94 (fun u => concatenate S65536x15x8 1 [⟨S65536x1x8, u 0⟩, ⟨S65536x1x8, u 1⟩, ⟨S65536x1x8, u 2⟩, ⟨S65536x1x8, u 3⟩, ⟨S65536x1x8, u 4⟩, ⟨S65536x10x8, u 5⟩] concatenates_S65536x1x8_S65536x1x8_S65536x1x8_S65536x1x8_S65536x1x8_S65536x10x8_S65536x15x8_d1)) _ _ = _
  rw [nary6_result, persist m c 9 117 (by decide) main_v6 (by decide), A_main_v6 m c, persist m c 18 117 (by decide) main_v13 (by decide), A_main_v13 m c, persist m c 27 117 (by decide) main_v20 (by decide), A_main_v20 m c, persist m c 36 117 (by decide) main_v27 (by decide), A_main_v27 m c, persist m c 45 117 (by decide) main_v34 (by decide), A_main_v34 m c, persist m c 61 117 (by decide) main_v47 (by decide), A_main_v47 m c]
  try rfl
theorem A_main_v95 : after ((RRead.ops (F := F)).take 119) (fun b => m (c, b)) (Proc.devRef .tc main_v95) = RRead.rv_main_v95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 118 (by decide)]
  show HloOp.result (τ := τ) (sig := sig) (Val := Elt F) (reshape main_v94 main_v95 rfl shapeCasts_S65536x15x8_S65536x120) _ _ = _
  rw [reshape_result, A_main_v94 m c]
  try rfl
theorem A_main_v96 : after ((RRead.ops (F := F)).take 120) (fun b => m (c, b)) (Proc.devRef .tc main_v96) = RRead.rv_main_v96 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 119 (by decide)]
  show HloOp.result (τ := τ) (sig := sig) (Val := Elt F) (binary main_v95 main_v93 main_v96 ((fun a b => concatenate S65536x208 1 [⟨S65536x120, a⟩, ⟨S65536x88, b⟩] concatenates_S65536x120_S65536x88_S65536x208_d1) : (⟨S65536x120, .f32⟩ : BufTy).Contents (Elt F) → (⟨S65536x88, .f32⟩ : BufTy).Contents (Elt F) → (⟨S65536x208, .f32⟩ : BufTy).Contents (Elt F))) _ _ = _
  rw [binary_result, A_main_v95 m c, persist m c 117 119 (by decide) main_v93 (by decide), A_main_v93 m c]
  try rfl
theorem A_main_v97 : after ((RRead.ops (F := F)).take 121) (fun b => m (c, b)) (Proc.devRef .tc main_v97) = RRead.rv_main_v97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 120 (by decide)]
  show HloOp.result (τ := τ) (sig := sig) (Val := Elt F) (unary main_arg20 main_v97 ((transpose S208x128 [1, 0] · transposes_S128x208_S208x128_1_0) : (⟨S128x208, .f32⟩ : BufTy).Contents (Elt F) → (⟨S208x128, .f32⟩ : BufTy).Contents (Elt F))) _ _ = _
  rw [unary_result, arg_at m c 120 main_arg20 (by decide)]
  try rfl
theorem A_main_v98 : after ((RRead.ops (F := F)).take 122) (fun b => m (c, b)) (Proc.devRef .tc main_v98) = RRead.rv_main_v98 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 121 (by decide)]
  show HloOp.result (τ := τ) (sig := sig) (Val := Elt F) (binary main_v96 main_v97 main_v98 ((fun l r => Host.dotGeneral dot_S65536x208_S208x128_S65536x128_1_0_0_1_n_n none l r) : (⟨S65536x208, .f32⟩ : BufTy).Contents (Elt F) → (⟨S208x128, .f32⟩ : BufTy).Contents (Elt F) → (⟨S65536x128, .f32⟩ : BufTy).Contents (Elt F))) _ _ = _
  rw [binary_result, persist m c 120 121 (by decide) main_v96 (by decide), A_main_v96 m c, A_main_v97 m c]
  try rfl
theorem A_main_v99 : after ((RRead.ops (F := F)).take 123) (fun b => m (c, b)) (Proc.devRef .tc main_v99) = RRead.rv_main_v99 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 122 (by decide)]
  show HloOp.result (τ := τ) (sig := sig) (Val := Elt F) (unary main_arg21 main_v99 (broadcastInDim S1x128 ![1] bcast_S128_S1x128_1 : (⟨S128, .f32⟩ : BufTy).Contents (Elt F) → (⟨S1x128, .f32⟩ : BufTy).Contents (Elt F))) _ _ = _
  rw [unary_result, arg_at m c 122 main_arg21 (by decide)]
  try rfl
theorem A_main_v100 : after ((RRead.ops (F := F)).take 124) (fun b => m (c, b)) (Proc.devRef .tc main_v100) = RRead.rv_main_v100 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 123 (by decide)]
  show HloOp.result (τ := τ) (sig := sig) (Val := Elt F) (unary main_v99 main_v100 (broadcastInDim S65536x128 ![0, 1] bcast_S1x128_S65536x128_0_1 : (⟨S1x128, .f32⟩ : BufTy).Contents (Elt F) → (⟨S65536x128, .f32⟩ : BufTy).Contents (Elt F))) _ _ = _
  rw [unary_result, A_main_v99 m c]
  try rfl
theorem A_main_v101 : after ((RRead.ops (F := F)).take 125) (fun b => m (c, b)) (Proc.devRef .tc main_v101) = RRead.rv_main_v101 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 124 (by decide)]
  show HloOp.result (τ := τ) (sig := sig) (Val := Elt F) (binary main_v98 main_v100 main_v101 (addf : (⟨S65536x128, .f32⟩ : BufTy).Contents (Elt F) → (⟨S65536x128, .f32⟩ : BufTy).Contents (Elt F) → (⟨S65536x128, .f32⟩ : BufTy).Contents (Elt F))) _ _ = _
  rw [binary_result, persist m c 122 124 (by decide) main_v98 (by decide), A_main_v98 m c, A_main_v100 m c]
  try rfl
theorem A_main_call2_cst : after ((RRead.ops (F := F)).take 126) (fun b => m (c, b)) (Proc.devRef .tc main_call2_cst) = RRead.rv_main_call2_cst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 125 (by decide)]
  show HloOp.result (τ := τ) (sig := sig) (Val := Elt F) (TRef.nullary (TRef.of (T := ⟨S_, .f32⟩) main_call2_cst) (constant S_ .f32 0x00000000#32)) _ _ = _
  rw [nullary_result]
  try rfl
theorem A_main_call2_v0 : after ((RRead.ops (F := F)).take 127) (fun b => m (c, b)) (Proc.devRef .tc main_call2_v0) = RRead.rv_main_call2_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 126 (by decide)]
  show HloOp.result (τ := τ) (sig := sig) (Val := Elt F) (TRef.unary (TRef.of (T := ⟨S_, .f32⟩) main_call2_cst) (TRef.of (T := ⟨S65536x128, .f32⟩) main_call2_v0) (broadcastInDim S65536x128 ![] bcast_S_S65536x128)) _ _ = _
  rw [unary_result, A_main_call2_cst m c]
  try rfl
theorem A_main_v102 : after ((RRead.ops (F := F)).take 128) (fun b => m (c, b)) (Proc.devRef .tc main_v102) = RRead.rv_main_v102 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 127 (by decide)]
  show HloOp.result (τ := τ) (sig := sig) (Val := Elt F) (TRef.binary (TRef.of (T := ⟨S65536x128, .f32⟩) main_v101) (TRef.of (T := ⟨S65536x128, .f32⟩) main_call2_v0) (TRef.of (T := ⟨S65536x128, .f32⟩) main_v102) maximumf) _ _ = _
  rw [binary_result, persist m c 125 127 (by decide) main_v101 (by decide), A_main_v101 m c, A_main_call2_v0 m c]
  try rfl
theorem A_main_v103 : after ((RRead.ops (F := F)).take 129) (fun b => m (c, b)) (Proc.devRef .tc main_v103) = RRead.rv_main_v103 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 128 (by decide)]
  show HloOp.result (τ := τ) (sig := sig) (Val := Elt F) (unary main_arg22 main_v103 ((transpose S128x64 [1, 0] · transposes_S64x128_S128x64_1_0) : (⟨S64x128, .f32⟩ : BufTy).Contents (Elt F) → (⟨S128x64, .f32⟩ : BufTy).Contents (Elt F))) _ _ = _
  rw [unary_result, arg_at m c 128 main_arg22 (by decide)]
  try rfl
theorem A_main_v104 : after ((RRead.ops (F := F)).take 130) (fun b => m (c, b)) (Proc.devRef .tc main_v104) = RRead.rv_main_v104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 129 (by decide)]
  show HloOp.result (τ := τ) (sig := sig) (Val := Elt F) (binary main_v102 main_v103 main_v104 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F))) _ _ = _
  rw [binary_result, persist m c 128 129 (by decide) main_v102 (by decide), A_main_v102 m c, A_main_v103 m c]
  try rfl
theorem A_main_v105 : after ((RRead.ops (F := F)).take 131) (fun b => m (c, b)) (Proc.devRef .tc main_v105) = RRead.rv_main_v105 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 130 (by decide)]
  show HloOp.result (τ := τ) (sig := sig) (Val := Elt F) (unary main_arg23 main_v105 (broadcastInDim S1x64 ![1] bcast_S64_S1x64_1 : (⟨S64, .f32⟩ : BufTy).Contents (Elt F) → (⟨S1x64, .f32⟩ : BufTy).Contents (Elt F))) _ _ = _
  rw [unary_result, arg_at m c 130 main_arg23 (by decide)]
  try rfl
theorem A_main_v106 : after ((RRead.ops (F := F)).take 132) (fun b => m (c, b)) (Proc.devRef .tc main_v106) = RRead.rv_main_v106 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 131 (by decide)]
  show HloOp.result (τ := τ) (sig := sig) (Val := Elt F) (unary main_v105 main_v106 (broadcastInDim S65536x64 ![0, 1] bcast_S1x64_S65536x64_0_1 : (⟨S1x64, .f32⟩ : BufTy).Contents (Elt F) → (⟨S65536x64, .f32⟩ : BufTy).Contents (Elt F))) _ _ = _
  rw [unary_result, A_main_v105 m c]
  try rfl
theorem A_main_v107 : after ((RRead.ops (F := F)).take 133) (fun b => m (c, b)) (Proc.devRef .tc main_v107) = RRead.rv_main_v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 132 (by decide)]
  show HloOp.result (τ := τ) (sig := sig) (Val := Elt F) (binary main_v104 main_v106 main_v107 (addf : (⟨S65536x64, .f32⟩ : BufTy).Contents (Elt F) → (⟨S65536x64, .f32⟩ : BufTy).Contents (Elt F) → (⟨S65536x64, .f32⟩ : BufTy).Contents (Elt F))) _ _ = _
  rw [binary_result, persist m c 130 132 (by decide) main_v104 (by decide), A_main_v104 m c, A_main_v106 m c]
  try rfl
theorem A_main_call3_cst : after ((RRead.ops (F := F)).take 134) (fun b => m (c, b)) (Proc.devRef .tc main_call3_cst) = RRead.rv_main_call3_cst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 133 (by decide)]
  show HloOp.result (τ := τ) (sig := sig) (Val := Elt F) (TRef.nullary (TRef.of (T := ⟨S_, .f32⟩) main_call3_cst) (constant S_ .f32 0x00000000#32)) _ _ = _
  rw [nullary_result]
  try rfl
theorem A_main_call3_v0 : after ((RRead.ops (F := F)).take 135) (fun b => m (c, b)) (Proc.devRef .tc main_call3_v0) = RRead.rv_main_call3_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 134 (by decide)]
  show HloOp.result (τ := τ) (sig := sig) (Val := Elt F) (TRef.unary (TRef.of (T := ⟨S_, .f32⟩) main_call3_cst) (TRef.of (T := ⟨S65536x64, .f32⟩) main_call3_v0) (broadcastInDim S65536x64 ![] bcast_S_S65536x64)) _ _ = _
  rw [unary_result, A_main_call3_cst m c]
  try rfl
theorem A_main_v108 : after ((RRead.ops (F := F)).take 136) (fun b => m (c, b)) (Proc.devRef .tc main_v108) = RRead.rv_main_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 135 (by decide)]
  show HloOp.result (τ := τ) (sig := sig) (Val := Elt F) (TRef.binary (TRef.of (T := ⟨S65536x64, .f32⟩) main_v107) (TRef.of (T := ⟨S65536x64, .f32⟩) main_call3_v0) (TRef.of (T := ⟨S65536x64, .f32⟩) main_v108) maximumf) _ _ = _
  rw [binary_result, persist m c 133 135 (by decide) main_v107 (by decide), A_main_v107 m c, A_main_call3_v0 m c]
  try rfl
theorem A_main_v109 : after ((RRead.ops (F := F)).take 137) (fun b => m (c, b)) (Proc.devRef .tc main_v109) = RRead.rv_main_v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 136 (by decide)]
  show HloOp.result (τ := τ) (sig := sig) (Val := Elt F) (unary main_arg24 main_v109 ((transpose S64x32 [1, 0] · transposes_S32x64_S64x32_1_0) : (⟨S32x64, .f32⟩ : BufTy).Contents (Elt F) → (⟨S64x32, .f32⟩ : BufTy).Contents (Elt F))) _ _ = _
  rw [unary_result, arg_at m c 136 main_arg24 (by decide)]
  try rfl
theorem A_main_v110 : after ((RRead.ops (F := F)).take 138) (fun b => m (c, b)) (Proc.devRef .tc main_v110) = RRead.rv_main_v110 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 137 (by decide)]
  show HloOp.result (τ := τ) (sig := sig) (Val := Elt F) (binary main_v108 main_v109 main_v110 ((fun l r => Host.dotGeneral dot_S65536x64_S64x32_S65536x32_1_0_0_1_n_n none l r) : (⟨S65536x64, .f32⟩ : BufTy).Contents (Elt F) → (⟨S64x32, .f32⟩ : BufTy).Contents (Elt F) → (⟨S65536x32, .f32⟩ : BufTy).Contents (Elt F))) _ _ = _
  rw [binary_result, persist m c 136 137 (by decide) main_v108 (by decide), A_main_v108 m c, A_main_v109 m c]
  try rfl
theorem A_main_v111 : after ((RRead.ops (F := F)).take 139) (fun b => m (c, b)) (Proc.devRef .tc main_v111) = RRead.rv_main_v111 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 138 (by decide)]
  show HloOp.result (τ := τ) (sig := sig) (Val := Elt F) (unary main_arg25 main_v111 (broadcastInDim S1x32 ![1] bcast_S32_S1x32_1 : (⟨S32, .f32⟩ : BufTy).Contents (Elt F) → (⟨S1x32, .f32⟩ : BufTy).Contents (Elt F))) _ _ = _
  rw [unary_result, arg_at m c 138 main_arg25 (by decide)]
  try rfl
theorem A_main_v112 : after ((RRead.ops (F := F)).take 140) (fun b => m (c, b)) (Proc.devRef .tc main_v112) = RRead.rv_main_v112 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 139 (by decide)]
  show HloOp.result (τ := τ) (sig := sig) (Val := Elt F) (unary main_v111 main_v112 (broadcastInDim S65536x32 ![0, 1] bcast_S1x32_S65536x32_0_1 : (⟨S1x32, .f32⟩ : BufTy).Contents (Elt F) → (⟨S65536x32, .f32⟩ : BufTy).Contents (Elt F))) _ _ = _
  rw [unary_result, A_main_v111 m c]
  try rfl
theorem A_main_v113 : after ((RRead.ops (F := F)).take 141) (fun b => m (c, b)) (Proc.devRef .tc main_v113) = RRead.rv_main_v113 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 140 (by decide)]
  show HloOp.result (τ := τ) (sig := sig) (Val := Elt F) (binary main_v110 main_v112 main_v113 (addf : (⟨S65536x32, .f32⟩ : BufTy).Contents (Elt F) → (⟨S65536x32, .f32⟩ : BufTy).Contents (Elt F) → (⟨S65536x32, .f32⟩ : BufTy).Contents (Elt F))) _ _ = _
  rw [binary_result, persist m c 138 140 (by decide) main_v110 (by decide), A_main_v110 m c, A_main_v112 m c]
  try rfl
theorem A_main_call4_cst : after ((RRead.ops (F := F)).take 142) (fun b => m (c, b)) (Proc.devRef .tc main_call4_cst) = RRead.rv_main_call4_cst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 141 (by decide)]
  show HloOp.result (τ := τ) (sig := sig) (Val := Elt F) (TRef.nullary (TRef.of (T := ⟨S_, .f32⟩) main_call4_cst) (constant S_ .f32 0x00000000#32)) _ _ = _
  rw [nullary_result]
  try rfl
theorem A_main_call4_v0 : after ((RRead.ops (F := F)).take 143) (fun b => m (c, b)) (Proc.devRef .tc main_call4_v0) = RRead.rv_main_call4_v0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 142 (by decide)]
  show HloOp.result (τ := τ) (sig := sig) (Val := Elt F) (TRef.unary (TRef.of (T := ⟨S_, .f32⟩) main_call4_cst) (TRef.of (T := ⟨S65536x32, .f32⟩) main_call4_v0) (broadcastInDim S65536x32 ![] bcast_S_S65536x32)) _ _ = _
  rw [unary_result, A_main_call4_cst m c]
  try rfl
theorem A_main_v114 : after ((RRead.ops (F := F)).take 144) (fun b => m (c, b)) (Proc.devRef .tc main_v114) = RRead.rv_main_v114 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 143 (by decide)]
  show HloOp.result (τ := τ) (sig := sig) (Val := Elt F) (TRef.binary (TRef.of (T := ⟨S65536x32, .f32⟩) main_v113) (TRef.of (T := ⟨S65536x32, .f32⟩) main_call4_v0) (TRef.of (T := ⟨S65536x32, .f32⟩) main_v114) maximumf) _ _ = _
  rw [binary_result, persist m c 141 143 (by decide) main_v113 (by decide), A_main_v113 m c, A_main_call4_v0 m c]
  try rfl
theorem A_main_v115 : after ((RRead.ops (F := F)).take 145) (fun b => m (c, b)) (Proc.devRef .tc main_v115) = RRead.rv_main_v115 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 144 (by decide)]
  show HloOp.result (τ := τ) (sig := sig) (Val := Elt F) (unary main_arg26 main_v115 ((transpose S32x1 [1, 0] · transposes_S1x32_S32x1_1_0) : (⟨S1x32, .f32⟩ : BufTy).Contents (Elt F) → (⟨S32x1, .f32⟩ : BufTy).Contents (Elt F))) _ _ = _
  rw [unary_result, arg_at m c 144 main_arg26 (by decide)]
  try rfl
theorem A_main_v116 : after ((RRead.ops (F := F)).take 146) (fun b => m (c, b)) (Proc.devRef .tc main_v116) = RRead.rv_main_v116 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 145 (by decide)]
  show HloOp.result (τ := τ) (sig := sig) (Val := Elt F) (binary main_v114 main_v115 main_v116 ((fun l r => Host.dotGeneral dot_S65536x32_S32x1_S65536x1_1_0_0_1_n_n none l r) : (⟨S65536x32, .f32⟩ : BufTy).Contents (Elt F) → (⟨S32x1, .f32⟩ : BufTy).Contents (Elt F) → (⟨S65536x1, .f32⟩ : BufTy).Contents (Elt F))) _ _ = _
  rw [binary_result, persist m c 144 145 (by decide) main_v114 (by decide), A_main_v114 m c, A_main_v115 m c]
  try rfl
theorem A_main_v117 : after ((RRead.ops (F := F)).take 147) (fun b => m (c, b)) (Proc.devRef .tc main_v117) = RRead.rv_main_v117 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 146 (by decide)]
  show HloOp.result (τ := τ) (sig := sig) (Val := Elt F) (unary main_arg27 main_v117 (broadcastInDim S1x1 ![1] bcast_S1_S1x1_1 : (⟨S1, .f32⟩ : BufTy).Contents (Elt F) → (⟨S1x1, .f32⟩ : BufTy).Contents (Elt F))) _ _ = _
  rw [unary_result, arg_at m c 146 main_arg27 (by decide)]
  try rfl
theorem A_main_v118 : after ((RRead.ops (F := F)).take 148) (fun b => m (c, b)) (Proc.devRef .tc main_v118) = RRead.rv_main_v118 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 147 (by decide)]
  show HloOp.result (τ := τ) (sig := sig) (Val := Elt F) (unary main_v117 main_v118 (broadcastInDim S65536x1 ![0, 1] bcast_S1x1_S65536x1_0_1 : (⟨S1x1, .f32⟩ : BufTy).Contents (Elt F) → (⟨S65536x1, .f32⟩ : BufTy).Contents (Elt F))) _ _ = _
  rw [unary_result, A_main_v117 m c]
  try rfl
theorem A_main_v119 : after ((RRead.ops (F := F)).take 149) (fun b => m (c, b)) (Proc.devRef .tc main_v119) = RRead.rv_main_v119 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 148 (by decide)]
  show HloOp.result (τ := τ) (sig := sig) (Val := Elt F) (binary main_v116 main_v118 main_v119 (addf : (⟨S65536x1, .f32⟩ : BufTy).Contents (Elt F) → (⟨S65536x1, .f32⟩ : BufTy).Contents (Elt F) → (⟨S65536x1, .f32⟩ : BufTy).Contents (Elt F))) _ _ = _
  rw [binary_result, persist m c 146 148 (by decide) main_v116 (by decide), A_main_v116 m c, A_main_v118 m c]
  try rfl
theorem A_main_v120 : after ((RRead.ops (F := F)).take 150) (fun b => m (c, b)) (Proc.devRef .tc main_v120) = RRead.rv_main_v120 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 149 (by decide)]
  show HloOp.result (τ := τ) (sig := sig) (Val := Elt F) (unary main_v119 main_v120 (Host.negf : (⟨S65536x1, .f32⟩ : BufTy).Contents (Elt F) → (⟨S65536x1, .f32⟩ : BufTy).Contents (Elt F))) _ _ = _
  rw [unary_result, A_main_v119 m c]
  try rfl
theorem A_main_v121 : after ((RRead.ops (F := F)).take 151) (fun b => m (c, b)) (Proc.devRef .tc main_v121) = RRead.rv_main_v121 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 150 (by decide)]
  show HloOp.result (τ := τ) (sig := sig) (Val := Elt F) (unary main_v120 main_v121 (Host.exp : (⟨S65536x1, .f32⟩ : BufTy).Contents (Elt F) → (⟨S65536x1, .f32⟩ : BufTy).Contents (Elt F))) _ _ = _
  rw [unary_result, A_main_v120 m c]
  try rfl
theorem A_main_cst_17 : after ((RRead.ops (F := F)).take 152) (fun b => m (c, b)) (Proc.devRef .tc main_cst_17) = RRead.rv_main_cst_17 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 151 (by decide)]
  show HloOp.result (τ := τ) (sig := sig) (Val := Elt F) (nullary main_cst_17 (constant S_ .f32 0x3F800000#32)) _ _ = _
  rw [nullary_result]
  try rfl
theorem A_main_v122 : after ((RRead.ops (F := F)).take 153) (fun b => m (c, b)) (Proc.devRef .tc main_v122) = RRead.rv_main_v122 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 152 (by decide)]
  show HloOp.result (τ := τ) (sig := sig) (Val := Elt F) (unary main_cst_17 main_v122 (broadcastInDim S65536x1 ![] bcast_S_S65536x1 : (⟨S_, .f32⟩ : BufTy).Contents (Elt F) → (⟨S65536x1, .f32⟩ : BufTy).Contents (Elt F))) _ _ = _
  rw [unary_result, A_main_cst_17 m c]
  try rfl
theorem A_main_v123 : after ((RRead.ops (F := F)).take 154) (fun b => m (c, b)) (Proc.devRef .tc main_v123) = RRead.rv_main_v123 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 153 (by decide)]
  show HloOp.result (τ := τ) (sig := sig) (Val := Elt F) (binary main_v122 main_v121 main_v123 (addf : (⟨S65536x1, .f32⟩ : BufTy).Contents (Elt F) → (⟨S65536x1, .f32⟩ : BufTy).Contents (Elt F) → (⟨S65536x1, .f32⟩ : BufTy).Contents (Elt F))) _ _ = _
  rw [binary_result, A_main_v122 m c, persist m c 151 153 (by decide) main_v121 (by decide), A_main_v121 m c]
  try rfl
theorem A_main_cst_18 : after ((RRead.ops (F := F)).take 155) (fun b => m (c, b)) (Proc.devRef .tc main_cst_18) = RRead.rv_main_cst_18 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 154 (by decide)]
  show HloOp.result (τ := τ) (sig := sig) (Val := Elt F) (nullary main_cst_18 (constant S_ .f32 0x3F800000#32)) _ _ = _
  rw [nullary_result]
  try rfl
theorem A_main_v124 : after ((RRead.ops (F := F)).take 156) (fun b => m (c, b)) (Proc.devRef .tc main_v124) = RRead.rv_main_v124 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 155 (by decide)]
  show HloOp.result (τ := τ) (sig := sig) (Val := Elt F) (unary main_cst_18 main_v124 (broadcastInDim S65536x1 ![] bcast_S_S65536x1 : (⟨S_, .f32⟩ : BufTy).Contents (Elt F) → (⟨S65536x1, .f32⟩ : BufTy).Contents (Elt F))) _ _ = _
  rw [unary_result, A_main_cst_18 m c]
  try rfl
theorem A_main_v125 : after ((RRead.ops (F := F)).take 157) (fun b => m (c, b)) (Proc.devRef .tc main_v125) = RRead.rv_main_v125 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  rw [step m c 156 (by decide)]
  show HloOp.result (τ := τ) (sig := sig) (Val := Elt F) (binary main_v124 main_v123 main_v125 (Host.divf : (⟨S65536x1, .f32⟩ : BufTy).Contents (Elt F) → (⟨S65536x1, .f32⟩ : BufTy).Contents (Elt F) → (⟨S65536x1, .f32⟩ : BufTy).Contents (Elt F))) _ _ = _
  rw [binary_result, A_main_v124 m c, persist m c 154 156 (by decide) main_v123 (by decide), A_main_v123 m c]
  try rfl

/-- After the whole line the result array holds the operations' value of the argument arrays. -/
theorem after_main_v125 :
    (StableHlo.after (RRead.ops (F := F)) (fun b => m (c, b)) (Proc.devRef .tc main_v125) : (⟨S65536x1, .f32⟩ : BufTy).Contents (Elt F))
      = RRead.rv_main_v125 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  have h := A_main_v125 (F := F) m c
  rwa [show (RRead.ops (F := F)).take 157 = RRead.ops from List.take_of_length_le (by rw [ops_length])] at h

end Cert.ReferenceIdeal.RAfter

end
-- ==== Proof.RefRun.lean ====
/- The reference program's run: @main is one line of 157 host operations; every weakly fair execution terminates
   without fault, the result array ends at the operations' value of the 28 argument arrays, and the argument
   arrays end unchanged (no operation writes one). -/
import proofs.«117253_j35613868819029_1_alg».proof.Proof.RRead
import proofs.«117253_j35613868819029_1_alg».proof.Proof.RAfter

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main is the line of its operations. -/
theorem main_eq (c : Dev nD) : main (F := F) c = seq (RRead.ops (F := F)) := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
/-- Each operation touches TensorCore references only. -/
theorem ops_sub : (RRead.ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., reshape_bufs_sub .., binary_bufs_sub .., reshape_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., binary_bufs_sub .., nullary_bufs_sub .., binary_bufs_sub .., nary_bufs_sub .., reshape_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxHeartbeats 4000000 in
/-- No operation allocates. -/
theorem ops_fresh : (RRead.ops : List (HloOp τ sig (Elt F))).Forall fun op => op.fresh = ∅ := by
  simp only [List.Forall]; repeat' constructor

/-- The references the operations write: each operation's one result, none of them an argument of @main. -/
abbrev ops_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_c_7, main_v28, main_v29, main_c_8, main_v30, main_v31, main_v32, main_v33, main_v34, main_c_9, main_v35, main_v36, main_c_10, main_v37, main_v38, main_v39, main_v40, main_v41, main_c_11, main_v42, main_v43, main_v44, main_v45, main_v46, main_v47, main_c_12, main_v48, main_v49, main_c_13, main_v50, main_v51, main_v52, main_v53, main_v54, main_c_14, main_v55, main_v56, main_c_15, main_v57, main_v58, main_v59, main_v60, main_v61, main_c_16, main_v62, main_v63, main_v64, main_v65, main_v66, main_v67, main_v68, main_v69, main_v70, main_v71, main_v72, main_v73, main_v74, main_v75, main_v76, main_v77, main_v78, main_v79, main_call0_cst, main_call0_v0, main_v80, main_v81, main_v82, main_v83, main_v84, main_call1_cst, main_call1_v0, main_v85, main_v86, main_v87, main_v88, main_v89, main_v90, main_v91, main_v92, main_cst, main_v93, main_v94, main_v95, main_v96, main_v97, main_v98, main_v99, main_v100, main_v101, main_call2_cst, main_call2_v0, main_v102, main_v103, main_v104, main_v105, main_v106, main_v107, main_call3_cst, main_call3_v0, main_v108, main_v109, main_v110, main_v111, main_v112, main_v113, main_call4_cst, main_call4_v0, main_v114, main_v115, main_v116, main_v117, main_v118, main_v119, main_v120, main_v121, main_cst_17, main_v122, main_v123, main_cst_18, main_v124, main_v125]

set_option maxHeartbeats 4000000 in
/-- Each operation writes only its result, a member of `ops_W`. -/
theorem ops_writes : (RRead.ops : List (HloOp τ sig (Elt F))).Forall fun op => op.writes ⊆ (ops_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, ternary_writes, quaternary_writes, reshape_writes, binaryIndexed_writes, unaryIndexed_writes, nary_writes, Finset.singleton_subset_iff, List.mem_toFinset]; exact List.mem_map_of_mem (by decide))

variable (m : (ℓ : Loc nD τ sig) → Buf (Elt F) ℓ) (ρ : Dev nD → PrngReg)

/-- A reference no operation writes ends as launched. -/
theorem after_of (c : Dev nD) (r : Ref sig .tc) (h : r ∉ ops_W) :
    after (RRead.ops (F := F)) (launchContents m c) (Proc.devRef .tc r) = m ((c.tc : Thread nD τ).loc r) :=
  after_of_writes_sub RRead.ops _ ops_writes h

/-- On every device, for any float values, from any memory with zero counters: every weakly fair execution of @main
    terminates with the result array at the operations' value of the arguments and the arguments unchanged. -/
theorem run : θ_run defs (onTc (τ := τ) (main (F := F))) ⟨m, fun _ => 0, ρ⟩ fun r => ∀ c : Dev nD,
      r.2.mem ((c.tc : Thread nD τ).loc main_v125) = RRead.rv_main_v125 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v125).trans (RAfter.after_main_v125 m c),
      (h c main_arg0).trans (after_of m c main_arg0 (by decide)),
      (h c main_arg1).trans (after_of m c main_arg1 (by decide)),
      (h c main_arg2).trans (after_of m c main_arg2 (by decide)),
      (h c main_arg3).trans (after_of m c main_arg3 (by decide)),
      (h c main_arg4).trans (after_of m c main_arg4 (by decide)),
      (h c main_arg5).trans (after_of m c main_arg5 (by decide)),
      (h c main_arg6).trans (after_of m c main_arg6 (by decide)),
      (h c main_arg7).trans (after_of m c main_arg7 (by decide)),
      (h c main_arg8).trans (after_of m c main_arg8 (by decide)),
      (h c main_arg9).trans (after_of m c main_arg9 (by decide)),
      (h c main_arg10).trans (after_of m c main_arg10 (by decide)),
      (h c main_arg11).trans (after_of m c main_arg11 (by decide)),
      (h c main_arg12).trans (after_of m c main_arg12 (by decide)),
      (h c main_arg13).trans (after_of m c main_arg13 (by decide)),
      (h c main_arg14).trans (after_of m c main_arg14 (by decide)),
      (h c main_arg15).trans (after_of m c main_arg15 (by decide)),
      (h c main_arg16).trans (after_of m c main_arg16 (by decide)),
      (h c main_arg17).trans (after_of m c main_arg17 (by decide)),
      (h c main_arg18).trans (after_of m c main_arg18 (by decide)),
      (h c main_arg19).trans (after_of m c main_arg19 (by decide)),
      (h c main_arg20).trans (after_of m c main_arg20 (by decide)),
      (h c main_arg21).trans (after_of m c main_arg21 (by decide)),
      (h c main_arg22).trans (after_of m c main_arg22 (by decide)),
      (h c main_arg23).trans (after_of m c main_arg23 (by decide)),
      (h c main_arg24).trans (after_of m c main_arg24 (by decide)),
      (h c main_arg25).trans (after_of m c main_arg25 (by decide)),
      (h c main_arg26).trans (after_of m c main_arg26 (by decide)),
      (h c main_arg27).trans (after_of m c main_arg27 (by decide))⟩)
    (run_seq scopedRefs_eq scopedSems_eq defs main (fun _ => RRead.ops) main_eq (fun _ => ops_sub) m ρ
      (fun _ => List.forall_iff_forall_mem.mp ops_fresh))

/-- info: 'Cert.ReferenceIdeal.RefRun.run' depends on axioms: [propext, Classical.choice, Quot.sound] -/
#guard_msgs in #print axioms run

end Cert.ReferenceIdeal.RefRun

end
-- ==== Proof.lean ====
/-
  The gating network, fused in one region against its plain reference: both programs gather each batch row's embedding
  features, score the five history items with a three-layer activation unit on `[h, h − q, q]`, pool the history with
  the scores as weights, and pass `[base features, pooled history]` through a four-layer network to a logistic score.

  The two frames of the kernel program (as printed, and idealized) say that @main's 113 host operations and the 64
  points of its region terminate without fault and leave the 28 argument arrays unchanged. The idealization's ledger is
  empty, so it preserves the program trivially. Over the extended reals the kernel's result array is, row by row,
  `Gating.rowScore` of the row's features as the host operations laid them out; the reference's result is the same
  function of its own layout of the same features; and the two layouts agree index by index (the same table rows are
  gathered, the same masked kind features, the weights transposed on one side and contracted transposed on the other).
  Only commutativity and associativity of the sums are used, so the precondition is never opened.
-/
import proofs.«117253_j35613868819029_1_alg».proof.Defs
import proofs.«117253_j35613868819029_1_alg».proof.Proof.Gen.Kernel
import proofs.«117253_j35613868819029_1_alg».proof.Proof.Gen.Kernel.Skeleton
import proofs.«117253_j35613868819029_1_alg».proof.Proof.Gen.Kernel.Launch
import proofs.«117253_j35613868819029_1_alg».proof.Proof.Gen.Kernel.Points
import proofs.«117253_j35613868819029_1_alg».proof.Proof.Gen.KernelIdeal
import proofs.«117253_j35613868819029_1_alg».proof.Proof.Gen.KernelIdeal.Skeleton
import proofs.«117253_j35613868819029_1_alg».proof.Proof.Gen.KernelIdeal.Launch
import proofs.«117253_j35613868819029_1_alg».proof.Proof.Gen.KernelIdeal.Points
import proofs.«117253_j35613868819029_1_alg».proof.Proof.Gen.ReferenceIdeal
import proofs.«117253_j35613868819029_1_alg».proof.Proof.Gen.Pre_finite_inputs
import proofs.«117253_j35613868819029_1_alg».proof.Proof.KernelFrame
import proofs.«117253_j35613868819029_1_alg».proof.Proof.KernelIdealFrame
import proofs.«117253_j35613868819029_1_alg».proof.Proof.KernelValue
import proofs.«117253_j35613868819029_1_alg».proof.Proof.Bridge
import proofs.«117253_j35613868819029_1_alg».proof.Proof.RRead
import proofs.«117253_j35613868819029_1_alg».proof.Proof.RefRun
import Idealize.ShloMosaic.Adequacy
import Idealize.ShloMosaic.Init

noncomputable section

namespace Cert.Proof

open Idealize.ShloMosaic Idealize.SL.Sem

/-- The printed kernel program runs to the end and leaves its arguments unchanged. -/
theorem frame_k : Cert.frame_Kernel := fun m ρ _ => Cert.Kernel.Gen2.frame m ρ

/-- So does its idealization. -/
theorem frame_ki : Cert.frame_KernelIdeal := fun m ρ _ => Cert.KernelIdeal.Gen2.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the same [65536, 1] array of scores: the kernel's
    is `G` of its memory, the reference's is its last operation's value, and these are one function of the arguments. -/
theorem algebraic : Cert.algebraic_KernelIdeal_ReferenceIdeal := by
  intro m ρ m' ρ' _ hagree
  refine ⟨fun c => Cert.KernelIdeal.Value2.G m c, Cert.KernelIdeal.Value2.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12, a13, a14, a15, a16, a17, a18, a19, a20, a21, a22, a23, a24, a25, a26, a27⟩ := hagree c
  rw [a0, a1, a2, a3, a4, a5, a6, a7, a8, a9, a10, a11, a12, a13, a14, a15, a16, a17, a18, a19, a20, a21, a22, a23, a24, a25, a26, a27]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
